-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x8192 : Shape := ⟨2, ![256, 8192]⟩
abbrev S131072 : Shape := ⟨1, ![131072]⟩
abbrev S8192 : Shape := ⟨1, ![8192]⟩
abbrev S8192x8192 : Shape := ⟨2, ![8192, 8192]⟩
abbrev S_ : Shape := ⟨0, ![]⟩

class Facts : Prop where
  bcast_S_S256x8192 : S_.BroadcastsInDim S256x8192 (![] : Fin 0 → Fin S256x8192.rank)
  reducesTo_S256x8192_S_d0_1 : S256x8192.ReducesTo [0, 1] S_
  h_S_ : 0 < S_.numel
  bcast_S_S131072 : S_.BroadcastsInDim S131072 (![] : Fin 0 → Fin S131072.rank)
  reducesTo_S131072_S_d0 : S131072.ReducesTo [0] S_
  bcast_S_S8192 : S_.BroadcastsInDim S8192 (![] : Fin 0 → Fin S8192.rank)
  reducesTo_S8192_S_d0 : S8192.ReducesTo [0] S_
  bcast_S_S8192x8192 : S_.BroadcastsInDim S8192x8192 (![] : Fin 0 → Fin S8192x8192.rank)
  reducesTo_S8192x8192_S_d0_1 : S8192x8192.ReducesTo [0, 1] S_

variable [Facts]

def fn_part2 {F : FTy → Type} [FloatOps F] (main_arg7 : FVec F S8192 .f32) (main_arg8 : FVec F S8192x8192 .f32) (main_arg9 : FVec F S8192 .f32) (main_v33 : IVec S_ 1) : IVec S_ 1 :=
  let main_v34 : FVec F S8192 .f32 := Host.absf main_arg7
  let main_cst_12 : FVec F S_ .f32 := constant S_ .f32 0x7F800000#32
  let main_v35 : FVec F S8192 .f32 := broadcastInDim S8192 ![] bcast_S_S8192 main_cst_12
  let main_v36 : IVec S8192 1 := cmpf .olt main_v34 main_v35
  let main_c_13 : IVec S_ 1 := constantI S_ 1 1#1
  let main_v37 : IVec S_ 1 := (fun x v => Host.reduce IntOp.andi x v reducesTo_S8192_S_d0 h_S_) main_v36 main_c_13
  let main_v38 : IVec S_ 1 := andi main_v33 main_v37
  let main_v39 : FVec F S8192x8192 .f32 := Host.absf main_arg8
  let main_cst_14 : FVec F S_ .f32 := constant S_ .f32 0x7F800000#32
  let main_v40 : FVec F S8192x8192 .f32 := broadcastInDim S8192x8192 ![] bcast_S_S8192x8192 main_cst_14
  let main_v41 : IVec S8192x8192 1 := cmpf .olt main_v39 main_v40
  let main_c_15 : IVec S_ 1 := constantI S_ 1 1#1
  let main_v42 : IVec S_ 1 := (fun x v => Host.reduce IntOp.andi x v reducesTo_S8192x8192_S_d0_1 h_S_) main_v41 main_c_15
  let main_v43 : IVec S_ 1 := andi main_v38 main_v42
  let main_v44 : FVec F S8192 .f32 := Host.absf main_arg9
  let main_cst_16 : FVec F S_ .f32 := constant S_ .f32 0x7F800000#32
  let main_v45 : FVec F S8192 .f32 := broadcastInDim S8192 ![] bcast_S_S8192 main_cst_16
  let main_v46 : IVec S8192 1 := cmpf .olt main_v44 main_v45
  let main_c_17 : IVec S_ 1 := constantI S_ 1 1#1
  let main_v47 : IVec S_ 1 := (fun x v => Host.reduce IntOp.andi x v reducesTo_S8192_S_d0 h_S_) main_v46 main_c_17
  let main_v48 : IVec S_ 1 := andi main_v43 main_v47
  main_v48

def fn_part1 {F : FTy → Type} [FloatOps F] (main_arg4 : FVec F S8192x8192 .f32) (main_arg5 : FVec F S8192 .f32) (main_arg6 : FVec F S8192x8192 .f32) (main_arg7 : FVec F S8192 .f32) (main_arg8 : FVec F S8192x8192 .f32) (main_arg9 : FVec F S8192 .f32) (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  let main_v19 : FVec F S8192x8192 .f32 := Host.absf main_arg4
  let main_cst_6 : FVec F S_ .f32 := constant S_ .f32 0x7F800000#32
  let main_v20 : FVec F S8192x8192 .f32 := broadcastInDim S8192x8192 ![] bcast_S_S8192x8192 main_cst_6
  let main_v21 : IVec S8192x8192 1 := cmpf .olt main_v19 main_v20
  let main_c_7 : IVec S_ 1 := constantI S_ 1 1#1
  let main_v22 : IVec S_ 1 := (fun x v => Host.reduce IntOp.andi x v reducesTo_S8192x8192_S_d0_1 h_S_) main_v21 main_c_7
  let main_v23 : IVec S_ 1 := andi main_v18 main_v22
  let main_v24 : FVec F S8192 .f32 := Host.absf main_arg5
  let main_cst_8 : FVec F S_ .f32 := constant S_ .f32 0x7F800000#32
  let main_v25 : FVec F S8192 .f32 := broadcastInDim S8192 ![] bcast_S_S8192 main_cst_8
  let main_v26 : IVec S8192 1 := cmpf .olt main_v24 main_v25
  let main_c_9 : IVec S_ 1 := constantI S_ 1 1#1
  let main_v27 : IVec S_ 1 := (fun x v => Host.reduce IntOp.andi x v reducesTo_S8192_S_d0 h_S_) main_v26 main_c_9
  let main_v28 : IVec S_ 1 := andi main_v23 main_v27
  let main_v29 : FVec F S8192x8192 .f32 := Host.absf main_arg6
  let main_cst_10 : FVec F S_ .f32 := constant S_ .f32 0x7F800000#32
  let main_v30 : FVec F S8192x8192 .f32 := broadcastInDim S8192x8192 ![] bcast_S_S8192x8192 main_cst_10
  let main_v31 : IVec S8192x8192 1 := cmpf .olt main_v29 main_v30
  let main_c_11 : IVec S_ 1 := constantI S_ 1 1#1
  let main_v32 : IVec S_ 1 := (fun x v => Host.reduce IntOp.andi x v reducesTo_S8192x8192_S_d0_1 h_S_) main_v31 main_c_11
  let main_v33 : IVec S_ 1 := andi main_v28 main_v32
  fn_part2 (F := F) main_arg7 main_arg8 main_arg9 main_v33

def fn {F : FTy → Type} [FloatOps F] (main_arg0 : FVec F S256x8192 .f32) (main_arg1 : FVec F S131072 .f32) (main_arg2 : FVec F S8192 .f32) (main_arg3 : FVec F S8192 .f32) (main_arg4 : FVec F S8192x8192 .f32) (main_arg5 : FVec F S8192 .f32) (main_arg6 : FVec F S8192x8192 .f32) (main_arg7 : FVec F S8192 .f32) (main_arg8 : FVec F S8192x8192 .f32) (main_arg9 : FVec F S8192 .f32) (main_arg10 : IVec S131072 32) (main_arg11 : IVec S131072 32) : IVec S_ 1 :=
  let main_v0 : FVec F S256x8192 .f32 := Host.absf main_arg0
  let main_cst : FVec F S_ .f32 := constant S_ .f32 0x7F800000#32
  let main_v1 : FVec F S256x8192 .f32 := broadcastInDim S256x8192 ![] bcast_S_S256x8192 main_cst
  let main_v2 : IVec S256x8192 1 := cmpf .olt main_v0 main_v1
  let main_c : IVec S_ 1 := constantI S_ 1 1#1
  let main_v3 : IVec S_ 1 := (fun x v => Host.reduce IntOp.andi x v reducesTo_S256x8192_S_d0_1 h_S_) main_v2 main_c
  let main_v4 : FVec F S131072 .f32 := Host.absf main_arg1
  let main_cst_0 : FVec F S_ .f32 := constant S_ .f32 0x7F800000#32
  let main_v5 : FVec F S131072 .f32 := broadcastInDim S131072 ![] bcast_S_S131072 main_cst_0
  let main_v6 : IVec S131072 1 := cmpf .olt main_v4 main_v5
  let main_c_1 : IVec S_ 1 := constantI S_ 1 1#1
  let main_v7 : IVec S_ 1 := (fun x v => Host.reduce IntOp.andi x v reducesTo_S131072_S_d0 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S8192 .f32 := Host.absf main_arg3
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_arg4 main_arg5 main_arg6 main_arg7 main_arg8 main_arg9 main_v13 main_v16
-- ==== Kernel.lean ====
abbrev S256x8192 : Shape := ⟨2, ![256, 8192]⟩
abbrev S131072 : Shape := ⟨1, ![131072]⟩
abbrev S8192 : Shape := ⟨1, ![8192]⟩
abbrev S8192x8192 : Shape := ⟨2, ![8192, 8192]⟩
abbrev S_ : Shape := ⟨0, ![]⟩
abbrev S131072x1 : Shape := ⟨2, ![131072, 1]⟩
abbrev S256x131072 : Shape := ⟨2, ![256, 131072]⟩
abbrev S1x131072 : Shape := ⟨2, ![1, 131072]⟩
abbrev S1x8192 : Shape := ⟨2, ![1, 8192]⟩
abbrev S256x2048 : Shape := ⟨2, ![256, 2048]⟩
abbrev S2048x2048 : Shape := ⟨2, ![2048, 2048]⟩
abbrev S1x2048 : Shape := ⟨2, ![1, 2048]⟩

abbrev nBuf : Space → Nat
  | .hbm => 53
  | .vmem => 31
  | .smem => 0
  | _ => 0

abbrev bufTy : (tb : Table) → Fin (tcTables nBuf tb) → BufTy
  | .hbm, ⟨0, _⟩ => ⟨S256x8192, .f32⟩
  | .hbm, ⟨1, _⟩ => ⟨S131072, .f32⟩
  | .hbm, ⟨2, _⟩ => ⟨S8192, .f32⟩
  | .hbm, ⟨3, _⟩ => ⟨S8192, .f32⟩
  | .hbm, ⟨4, _⟩ => ⟨S8192x8192, .f32⟩
  | .hbm, ⟨5, _⟩ => ⟨S8192, .f32⟩
  | .hbm, ⟨6, _⟩ => ⟨S8192x8192, .f32⟩
  | .hbm, ⟨7, _⟩ => ⟨S8192, .f32⟩
  | .hbm, ⟨8, _⟩ => ⟨S8192x8192, .f32⟩
  | .hbm, ⟨9, _⟩ => ⟨S8192, .f32⟩
  | .hbm, ⟨10, _⟩ => ⟨S131072, .i32⟩
  | .hbm, ⟨11, _⟩ => ⟨S131072, .i32⟩
  | .hbm, ⟨12, _⟩ => ⟨S_, .i32⟩
  | .hbm, ⟨13, _⟩ => ⟨S131072, .i32⟩
  | .hbm, ⟨14, _⟩ => ⟨S131072, .i1⟩
  | .hbm, ⟨15, _⟩ => ⟨S_, .i32⟩
  | .hbm, ⟨16, _⟩ => ⟨S131072, .i32⟩
  | .hbm, ⟨17, _⟩ => ⟨S131072, .i32⟩
  | .hbm, ⟨18, _⟩ => ⟨S131072, .i32⟩
  | .hbm, ⟨19, _⟩ => ⟨S131072x1, .i32⟩
  | .hbm, ⟨20, _⟩ => ⟨S256x131072, .f32⟩
  | .hbm, ⟨21, _⟩ => ⟨S1x131072, .f32⟩
  | .hbm, ⟨22, _⟩ => ⟨S256x131072, .f32⟩
  | .hbm, ⟨23, _⟩ => ⟨S256x131072, .f32⟩
  | .hbm, ⟨24, _⟩ => ⟨S_, .f32⟩
  | .hbm, ⟨25, _⟩ => ⟨S256x8192, .f32⟩
  | .hbm, ⟨26, _⟩ => ⟨S_, .i32⟩
  | .hbm, ⟨27, _⟩ => ⟨S131072, .i32⟩
  | .hbm, ⟨28, _⟩ => ⟨S131072, .i1⟩
  | .hbm, ⟨29, _⟩ => ⟨S_, .i32⟩
  | .hbm, ⟨30, _⟩ => ⟨S131072, .i32⟩
  | .hbm, ⟨31, _⟩ => ⟨S131072, .i32⟩
  | .hbm, ⟨32, _⟩ => ⟨S131072, .i32⟩
  | .hbm, ⟨33, _⟩ => ⟨S131072x1, .i32⟩
  | .hbm, ⟨34, _⟩ => ⟨S256x8192, .f32⟩
  | .hbm, ⟨35, _⟩ => ⟨S1x8192, .f32⟩
  | .hbm, ⟨36, _⟩ => ⟨S1x8192, .f32⟩
  | .hbm, ⟨37, _⟩ => ⟨S256x8192, .f32⟩
  | .hbm, ⟨38, _⟩ => ⟨S256x8192, .f32⟩
  | .hbm, ⟨39, _⟩ => ⟨S256x8192, .f32⟩
  | .hbm, ⟨40, _⟩ => ⟨S256x8192, .f32⟩
  | .hbm, ⟨41, _⟩ => ⟨S256x8192, .bf16⟩
  | .hbm, ⟨42, _⟩ => ⟨S8192x8192, .bf16⟩
  | .hbm, ⟨43, _⟩ => ⟨S8192x8192, .bf16⟩
  | .hbm, ⟨44, _⟩ => ⟨S8192x8192, .bf16⟩
  | .hbm, ⟨45, _⟩ => ⟨S1x8192, .f32⟩
  | .hbm, ⟨46, _⟩ => ⟨S1x8192, .f32⟩
  | .hbm, ⟨47, _⟩ => ⟨S1x8192, .f32⟩
  | .hbm, ⟨48, _⟩ => ⟨S1x8192, .f32⟩
  | .hbm, ⟨49, _⟩ => ⟨S1x8192, .f32⟩
  | .hbm, ⟨50, _⟩ => ⟨S256x8192, .bf16⟩
  | .hbm, ⟨51, _⟩ => ⟨S256x8192, .bf16⟩
  | .hbm, ⟨52, _⟩ => ⟨S256x8192, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1x2048, .f32⟩
  | .local _ .vmem, ⟨5, _⟩ => ⟨S1x2048, .f32⟩
  | .local _ .vmem, ⟨6, _⟩ => ⟨S256x2048, .bf16⟩
  | .local _ .vmem, ⟨7, _⟩ => ⟨S256x2048, .bf16⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S2048x2048, .bf16⟩
  | .local _ .vmem, ⟨12, _⟩ => ⟨S2048x2048, .bf16⟩
  | .local _ .vmem, ⟨13, _⟩ => ⟨S1x2048, .f32⟩
  | .local _ .vmem, ⟨14, _⟩ => ⟨S1x2048, .f32⟩
  | .local _ .vmem, ⟨15, _⟩ => ⟨S256x2048, .bf16⟩
  | .local _ .vmem, ⟨16, _⟩ => ⟨S256x2048, .bf16⟩
  | .local _ .vmem, ⟨17, _⟩ => ⟨S256x2048, .f32⟩
  | .local _ .vmem, ⟨18, _⟩ => ⟨S256x2048, .bf16⟩
  | .local _ .vmem, ⟨19, _⟩ => ⟨S256x2048, .bf16⟩
  | .local _ .vmem, ⟨20, _⟩ => ⟨S2048x2048, .bf16⟩
  | .local _ .vmem, ⟨21, _⟩ => ⟨S2048x2048, .bf16⟩
  | .local _ .vmem, ⟨22, _⟩ => ⟨S1x2048, .f32⟩
  | .local _ .vmem, ⟨23, _⟩ => ⟨S1x2048, .f32⟩
  | .local _ .vmem, ⟨24, _⟩ => ⟨S1x2048, .f32⟩
  | .local _ .vmem, ⟨25, _⟩ => ⟨S1x2048, .f32⟩
  | .local _ .vmem, ⟨26, _⟩ => ⟨S1x2048, .f32⟩
  | .local _ .vmem, ⟨27, _⟩ => ⟨S1x2048, .f32⟩
  | .local _ .vmem, ⟨28, _⟩ => ⟨S256x2048, .f32⟩
  | .local _ .vmem, ⟨29, _⟩ => ⟨S256x2048, .f32⟩
  | .local _ .vmem, ⟨30, _⟩ => ⟨S256x2048, .f32⟩
  | _, _ => ⟨S256x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc2_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem4_1 : DmaSem sig := 25
abbrev cc2_sem5_0 : DmaSem sig := 26
abbrev cc2_sem5_1 : DmaSem sig := 27

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S256x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S256x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![4, 4], ![false, false]⟩

def k2_cond2 (i : grid2.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S256x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S2048x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S256x2048 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

class Facts₀ : Prop where
  bcast_S_S131072 : S_.BroadcastsInDim S131072 (![] : Fin 0 → Fin S131072.rank)
  bcast_S131072_S131072x1_0 : S131072.BroadcastsInDim S131072x1 (![0] : Fin 1 → Fin S131072x1.rank)
  bcast_S131072_S1x131072_1 : S131072.BroadcastsInDim S1x131072 (![1] : Fin 1 → Fin S1x131072.rank)
  bcast_S1x131072_S256x131072_0_1 : S1x131072.BroadcastsInDim S256x131072 (![0, 1] : Fin 2 → Fin S256x131072.rank)
  bcast_S_S256x8192 : S_.BroadcastsInDim S256x8192 (![] : Fin 0 → Fin S256x8192.rank)
  bcast_S8192_S1x8192_1 : S8192.BroadcastsInDim S1x8192 (![1] : Fin 1 → Fin S1x8192.rank)
  bcast_S1x8192_S256x8192_0_1 : S1x8192.BroadcastsInDim S256x8192 (![0, 1] : Fin 2 → Fin S256x8192.rank)
  bitsLt_bf16_f32 : FTy.bits .bf16 < FTy.bits .f32
  shapeCasts_S8192_S1x8192 : S8192.ShapeCasts S1x8192
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  packedbf16_S256x2048_S256x2048_0_0 : (Rect.unit (s := S256x2048) ![0, 0] S256x2048.size inb_S256x2048_S256x2048_0_0).PackedRows (EltTy.packing .bf16)
  gather_S256x8192_S131072x1_S256x131072_0_1_n_n_1_1_2561_wf : GatherDims.WF S256x8192 S131072x1 S256x131072 [0] [1] [] [1] [] 1 ![256, 1]
  scatter_S256x8192_S131072x1_S256x131072_0_1_1_1_wf : ScatterDims.WF S256x8192 S131072x1 S256x131072 [0] [1] [1] 1
  dot_S256x2048_S2048x2048_S256x2048_1_1_0_0_n_n_wf : DotDims.WF S256x2048 S2048x2048 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S256x8192.size a
  hwx0_0 : ∀ i : grid0.Coords, EltTy.bits .bf16 = 32 ∨ (Rect.block (s := S256x8192) S256x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S8192x8192.size a
  hwx0_1 : ∀ i : grid0.Coords, EltTy.bits .bf16 = 32 ∨ (Rect.block (s := S8192x8192) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x8192.size a
  hwx0_2 : ∀ i : grid0.Coords, EltTy.bits .f32 = 32 ∨ (Rect.block (s := S1x8192) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S256x8192.size a
  hwx0_3 : ∀ i : grid0.Coords, EltTy.bits .bf16 = 32 ∨ (Rect.block (s := S256x8192) S256x2048.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S256x8192.size a
  hwx1_0 : ∀ i : grid1.Coords, EltTy.bits .bf16 = 32 ∨ (Rect.block (s := S256x8192) S256x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S8192x8192.size a
  hwx1_1 : ∀ i : grid1.Coords, EltTy.bits .bf16 = 32 ∨ (Rect.block (s := S8192x8192) S2048x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x8192.size a
  hwx1_2 : ∀ i : grid1.Coords, EltTy.bits .f32 = 32 ∨ (Rect.block (s := S1x8192) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x2048.size a ≤ S256x8192.size a
  hwx1_3 : ∀ i : grid1.Coords, EltTy.bits .bf16 = 32 ∨ (Rect.block (s := S256x8192) S256x2048.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x2048.size a ≤ S256x8192.size a
  hwx2_0 : ∀ i : grid2.Coords, EltTy.bits .bf16 = 32 ∨ (Rect.block (s := S256x8192) S256x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x2048.size a ≤ S8192x8192.size a
  hwx2_1 : ∀ i : grid2.Coords, EltTy.bits .bf16 = 32 ∨ (Rect.block (s := S8192x8192) S2048x2048.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x2048.size a ≤ S1x8192.size a
  hwx2_2 : ∀ i : grid2.Coords, EltTy.bits .f32 = 32 ∨ (Rect.block (s := S1x8192) S1x2048.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x2048.size a ≤ S1x8192.size a
  hwx2_3 : ∀ i : grid2.Coords, EltTy.bits .f32 = 32 ∨ (Rect.block (s := S1x8192) S1x2048.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x2048.size a ≤ S1x8192.size a
  hwx2_4 : ∀ i : grid2.Coords, EltTy.bits .f32 = 32 ∨ (Rect.block (s := S1x8192) S1x2048.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S256x2048.size a ≤ S256x8192.size a
  hwx2_5 : ∀ i : grid2.Coords, EltTy.bits .f32 = 32 ∨ (Rect.block (s := S256x8192) S256x2048.size (cc2_transform_5 i) (hinb2_5 i)).WholeWords (EltTy.packing .f32)

variable [Facts₀]

def gather_S256x8192_S131072x1_S256x131072_0_1_n_n_1_1_2561 : GatherDims S256x8192 S131072x1 S256x131072 where
  offsetDims := [0]
  collapsedSliceDims := [1]
  operandBatchingDims := []
  startIndicesBatchingDims := []
  startIndexMap := [1]
  indexVectorDim := 1
  sliceSizes := ![256, 1]
  wf := gather_S256x8192_S131072x1_S256x131072_0_1_n_n_1_1_2561_wf
def scatter_S256x8192_S131072x1_S256x131072_0_1_1_1 : ScatterDims S256x8192 S131072x1 S256x131072 where
  updateWindowDims := [0]
  insertedWindowDims := [1]
  scatterDimsToOperandDims := [1]
  indexVectorDim := 1
  wf := scatter_S256x8192_S131072x1_S256x131072_0_1_1_1_wf
def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf

abbrev win0_0 : Pipeline.Window sig grid0 :=
  Pipeline.Window.ofSpec (Memref.whole main_v24) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S2048x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v33) S256x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v33) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2048x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v34) S256x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v34) S256x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S2048x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v30) S1x2048.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v31) S1x2048.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v32) S1x2048.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v35) S256x2048.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

class Facts : Prop extends Facts₀ where

variable [Facts]
-- ==== ReferenceIdeal.lean ====
abbrev S256x8192 : Shape := ⟨2, ![256, 8192]⟩
abbrev S131072 : Shape := ⟨1, ![131072]⟩
abbrev S8192 : Shape := ⟨1, ![8192]⟩
abbrev S8192x8192 : Shape := ⟨2, ![8192, 8192]⟩
abbrev S_ : Shape := ⟨0, ![]⟩
abbrev S131072x1 : Shape := ⟨2, ![131072, 1]⟩
abbrev S256x131072 : Shape := ⟨2, ![256, 131072]⟩
abbrev S1x131072 : Shape := ⟨2, ![1, 131072]⟩
abbrev S1x8192 : Shape := ⟨2, ![1, 8192]⟩

abbrev nBuf : Space → Nat
  | .hbm => 100
  | .vmem => 0
  | .smem => 0
  | _ => 0

abbrev bufTy : (tb : Table) → Fin (tcTables nBuf tb) → BufTy
  | .hbm, ⟨0, _⟩ => ⟨S256x8192, .f32⟩
  | .hbm, ⟨1, _⟩ => ⟨S131072, .f32⟩
  | .hbm, ⟨2, _⟩ => ⟨S8192, .f32⟩
  | .hbm, ⟨3, _⟩ => ⟨S8192, .f32⟩
  | .hbm, ⟨4, _⟩ => ⟨S8192x8192, .f32⟩
  | .hbm, ⟨5, _⟩ => ⟨S8192, .f32⟩
  | .hbm, ⟨6, _⟩ => ⟨S8192x8192, .f32⟩
  | .hbm, ⟨7, _⟩ => ⟨S8192, .f32⟩
  | .hbm, ⟨8, _⟩ => ⟨S8192x8192, .f32⟩
  | .hbm, ⟨9, _⟩ => ⟨S8192, .f32⟩
  | .hbm, ⟨10, _⟩ => ⟨S131072, .i32⟩
  | .hbm, ⟨11, _⟩ => ⟨S131072, .i32⟩
  | .hbm, ⟨12, _⟩ => ⟨S_, .i32⟩
  | .hbm, ⟨13, _⟩ => ⟨S131072, .i32⟩
  | .hbm, ⟨14, _⟩ => ⟨S131072, .i1⟩
  | .hbm, ⟨15, _⟩ => ⟨S_, .i32⟩
  | .hbm, ⟨16, _⟩ => ⟨S131072, .i32⟩
  | .hbm, ⟨17, _⟩ => ⟨S131072, .i32⟩
  | .hbm, ⟨18, _⟩ => ⟨S131072, .i32⟩
  | .hbm, ⟨19, _⟩ => ⟨S131072x1, .i32⟩
  | .hbm, ⟨20, _⟩ => ⟨S256x131072, .f32⟩
  | .hbm, ⟨21, _⟩ => ⟨S1x131072, .f32⟩
  | .hbm, ⟨22, _⟩ => ⟨S256x131072, .f32⟩
  | .hbm, ⟨23, _⟩ => ⟨S256x131072, .f32⟩
  | .hbm, ⟨24, _⟩ => ⟨S_, .f32⟩
  | .hbm, ⟨25, _⟩ => ⟨S256x8192, .f32⟩
  | .hbm, ⟨26, _⟩ => ⟨S_, .i32⟩
  | .hbm, ⟨27, _⟩ => ⟨S131072, .i32⟩
  | .hbm, ⟨28, _⟩ => ⟨S131072, .i1⟩
  | .hbm, ⟨29, _⟩ => ⟨S_, .i32⟩
  | .hbm, ⟨30, _⟩ => ⟨S131072, .i32⟩
  | .hbm, ⟨31, _⟩ => ⟨S131072, .i32⟩
  | .hbm, ⟨32, _⟩ => ⟨S131072, .i32⟩
  | .hbm, ⟨33, _⟩ => ⟨S131072x1, .i32⟩
  | .hbm, ⟨34, _⟩ => ⟨S256x8192, .f32⟩
  | .hbm, ⟨35, _⟩ => ⟨S1x8192, .f32⟩
  | .hbm, ⟨36, _⟩ => ⟨S256x8192, .f32⟩
  | .hbm, ⟨37, _⟩ => ⟨S256x8192, .f32⟩
  | .hbm, ⟨38, _⟩ => ⟨S1x8192, .f32⟩
  | .hbm, ⟨39, _⟩ => ⟨S256x8192, .f32⟩
  | .hbm, ⟨40, _⟩ => ⟨S256x8192, .f32⟩
  | .hbm, ⟨41, _⟩ => ⟨S8192x8192, .f32⟩
  | .hbm, ⟨42, _⟩ => ⟨S256x8192, .f32⟩
  | .hbm, ⟨43, _⟩ => ⟨S1x8192, .f32⟩
  | .hbm, ⟨44, _⟩ => ⟨S256x8192, .f32⟩
  | .hbm, ⟨45, _⟩ => ⟨S256x8192, .f32⟩
  | .hbm, ⟨46, _⟩ => ⟨S_, .f32⟩
  | .hbm, ⟨47, _⟩ => ⟨S_, .f32⟩
  | .hbm, ⟨48, _⟩ => ⟨S256x8192, .f32⟩
  | .hbm, ⟨49, _⟩ => ⟨S256x8192, .i1⟩
  | .hbm, ⟨50, _⟩ => ⟨S_, .f32⟩
  | .hbm, ⟨51, _⟩ => ⟨S256x8192, .f32⟩
  | .hbm, ⟨52, _⟩ => ⟨S256x8192, .i1⟩
  | .hbm, ⟨53, _⟩ => ⟨S_, .f32⟩
  | .hbm, ⟨54, _⟩ => ⟨S_, .f32⟩
  | .hbm, ⟨55, _⟩ => ⟨S256x8192, .f32⟩
  | .hbm, ⟨56, _⟩ => ⟨S256x8192, .f32⟩
  | .hbm, ⟨57, _⟩ => ⟨S256x8192, .f32⟩
  | .hbm, ⟨58, _⟩ => ⟨S_, .f32⟩
  | .hbm, ⟨59, _⟩ => ⟨S256x8192, .f32⟩
  | .hbm, ⟨60, _⟩ => ⟨S256x8192, .f32⟩
  | .hbm, ⟨61, _⟩ => ⟨S256x8192, .f32⟩
  | .hbm, ⟨62, _⟩ => ⟨S_, .f32⟩
  | .hbm, ⟨63, _⟩ => ⟨S256x8192, .f32⟩
  | .hbm, ⟨64, _⟩ => ⟨S256x8192, .f32⟩
  | .hbm, ⟨65, _⟩ => ⟨S8192x8192, .f32⟩
  | .hbm, ⟨66, _⟩ => ⟨S256x8192, .f32⟩
  | .hbm, ⟨67, _⟩ => ⟨S1x8192, .f32⟩
  | .hbm, ⟨68, _⟩ => ⟨S256x8192, .f32⟩
  | .hbm, ⟨69, _⟩ => ⟨S256x8192, .f32⟩
  | .hbm, ⟨70, _⟩ => ⟨S_, .f32⟩
  | .hbm, ⟨71, _⟩ => ⟨S_, .f32⟩
  | .hbm, ⟨72, _⟩ => ⟨S256x8192, .f32⟩
  | .hbm, ⟨73, _⟩ => ⟨S256x8192, .i1⟩
  | .hbm, ⟨74, _⟩ => ⟨S_, .f32⟩
  | .hbm, ⟨75, _⟩ => ⟨S256x8192, .f32⟩
  | .hbm, ⟨76, _⟩ => ⟨S256x8192, .i1⟩
  | .hbm, ⟨77, _⟩ => ⟨S_, .f32⟩
  | .hbm, ⟨78, _⟩ => ⟨S_, .f32⟩
  | .hbm, ⟨79, _⟩ => ⟨S256x8192, .f32⟩
  | .hbm, ⟨80, _⟩ => ⟨S256x8192, .f32⟩
  | .hbm, ⟨81, _⟩ => ⟨S256x8192, .f32⟩
  | .hbm, ⟨82, _⟩ => ⟨S_, .f32⟩
  | .hbm, ⟨83, _⟩ => ⟨S256x8192, .f32⟩
  | .hbm, ⟨84, _⟩ => ⟨S256x8192, .f32⟩
  | .hbm, ⟨85, _⟩ => ⟨S256x8192, .f32⟩
  | .hbm, ⟨86, _⟩ => ⟨S_, .f32⟩
  | .hbm, ⟨87, _⟩ => ⟨S256x8192, .f32⟩
  | .hbm, ⟨88, _⟩ => ⟨S256x8192, .f32⟩
  | .hbm, ⟨89, _⟩ => ⟨S8192x8192, .f32⟩
  | .hbm, ⟨90, _⟩ => ⟨S256x8192, .f32⟩
  | .hbm, ⟨91, _⟩ => ⟨S1x8192, .f32⟩
  | .hbm, ⟨92, _⟩ => ⟨S256x8192, .f32⟩
  | .hbm, ⟨93, _⟩ => ⟨S256x8192, .f32⟩
  | .hbm, ⟨94, _⟩ => ⟨S1x8192, .f32⟩
  | .hbm, ⟨95, _⟩ => ⟨S256x8192, .f32⟩
  | .hbm, ⟨96, _⟩ => ⟨S256x8192, .f32⟩
  | .hbm, ⟨97, _⟩ => ⟨S1x8192, .f32⟩
  | .hbm, ⟨98, _⟩ => ⟨S256x8192, .f32⟩
  | .hbm, ⟨99, _⟩ => ⟨S256x8192, .f32⟩
  | _, _ => ⟨S256x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_call0_cst : Ref sig .tc := ⟨.hbm, 47, rfl⟩
abbrev main_call0_call0_v0 : Ref sig .tc := ⟨.hbm, 48, rfl⟩
abbrev main_call0_call0_v1 : Ref sig .tc := ⟨.hbm, 49, rfl⟩
abbrev main_call0_call0_cst_0 : Ref sig .tc := ⟨.hbm, 50, rfl⟩
abbrev main_call0_call0_v2 : Ref sig .tc := ⟨.hbm, 51, rfl⟩
abbrev main_call0_call0_v3 : Ref sig .tc := ⟨.hbm, 52, rfl⟩
abbrev main_call0_call0_cst_1 : Ref sig .tc := ⟨.hbm, 53, rfl⟩
abbrev main_call0_call0_call0_v0 : Ref sig .tc := ⟨.hbm, 54, rfl⟩
abbrev main_call0_call0_call0_v1 : Ref sig .tc := ⟨.hbm, 55, rfl⟩
abbrev main_call0_call0_v4 : Ref sig .tc := ⟨.hbm, 56, rfl⟩
abbrev main_call0_call0_v5 : Ref sig .tc := ⟨.hbm, 57, rfl⟩
abbrev main_call0_call0_v6 : Ref sig .tc := ⟨.hbm, 58, rfl⟩
abbrev main_call0_call0_v7 : Ref sig .tc := ⟨.hbm, 59, rfl⟩
abbrev main_call0_call0_v8 : Ref sig .tc := ⟨.hbm, 60, rfl⟩
abbrev main_call0_v0 : Ref sig .tc := ⟨.hbm, 61, rfl⟩
abbrev main_call0_cst_0 : Ref sig .tc := ⟨.hbm, 62, rfl⟩
abbrev main_call0_v1 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_call1_cst : Ref sig .tc := ⟨.hbm, 70, rfl⟩
abbrev main_call1_call0_cst : Ref sig .tc := ⟨.hbm, 71, rfl⟩
abbrev main_call1_call0_v0 : Ref sig .tc := ⟨.hbm, 72, rfl⟩
abbrev main_call1_call0_v1 : Ref sig .tc := ⟨.hbm, 73, rfl⟩
abbrev main_call1_call0_cst_0 : Ref sig .tc := ⟨.hbm, 74, rfl⟩
abbrev main_call1_call0_v2 : Ref sig .tc := ⟨.hbm, 75, rfl⟩
abbrev main_call1_call0_v3 : Ref sig .tc := ⟨.hbm, 76, rfl⟩
abbrev main_call1_call0_cst_1 : Ref sig .tc := ⟨.hbm, 77, rfl⟩
abbrev main_call1_call0_call0_v0 : Ref sig .tc := ⟨.hbm, 78, rfl⟩
abbrev main_call1_call0_call0_v1 : Ref sig .tc := ⟨.hbm, 79, rfl⟩
abbrev main_call1_call0_v4 : Ref sig .tc := ⟨.hbm, 80, rfl⟩
abbrev main_call1_call0_v5 : Ref sig .tc := ⟨.hbm, 81, rfl⟩
abbrev main_call1_call0_v6 : Ref sig .tc := ⟨.hbm, 82, rfl⟩
abbrev main_call1_call0_v7 : Ref sig .tc := ⟨.hbm, 83, rfl⟩
abbrev main_call1_call0_v8 : Ref sig .tc := ⟨.hbm, 84, rfl⟩
abbrev main_call1_v0 : Ref sig .tc := ⟨.hbm, 85, rfl⟩
abbrev main_call1_cst_0 : Ref sig .tc := ⟨.hbm, 86, rfl⟩
abbrev main_call1_v1 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩

abbrev nD : Nat := 1
abbrev τ : Topo := Topo.v7x

variable {F : FTy → Type} [FloatOps F]

class Facts₀ : Prop where
  bcast_S_S131072 : S_.BroadcastsInDim S131072 (![] : Fin 0 → Fin S131072.rank)
  bcast_S131072_S131072x1_0 : S131072.BroadcastsInDim S131072x1 (![0] : Fin 1 → Fin S131072x1.rank)
  bcast_S131072_S1x131072_1 : S131072.BroadcastsInDim S1x131072 (![1] : Fin 1 → Fin S1x131072.rank)
  bcast_S1x131072_S256x131072_0_1 : S1x131072.BroadcastsInDim S256x131072 (![0, 1] : Fin 2 → Fin S256x131072.rank)
  bcast_S_S256x8192 : S_.BroadcastsInDim S256x8192 (![] : Fin 0 → Fin S256x8192.rank)
  bcast_S8192_S1x8192_1 : S8192.BroadcastsInDim S1x8192 (![1] : Fin 1 → Fin S1x8192.rank)
  bcast_S1x8192_S256x8192_0_1 : S1x8192.BroadcastsInDim S256x8192 (![0, 1] : Fin 2 → Fin S256x8192.rank)
  transposes_S8192x8192_S8192x8192_1_0 : S8192x8192.Transposes [1, 0] S8192x8192
  gather_S256x8192_S131072x1_S256x131072_0_1_n_n_1_1_2561_wf : GatherDims.WF S256x8192 S131072x1 S256x131072 [0] [1] [] [1] [] 1 ![256, 1]
  scatter_S256x8192_S131072x1_S256x131072_0_1_1_1_wf : ScatterDims.WF S256x8192 S131072x1 S256x131072 [0] [1] [1] 1
  dot_S256x8192_S8192x8192_S256x8192_1_0_0_1_n_n_wf : DotDims.WF S256x8192 S8192x8192 S256x8192 [1] [0] [0] [1] [] []

variable [Facts₀]

def gather_S256x8192_S131072x1_S256x131072_0_1_n_n_1_1_2561 : GatherDims S256x8192 S131072x1 S256x131072 where
  offsetDims := [0]
  collapsedSliceDims := [1]
  operandBatchingDims := []
  startIndicesBatchingDims := []
  startIndexMap := [1]
  indexVectorDim := 1
  sliceSizes := ![256, 1]
  wf := gather_S256x8192_S131072x1_S256x131072_0_1_n_n_1_1_2561_wf
def scatter_S256x8192_S131072x1_S256x131072_0_1_1_1 : ScatterDims S256x8192 S131072x1 S256x131072 where
  updateWindowDims := [0]
  insertedWindowDims := [1]
  scatterDimsToOperandDims := [1]
  indexVectorDim := 1
  wf := scatter_S256x8192_S131072x1_S256x131072_0_1_1_1_wf
def dot_S256x8192_S8192x8192_S256x8192_1_0_0_1_n_n : DotDims S256x8192 S8192x8192 S256x8192 where
  lhsContracting := [1]
  rhsContracting := [0]
  lhsNonContracting := [0]
  rhsNonContracting := [1]
  lhsBatch := []
  rhsBatch := []
  wf := dot_S256x8192_S8192x8192_S256x8192_1_0_0_1_n_n_wf

class Facts : Prop extends Facts₀ where

variable [Facts]
-- ==== Proof.KRuns0.lean ====
import proofs.«110502_j4913442587016_1_alg».proof.Proof.Gen.Kernel.Launch
import proofs.«110502_j4913442587016_1_alg».proof.Proof.Gen.Kernel.Skeleton
import proofs.«110502_j4913442587016_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The zero offsets of a whole-block rectangle, as a function. -/
theorem hz2_0 : (![0, 0] : Fin 2 → ℕ) = fun _ => 0 := by funext a; fin_cases a <;> rfl

/-! ## Kernel 0: its two branch conditions over the grid -/

/-- "This is the first block of the contracted axis": the condition of the body's first conditional. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- "This is the last block of the contracted axis": the condition of the body's second conditional. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Kernel 0: the body's triple in each of its three cases -/

set_option maxHeartbeats 1000000 in
/-- FIRST block of the contracted axis: the scratch, at anything, is zeroed and the product of the two blocks added;
    the output buffer is not touched. -/
theorem run0_first (c : Dev nD) (i : grid0.Coords) (arg2 : Memref sig .tc .vmem S256x2048 .bf16) (harg2 : arg2.IsWhole) (arg3 : Memref sig .tc .vmem S2048x2048 .bf16) (harg3 : arg3.IsWhole) (arg4 : Memref sig .tc .vmem S1x2048 .f32) (harg4 : arg4.IsWhole) (arg5 : Memref sig .tc .vmem S256x2048 .bf16) (harg5 : arg5.IsWhole) (arg6 : Memref sig .tc .vmem S256x2048 .f32) (harg6 : arg6.IsWhole)
    (hc0 : cond0_0 i) (hc1 : ¬cond0_1 i) (x0 : Vec F S256x2048 .bf16) (x1 : Vec F S2048x2048 .bf16) (x2 : Vec F S1x2048 .f32) (xo : Vec F S256x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xo ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare (k0_pay2 (k0_pay1 (F := F)) x0 x1)) -∗ K ⟨⟩))
      ⊢ wp frame (wpE (defs₀ (F := F)) Variants.none c none) E (cc0_kernel i arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%f2, %hf2, H2⟩, ⟨%fo, %hfo, HO⟩, ⟨%d, %fs, %hfs, HS⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [HO]
  · iexists _; isplitr; · ipureintro; exact hfo
    iexact HO
  iexists _; isplitr
  swap; · iexact HS
  ipureintro
  sl_unfold_run_names
  rw [View.read_writes_eq_canon _ _ _ (fun y => ⟨_, List.mem_cons_self, View.mem_set_unit_zero hz2_0 inb_S256x2048_S256x2048_0_0 y⟩), View.canon_cons_unit_zero hz2_0]
  simp only [View.readCov_unit_zero (S := S256x2048) _ hz2_0, View.readAt_eq_ld, harg2.read_unread, harg3.read_unread, harg4.read_unread, harg6.read_unread, View.ld_unit_zero (S := S256x2048) hz2_0, View.ld_unit_zero (S := S2048x2048) hz2_0, View.ld_unit_zero (S := S1x2048) hz2_0]

set_option maxHeartbeats 1000000 in
/-- A MIDDLE block: the product of the two blocks is added to what the scratch held; the output buffer is not touched. -/
theorem run0_mid (c : Dev nD) (i : grid0.Coords) (arg2 : Memref sig .tc .vmem S256x2048 .bf16) (harg2 : arg2.IsWhole) (arg3 : Memref sig .tc .vmem S2048x2048 .bf16) (harg3 : arg3.IsWhole) (arg4 : Memref sig .tc .vmem S1x2048 .f32) (harg4 : arg4.IsWhole) (arg5 : Memref sig .tc .vmem S256x2048 .bf16) (harg5 : arg5.IsWhole) (arg6 : Memref sig .tc .vmem S256x2048 .f32) (harg6 : arg6.IsWhole)
    (hc0 : ¬cond0_0 i) (hc1 : ¬cond0_1 i) (x0 : Vec F S256x2048 .bf16) (x1 : Vec F S2048x2048 .bf16) (x2 : Vec F S1x2048 .f32) (xo : Vec F S256x2048 .bf16) (xs : Vec F S256x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare (k0_pay2 xs x0 x1)) -∗ K ⟨⟩))
      ⊢ wp frame (wpE (defs₀ (F := F)) Variants.none c none) E (cc0_kernel i arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%f2, %hf2, H2⟩, ⟨%fo, %hfo, HO⟩, ⟨%fs, %hfs, HS⟩, Hk⟩
  obtain rfl := harg2.eq_unread hf0; obtain rfl := harg3.eq_unread hf1; obtain rfl := harg4.eq_unread hf2; obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [HO]
  · iexists _; isplitr; · ipureintro; exact hfo
    iexact HO
  iexists _; isplitr
  swap; · iexact HS
  ipureintro
  sl_unfold_run_names
  rw [View.read_writes_eq_canon _ _ _ (fun y => ⟨_, List.mem_cons_self, View.mem_set_unit_zero hz2_0 inb_S256x2048_S256x2048_0_0 y⟩), View.canon_cons_unit_zero hz2_0]
  simp only [View.readCov_unit_zero (S := S256x2048) _ hz2_0, View.readAt_eq_ld, harg2.read_unread, harg3.read_unread, harg4.read_unread, harg6.read_unread, View.ld_unit_zero (S := S256x2048) hz2_0, View.ld_unit_zero (S := S2048x2048) hz2_0, View.ld_unit_zero (S := S1x2048) hz2_0]

set_option maxHeartbeats 1000000 in
/-- The LAST block: the product is added to the scratch, and the epilogue of the sum is stored into the output buffer
    (which held anything). -/
theorem run0_last (c : Dev nD) (i : grid0.Coords) (arg2 : Memref sig .tc .vmem S256x2048 .bf16) (harg2 : arg2.IsWhole) (arg3 : Memref sig .tc .vmem S2048x2048 .bf16) (harg3 : arg3.IsWhole) (arg4 : Memref sig .tc .vmem S1x2048 .f32) (harg4 : arg4.IsWhole) (arg5 : Memref sig .tc .vmem S256x2048 .bf16) (harg5 : arg5.IsWhole) (arg6 : Memref sig .tc .vmem S256x2048 .f32) (harg6 : arg6.IsWhole)
    (hc0 : ¬cond0_0 i) (hc1 : cond0_1 i) (x0 : Vec F S256x2048 .bf16) (x1 : Vec F S2048x2048 .bf16) (x2 : Vec F S1x2048 .f32) (xs : Vec F S256x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare (k0_pay3 (k0_pay2 xs x0 x1) x2) ∗ owns (c : Thread nD τ) arg6 fullShare (k0_pay2 xs x0 x1)) -∗ K ⟨⟩))
      ⊢ wp frame (wpE (defs₀ (F := F)) Variants.none c none) E (cc0_kernel i arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%f2, %hf2, H2⟩, ⟨%d, %fo, %hfo, HO⟩, ⟨%fs, %hfs, HS⟩, Hk⟩
  obtain rfl := harg2.eq_unread hf0; obtain rfl := harg3.eq_unread hf1; obtain rfl := harg4.eq_unread hf2; obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [HO]
  · iexists _; isplitr
    swap; · iexact HO
    ipureintro
    sl_unfold_run_names
    rw [View.read_writes_eq_canon _ _ _ (fun y => ⟨_, List.mem_cons_self, View.mem_set_unit_zero hz2_0 inb_S256x2048_S256x2048_0_0 y⟩), View.canon_cons_unit_zero hz2_0]
    simp only [View.readCov_unit_zero (S := S256x2048) _ hz2_0, View.readAt_eq_ld, harg2.read_unread, harg3.read_unread, harg4.read_unread, harg6.read_unread, View.ld_unit_zero (S := S256x2048) hz2_0, View.ld_unit_zero (S := S2048x2048) hz2_0, View.ld_unit_zero (S := S1x2048) hz2_0]
  iexists _; isplitr
  swap; · iexact HS
  ipureintro
  sl_unfold_run_names
  rw [View.read_writes_eq_canon _ _ _ (fun y => ⟨_, List.mem_cons_self, View.mem_set_unit_zero hz2_0 inb_S256x2048_S256x2048_0_0 y⟩), View.canon_cons_unit_zero hz2_0]
  simp only [View.readCov_unit_zero (S := S256x2048) _ hz2_0, View.readAt_eq_ld, harg2.read_unread, harg3.read_unread, harg4.read_unread, harg6.read_unread, View.ld_unit_zero (S := S256x2048) hz2_0, View.ld_unit_zero (S := S2048x2048) hz2_0, View.ld_unit_zero (S := S1x2048) hz2_0]

end Cert.Kernel.Hand
end
-- ==== Proof.KRegion0.lean ====
import proofs.«110502_j4913442587016_1_alg».proof.Proof.Gen.Kernel.Launch
import proofs.«110502_j4913442587016_1_alg».proof.Proof.Gen.Kernel.Skeleton
import proofs.«110502_j4913442587016_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«110502_j4913442587016_1_alg».proof.Proof.KRuns0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: the windows' blocks, the accumulator and the output block, point by point -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after point `n`: at the first point of each run of four (the first block of the contracted axis)
    the product of that point's blocks added to zero, afterwards the point's product added to what the point before left. -/
def acc0 (c : Dev nD) : (n : ℕ) → n < cfg0.N → Vec F S256x2048 .f32
  | 0, h => k0_pay2 (k0_pay1 (F := F)) (iblk0 V c 0 ⟨0, h⟩) (iblk0 V c 1 ⟨0, h⟩)
  | n + 1, h =>
    if (n + 1) % 4 = 0 then k0_pay2 (k0_pay1 (F := F)) (iblk0 V c 0 ⟨n + 1, h⟩) (iblk0 V c 1 ⟨n + 1, h⟩)
    else k0_pay2 (acc0 c n (Nat.lt_of_succ_lt h)) (iblk0 V c 0 ⟨n + 1, h⟩) (iblk0 V c 1 ⟨n + 1, h⟩)

/-- The output block after point `t` (meaningful at the last block of the contracted axis, where it is stored and
    written back): the epilogue of the accumulator and the bias row. -/
def out0 (c : Dev nD) (t : Fin cfg0.N) : Vec F S256x2048 .bf16 :=
  k0_pay3 (acc0 V c t.val t.isLt) (iblk0 V c 2 t)

/-- The kernel's scratch operand as a memref. -/
abbrev scM0 : Memref sig .tc .vmem S256x2048 .f32 := Memref.whole cc0_scratch0

/-- The scoped buffers that are neither a staging buffer of this call nor its scratch, at some contents each. -/
abbrev rest0 (c : Dev nD) : sProp 𝕄 :=
  Pipeline.scopedRestBut (Ix := Unit) (Name := ℕ) (U := UR sig nD τ) (Lvl := ℕ) (Val := Elt F) spec0 c [cc0_scratch0]

/-- The region invariant before position `n`: before the first point every scoped buffer at anything; afterwards the
    scratch at the accumulator the point before left, the other scoped buffers at anything, the generator register at some state. -/
def PhiS0 (c : Dev nD) : (n : ℕ) → n ≤ cfg0.N → sProp 𝕄
  | 0, _ => Pipeline.ΦA spec0 c
  | n + 1, hn => iprop((owns (c : Thread nD τ) scM0 fullShare (acc0 V c n hn) ∗ rest0 c) ∗ (∃ r, prngReg c r))

/-- The proof data of pipeline 0 on core `c` at the entry contents `V`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0 V c t := by dsimp only [dat0]

/-- Input window 0's staging buffer holds the window's block at every point, fetched there or kept from the point before. -/
theorem before0_0 (c : Dev nD) (t : Fin cfg0.N) (d) : (dat0 V c).before 0 t d = iblk0 V c 0 t := by
  refine ((dat0 V c).before_in_eq_fetched 0 rfl (fun _ => rfl) (fun _ _ _ => rfl) (fun t => ?_) t d).trans ?_
  · rw [after0_0]; unfold Dat.blockOf iblk0; rw [A_eq0]; try rfl
  · unfold Dat.fetched Dat.blockOf iblk0; rw [A_eq0]; try rfl
/-- Input window 1's staging buffer holds the window's block at every point, fetched there or kept from the point before. -/
theorem before0_1 (c : Dev nD) (t : Fin cfg0.N) (d) : (dat0 V c).before 1 t d = iblk0 V c 1 t := by
  refine ((dat0 V c).before_in_eq_fetched 1 rfl (fun _ => rfl) (fun _ _ _ => rfl) (fun t => ?_) t d).trans ?_
  · rw [after0_1]; unfold Dat.blockOf iblk0; rw [A_eq0]; try rfl
  · unfold Dat.fetched Dat.blockOf iblk0; rw [A_eq0]; try rfl
/-- Input window 2's staging buffer holds the window's block at every point, fetched there or kept from the point before. -/
theorem before0_2 (c : Dev nD) (t : Fin cfg0.N) (d) : (dat0 V c).before 2 t d = iblk0 V c 2 t := by
  refine ((dat0 V c).before_in_eq_fetched 2 rfl (fun _ => rfl) (fun _ _ _ => rfl) (fun t => ?_) t d).trans ?_
  · rw [after0_2]; unfold Dat.blockOf iblk0; rw [A_eq0]; try rfl
  · unfold Dat.fetched Dat.blockOf iblk0; rw [A_eq0]; try rfl

/-! ## The accumulator's recursion, point by point -/

theorem acc0_first (c : Dev nD) (t : Fin cfg0.N) (h0 : t.val % 4 = 0) :
    acc0 V c t.val t.isLt = k0_pay2 (k0_pay1 (F := F)) (iblk0 V c 0 t) (iblk0 V c 1 t) := by
  obtain ⟨n, hn⟩ := t
  cases n with
  | zero => rfl
  | succ n => exact if_pos h0

theorem acc0_next (c : Dev nD) (t : Fin cfg0.N) (h0 : ¬t.val % 4 = 0) :
    acc0 V c t.val t.isLt
      = k0_pay2 (acc0 V c (t.val - 1) (Nat.lt_of_le_of_lt (Nat.sub_le _ _) t.isLt)) (iblk0 V c 0 t) (iblk0 V c 1 t) := by
  obtain ⟨n, hn⟩ := t
  cases n with
  | zero => exact absurd (Nat.zero_mod _) h0
  | succ n => exact if_neg h0

/-! ## The invariant, unfolded at a position -/

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((owns (c : Thread nD τ) scM0 fullShare (acc0 V c n hn) ∗ rest0 c) ∗ (∃ r, prngReg c r)) := rfl

theorem PhiS0_pos (c : Dev nD) (n : ℕ) (h : n ≤ cfg0.N) (hz : n ≠ 0) :
    PhiS0 V c n h = iprop((owns (c : Thread nD τ) scM0 fullShare (acc0 V c (n - 1) (by omega)) ∗ rest0 c) ∗ (∃ r, prngReg c r)) := by
  cases n with
  | zero => exact absurd rfl hz
  | succ n => rfl

theorem PhiS0_castSucc (c : Dev nD) (t : Fin cfg0.N) :
    (dat0 V c).Φ t.castSucc = PhiS0 V c t.val (Nat.le_of_lt t.isLt) := by
  dsimp only [dat0]; simp only [Fin.coe_castSucc]

/-- What the region is handed of the scoped buffers, with the scratch singled out. -/
theorem PhiA0_eq (c : Dev nD) :
    (Pipeline.ΦA spec0 c : sProp 𝕄)
      = iprop(((∃ d, owns (c : Thread nD τ) scM0 fullShare d) ∗ rest0 c) ∗ (∃ r, prngReg c r)) := by
  unfold Pipeline.ΦA
  rw [Pipeline.scopedRest_split_of_list spec0 c [cc0_scratch0] (by decide) (by decide)]
  simp only [scM0, owns_whole]; try rfl

/-! ## Where the windows are live -/

theorem live0_0 : ∀ t : Fin cfg0.N, cfg0.idle 0 (grid0.coords t) = false := by decide +kernel
theorem leaves0_0 (c : Dev nD) (t : Fin cfg0.N) :
    (dat0 V c).leavesExact 0 t = owns (c : Thread nD τ) (win0_0.stage (cfg0.slots t 0)) fullShare (iblk0 V c 0 t) := by
  unfold Dat.leavesExact; rw [live0_0 t, after0_0]
theorem live0_1 : ∀ t : Fin cfg0.N, cfg0.idle 1 (grid0.coords t) = false := by decide +kernel
theorem leaves0_1 (c : Dev nD) (t : Fin cfg0.N) :
    (dat0 V c).leavesExact 1 t = owns (c : Thread nD τ) (win0_1.stage (cfg0.slots t 1)) fullShare (iblk0 V c 1 t) := by
  unfold Dat.leavesExact; rw [live0_1 t, after0_1]
theorem live0_2 : ∀ t : Fin cfg0.N, cfg0.idle 2 (grid0.coords t) = false := by decide +kernel
theorem leaves0_2 (c : Dev nD) (t : Fin cfg0.N) :
    (dat0 V c).leavesExact 2 t = owns (c : Thread nD τ) (win0_2.stage (cfg0.slots t 2)) fullShare (iblk0 V c 2 t) := by
  unfold Dat.leavesExact; rw [live0_2 t, after0_2]
/-- The output window is idle, and not written back, away from the last block of the contracted axis; live there. -/
theorem idle0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem live0_3 : ∀ t : Fin cfg0.N, cond0_1 (grid0.coords t) → cfg0.idle 3 (grid0.coords t) = false := by decide +kernel

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (win0_0.stage (cfg0.slots t 0)) fullShare ((dat0 V c).before 0 t d))
    ∗ (∃ d, owns (c : Thread nD τ) (win0_1.stage (cfg0.slots t 1)) fullShare ((dat0 V c).before 1 t d))
    ∗ (∃ d, owns (c : Thread nD τ) (win0_2.stage (cfg0.slots t 2)) fullShare ((dat0 V c).before 2 t d))
    ∗ (∃ d, owns (c : Thread nD τ) (win0_3.stage (cfg0.slots t 3)) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4000000 in
/-- The body at any point: the inputs' buffers hold their blocks; the point's place in its run of four says which case
    of the body runs; the invariant hands over the scratch at what the point before left (at anything at the very
    first point) and takes it back at this point's accumulator; the output buffer is stored only in the last case. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2]
  have hN : t.val < 16 := lt_of_lt_of_eq t.isLt (show cfg0.N = 16 from N_0)
  by_cases h3 : t.val % 4 = 3
  · -- the last block of the contracted axis
    have h0 : ¬t.val % 4 = 0 := by omega
    have hz : t.val ≠ 0 := by omega
    have hc0 : ¬cond0_0 (grid0.coords t) := fun h => h0 ((hcond0_0 t).mp h)
    have hc1 : cond0_1 (grid0.coords t) := (hcond0_1 t).mpr h3
    rw [show (dat0 V c).leavesExact 3 t = owns (c : Thread nD τ) (win0_3.stage (cfg0.slots t 3)) fullShare ((dat0 V c).after 3 t) from by
      unfold Dat.leavesExact; rw [live0_3 t hc1], after0_3]
    unfold out0
    rw [acc0_next V c t h0, PhiS0_castSucc V c t, PhiS0_pos V c _ _ hz]
    iintro ⟨⟨⟨HS, Hrest⟩, Hg⟩, Ho, ⟨%d0, H0⟩, ⟨%d1, H1⟩, ⟨%d2, H2⟩, ⟨%d3, H3⟩⟩
    iapply (run0_last c (grid0.coords t) _ _ _ _ _ _ _ _ _ _ hc0 hc1 (iblk0 V c 0 t) (iblk0 V c 1 t) (iblk0 V c 2 t) _ Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    iexact H3
  · have hc1 : ¬cond0_1 (grid0.coords t) := fun h => h3 ((hcond0_1 t).mp h)
    rw [Dat.leavesExact_idle (dat0 V c) 3 t (idle0_3 t hc1) (noFlush0_3 t hc1)]
    by_cases h0 : t.val % 4 = 0
    · -- the first block of the contracted axis
      have hc0 : cond0_0 (grid0.coords t) := (hcond0_0 t).mpr h0
      rw [acc0_first V c t h0, PhiS0_castSucc V c t]
      by_cases hz : t.val = 0
      · rw [PhiS0_zero V c _ _ hz, PhiA0_eq]
        iintro ⟨⟨⟨HS, Hrest⟩, Hg⟩, Ho, ⟨%d0, H0⟩, ⟨%d1, H1⟩, ⟨%d2, H2⟩, ⟨%d3, H3⟩⟩
        iapply (run0_first c (grid0.coords t) _ _ _ _ _ _ _ _ _ _ hc0 hc1 (iblk0 V c 0 t) (iblk0 V c 1 t) (iblk0 V c 2 t) _ Set.univ _)
        isplitl [H0]; · iexact H0
        isplitl [H1]; · iexact H1
        isplitl [H2]; · iexact H2
        isplitl [H3]; · iexact H3
        isplitl [HS]; · iexact HS
        iintro ⟨H0, H1, H2, H3, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        isplitl [H2]; · iexact H2
        iexists _; iexact H3
      · rw [PhiS0_pos V c _ _ hz]
        iintro ⟨⟨⟨HS, Hrest⟩, Hg⟩, Ho, ⟨%d0, H0⟩, ⟨%d1, H1⟩, ⟨%d2, H2⟩, ⟨%d3, H3⟩⟩
        iapply (run0_first c (grid0.coords t) _ _ _ _ _ _ _ _ _ _ hc0 hc1 (iblk0 V c 0 t) (iblk0 V c 1 t) (iblk0 V c 2 t) _ Set.univ _)
        isplitl [H0]; · iexact H0
        isplitl [H1]; · iexact H1
        isplitl [H2]; · iexact H2
        isplitl [H3]; · iexact H3
        isplitl [HS]; · iexists _; iexact HS
        iintro ⟨H0, H1, H2, H3, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        isplitl [H2]; · iexact H2
        iexists _; iexact H3
    · -- a middle block
      have hz : t.val ≠ 0 := by omega
      have hc0 : ¬cond0_0 (grid0.coords t) := fun h => h0 ((hcond0_0 t).mp h)
      rw [acc0_next V c t h0, PhiS0_castSucc V c t, PhiS0_pos V c _ _ hz]
      iintro ⟨⟨⟨HS, Hrest⟩, Hg⟩, Ho, ⟨%d0, H0⟩, ⟨%d1, H1⟩, ⟨%d2, H2⟩, ⟨%d3, H3⟩⟩
      iapply (run0_mid c (grid0.coords t) _ _ _ _ _ _ _ _ _ _ hc0 hc1 (iblk0 V c 0 t) (iblk0 V c 1 t) (iblk0 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexists _; iexact H3

/-- Every grid point's obligation, in the form the pipeline library asks for. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the scoped buffers back, the accumulator's contents forgotten. -/
theorem hout0 (c : Dev nD) : (dat0 V c).Φ (Fin.last cfg0.N) ⊢ Pipeline.ΦA spec0 c := by
  have hne : (Fin.last cfg0.N).val ≠ 0 := by rw [Fin.val_last]; have : cfg0.N = 16 := N_0; omega
  rw [show (dat0 V c).Φ (Fin.last cfg0.N) = PhiS0 V c (Fin.last cfg0.N).val (Nat.le_of_lt_succ (Fin.last cfg0.N).isLt) from rfl,
    PhiS0_pos V c _ _ hne, PhiA0_eq]
  iintro ⟨⟨HS, Hrest⟩, Hg⟩
  isplitl [HS Hrest]
  · isplitl [HS]; · iexists _; iexact HS
    iexact Hrest
  iexact Hg

end Cert.Kernel.Hand
end
-- ==== Proof.KRuns1.lean ====
import proofs.«110502_j4913442587016_1_alg».proof.Proof.Gen.Kernel.Launch
import proofs.«110502_j4913442587016_1_alg».proof.Proof.Gen.Kernel.Skeleton
import proofs.«110502_j4913442587016_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The zero offsets of a whole-block rectangle, as a function. -/
theorem hz2_1 : (![0, 0] : Fin 2 → ℕ) = fun _ => 0 := by funext a; fin_cases a <;> rfl

/-! ## Kernel 1: its two branch conditions over the grid -/

/-- "This is the first block of the contracted axis": the condition of the body's first conditional. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- "This is the last block of the contracted axis": the condition of the body's second conditional. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Kernel 1: the body's triple in each of its three cases -/

set_option maxHeartbeats 1000000 in
/-- FIRST block of the contracted axis: the scratch, at anything, is zeroed and the product of the two blocks added;
    the output buffer is not touched. -/
theorem run1_first (c : Dev nD) (i : grid1.Coords) (arg2 : Memref sig .tc .vmem S256x2048 .bf16) (harg2 : arg2.IsWhole) (arg3 : Memref sig .tc .vmem S2048x2048 .bf16) (harg3 : arg3.IsWhole) (arg4 : Memref sig .tc .vmem S1x2048 .f32) (harg4 : arg4.IsWhole) (arg5 : Memref sig .tc .vmem S256x2048 .bf16) (harg5 : arg5.IsWhole) (arg6 : Memref sig .tc .vmem S256x2048 .f32) (harg6 : arg6.IsWhole)
    (hc0 : cond1_0 i) (hc1 : ¬cond1_1 i) (x0 : Vec F S256x2048 .bf16) (x1 : Vec F S2048x2048 .bf16) (x2 : Vec F S1x2048 .f32) (xo : Vec F S256x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xo ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare (k1_pay2 (k1_pay1 (F := F)) x0 x1)) -∗ K ⟨⟩))
      ⊢ wp frame (wpE (defs₀ (F := F)) Variants.none c none) E (cc1_kernel i arg2 harg2 arg3 harg3 arg4 harg4 arg5 harg5 arg6 harg6) K := by
  simp only [cc1_kernel_eq_skeleton]; unfold cc1_kernel_skel
  unfold owns
  iintro ⟨⟨%f0, %hf0, H0⟩, ⟨%f1, %hf1, H1⟩, ⟨%f2, %hf2, H2⟩, ⟨%fo, %hfo, HO⟩, ⟨%d, %fs, %hfs, HS⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [HO]
  · iexists _; isplitr; · ipureintro; exact hfo
    iexact HO
  iexists _; isplitr
  swap; · iexact HS
  ipureintro
  sl_unfold_run_names
  rw [View.read_writes_eq_canon _ _ _ (fun y => ⟨_, List.mem_cons_self, View.mem_set_unit_zero hz2_1 inb_S256x2048_S256x2048_0_0 y⟩), View.canon_cons_unit_zero hz2_1]
  simp only [View.readCov_unit_zero (S := S256x2048) _ hz2_1, View.readAt_eq_ld, harg2.read_unread, harg3.read_unread, harg4.read_unread, harg6.read_unread, View.ld_unit_zero (S := S256x2048) hz2_1, View.ld_unit_zero (S := S2048x2048) hz2_1, View.ld_unit_zero (S := S1x2048) hz2_1]

set_option maxHeartbeats 1000000 in
/-- A MIDDLE block: the product of the two blocks is added to what the scratch held; the output buffer is not touched. -/
theorem run1_mid (c : Dev nD) (i : grid1.Coords) (arg2 : Memref sig .tc .vmem S256x2048 .bf16) (harg2 : arg2.IsWhole) (arg3 : Memref sig .tc .vmem S2048x2048 .bf16) (harg3 : arg3.IsWhole) (arg4 : Memref sig .tc .vmem S1x2048 .f32) (harg4 : arg4.IsWhole) (arg5 : Memref sig .tc .vmem S256x2048 .bf16) (harg5 : arg5.IsWhole) (arg6 : Memref sig .tc .vmem S256x2048 .f32) (harg6 : arg6.IsWhole)
    (hc0 : ¬cond1_0 i) (hc1 : ¬cond1_1 i) (x0 : Vec F S256x2048 .bf16) (x1 : Vec F S2048x2048 .bf16) (x2 : Vec F S1x2048 .f32) (xo : Vec F S256x2048 .bf16) (xs : Vec F S256x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare (k1_pay2 xs x0 x1)) -∗ K ⟨⟩))
      ⊢ wp frame (wpE (defs₀ (F := F)) Variants.none c none) E (cc1_kernel i arg2 harg2 arg3 harg3 arg4 harg4 arg5 harg5 arg6 harg6) K := by
  simp only [cc1_kernel_eq_skeleton]; unfold cc1_kernel_skel
  unfold owns
  iintro ⟨⟨%f0, %hf0, H0⟩, ⟨%f1, %hf1, H1⟩, ⟨%f2, %hf2, H2⟩, ⟨%fo, %hfo, HO⟩, ⟨%fs, %hfs, HS⟩, Hk⟩
  obtain rfl := harg2.eq_unread hf0; obtain rfl := harg3.eq_unread hf1; obtain rfl := harg4.eq_unread hf2; obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [HO]
  · iexists _; isplitr; · ipureintro; exact hfo
    iexact HO
  iexists _; isplitr
  swap; · iexact HS
  ipureintro
  sl_unfold_run_names
  rw [View.read_writes_eq_canon _ _ _ (fun y => ⟨_, List.mem_cons_self, View.mem_set_unit_zero hz2_1 inb_S256x2048_S256x2048_0_0 y⟩), View.canon_cons_unit_zero hz2_1]
  simp only [View.readCov_unit_zero (S := S256x2048) _ hz2_1, View.readAt_eq_ld, harg2.read_unread, harg3.read_unread, harg4.read_unread, harg6.read_unread, View.ld_unit_zero (S := S256x2048) hz2_1, View.ld_unit_zero (S := S2048x2048) hz2_1, View.ld_unit_zero (S := S1x2048) hz2_1]

set_option maxHeartbeats 1000000 in
/-- The LAST block: the product is added to the scratch, and the epilogue of the sum is stored into the output buffer
    (which held anything). -/
theorem run1_last (c : Dev nD) (i : grid1.Coords) (arg2 : Memref sig .tc .vmem S256x2048 .bf16) (harg2 : arg2.IsWhole) (arg3 : Memref sig .tc .vmem S2048x2048 .bf16) (harg3 : arg3.IsWhole) (arg4 : Memref sig .tc .vmem S1x2048 .f32) (harg4 : arg4.IsWhole) (arg5 : Memref sig .tc .vmem S256x2048 .bf16) (harg5 : arg5.IsWhole) (arg6 : Memref sig .tc .vmem S256x2048 .f32) (harg6 : arg6.IsWhole)
    (hc0 : ¬cond1_0 i) (hc1 : cond1_1 i) (x0 : Vec F S256x2048 .bf16) (x1 : Vec F S2048x2048 .bf16) (x2 : Vec F S1x2048 .f32) (xs : Vec F S256x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare (k1_pay3 (k1_pay2 xs x0 x1) x2) ∗ owns (c : Thread nD τ) arg6 fullShare (k1_pay2 xs x0 x1)) -∗ K ⟨⟩))
      ⊢ wp frame (wpE (defs₀ (F := F)) Variants.none c none) E (cc1_kernel i arg2 harg2 arg3 harg3 arg4 harg4 arg5 harg5 arg6 harg6) K := by
  simp only [cc1_kernel_eq_skeleton]; unfold cc1_kernel_skel
  unfold owns
  iintro ⟨⟨%f0, %hf0, H0⟩, ⟨%f1, %hf1, H1⟩, ⟨%f2, %hf2, H2⟩, ⟨%d, %fo, %hfo, HO⟩, ⟨%fs, %hfs, HS⟩, Hk⟩
  obtain rfl := harg2.eq_unread hf0; obtain rfl := harg3.eq_unread hf1; obtain rfl := harg4.eq_unread hf2; obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [HO]
  · iexists _; isplitr
    swap; · iexact HO
    ipureintro
    sl_unfold_run_names
    rw [View.read_writes_eq_canon _ _ _ (fun y => ⟨_, List.mem_cons_self, View.mem_set_unit_zero hz2_1 inb_S256x2048_S256x2048_0_0 y⟩), View.canon_cons_unit_zero hz2_1]
    simp only [View.readCov_unit_zero (S := S256x2048) _ hz2_1, View.readAt_eq_ld, harg2.read_unread, harg3.read_unread, harg4.read_unread, harg6.read_unread, View.ld_unit_zero (S := S256x2048) hz2_1, View.ld_unit_zero (S := S2048x2048) hz2_1, View.ld_unit_zero (S := S1x2048) hz2_1]
  iexists _; isplitr
  swap; · iexact HS
  ipureintro
  sl_unfold_run_names
  rw [View.read_writes_eq_canon _ _ _ (fun y => ⟨_, List.mem_cons_self, View.mem_set_unit_zero hz2_1 inb_S256x2048_S256x2048_0_0 y⟩), View.canon_cons_unit_zero hz2_1]
  simp only [View.readCov_unit_zero (S := S256x2048) _ hz2_1, View.readAt_eq_ld, harg2.read_unread, harg3.read_unread, harg4.read_unread, harg6.read_unread, View.ld_unit_zero (S := S256x2048) hz2_1, View.ld_unit_zero (S := S2048x2048) hz2_1, View.ld_unit_zero (S := S1x2048) hz2_1]

end Cert.Kernel.Hand
end
-- ==== Proof.KRegion1.lean ====
import proofs.«110502_j4913442587016_1_alg».proof.Proof.Gen.Kernel.Launch
import proofs.«110502_j4913442587016_1_alg».proof.Proof.Gen.Kernel.Skeleton
import proofs.«110502_j4913442587016_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«110502_j4913442587016_1_alg».proof.Proof.KRuns1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 1: the windows' blocks, the accumulator and the output block, point by point -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after point `n`: at the first point of each run of four (the first block of the contracted axis)
    the product of that point's blocks added to zero, afterwards the point's product added to what the point before left. -/
def acc1 (c : Dev nD) : (n : ℕ) → n < cfg1.N → Vec F S256x2048 .f32
  | 0, h => k1_pay2 (k1_pay1 (F := F)) (iblk1 V c 0 ⟨0, h⟩) (iblk1 V c 1 ⟨0, h⟩)
  | n + 1, h =>
    if (n + 1) % 4 = 0 then k1_pay2 (k1_pay1 (F := F)) (iblk1 V c 0 ⟨n + 1, h⟩) (iblk1 V c 1 ⟨n + 1, h⟩)
    else k1_pay2 (acc1 c n (Nat.lt_of_succ_lt h)) (iblk1 V c 0 ⟨n + 1, h⟩) (iblk1 V c 1 ⟨n + 1, h⟩)

/-- The output block after point `t` (meaningful at the last block of the contracted axis, where it is stored and
    written back): the epilogue of the accumulator and the bias row. -/
def out1 (c : Dev nD) (t : Fin cfg1.N) : Vec F S256x2048 .bf16 :=
  k1_pay3 (acc1 V c t.val t.isLt) (iblk1 V c 2 t)

/-- The kernel's scratch operand as a memref. -/
abbrev scM1 : Memref sig .tc .vmem S256x2048 .f32 := Memref.whole cc1_scratch0

/-- The scoped buffers that are neither a staging buffer of this call nor its scratch, at some contents each. -/
abbrev rest1 (c : Dev nD) : sProp 𝕄 :=
  Pipeline.scopedRestBut (Ix := Unit) (Name := ℕ) (U := UR sig nD τ) (Lvl := ℕ) (Val := Elt F) spec1 c [cc1_scratch0]

/-- The region invariant before position `n`: before the first point every scoped buffer at anything; afterwards the
    scratch at the accumulator the point before left, the other scoped buffers at anything, the generator register at some state. -/
def PhiS1 (c : Dev nD) : (n : ℕ) → n ≤ cfg1.N → sProp 𝕄
  | 0, _ => Pipeline.ΦA spec1 c
  | n + 1, hn => iprop((owns (c : Thread nD τ) scM1 fullShare (acc1 V c n hn) ∗ rest1 c) ∗ (∃ r, prngReg c r))

/-- The proof data of pipeline 1 on core `c` at the entry contents `V`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1 V c t := by dsimp only [dat1]

/-- Input window 0's staging buffer holds the window's block at every point, fetched there or kept from the point before. -/
theorem before1_0 (c : Dev nD) (t : Fin cfg1.N) (d) : (dat1 V c).before 0 t d = iblk1 V c 0 t := by
  refine ((dat1 V c).before_in_eq_fetched 0 rfl (fun _ => rfl) (fun _ _ _ => rfl) (fun t => ?_) t d).trans ?_
  · rw [after1_0]; unfold Dat.blockOf iblk1; rw [A_eq1]; try rfl
  · unfold Dat.fetched Dat.blockOf iblk1; rw [A_eq1]; try rfl
/-- Input window 1's staging buffer holds the window's block at every point, fetched there or kept from the point before. -/
theorem before1_1 (c : Dev nD) (t : Fin cfg1.N) (d) : (dat1 V c).before 1 t d = iblk1 V c 1 t := by
  refine ((dat1 V c).before_in_eq_fetched 1 rfl (fun _ => rfl) (fun _ _ _ => rfl) (fun t => ?_) t d).trans ?_
  · rw [after1_1]; unfold Dat.blockOf iblk1; rw [A_eq1]; try rfl
  · unfold Dat.fetched Dat.blockOf iblk1; rw [A_eq1]; try rfl
/-- Input window 2's staging buffer holds the window's block at every point, fetched there or kept from the point before. -/
theorem before1_2 (c : Dev nD) (t : Fin cfg1.N) (d) : (dat1 V c).before 2 t d = iblk1 V c 2 t := by
  refine ((dat1 V c).before_in_eq_fetched 2 rfl (fun _ => rfl) (fun _ _ _ => rfl) (fun t => ?_) t d).trans ?_
  · rw [after1_2]; unfold Dat.blockOf iblk1; rw [A_eq1]; try rfl
  · unfold Dat.fetched Dat.blockOf iblk1; rw [A_eq1]; try rfl

/-! ## The accumulator's recursion, point by point -/

theorem acc1_first (c : Dev nD) (t : Fin cfg1.N) (h0 : t.val % 4 = 0) :
    acc1 V c t.val t.isLt = k1_pay2 (k1_pay1 (F := F)) (iblk1 V c 0 t) (iblk1 V c 1 t) := by
  obtain ⟨n, hn⟩ := t
  cases n with
  | zero => rfl
  | succ n => exact if_pos h0

theorem acc1_next (c : Dev nD) (t : Fin cfg1.N) (h0 : ¬t.val % 4 = 0) :
    acc1 V c t.val t.isLt
      = k1_pay2 (acc1 V c (t.val - 1) (Nat.lt_of_le_of_lt (Nat.sub_le _ _) t.isLt)) (iblk1 V c 0 t) (iblk1 V c 1 t) := by
  obtain ⟨n, hn⟩ := t
  cases n with
  | zero => exact absurd (Nat.zero_mod _) h0
  | succ n => exact if_neg h0

/-! ## The invariant, unfolded at a position -/

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((owns (c : Thread nD τ) scM1 fullShare (acc1 V c n hn) ∗ rest1 c) ∗ (∃ r, prngReg c r)) := rfl

theorem PhiS1_pos (c : Dev nD) (n : ℕ) (h : n ≤ cfg1.N) (hz : n ≠ 0) :
    PhiS1 V c n h = iprop((owns (c : Thread nD τ) scM1 fullShare (acc1 V c (n - 1) (by omega)) ∗ rest1 c) ∗ (∃ r, prngReg c r)) := by
  cases n with
  | zero => exact absurd rfl hz
  | succ n => rfl

theorem PhiS1_castSucc (c : Dev nD) (t : Fin cfg1.N) :
    (dat1 V c).Φ t.castSucc = PhiS1 V c t.val (Nat.le_of_lt t.isLt) := by
  dsimp only [dat1]; simp only [Fin.coe_castSucc]

/-- What the region is handed of the scoped buffers, with the scratch singled out. -/
theorem PhiA1_eq (c : Dev nD) :
    (Pipeline.ΦA spec1 c : sProp 𝕄)
      = iprop(((∃ d, owns (c : Thread nD τ) scM1 fullShare d) ∗ rest1 c) ∗ (∃ r, prngReg c r)) := by
  unfold Pipeline.ΦA
  rw [Pipeline.scopedRest_split_of_list spec1 c [cc1_scratch0] (by decide) (by decide)]
  simp only [scM1, owns_whole]; try rfl

/-! ## Where the windows are live -/

theorem live1_0 : ∀ t : Fin cfg1.N, cfg1.idle 0 (grid1.coords t) = false := by decide +kernel
theorem leaves1_0 (c : Dev nD) (t : Fin cfg1.N) :
    (dat1 V c).leavesExact 0 t = owns (c : Thread nD τ) (win1_0.stage (cfg1.slots t 0)) fullShare (iblk1 V c 0 t) := by
  unfold Dat.leavesExact; rw [live1_0 t, after1_0]
theorem live1_1 : ∀ t : Fin cfg1.N, cfg1.idle 1 (grid1.coords t) = false := by decide +kernel
theorem leaves1_1 (c : Dev nD) (t : Fin cfg1.N) :
    (dat1 V c).leavesExact 1 t = owns (c : Thread nD τ) (win1_1.stage (cfg1.slots t 1)) fullShare (iblk1 V c 1 t) := by
  unfold Dat.leavesExact; rw [live1_1 t, after1_1]
theorem live1_2 : ∀ t : Fin cfg1.N, cfg1.idle 2 (grid1.coords t) = false := by decide +kernel
theorem leaves1_2 (c : Dev nD) (t : Fin cfg1.N) :
    (dat1 V c).leavesExact 2 t = owns (c : Thread nD τ) (win1_2.stage (cfg1.slots t 2)) fullShare (iblk1 V c 2 t) := by
  unfold Dat.leavesExact; rw [live1_2 t, after1_2]
/-- The output window is idle, and not written back, away from the last block of the contracted axis; live there. -/
theorem idle1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem live1_3 : ∀ t : Fin cfg1.N, cond1_1 (grid1.coords t) → cfg1.idle 3 (grid1.coords t) = false := by decide +kernel

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (win1_0.stage (cfg1.slots t 0)) fullShare ((dat1 V c).before 0 t d))
    ∗ (∃ d, owns (c : Thread nD τ) (win1_1.stage (cfg1.slots t 1)) fullShare ((dat1 V c).before 1 t d))
    ∗ (∃ d, owns (c : Thread nD τ) (win1_2.stage (cfg1.slots t 2)) fullShare ((dat1 V c).before 2 t d))
    ∗ (∃ d, owns (c : Thread nD τ) (win1_3.stage (cfg1.slots t 3)) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- The body at any point: the inputs' buffers hold their blocks; the point's place in its run of four says which case
    of the body runs; the invariant hands over the scratch at what the point before left (at anything at the very
    first point) and takes it back at this point's accumulator; the output buffer is stored only in the last case. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2]
  have hN : t.val < 16 := lt_of_lt_of_eq t.isLt (show cfg1.N = 16 from N_1)
  by_cases h3 : t.val % 4 = 3
  · -- the last block of the contracted axis
    have h0 : ¬t.val % 4 = 0 := by omega
    have hz : t.val ≠ 0 := by omega
    have hc0 : ¬cond1_0 (grid1.coords t) := fun h => h0 ((hcond1_0 t).mp h)
    have hc1 : cond1_1 (grid1.coords t) := (hcond1_1 t).mpr h3
    rw [show (dat1 V c).leavesExact 3 t = owns (c : Thread nD τ) (win1_3.stage (cfg1.slots t 3)) fullShare ((dat1 V c).after 3 t) from by
      unfold Dat.leavesExact; rw [live1_3 t hc1], after1_3]
    unfold out1
    rw [acc1_next V c t h0, PhiS1_castSucc V c t, PhiS1_pos V c _ _ hz]
    iintro ⟨⟨⟨HS, Hrest⟩, Hg⟩, Ho, ⟨%d0, H0⟩, ⟨%d1, H1⟩, ⟨%d2, H2⟩, ⟨%d3, H3⟩⟩
    iapply (run1_last c (grid1.coords t) _ _ _ _ _ _ _ _ _ _ hc0 hc1 (iblk1 V c 0 t) (iblk1 V c 1 t) (iblk1 V c 2 t) _ Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    iexact H3
  · have hc1 : ¬cond1_1 (grid1.coords t) := fun h => h3 ((hcond1_1 t).mp h)
    rw [Dat.leavesExact_idle (dat1 V c) 3 t (idle1_3 t hc1) (noFlush1_3 t hc1)]
    by_cases h0 : t.val % 4 = 0
    · -- the first block of the contracted axis
      have hc0 : cond1_0 (grid1.coords t) := (hcond1_0 t).mpr h0
      rw [acc1_first V c t h0, PhiS1_castSucc V c t]
      by_cases hz : t.val = 0
      · rw [PhiS1_zero V c _ _ hz, PhiA1_eq]
        iintro ⟨⟨⟨HS, Hrest⟩, Hg⟩, Ho, ⟨%d0, H0⟩, ⟨%d1, H1⟩, ⟨%d2, H2⟩, ⟨%d3, H3⟩⟩
        iapply (run1_first c (grid1.coords t) _ _ _ _ _ _ _ _ _ _ hc0 hc1 (iblk1 V c 0 t) (iblk1 V c 1 t) (iblk1 V c 2 t) _ Set.univ _)
        isplitl [H0]; · iexact H0
        isplitl [H1]; · iexact H1
        isplitl [H2]; · iexact H2
        isplitl [H3]; · iexact H3
        isplitl [HS]; · iexact HS
        iintro ⟨H0, H1, H2, H3, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        isplitl [H2]; · iexact H2
        iexists _; iexact H3
      · rw [PhiS1_pos V c _ _ hz]
        iintro ⟨⟨⟨HS, Hrest⟩, Hg⟩, Ho, ⟨%d0, H0⟩, ⟨%d1, H1⟩, ⟨%d2, H2⟩, ⟨%d3, H3⟩⟩
        iapply (run1_first c (grid1.coords t) _ _ _ _ _ _ _ _ _ _ hc0 hc1 (iblk1 V c 0 t) (iblk1 V c 1 t) (iblk1 V c 2 t) _ Set.univ _)
        isplitl [H0]; · iexact H0
        isplitl [H1]; · iexact H1
        isplitl [H2]; · iexact H2
        isplitl [H3]; · iexact H3
        isplitl [HS]; · iexists _; iexact HS
        iintro ⟨H0, H1, H2, H3, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        isplitl [H2]; · iexact H2
        iexists _; iexact H3
    · -- a middle block
      have hz : t.val ≠ 0 := by omega
      have hc0 : ¬cond1_0 (grid1.coords t) := fun h => h0 ((hcond1_0 t).mp h)
      rw [acc1_next V c t h0, PhiS1_castSucc V c t, PhiS1_pos V c _ _ hz]
      iintro ⟨⟨⟨HS, Hrest⟩, Hg⟩, Ho, ⟨%d0, H0⟩, ⟨%d1, H1⟩, ⟨%d2, H2⟩, ⟨%d3, H3⟩⟩
      iapply (run1_mid c (grid1.coords t) _ _ _ _ _ _ _ _ _ _ hc0 hc1 (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexists _; iexact H3

/-- Every grid point's obligation, in the form the pipeline library asks for. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped buffers back, the accumulator's contents forgotten. -/
theorem hout1 (c : Dev nD) : (dat1 V c).Φ (Fin.last cfg1.N) ⊢ Pipeline.ΦA spec1 c := by
  have hne : (Fin.last cfg1.N).val ≠ 0 := by rw [Fin.val_last]; have : cfg1.N = 16 := N_1; omega
  rw [show (dat1 V c).Φ (Fin.last cfg1.N) = PhiS1 V c (Fin.last cfg1.N).val (Nat.le_of_lt_succ (Fin.last cfg1.N).isLt) from rfl,
    PhiS1_pos V c _ _ hne, PhiA1_eq]
  iintro ⟨⟨HS, Hrest⟩, Hg⟩
  isplitl [HS Hrest]
  · isplitl [HS]; · iexists _; iexact HS
    iexact Hrest
  iexact Hg

end Cert.Kernel.Hand
end
-- ==== Proof.KRuns2.lean ====
import proofs.«110502_j4913442587016_1_alg».proof.Proof.Gen.Kernel.Launch
import proofs.«110502_j4913442587016_1_alg».proof.Proof.Gen.Kernel.Skeleton
import proofs.«110502_j4913442587016_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The zero offsets of a whole-block rectangle, as a function. -/
theorem hz2_2 : (![0, 0] : Fin 2 → ℕ) = fun _ => 0 := by funext a; fin_cases a <;> rfl

/-! ## Kernel 2: its two branch conditions over the grid -/

/-- "This is the first block of the contracted axis": the condition of the body's first conditional. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)
/-- "This is the last block of the contracted axis": the condition of the body's second conditional. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## Kernel 2: the body's triple in each of its three cases -/

set_option maxHeartbeats 1000000 in
/-- FIRST block of the contracted axis: the scratch, at anything, is zeroed and the product of the two blocks added;
    the output buffer is not touched. -/
theorem run2_first (c : Dev nD) (i : grid2.Coords) (arg2 : Memref sig .tc .vmem S256x2048 .bf16) (harg2 : arg2.IsWhole) (arg3 : Memref sig .tc .vmem S2048x2048 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S256x2048 .f32) (harg8 : arg8.IsWhole)
    (hc0 : cond2_0 i) (hc1 : ¬cond2_1 i) (x0 : Vec F S256x2048 .bf16) (x1 : Vec F S2048x2048 .bf16) (x2 : Vec F S1x2048 .f32) (x3 : Vec F S1x2048 .f32) (x4 : Vec F S1x2048 .f32) (xo : Vec F S256x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ owns (c : Thread nD τ) arg8 fullShare (k2_pay2 (k2_pay1 (F := F)) x0 x1)) -∗ K ⟨⟩))
      ⊢ wp frame (wpE (defs₀ (F := F)) Variants.none c none) E (cc2_kernel i arg2 harg2 arg3 harg3 arg4 harg4 arg5 harg5 arg6 harg6 arg7 harg7 arg8 harg8) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%d, %fs, %hfs, HS⟩, Hk⟩
  obtain rfl := harg2.eq_unread hf0; obtain rfl := harg3.eq_unread hf1; obtain rfl := harg4.eq_unread hf2; obtain rfl := harg5.eq_unread hf3; obtain rfl := harg6.eq_unread hf4
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [HO]
  · iexists _; isplitr; · ipureintro; exact hfo
    iexact HO
  iexists _; isplitr
  swap; · iexact HS
  ipureintro
  sl_unfold_run_names
  rw [View.read_writes_eq_canon _ _ _ (fun y => ⟨_, List.mem_cons_self, View.mem_set_unit_zero hz2_2 inb_S256x2048_S256x2048_0_0 y⟩), View.canon_cons_unit_zero hz2_2]
  simp only [View.readCov_unit_zero (S := S256x2048) _ hz2_2, View.readAt_eq_ld, harg2.read_unread, harg3.read_unread, harg4.read_unread, harg5.read_unread, harg6.read_unread, harg8.read_unread, View.ld_unit_zero (S := S256x2048) hz2_2, View.ld_unit_zero (S := S2048x2048) hz2_2, View.ld_unit_zero (S := S1x2048) hz2_2]

set_option maxHeartbeats 1000000 in
/-- A MIDDLE block: the product of the two blocks is added to what the scratch held; the output buffer is not touched. -/
theorem run2_mid (c : Dev nD) (i : grid2.Coords) (arg2 : Memref sig .tc .vmem S256x2048 .bf16) (harg2 : arg2.IsWhole) (arg3 : Memref sig .tc .vmem S2048x2048 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S256x2048 .f32) (harg8 : arg8.IsWhole)
    (hc0 : ¬cond2_0 i) (hc1 : ¬cond2_1 i) (x0 : Vec F S256x2048 .bf16) (x1 : Vec F S2048x2048 .bf16) (x2 : Vec F S1x2048 .f32) (x3 : Vec F S1x2048 .f32) (x4 : Vec F S1x2048 .f32) (xo : Vec F S256x2048 .f32) (xs : Vec F S256x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ owns (c : Thread nD τ) arg8 fullShare (k2_pay2 xs x0 x1)) -∗ K ⟨⟩))
      ⊢ wp frame (wpE (defs₀ (F := F)) Variants.none c none) E (cc2_kernel i arg2 harg2 arg3 harg3 arg4 harg4 arg5 harg5 arg6 harg6 arg7 harg7 arg8 harg8) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [HO]
  · iexists _; isplitr; · ipureintro; exact hfo
    iexact HO
  iexists _; isplitr
  swap; · iexact HS
  ipureintro
  sl_unfold_run_names
  rw [View.read_writes_eq_canon _ _ _ (fun y => ⟨_, List.mem_cons_self, View.mem_set_unit_zero hz2_2 inb_S256x2048_S256x2048_0_0 y⟩), View.canon_cons_unit_zero hz2_2]
  simp only [View.readCov_unit_zero (S := S256x2048) _ hz2_2, View.readAt_eq_ld, harg2.read_unread, harg3.read_unread, harg4.read_unread, harg5.read_unread, harg6.read_unread, harg8.read_unread, View.ld_unit_zero (S := S256x2048) hz2_2, View.ld_unit_zero (S := S2048x2048) hz2_2, View.ld_unit_zero (S := S1x2048) hz2_2]

set_option maxHeartbeats 1000000 in
/-- The LAST block: the product is added to the scratch, and the epilogue of the sum is stored into the output buffer
    (which held anything). -/
theorem run2_last (c : Dev nD) (i : grid2.Coords) (arg2 : Memref sig .tc .vmem S256x2048 .bf16) (harg2 : arg2.IsWhole) (arg3 : Memref sig .tc .vmem S2048x2048 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S256x2048 .f32) (harg8 : arg8.IsWhole)
    (hc0 : ¬cond2_0 i) (hc1 : cond2_1 i) (x0 : Vec F S256x2048 .bf16) (x1 : Vec F S2048x2048 .bf16) (x2 : Vec F S1x2048 .f32) (x3 : Vec F S1x2048 .f32) (x4 : Vec F S1x2048 .f32) (xs : Vec F S256x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k2_pay3 (k2_pay2 xs x0 x1) x2 x3 x4) ∗ owns (c : Thread nD τ) arg8 fullShare (k2_pay2 xs x0 x1)) -∗ K ⟨⟩))
      ⊢ wp frame (wpE (defs₀ (F := F)) Variants.none c none) E (cc2_kernel i arg2 harg2 arg3 harg3 arg4 harg4 arg5 harg5 arg6 harg6 arg7 harg7 arg8 harg8) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%d, %fo, %hfo, HO⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [HO]
  · iexists _; isplitr
    swap; · iexact HO
    ipureintro
    sl_unfold_run_names
    rw [View.read_writes_eq_canon _ _ _ (fun y => ⟨_, List.mem_cons_self, View.mem_set_unit_zero hz2_2 inb_S256x2048_S256x2048_0_0 y⟩), View.canon_cons_unit_zero hz2_2]
    simp only [View.readCov_unit_zero (S := S256x2048) _ hz2_2, View.readAt_eq_ld, harg2.read_unread, harg3.read_unread, harg4.read_unread, harg5.read_unread, harg6.read_unread, harg8.read_unread, View.ld_unit_zero (S := S256x2048) hz2_2, View.ld_unit_zero (S := S2048x2048) hz2_2, View.ld_unit_zero (S := S1x2048) hz2_2]
  iexists _; isplitr
  swap; · iexact HS
  ipureintro
  sl_unfold_run_names
  rw [View.read_writes_eq_canon _ _ _ (fun y => ⟨_, List.mem_cons_self, View.mem_set_unit_zero hz2_2 inb_S256x2048_S256x2048_0_0 y⟩), View.canon_cons_unit_zero hz2_2]
  simp only [View.readCov_unit_zero (S := S256x2048) _ hz2_2, View.readAt_eq_ld, harg2.read_unread, harg3.read_unread, harg4.read_unread, harg5.read_unread, harg6.read_unread, harg8.read_unread, View.ld_unit_zero (S := S256x2048) hz2_2, View.ld_unit_zero (S := S2048x2048) hz2_2, View.ld_unit_zero (S := S1x2048) hz2_2]

end Cert.Kernel.Hand
end
-- ==== Proof.KRegion2.lean ====
import proofs.«110502_j4913442587016_1_alg».proof.Proof.Gen.Kernel.Launch
import proofs.«110502_j4913442587016_1_alg».proof.Proof.Gen.Kernel.Skeleton
import proofs.«110502_j4913442587016_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«110502_j4913442587016_1_alg».proof.Proof.KRuns2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 2: the windows' blocks, the accumulator and the output block, point by point -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator after point `n`: at the first point of each run of four (the first block of the contracted axis)
    the product of that point's blocks added to zero, afterwards the point's product added to what the point before left. -/
def acc2 (c : Dev nD) : (n : ℕ) → n < cfg2.N → Vec F S256x2048 .f32
  | 0, h => k2_pay2 (k2_pay1 (F := F)) (iblk2 V c 0 ⟨0, h⟩) (iblk2 V c 1 ⟨0, h⟩)
  | n + 1, h =>
    if (n + 1) % 4 = 0 then k2_pay2 (k2_pay1 (F := F)) (iblk2 V c 0 ⟨n + 1, h⟩) (iblk2 V c 1 ⟨n + 1, h⟩)
    else k2_pay2 (acc2 c n (Nat.lt_of_succ_lt h)) (iblk2 V c 0 ⟨n + 1, h⟩) (iblk2 V c 1 ⟨n + 1, h⟩)

/-- The output block after point `t` (meaningful at the last block of the contracted axis, where it is stored and
    written back): the epilogue of the accumulator, the bias row, the boundary-value row and the mask row. -/
def out2 (c : Dev nD) (t : Fin cfg2.N) : Vec F S256x2048 .f32 :=
  k2_pay3 (acc2 V c t.val t.isLt) (iblk2 V c 2 t) (iblk2 V c 3 t) (iblk2 V c 4 t)

/-- The kernel's scratch operand as a memref. -/
abbrev scM2 : Memref sig .tc .vmem S256x2048 .f32 := Memref.whole cc2_scratch0

/-- The scoped buffers that are neither a staging buffer of this call nor its scratch, at some contents each. -/
abbrev rest2 (c : Dev nD) : sProp 𝕄 :=
  Pipeline.scopedRestBut (Ix := Unit) (Name := ℕ) (U := UR sig nD τ) (Lvl := ℕ) (Val := Elt F) spec2 c [cc2_scratch0]

/-- The region invariant before position `n`: before the first point every scoped buffer at anything; afterwards the
    scratch at the accumulator the point before left, the other scoped buffers at anything, the generator register at some state. -/
def PhiS2 (c : Dev nD) : (n : ℕ) → n ≤ cfg2.N → sProp 𝕄
  | 0, _ => Pipeline.ΦA spec2 c
  | n + 1, hn => iprop((owns (c : Thread nD τ) scM2 fullShare (acc2 V c n hn) ∗ rest2 c) ∗ (∃ r, prngReg c r))

/-- The proof data of pipeline 2 on core `c` at the entry contents `V`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2 V c t := by dsimp only [dat2]

/-- Input window 0's staging buffer holds the window's block at every point, fetched there or kept from the point before. -/
theorem before2_0 (c : Dev nD) (t : Fin cfg2.N) (d) : (dat2 V c).before 0 t d = iblk2 V c 0 t := by
  refine ((dat2 V c).before_in_eq_fetched 0 rfl (fun _ => rfl) (fun _ _ _ => rfl) (fun t => ?_) t d).trans ?_
  · rw [after2_0]; unfold Dat.blockOf iblk2; rw [A_eq2]; try rfl
  · unfold Dat.fetched Dat.blockOf iblk2; rw [A_eq2]; try rfl
/-- Input window 1's staging buffer holds the window's block at every point, fetched there or kept from the point before. -/
theorem before2_1 (c : Dev nD) (t : Fin cfg2.N) (d) : (dat2 V c).before 1 t d = iblk2 V c 1 t := by
  refine ((dat2 V c).before_in_eq_fetched 1 rfl (fun _ => rfl) (fun _ _ _ => rfl) (fun t => ?_) t d).trans ?_
  · rw [after2_1]; unfold Dat.blockOf iblk2; rw [A_eq2]; try rfl
  · unfold Dat.fetched Dat.blockOf iblk2; rw [A_eq2]; try rfl
/-- Input window 2's staging buffer holds the window's block at every point, fetched there or kept from the point before. -/
theorem before2_2 (c : Dev nD) (t : Fin cfg2.N) (d) : (dat2 V c).before 2 t d = iblk2 V c 2 t := by
  refine ((dat2 V c).before_in_eq_fetched 2 rfl (fun _ => rfl) (fun _ _ _ => rfl) (fun t => ?_) t d).trans ?_
  · rw [after2_2]; unfold Dat.blockOf iblk2; rw [A_eq2]; try rfl
  · unfold Dat.fetched Dat.blockOf iblk2; rw [A_eq2]; try rfl
/-- Input window 3's staging buffer holds the window's block at every point, fetched there or kept from the point before. -/
theorem before2_3 (c : Dev nD) (t : Fin cfg2.N) (d) : (dat2 V c).before 3 t d = iblk2 V c 3 t := by
  refine ((dat2 V c).before_in_eq_fetched 3 rfl (fun _ => rfl) (fun _ _ _ => rfl) (fun t => ?_) t d).trans ?_
  · rw [after2_3]; unfold Dat.blockOf iblk2; rw [A_eq2]; try rfl
  · unfold Dat.fetched Dat.blockOf iblk2; rw [A_eq2]; try rfl
/-- Input window 4's staging buffer holds the window's block at every point, fetched there or kept from the point before. -/
theorem before2_4 (c : Dev nD) (t : Fin cfg2.N) (d) : (dat2 V c).before 4 t d = iblk2 V c 4 t := by
  refine ((dat2 V c).before_in_eq_fetched 4 rfl (fun _ => rfl) (fun _ _ _ => rfl) (fun t => ?_) t d).trans ?_
  · rw [after2_4]; unfold Dat.blockOf iblk2; rw [A_eq2]; try rfl
  · unfold Dat.fetched Dat.blockOf iblk2; rw [A_eq2]; try rfl

/-! ## The accumulator's recursion, point by point -/

theorem acc2_first (c : Dev nD) (t : Fin cfg2.N) (h0 : t.val % 4 = 0) :
    acc2 V c t.val t.isLt = k2_pay2 (k2_pay1 (F := F)) (iblk2 V c 0 t) (iblk2 V c 1 t) := by
  obtain ⟨n, hn⟩ := t
  cases n with
  | zero => rfl
  | succ n => exact if_pos h0

theorem acc2_next (c : Dev nD) (t : Fin cfg2.N) (h0 : ¬t.val % 4 = 0) :
    acc2 V c t.val t.isLt
      = k2_pay2 (acc2 V c (t.val - 1) (Nat.lt_of_le_of_lt (Nat.sub_le _ _) t.isLt)) (iblk2 V c 0 t) (iblk2 V c 1 t) := by
  obtain ⟨n, hn⟩ := t
  cases n with
  | zero => exact absurd (Nat.zero_mod _) h0
  | succ n => exact if_neg h0

/-! ## The invariant, unfolded at a position -/

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop((owns (c : Thread nD τ) scM2 fullShare (acc2 V c n hn) ∗ rest2 c) ∗ (∃ r, prngReg c r)) := rfl

theorem PhiS2_pos (c : Dev nD) (n : ℕ) (h : n ≤ cfg2.N) (hz : n ≠ 0) :
    PhiS2 V c n h = iprop((owns (c : Thread nD τ) scM2 fullShare (acc2 V c (n - 1) (by omega)) ∗ rest2 c) ∗ (∃ r, prngReg c r)) := by
  cases n with
  | zero => exact absurd rfl hz
  | succ n => rfl

theorem PhiS2_castSucc (c : Dev nD) (t : Fin cfg2.N) :
    (dat2 V c).Φ t.castSucc = PhiS2 V c t.val (Nat.le_of_lt t.isLt) := by
  dsimp only [dat2]; simp only [Fin.coe_castSucc]

/-- What the region is handed of the scoped buffers, with the scratch singled out. -/
theorem PhiA2_eq (c : Dev nD) :
    (Pipeline.ΦA spec2 c : sProp 𝕄)
      = iprop(((∃ d, owns (c : Thread nD τ) scM2 fullShare d) ∗ rest2 c) ∗ (∃ r, prngReg c r)) := by
  unfold Pipeline.ΦA
  rw [Pipeline.scopedRest_split_of_list spec2 c [cc2_scratch0] (by decide) (by decide)]
  simp only [scM2, owns_whole]; try rfl

/-! ## Where the windows are live -/

theorem live2_0 : ∀ t : Fin cfg2.N, cfg2.idle 0 (grid2.coords t) = false := by decide +kernel
theorem leaves2_0 (c : Dev nD) (t : Fin cfg2.N) :
    (dat2 V c).leavesExact 0 t = owns (c : Thread nD τ) (win2_0.stage (cfg2.slots t 0)) fullShare (iblk2 V c 0 t) := by
  unfold Dat.leavesExact; rw [live2_0 t, after2_0]
theorem live2_1 : ∀ t : Fin cfg2.N, cfg2.idle 1 (grid2.coords t) = false := by decide +kernel
theorem leaves2_1 (c : Dev nD) (t : Fin cfg2.N) :
    (dat2 V c).leavesExact 1 t = owns (c : Thread nD τ) (win2_1.stage (cfg2.slots t 1)) fullShare (iblk2 V c 1 t) := by
  unfold Dat.leavesExact; rw [live2_1 t, after2_1]
theorem live2_2 : ∀ t : Fin cfg2.N, cfg2.idle 2 (grid2.coords t) = false := by decide +kernel
theorem leaves2_2 (c : Dev nD) (t : Fin cfg2.N) :
    (dat2 V c).leavesExact 2 t = owns (c : Thread nD τ) (win2_2.stage (cfg2.slots t 2)) fullShare (iblk2 V c 2 t) := by
  unfold Dat.leavesExact; rw [live2_2 t, after2_2]
theorem live2_3 : ∀ t : Fin cfg2.N, cfg2.idle 3 (grid2.coords t) = false := by decide +kernel
theorem leaves2_3 (c : Dev nD) (t : Fin cfg2.N) :
    (dat2 V c).leavesExact 3 t = owns (c : Thread nD τ) (win2_3.stage (cfg2.slots t 3)) fullShare (iblk2 V c 3 t) := by
  unfold Dat.leavesExact; rw [live2_3 t, after2_3]
theorem live2_4 : ∀ t : Fin cfg2.N, cfg2.idle 4 (grid2.coords t) = false := by decide +kernel
theorem leaves2_4 (c : Dev nD) (t : Fin cfg2.N) :
    (dat2 V c).leavesExact 4 t = owns (c : Thread nD τ) (win2_4.stage (cfg2.slots t 4)) fullShare (iblk2 V c 4 t) := by
  unfold Dat.leavesExact; rw [live2_4 t, after2_4]
/-- The output window is idle, and not written back, away from the last block of the contracted axis; live there. -/
theorem idle2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel
theorem live2_5 : ∀ t : Fin cfg2.N, cond2_1 (grid2.coords t) → cfg2.idle 5 (grid2.coords t) = false := by decide +kernel

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (win2_0.stage (cfg2.slots t 0)) fullShare ((dat2 V c).before 0 t d))
    ∗ (∃ d, owns (c : Thread nD τ) (win2_1.stage (cfg2.slots t 1)) fullShare ((dat2 V c).before 1 t d))
    ∗ (∃ d, owns (c : Thread nD τ) (win2_2.stage (cfg2.slots t 2)) fullShare ((dat2 V c).before 2 t d))
    ∗ (∃ d, owns (c : Thread nD τ) (win2_3.stage (cfg2.slots t 3)) fullShare ((dat2 V c).before 3 t d))
    ∗ (∃ d, owns (c : Thread nD τ) (win2_4.stage (cfg2.slots t 4)) fullShare ((dat2 V c).before 4 t d))
    ∗ (∃ d, owns (c : Thread nD τ) (win2_5.stage (cfg2.slots t 5)) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4000000 in
/-- The body at any point: the inputs' buffers hold their blocks; the point's place in its run of four says which case
    of the body runs; the invariant hands over the scratch at what the point before left (at anything at the very
    first point) and takes it back at this point's accumulator; the output buffer is stored only in the last case. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3, leaves2_4]
  have hN : t.val < 16 := lt_of_lt_of_eq t.isLt (show cfg2.N = 16 from N_2)
  by_cases h3 : t.val % 4 = 3
  · -- the last block of the contracted axis
    have h0 : ¬t.val % 4 = 0 := by omega
    have hz : t.val ≠ 0 := by omega
    have hc0 : ¬cond2_0 (grid2.coords t) := fun h => h0 ((hcond2_0 t).mp h)
    have hc1 : cond2_1 (grid2.coords t) := (hcond2_1 t).mpr h3
    rw [show (dat2 V c).leavesExact 5 t = owns (c : Thread nD τ) (win2_5.stage (cfg2.slots t 5)) fullShare ((dat2 V c).after 5 t) from by
      unfold Dat.leavesExact; rw [live2_5 t hc1], after2_5]
    unfold out2
    rw [acc2_next V c t h0, PhiS2_castSucc V c t, PhiS2_pos V c _ _ hz]
    iintro ⟨⟨⟨HS, Hrest⟩, Hg⟩, Ho, ⟨%d0, H0⟩, ⟨%d1, H1⟩, ⟨%d2, H2⟩, ⟨%d3, H3⟩, ⟨%d4, H4⟩, ⟨%d5, H5⟩⟩
    iapply (run2_last c (grid2.coords t) _ _ _ _ _ _ _ _ _ _ _ _ _ _ hc0 hc1 (iblk2 V c 0 t) (iblk2 V c 1 t) (iblk2 V c 2 t) (iblk2 V c 3 t) (iblk2 V c 4 t) _ Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    isplitl [H4]; · iexact H4
    iexact H5
  · have hc1 : ¬cond2_1 (grid2.coords t) := fun h => h3 ((hcond2_1 t).mp h)
    rw [Dat.leavesExact_idle (dat2 V c) 5 t (idle2_5 t hc1) (noFlush2_5 t hc1)]
    by_cases h0 : t.val % 4 = 0
    · -- the first block of the contracted axis
      have hc0 : cond2_0 (grid2.coords t) := (hcond2_0 t).mpr h0
      rw [acc2_first V c t h0, PhiS2_castSucc V c t]
      by_cases hz : t.val = 0
      · rw [PhiS2_zero V c _ _ hz, PhiA2_eq]
        iintro ⟨⟨⟨HS, Hrest⟩, Hg⟩, Ho, ⟨%d0, H0⟩, ⟨%d1, H1⟩, ⟨%d2, H2⟩, ⟨%d3, H3⟩, ⟨%d4, H4⟩, ⟨%d5, H5⟩⟩
        iapply (run2_first c (grid2.coords t) _ _ _ _ _ _ _ _ _ _ _ _ _ _ hc0 hc1 (iblk2 V c 0 t) (iblk2 V c 1 t) (iblk2 V c 2 t) (iblk2 V c 3 t) (iblk2 V c 4 t) _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexact HS
        iintro ⟨H0, H1, H2, H3, H4, H5, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS2_pos V c _ _ hz]
        iintro ⟨⟨⟨HS, Hrest⟩, Hg⟩, Ho, ⟨%d0, H0⟩, ⟨%d1, H1⟩, ⟨%d2, H2⟩, ⟨%d3, H3⟩, ⟨%d4, H4⟩, ⟨%d5, H5⟩⟩
        iapply (run2_first c (grid2.coords t) _ _ _ _ _ _ _ _ _ _ _ _ _ _ hc0 hc1 (iblk2 V c 0 t) (iblk2 V c 1 t) (iblk2 V c 2 t) (iblk2 V c 3 t) (iblk2 V c 4 t) _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexists _; iexact HS
        iintro ⟨H0, H1, H2, H3, H4, H5, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
    · -- a middle block
      have hz : t.val ≠ 0 := by omega
      have hc0 : ¬cond2_0 (grid2.coords t) := fun h => h0 ((hcond2_0 t).mp h)
      rw [acc2_next V c t h0, PhiS2_castSucc V c t, PhiS2_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩⟩
      iapply (run2_mid c (grid2.coords t) _ _ _ _ _ _ _ _ _ _ _ _ _ _ hc0 hc1 (iblk2 V c 0 t) (iblk2 V c 1 t) (iblk2 V c 2 t) (iblk2 V c 3 t) (iblk2 V c 4 t) _ _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- Every grid point's obligation, in the form the pipeline library asks for. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the scoped buffers back, the accumulator's contents forgotten. -/
theorem hout2 (c : Dev nD) : (dat2 V c).Φ (Fin.last cfg2.N) ⊢ Pipeline.ΦA spec2 c := by
  have hne : (Fin.last cfg2.N).val ≠ 0 := by rw [Fin.val_last]; have : cfg2.N = 16 := N_2; omega
  rw [show (dat2 V c).Φ (Fin.last cfg2.N) = PhiS2 V c (Fin.last cfg2.N).val (Nat.le_of_lt_succ (Fin.last cfg2.N).isLt) from rfl,
    PhiS2_pos V c _ _ hne, PhiA2_eq]
  iintro ⟨⟨HS, Hrest⟩, Hg⟩
  isplitl [HS Hrest]
  · isplitl [HS]; · iexists _; iexact HS
    iexact Hrest
  iexact Hg

end Cert.Kernel.Hand
end
-- ==== Proof.KFrame.lean ====
import proofs.«110502_j4913442587016_1_alg».proof.Proof.KRegion0
import proofs.«110502_j4913442587016_1_alg».proof.Proof.KRegion1
import proofs.«110502_j4913442587016_1_alg».proof.Proof.KRegion2
import proofs.«110502_j4913442587016_1_alg».proof.Proof.Gen.Kernel.Launch
import proofs.«110502_j4913442587016_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The run of the program: one stretch of host operations, then its three kernel regions back to back

The program's top level is a line of host operations followed by three kernel calls. Between two consecutive pieces a
core holds every unscoped buffer whole at a known valuation; the four valuations below are those contents, each computed
from the one before: the host line's results on top of the launch memory, then, per region, the region's arrays at what
its pipeline leaves in them and every other buffer untouched. -/

section Boundaries

-- the valuations take the launch memory and, for uniformity with the run's statement, the generator registers (which no
-- buffer's contents depend on)
/-- Core `c`'s buffers at launch. -/
abbrev W0 (m : (ℓ : Loc nD τ sig) → Buf (Elt F) ℓ) (ρ : Dev nD → PrngReg) : Dev nD → Valuation τ sig (Elt F) :=
  fun c b => m (c, b)
/-- After the host line: what the first region is entered from. -/
abbrev W1 (m : (ℓ : Loc nD τ sig) → Buf (Elt F) ℓ) (ρ : Dev nD → PrngReg) : Dev nD → Valuation τ sig (Elt F) :=
  fun c => StableHlo.after hostOps0 (fun b => m (c, b))
/-- The same read at the TensorCore's references: the entry contents of the first region. -/
abbrev VE1 (m : (ℓ : Loc nD τ sig) → Buf (Elt F) ℓ) (ρ : Dev nD → PrngReg) :
    (c : Dev nD) → (b : Ref sig .tc) → Buf (Elt F) ((c : Thread nD τ).loc b) := fun c b => W1 m ρ c b

variable (m : (ℓ : Loc nD τ sig) → Buf (Elt F) ℓ) (ρ : Dev nD → PrngReg)

/-- After the first region: its four arrays at what the pipeline leaves there (an input as entered, the output with its
    write-backs folded in), every other buffer as entered. -/
def W2 (c : Dev nD) : Valuation τ sig (Elt F) :=
  Pipeline.withArrays spec0 c (W1 m ρ c) fun w => (dat0 (VE1 m ρ) c).arrAt w cfg0.N
/-- The entry contents of the second region. -/
abbrev VE2 : (c : Dev nD) → (b : Ref sig .tc) → Buf (Elt F) ((c : Thread nD τ).loc b) := fun c b => W2 m ρ c b

/-- After the second region. -/
def W3 (c : Dev nD) : Valuation τ sig (Elt F) :=
  Pipeline.withArrays spec1 c (W2 m ρ c) fun w => (dat1 (VE2 m ρ) c).arrAt w cfg1.N
/-- The entry contents of the third region. -/
abbrev VE3 : (c : Dev nD) → (b : Ref sig .tc) → Buf (Elt F) ((c : Thread nD τ).loc b) := fun c b => W3 m ρ c b

/-- After the third region: the contents the program returns with. -/
def W4 (c : Dev nD) : Valuation τ sig (Elt F) :=
  Pipeline.withArrays spec2 c (W3 m ρ c) fun w => (dat2 (VE3 m ρ) c).arrAt w cfg2.N
/-- The same read at the TensorCore's references. -/
abbrev VE4 : (c : Dev nD) → (b : Ref sig .tc) → Buf (Elt F) ((c : Thread nD τ).loc b) := fun c b => W4 m ρ c b

theorem VE1_eq (c : Dev nD) (b : Ref sig .tc) :
    VE1 m ρ c b = StableHlo.after hostOps0 (fun b => m (c, b)) (Proc.devRef .tc b) := rfl

/-! ## Reading a boundary valuation: at an array of the region just left, and anywhere else -/

theorem W2_at (c : Dev nD) (w : Fin cfg0.W) :
    W2 m ρ c (Proc.devRef .tc (Pipeline.arrRef spec0 w)) = (dat0 (VE1 m ρ) c).arrAt w cfg0.N := by
  unfold W2; exact Pipeline.withArrays_arr spec0 launch0.win.arr_inj c _ _ w
theorem W3_at (c : Dev nD) (w : Fin cfg1.W) :
    W3 m ρ c (Proc.devRef .tc (Pipeline.arrRef spec1 w)) = (dat1 (VE2 m ρ) c).arrAt w cfg1.N := by
  unfold W3; exact Pipeline.withArrays_arr spec1 launch1.win.arr_inj c _ _ w
theorem W4_at (c : Dev nD) (w : Fin cfg2.W) :
    W4 m ρ c (Proc.devRef .tc (Pipeline.arrRef spec2 w)) = (dat2 (VE3 m ρ) c).arrAt w cfg2.N := by
  unfold W4; exact Pipeline.withArrays_arr spec2 launch2.win.arr_inj c _ _ w

/-- A buffer the host line does not write holds its launch contents when the first region is entered. -/
theorem W1_off (c : Dev nD) (b : Ref sig .tc) (hb : b ∉ hostOps0_W) :
    W1 m ρ c (Proc.devRef .tc b) = m ((c : Thread nD τ).loc b) :=
  StableHlo.after_of_writes_sub hostOps0 _ hostOps0_writes hb
/-- A buffer that is no array of the first region leaves it as it entered. -/
theorem W2_off (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same of the second region. -/
theorem W3_off (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same of the third region. -/
theorem W4_off (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb

/-- A buffer nothing writes — no host operation, no region's array — returns as launched. -/
theorem W4_untouched (c : Dev nD) (b : Ref sig .tc) (h : b ∉ hostOps0_W) (h0 : ∀ w, Pipeline.arrRef spec0 w ≠ b)
    (h1 : ∀ w, Pipeline.arrRef spec1 w ≠ b) (h2 : ∀ w, Pipeline.arrRef spec2 w ≠ b) :
    W4 m ρ c (Proc.devRef .tc b) = m ((c : Thread nD τ).loc b) :=
  (W4_off m ρ c b h2).trans ((W3_off m ρ c b h1).trans ((W2_off m ρ c b h0).trans (W1_off m ρ c b h)))

end Boundaries

/-! ## What every region's record shares

Each kernel here keeps a scratch accumulator between grid points, so its invariant is its own; but at the two ENDS of
a region the invariant is the plain one — the scoped buffers no window stages, at anything, beside the generator register
at some state — and the regions' halves say so (`hin`, `hout`). The lemmas below move between that plain invariant and
the pieces a region record names, and between "the core owes nothing" and a proof data's tallies. -/

section Shared

/-- The generator register and the scoped buffers no window stages make the plain invariant; what stands between is let go. -/
theorem plain_intro {gr W : Nat} (win : Fin W → Pipeline.WinSpec sig gr) (c : Dev nD) (P : sProp 𝕄) :
    iprop((∃ r, prngReg c r) ∗ P ∗ Pipeline.scopedRest (Ix := Unit) (Name := ℕ) (U := UR sig nD τ) (Lvl := ℕ) (Val := Elt F) win c)
      ⊢ (Pipeline.ΦA win c : sProp 𝕄) := by
  unfold Pipeline.ΦA
  iintro ⟨Hg, -, Hs⟩
  isplitl [Hs]; · iexact Hs
  iexact Hg

/-- The plain invariant gives them back (no semaphore of the kernel's own: `emp` stands in their place). -/
theorem plain_elim {gr W : Nat} (win : Fin W → Pipeline.WinSpec sig gr) (c : Dev nD) :
    (Pipeline.ΦA win c : sProp 𝕄)
      ⊢ iprop((∃ r, prngReg c r) ∗ BI.emp ∗ Pipeline.scopedRest (Ix := Unit) (Name := ℕ) (U := UR sig nD τ) (Lvl := ℕ) (Val := Elt F) win c) := by
  unfold Pipeline.ΦA
  iintro ⟨Hs, Hg⟩
  isplitl [Hg]; · iexact Hg
  isplitr; · iempintro
  iexact Hs

/-- A core owing nothing holds a proof data's tallies at any position where the data owe nothing and bound nothing. -/
theorem owesAt_intro {cfg : Cfg sig Λ₀} {c : Dev nD} (dat : Dat τ (Elt F) Unit ℕ (UR sig nD τ) ℕ cfg c) (t : Fin (cfg.N + 1))
    (h0 : dat.owed t = 0) (hrec : ∀ x, x ∈ dat.recorded t) :
    (iprop(∃ W, owes (c : Thread nD τ) (0 : CellTallies nD τ sig Unit) W) : sProp 𝕄) ⊢ dat.owesAt () t := by
  unfold Dat.owesAt Pipeline.owesWithin
  rw [h0]
  iintro ⟨%W, HO⟩
  iexists W; isplitr; · ipureintro; exact fun x _ => Or.inl (hrec x)
  iexact HO

/-- And back. -/
theorem owesAt_elim {cfg : Cfg sig Λ₀} {c : Dev nD} (dat : Dat τ (Elt F) Unit ℕ (UR sig nD τ) ℕ cfg c) (t : Fin (cfg.N + 1))
    (h0 : dat.owed t = 0) :
    (dat.owesAt () t : sProp 𝕄) ⊢ iprop(∃ W, owes (c : Thread nD τ) (0 : CellTallies nD τ sig Unit) W) := by
  unfold Dat.owesAt Pipeline.owesWithin
  rw [h0]
  iintro ⟨%W, -, HO⟩
  iexists W; iexact HO

end Shared

/-! ## The pieces of the run -/

section Run

/-- No unit is ever owed between cores in this program, so no pair carries a level. -/
abbrev noLevels : GSem nD τ sig → Finset Unit := fun _ => ∅
abbrev lvl0 : GSem nD τ sig → Unit → ℕ := fun _ _ => 0

/-- A core's unscoped buffers, each whole, at the contents a boundary valuation gives them. -/
abbrev bufsAt (W : Dev nD → Valuation τ sig (Elt F)) (c : Dev nD) : sProp 𝕄 :=
  StableHlo.held (c : Thread nD τ) (Pipeline.ucRefs τ sig) (W c)
/-- The core's generator register at some state. -/
abbrev gen (c : Dev nD) : sProp 𝕄 := iprop(∃ r, prngReg c r)
/-- The core owing nothing. -/
abbrev owesNothing (c : Dev nD) : sProp 𝕄 := iprop(∃ W, owes (c : Thread nD τ) (0 : CellTallies nD τ sig Unit) W)
/-- What a core carries beside its buffers from one piece to the next. -/
abbrev side (c : Dev nD) : sProp 𝕄 := iprop(gen (F := F) c ∗ owesNothing (F := F) c)

/-- A region's entry, as a rearrangement: the buffers split into the arrays and the rest, the tables' share made of
    nothing, the tallies made of owing nothing, the generator register handed to the invariant. -/
theorem entry_shuffle {B G O A T O' Z La : sProp 𝕄} (hB : B ⊢ iprop(A ∗ Z)) (hT : (BI.emp : sProp 𝕄) ⊢ T) (hO : O ⊢ O') :
    iprop((B ∗ G ∗ O) ∗ BI.emp ∗ La) ⊢ (|={Set.univ}=> iprop(A ∗ T ∗ O' ∗ G ∗ Z) : sProp 𝕄) := by
  iintro ⟨⟨HB, HG, HO⟩, -, -⟩
  ihave H := hB $$ HB
  icases H with ⟨HA, HZ⟩
  imodintro
  isplitl [HA]; · iexact HA
  isplitr; · iapply hT; iempintro
  isplitl [HO]; · iapply hO; iexact HO
  isplitl [HG]; · iexact HG
  iexact HZ

/-- A region's exit, as a rearrangement: the arrays and the rest joined into the buffers, the tallies read as owing nothing. -/
theorem exit_shuffle {A O' G Z B O : sProp 𝕄} (hB : iprop(A ∗ Z) ⊢ B) (hO : O' ⊢ O) :
    iprop(A ∗ O' ∗ G ∗ Z) ⊢ (|={Set.univ}=> iprop(B ∗ G ∗ O) : sProp 𝕄) := by
  iintro ⟨HA, HO, HG, HZ⟩
  imodintro
  isplitl [HA HZ]
  · iapply hB; isplitl [HA] <;> iassumption
  isplitl [HG]; · iexact HG
  iapply hO; iexact HO

/-- No pipeline of this program prefetches a table: the tables' share of an entry is made of nothing. -/
theorem noTables (p : Fin 3) (c : Dev nD) :
    (BI.emp : sProp 𝕄) ⊢ Pipeline.prefHeld (pcfgs (F := F) p).pre c (fun _ => fullShare) (adm p).1 := by
  unfold Pipeline.prefHeld
  rw [show (Finset.univ : Finset (Fin (pcfgs (F := F) p).pre.K)) = ∅ from rfl, BI.bigSep_empty]

variable (m : (ℓ : Loc nD τ sig) → Buf (Elt F) ℓ) (ρ : Dev nD → PrngReg)

/-- Every pipeline's proof data, each at the contents its region is entered from; a literal case split on the pipeline,
    so that at a numeral it is that region's data. -/
def regDats : (p : Fin 3) → (c : Dev nD) → Dat τ (Elt F) Unit ℕ (UR sig nD τ) ℕ (Pipeline.pin (pcfgs (F := F)) adm p) c
  | ⟨0, _⟩ => fun c => dat0 (VE1 m ρ) c
  | ⟨1, _⟩ => fun c => dat1 (VE2 m ρ) c
  | ⟨2, _⟩ => fun c => dat2 (VE3 m ρ) c

/-- Region 0's arrays out of the core's unscoped buffers at its entry contents, the rest beside them. -/
theorem split0 (c : Dev nD) :
    bufsAt (W1 m ρ) c ⊢ iprop((regDats m ρ 0 c).arrays ((regDats m ρ 0 c).arrAt · 0)
      ∗ Pipeline.unscopedRest (Ix := Unit) (Name := ℕ) (U := UR sig nD τ) (Lvl := ℕ) spec0 c (VE1 m ρ c)) := by
  have h := Pipeline.arrays_of_unscopedBufs (p := 0) (pcfgs (F := F)) adm (regDats m ρ) launch0.win launch0.arr_whole c
    ((regDats m ρ 0 c).share_full fun _ => rfl) (VE1 m ρ c) fun _ => rfl
  rwa [Pipeline.unscopedBufs_held] at h

/-- And back at its exit: the arrays at what the pipeline leaves, the rest as entered, are the unscoped buffers at the
    next boundary's contents. -/
theorem join0 (c : Dev nD) :
    iprop((regDats m ρ 0 c).arrays ((regDats m ρ 0 c).arrAt · cfg0.N)
      ∗ Pipeline.unscopedRest (Ix := Unit) (Name := ℕ) (U := UR sig nD τ) (Lvl := ℕ) spec0 c (VE1 m ρ c)) ⊢ bufsAt (W2 m ρ) c := by
  have h := Pipeline.unscopedBufs_of_arrays (p := 0) (pcfgs (F := F)) adm (Ix := Unit) (Name := ℕ) (U := UR sig nD τ) (Lvl := ℕ)
    launch0.win launch0.arr_whole c (regDats m ρ) ((regDats m ρ 0 c).share_full fun _ => rfl)
    (VE1 m ρ c) (VE2 m ρ c) ((regDats m ρ 0 c).arrAt · cfg0.N) (fun w => (W2_at m ρ c w).symm)
    (fun b hb => W2_off m ρ c b fun w e => hb (Finset.mem_image.mpr ⟨w, Finset.mem_univ _, e⟩))
  rwa [Pipeline.unscopedBufs_held] at h

-- the library speaks of a pipeline's configuration as looked up in the program's table; identifying it with this region's
-- printed configuration needs definitions unfolded inside the types of unknowns
set_option backward.isDefEq.respectTransparency.types false in
/-- REGION 0 as a piece of the run: entered from every unscoped buffer at `W1`, left at `W2`. -/
def reg0 : Pipeline.RegionSeg (pcfgs (F := F)) adm (regDats m ρ) () defs₀ Variants.none noLevels lvl0 0 where
  win := launch0.win.to₀
  block_pos := launch0.block_pos
  stage_whole := launch0.stage_whole
  K := PEmpty
  osem k := k.elim
  ho := Pipeline.OwnSemFacts.none _
  hbody c := (body_obligation0 (VE1 m ρ) c).loose
  hwaits := Pipeline.hwaits_of_owed_zero _ _ _ _ noLevels lvl0 0 fun _ _ => rfl
  pre c := iprop(bufsAt (W1 m ρ) c ∗ side c)
  post c := iprop(bufsAt (W2 m ρ) c ∗ side c)
  X c := gen c
  Y c := gen c
  Z c := Pipeline.unscopedRest (Ix := Unit) (Name := ℕ) (U := UR sig nD τ) (Lvl := ℕ) spec0 c (VE1 m ρ c)
  hentry c := by
    rw [Pipeline.ownSems0_none]
    exact entry_shuffle (split0 m ρ c) (noTables 0 c) (owesAt_intro (regDats m ρ 0 c) 0 rfl fun _ => trivial)
  hin c := (plain_intro spec0 c _).trans (hin0 (VE1 m ρ) c)
  hout c := by
    rw [Pipeline.ownSems0_none]
    exact (hout0 (VE1 m ρ) c).trans (plain_elim spec0 c)
  hexit c := exit_shuffle (join0 m ρ c) (owesAt_elim (regDats m ρ 0 c) (Fin.last _) rfl)

/-- Region 1's arrays out of the core's unscoped buffers at its entry contents, the rest beside them. -/
theorem split1 (c : Dev nD) :
    bufsAt (W2 m ρ) c ⊢ iprop((regDats m ρ 1 c).arrays ((regDats m ρ 1 c).arrAt · 0)
      ∗ Pipeline.unscopedRest (Ix := Unit) (Name := ℕ) (U := UR sig nD τ) (Lvl := ℕ) spec1 c (VE2 m ρ c)) := by
  have h := Pipeline.arrays_of_unscopedBufs (p := 1) (pcfgs (F := F)) adm (regDats m ρ) launch1.win launch1.arr_whole c
    ((regDats m ρ 1 c).share_full fun _ => rfl) (VE2 m ρ c) fun _ => rfl
  rwa [Pipeline.unscopedBufs_held] at h

/-- And back at its exit: the arrays at what the pipeline leaves, the rest as entered, are the unscoped buffers at the
    next boundary's contents. -/
theorem join1 (c : Dev nD) :
    iprop((regDats m ρ 1 c).arrays ((regDats m ρ 1 c).arrAt · cfg1.N)
      ∗ Pipeline.unscopedRest (Ix := Unit) (Name := ℕ) (U := UR sig nD τ) (Lvl := ℕ) spec1 c (VE2 m ρ c)) ⊢ bufsAt (W3 m ρ) c := by
  have h := Pipeline.unscopedBufs_of_arrays (p := 1) (pcfgs (F := F)) adm (Ix := Unit) (Name := ℕ) (U := UR sig nD τ) (Lvl := ℕ)
    launch1.win launch1.arr_whole c (regDats m ρ) ((regDats m ρ 1 c).share_full fun _ => rfl)
    (VE2 m ρ c) (VE3 m ρ c) ((regDats m ρ 1 c).arrAt · cfg1.N) (fun w => (W3_at m ρ c w).symm)
    (fun b hb => W3_off m ρ c b fun w e => hb (Finset.mem_image.mpr ⟨w, Finset.mem_univ _, e⟩))
  rwa [Pipeline.unscopedBufs_held] at h

-- the library speaks of a pipeline's configuration as looked up in the program's table; identifying it with this region's
-- printed configuration needs definitions unfolded inside the types of unknowns
set_option backward.isDefEq.respectTransparency.types false in
/-- REGION 1 as a piece of the run: entered from every unscoped buffer at `W2`, left at `W3`. -/
def reg1 : Pipeline.RegionSeg (pcfgs (F := F)) adm (regDats m ρ) () defs₀ Variants.none noLevels lvl0 1 where
  win := launch1.win.to₀
  block_pos := launch1.block_pos
  stage_whole := launch1.stage_whole
  K := PEmpty
  osem k := k.elim
  ho := Pipeline.OwnSemFacts.none _
  hbody c := (body_obligation1 (VE2 m ρ) c).loose
  hwaits := Pipeline.hwaits_of_owed_zero _ _ _ _ noLevels lvl0 1 fun _ _ => rfl
  pre c := iprop(bufsAt (W2 m ρ) c ∗ side c)
  post c := iprop(bufsAt (W3 m ρ) c ∗ side c)
  X c := gen c
  Y c := gen c
  Z c := Pipeline.unscopedRest (Ix := Unit) (Name := ℕ) (U := UR sig nD τ) (Lvl := ℕ) spec1 c (VE2 m ρ c)
  hentry c := by
    rw [Pipeline.ownSems0_none]
    exact entry_shuffle (split1 m ρ c) (noTables 1 c) (owesAt_intro (regDats m ρ 1 c) 0 rfl fun _ => trivial)
  hin c := (plain_intro spec1 c _).trans (hin1 (VE2 m ρ) c)
  hout c := by
    rw [Pipeline.ownSems0_none]
    exact (hout1 (VE2 m ρ) c).trans (plain_elim spec1 c)
  hexit c := exit_shuffle (join1 m ρ c) (owesAt_elim (regDats m ρ 1 c) (Fin.last _) rfl)

/-- Region 2's arrays out of the core's unscoped buffers at its entry contents, the rest beside them. -/
theorem split2 (c : Dev nD) :
    bufsAt (W3 m ρ) c ⊢ iprop((regDats m ρ 2 c).arrays ((regDats m ρ 2 c).arrAt · 0)
      ∗ Pipeline.unscopedRest (Ix := Unit) (Name := ℕ) (U := UR sig nD τ) (Lvl := ℕ) spec2 c (VE3 m ρ c)) := by
  have h := Pipeline.arrays_of_unscopedBufs (p := 2) (pcfgs (F := F)) adm (regDats m ρ) launch2.win launch2.arr_whole c
    ((regDats m ρ 2 c).share_full fun _ => rfl) (VE3 m ρ c) fun _ => rfl
  rwa [Pipeline.unscopedBufs_held] at h

/-- And back at its exit: the arrays at what the pipeline leaves, the rest as entered, are the unscoped buffers at the
    next boundary's contents. -/
theorem join2 (c : Dev nD) :
    iprop((regDats m ρ 2 c).arrays ((regDats m ρ 2 c).arrAt · cfg2.N)
      ∗ Pipeline.unscopedRest (Ix := Unit) (Name := ℕ) (U := UR sig nD τ) (Lvl := ℕ) spec2 c (VE3 m ρ c)) ⊢ bufsAt (W4 m ρ) c := by
  have h := Pipeline.unscopedBufs_of_arrays (p := 2) (pcfgs (F := F)) adm (Ix := Unit) (Name := ℕ) (U := UR sig nD τ) (Lvl := ℕ)
    launch2.win launch2.arr_whole c (regDats m ρ) ((regDats m ρ 2 c).share_full fun _ => rfl)
    (VE3 m ρ c) (VE4 m ρ c) ((regDats m ρ 2 c).arrAt · cfg2.N) (fun w => (W4_at m ρ c w).symm)
    (fun b hb => W4_off m ρ c b fun w e => hb (Finset.mem_image.mpr ⟨w, Finset.mem_univ _, e⟩))
  rwa [Pipeline.unscopedBufs_held] at h

-- the library speaks of a pipeline's configuration as looked up in the program's table; identifying it with this region's
-- printed configuration needs definitions unfolded inside the types of unknowns
set_option backward.isDefEq.respectTransparency.types false in
/-- REGION 2 as a piece of the run: entered from every unscoped buffer at `W3`, left at `W4`. -/
def reg2 : Pipeline.RegionSeg (pcfgs (F := F)) adm (regDats m ρ) () defs₀ Variants.none noLevels lvl0 2 where
  win := launch2.win.to₀
  block_pos := launch2.block_pos
  stage_whole := launch2.stage_whole
  K := PEmpty
  osem k := k.elim
  ho := Pipeline.OwnSemFacts.none _
  hbody c := (body_obligation2 (VE3 m ρ) c).loose
  hwaits := Pipeline.hwaits_of_owed_zero _ _ _ _ noLevels lvl0 2 fun _ _ => rfl
  pre c := iprop(bufsAt (W3 m ρ) c ∗ side c)
  post c := iprop(bufsAt (W4 m ρ) c ∗ side c)
  X c := gen c
  Y c := gen c
  Z c := Pipeline.unscopedRest (Ix := Unit) (Name := ℕ) (U := UR sig nD τ) (Lvl := ℕ) spec2 c (VE3 m ρ c)
  hentry c := by
    rw [Pipeline.ownSems0_none]
    exact entry_shuffle (split2 m ρ c) (noTables 2 c) (owesAt_intro (regDats m ρ 2 c) 0 rfl fun _ => trivial)
  hin c := (plain_intro spec2 c _).trans (hin2 (VE3 m ρ) c)
  hout c := by
    rw [Pipeline.ownSems0_none]
    exact (hout2 (VE3 m ρ) c).trans (plain_elim spec2 c)
  hexit c := exit_shuffle (join2 m ρ c) (owesAt_elim (regDats m ρ 2 c) (Fin.last _) rfl)

/-! ## The host line as a piece, the four pieces in order, and the program as their run -/

/-- The host line over the unscoped buffers from the launch contents, the side state riding along: it leaves the buffers
    at the host operations' results on top of the launch contents, which is `W1`. -/
abbrev hostPiece : Pipeline.HostSeg (Name := ℕ) (U := UR sig nD τ) (pcfgs (F := F)) defs₀ Variants.none noLevels lvl0 :=
  seg0 m Variants.none noLevels lvl0 (fun _ c => side c)

/-- The program's pieces in order. -/
abbrev pieces : List (Pipeline.Seg (pcfgs (F := F)) adm (regDats m ρ) () defs₀ Variants.none noLevels lvl0) :=
  [.host (hostPiece m), .region (reg0 m ρ), .region (reg1 m ρ), .region (reg2 m ρ)]

/-- The program is the run of its pieces. -/
theorem main_run (c : Dev nD) : main (F := F) c = Pipeline.Seg.run (pieces m ρ) :=
  main_segs adm (regDats m ρ) () Variants.none noLevels lvl0 (hostPiece m) (reg0 m ρ) (reg1 m ρ) (reg2 m ρ) rfl c

/-- An unscoped TensorCore reference is among the buffers the thread state holds. -/
theorem mem_held (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

-- the launch theorem's unknowns are read off this statement, again through the table look-up
set_option backward.isDefEq.respectTransparency.types false in
/-- THE RUN. From any memory with zero counters, every weakly fair execution of the program on the TensorCores
    terminates, nothing faulting, and in every final state each unscoped buffer of each core holds what the last
    boundary valuation `W4` says: the launch makes the first thread state on each core by itself (buffers at the launch
    contents, the generator register, owing nothing), the pieces chain by construction, and the last thread state is read
    against the final memory buffer by buffer. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  Pipeline.θ_run_regions_kit (pcfgs (F := F)) adm (regDats m ρ) () cellOf_inj emb₁ defs₀ Variants.none noLevels lvl0 m ρ main (pieces m ρ)
    (fun c Q => by rw [main_run m ρ c])
    (by simp only [pieces, Pipeline.Seg.pipes_host, Pipeline.Seg.pipes_region, Pipeline.Seg.pipes_nil]; decide)
    (O₀ := 0) (hL := fun _ _ => rfl) (G := fun _ => (BI.emp : sProp 𝕄))
    (u₀ := initOf (Pipeline.cells cfgs cellOf_inj) (Pipeline.launchToks cfgs cellOf_inj))
    (hu₀ := by
      rw [ownU_emb₁, BI.bigSep_emp_const]
      iintro H; imodintro
      isplitl [H]; · iexact H
      iempintro)
    (T₀ := fun c => iprop(bufsAt (W0 m ρ) c ∗ side c)) (Tₙ := fun c => iprop(bufsAt (W4 m ρ) c ∗ gen c))
    (hch := ⟨fun _ => .rfl, fun _ => .rfl, fun _ => .rfl, fun _ => .rfl, fun _ => sep_assoc'⟩)
    (hinit := by
      refine Pipeline.initEach noLevels lvl0 fun c => ?_
      rw [show unscopedBufs c (fun b => m ((c : Thread nD τ).loc b)) = bufsAt (W0 m ρ) c
        from Pipeline.unscopedBufs_held c (W0 m ρ c)]
      iintro ⟨⟨Hbufs, -, Howes, -, Hgen, -⟩, -⟩
      imodintro
      isplitl [Hbufs]; · iexact Hbufs
      isplitl [Hgen]; · iexists _; iexact Hgen
      iexists ∅; iexact Howes)
    (QY := fun c s => ∀ b ∈ Pipeline.ucRefs τ sig, s.mem (((c : Thread nD τ)).1, b) = W4 m ρ c b)
    (hfin := fun c s' => by
      iintro ⟨⟨Hbufs, -⟩, HSI⟩
      unfold bufsAt StableHlo.held
      imodintro
      iapply (pointsTo_read_all (Pipeline.ucRefs τ sig) (fun b => (((c : Thread nD τ)).1, b)) (W4 m ρ c) s')
      isplitl [Hbufs] <;> iassumption)
    (hQ := fun s h c => h c)

/-! ## What the last valuation holds -/

/-- Argument 0 returns as launched: no host operation writes it and it is no region's array. -/
theorem W4_main_arg0 (c : Dev nD) : W4 m ρ c (Proc.devRef .tc main_arg0) = m ((c : Thread nD τ).loc main_arg0) :=
  W4_untouched m ρ c main_arg0 (by decide) (by decide) (by decide) (by decide)
/-- Argument 1 returns as launched: no host operation writes it and it is no region's array. -/
theorem W4_main_arg1 (c : Dev nD) : W4 m ρ c (Proc.devRef .tc main_arg1) = m ((c : Thread nD τ).loc main_arg1) :=
  W4_untouched m ρ c main_arg1 (by decide) (by decide) (by decide) (by decide)
/-- Argument 2 returns as launched: no host operation writes it and it is no region's array. -/
theorem W4_main_arg2 (c : Dev nD) : W4 m ρ c (Proc.devRef .tc main_arg2) = m ((c : Thread nD τ).loc main_arg2) :=
  W4_untouched m ρ c main_arg2 (by decide) (by decide) (by decide) (by decide)
/-- Argument 3 returns as launched: no host operation writes it and it is no region's array. -/
theorem W4_main_arg3 (c : Dev nD) : W4 m ρ c (Proc.devRef .tc main_arg3) = m ((c : Thread nD τ).loc main_arg3) :=
  W4_untouched m ρ c main_arg3 (by decide) (by decide) (by decide) (by decide)
/-- Argument 4 returns as launched: no host operation writes it and it is no region's array. -/
theorem W4_main_arg4 (c : Dev nD) : W4 m ρ c (Proc.devRef .tc main_arg4) = m ((c : Thread nD τ).loc main_arg4) :=
  W4_untouched m ρ c main_arg4 (by decide) (by decide) (by decide) (by decide)
/-- Argument 5 returns as launched: no host operation writes it and it is no region's array. -/
theorem W4_main_arg5 (c : Dev nD) : W4 m ρ c (Proc.devRef .tc main_arg5) = m ((c : Thread nD τ).loc main_arg5) :=
  W4_untouched m ρ c main_arg5 (by decide) (by decide) (by decide) (by decide)
/-- Argument 6 returns as launched: no host operation writes it and it is no region's array. -/
theorem W4_main_arg6 (c : Dev nD) : W4 m ρ c (Proc.devRef .tc main_arg6) = m ((c : Thread nD τ).loc main_arg6) :=
  W4_untouched m ρ c main_arg6 (by decide) (by decide) (by decide) (by decide)
/-- Argument 7 returns as launched: no host operation writes it and it is no region's array. -/
theorem W4_main_arg7 (c : Dev nD) : W4 m ρ c (Proc.devRef .tc main_arg7) = m ((c : Thread nD τ).loc main_arg7) :=
  W4_untouched m ρ c main_arg7 (by decide) (by decide) (by decide) (by decide)
/-- Argument 8 returns as launched: no host operation writes it and it is no region's array. -/
theorem W4_main_arg8 (c : Dev nD) : W4 m ρ c (Proc.devRef .tc main_arg8) = m ((c : Thread nD τ).loc main_arg8) :=
  W4_untouched m ρ c main_arg8 (by decide) (by decide) (by decide) (by decide)
/-- Argument 9 returns as launched: no host operation writes it and it is no region's array. -/
theorem W4_main_arg9 (c : Dev nD) : W4 m ρ c (Proc.devRef .tc main_arg9) = m ((c : Thread nD τ).loc main_arg9) :=
  W4_untouched m ρ c main_arg9 (by decide) (by decide) (by decide) (by decide)
/-- Argument 10 returns as launched: no host operation writes it and it is no region's array. -/
theorem W4_main_arg10 (c : Dev nD) : W4 m ρ c (Proc.devRef .tc main_arg10) = m ((c : Thread nD τ).loc main_arg10) :=
  W4_untouched m ρ c main_arg10 (by decide) (by decide) (by decide) (by decide)
/-- Argument 11 returns as launched: no host operation writes it and it is no region's array. -/
theorem W4_main_arg11 (c : Dev nD) : W4 m ρ c (Proc.devRef .tc main_arg11) = m ((c : Thread nD τ).loc main_arg11) :=
  W4_untouched m ρ c main_arg11 (by decide) (by decide) (by decide) (by decide)

/-- The result array holds what the third region's pipeline leaves in its output window's array. -/
theorem W4_main_v35 (c : Dev nD) : W4 m ρ c (Proc.devRef .tc main_v35) = (dat2 (VE3 m ρ) c).arrAt 5 cfg2.N :=
  W4_at m ρ c 5

/-- The third region finds in its first input what the second region's pipeline leaves in its output window's array, -/
theorem VE3_v34 (c : Dev nD) : VE3 m ρ c main_v34 = (dat1 (VE2 m ρ) c).arrAt 3 cfg1.N :=
  W3_at m ρ c 3
/-- and any buffer that is an array of neither earlier region as the host line left it. -/
theorem VE3_of (c : Dev nD) (b : Ref sig .tc) (h0 : ∀ w, Pipeline.arrRef spec0 w ≠ b) (h1 : ∀ w, Pipeline.arrRef spec1 w ≠ b) :
    VE3 m ρ c b = VE1 m ρ c b :=
  (W3_off m ρ c b h1).trans (W2_off m ρ c b h0)
theorem VE3_v27 (c : Dev nD) : VE3 m ρ c main_v27 = VE1 m ρ c main_v27 := VE3_of m ρ c main_v27 (by decide) (by decide)
theorem VE3_v30 (c : Dev nD) : VE3 m ρ c main_v30 = VE1 m ρ c main_v30 := VE3_of m ρ c main_v30 (by decide) (by decide)
theorem VE3_v31 (c : Dev nD) : VE3 m ρ c main_v31 = VE1 m ρ c main_v31 := VE3_of m ρ c main_v31 (by decide) (by decide)
theorem VE3_v32 (c : Dev nD) : VE3 m ρ c main_v32 = VE1 m ρ c main_v32 := VE3_of m ρ c main_v32 (by decide) (by decide)

/-- The second region finds in its first input what the first region's pipeline leaves in its output window's array, -/
theorem VE2_v33 (c : Dev nD) : VE2 m ρ c main_v33 = (dat0 (VE1 m ρ) c).arrAt 3 cfg0.N :=
  W2_at m ρ c 3
/-- and any buffer that is no array of the first region as the host line left it. -/
theorem VE2_of (c : Dev nD) (b : Ref sig .tc) (h0 : ∀ w, Pipeline.arrRef spec0 w ≠ b) : VE2 m ρ c b = VE1 m ρ c b :=
  W2_off m ρ c b h0
theorem VE2_v26 (c : Dev nD) : VE2 m ρ c main_v26 = VE1 m ρ c main_v26 := VE2_of m ρ c main_v26 (by decide)
theorem VE2_v29 (c : Dev nD) : VE2 m ρ c main_v29 = VE1 m ρ c main_v29 := VE2_of m ρ c main_v29 (by decide)

/-! ## The two posts the certificate states -/

/-- The frame claim's post: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
    ⟨(h c _ (mem_held main_arg0 (by decide))).trans (W4_main_arg0 m ρ c),
      (h c _ (mem_held main_arg1 (by decide))).trans (W4_main_arg1 m ρ c),
      (h c _ (mem_held main_arg2 (by decide))).trans (W4_main_arg2 m ρ c),
      (h c _ (mem_held main_arg3 (by decide))).trans (W4_main_arg3 m ρ c),
      (h c _ (mem_held main_arg4 (by decide))).trans (W4_main_arg4 m ρ c),
      (h c _ (mem_held main_arg5 (by decide))).trans (W4_main_arg5 m ρ c),
      (h c _ (mem_held main_arg6 (by decide))).trans (W4_main_arg6 m ρ c),
      (h c _ (mem_held main_arg7 (by decide))).trans (W4_main_arg7 m ρ c),
      (h c _ (mem_held main_arg8 (by decide))).trans (W4_main_arg8 m ρ c),
      (h c _ (mem_held main_arg9 (by decide))).trans (W4_main_arg9 m ρ c),
      (h c _ (mem_held main_arg10 (by decide))).trans (W4_main_arg10 m ρ c),
      (h c _ (mem_held main_arg11 (by decide))).trans (W4_main_arg11 m ρ c)⟩) (run_all m ρ)

/-- The value claim's first run: the result array ends at what the third region's pipeline leaves in it, and every
    argument array as launched. -/
theorem run_value : θ_run defs (onTc (τ := τ) (main (F := F))) ⟨m, fun _ => 0, ρ⟩ (fun r => ∀ c : Dev nD,
      r.2.mem ((c.tc : Thread nD τ).loc main_v35) = (dat2 (VE3 m ρ) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
    ⟨(h c _ (mem_held main_v35 (by decide))).trans (W4_main_v35 m ρ c),
      (h c _ (mem_held main_arg0 (by decide))).trans (W4_main_arg0 m ρ c),
      (h c _ (mem_held main_arg1 (by decide))).trans (W4_main_arg1 m ρ c),
      (h c _ (mem_held main_arg2 (by decide))).trans (W4_main_arg2 m ρ c),
      (h c _ (mem_held main_arg3 (by decide))).trans (W4_main_arg3 m ρ c),
      (h c _ (mem_held main_arg4 (by decide))).trans (W4_main_arg4 m ρ c),
      (h c _ (mem_held main_arg5 (by decide))).trans (W4_main_arg5 m ρ c),
      (h c _ (mem_held main_arg6 (by decide))).trans (W4_main_arg6 m ρ c),
      (h c _ (mem_held main_arg7 (by decide))).trans (W4_main_arg7 m ρ c),
      (h c _ (mem_held main_arg8 (by decide))).trans (W4_main_arg8 m ρ c),
      (h c _ (mem_held main_arg9 (by decide))).trans (W4_main_arg9 m ρ c),
      (h c _ (mem_held main_arg10 (by decide))).trans (W4_main_arg10 m ρ c),
      (h c _ (mem_held main_arg11 (by decide))).trans (W4_main_arg11 m ρ c)⟩) (run_all m ρ)

end Run

end Cert.Kernel.Hand

end
-- ==== Proof.KIRuns0.lean ====
import proofs.«110502_j4913442587016_1_alg».proof.Proof.Gen.KernelIdeal.Launch
import proofs.«110502_j4913442587016_1_alg».proof.Proof.Gen.KernelIdeal.Skeleton
import proofs.«110502_j4913442587016_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a whole-block rectangle, as a function. -/
theorem hz2_0 : (![0, 0] : Fin 2 → ℕ) = fun _ => 0 := by funext a; fin_cases a <;> rfl

/-! ## Kernel 0: its two branch conditions over the grid -/

/-- "This is the first block of the contracted axis": the condition of the body's first conditional. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- "This is the last block of the contracted axis": the condition of the body's second conditional. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Kernel 0: the body's triple in each of its three cases -/

set_option maxHeartbeats 1000000 in
/-- FIRST block of the contracted axis: the scratch, at anything, is zeroed and the product of the two blocks added;
    the output buffer is not touched. -/
theorem run0_first (c : Dev nD) (i : grid0.Coords) (arg2 : Memref sig .tc .vmem S256x2048 .bf16) (harg2 : arg2.IsWhole) (arg3 : Memref sig .tc .vmem S2048x2048 .bf16) (harg3 : arg3.IsWhole) (arg4 : Memref sig .tc .vmem S1x2048 .f32) (harg4 : arg4.IsWhole) (arg5 : Memref sig .tc .vmem S256x2048 .bf16) (harg5 : arg5.IsWhole) (arg6 : Memref sig .tc .vmem S256x2048 .f32) (harg6 : arg6.IsWhole)
    (hc0 : cond0_0 i) (hc1 : ¬cond0_1 i) (x0 : Vec F S256x2048 .bf16) (x1 : Vec F S2048x2048 .bf16) (x2 : Vec F S1x2048 .f32) (xo : Vec F S256x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xo ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare (k0_pay2 (k0_pay1 (F := F)) x0 x1)) -∗ K ⟨⟩))
      ⊢ wp frame (wpE (defs₀ (F := F)) Variants.none c none) E (cc0_kernel i arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%f2, %hf2, H2⟩, ⟨%fo, %hfo, HO⟩, ⟨%d, %fs, %hfs, HS⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [HO]
  · iexists _; isplitr; · ipureintro; exact hfo
    iexact HO
  iexists _; isplitr
  swap; · iexact HS
  ipureintro
  sl_unfold_run_names
  rw [View.read_writes_eq_canon _ _ _ (fun y => ⟨_, List.mem_cons_self, View.mem_set_unit_zero hz2_0 inb_S256x2048_S256x2048_0_0 y⟩), View.canon_cons_unit_zero hz2_0]
  simp only [View.readCov_unit_zero (S := S256x2048) _ hz2_0, View.readAt_eq_ld, harg2.read_unread, harg3.read_unread, harg4.read_unread, harg6.read_unread, View.ld_unit_zero (S := S256x2048) hz2_0, View.ld_unit_zero (S := S2048x2048) hz2_0, View.ld_unit_zero (S := S1x2048) hz2_0]

set_option maxHeartbeats 1000000 in
/-- A MIDDLE block: the product of the two blocks is added to what the scratch held; the output buffer is not touched. -/
theorem run0_mid (c : Dev nD) (i : grid0.Coords) (arg2 : Memref sig .tc .vmem S256x2048 .bf16) (harg2 : arg2.IsWhole) (arg3 : Memref sig .tc .vmem S2048x2048 .bf16) (harg3 : arg3.IsWhole) (arg4 : Memref sig .tc .vmem S1x2048 .f32) (harg4 : arg4.IsWhole) (arg5 : Memref sig .tc .vmem S256x2048 .bf16) (harg5 : arg5.IsWhole) (arg6 : Memref sig .tc .vmem S256x2048 .f32) (harg6 : arg6.IsWhole)
    (hc0 : ¬cond0_0 i) (hc1 : ¬cond0_1 i) (x0 : Vec F S256x2048 .bf16) (x1 : Vec F S2048x2048 .bf16) (x2 : Vec F S1x2048 .f32) (xo : Vec F S256x2048 .bf16) (xs : Vec F S256x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare (k0_pay2 xs x0 x1)) -∗ K ⟨⟩))
      ⊢ wp frame (wpE (defs₀ (F := F)) Variants.none c none) E (cc0_kernel i arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%f2, %hf2, H2⟩, ⟨%fo, %hfo, HO⟩, ⟨%fs, %hfs, HS⟩, Hk⟩
  obtain rfl := harg2.eq_unread hf0; obtain rfl := harg3.eq_unread hf1; obtain rfl := harg4.eq_unread hf2; obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [HO]
  · iexists _; isplitr; · ipureintro; exact hfo
    iexact HO
  iexists _; isplitr
  swap; · iexact HS
  ipureintro
  sl_unfold_run_names
  rw [View.read_writes_eq_canon _ _ _ (fun y => ⟨_, List.mem_cons_self, View.mem_set_unit_zero hz2_0 inb_S256x2048_S256x2048_0_0 y⟩), View.canon_cons_unit_zero hz2_0]
  simp only [View.readCov_unit_zero (S := S256x2048) _ hz2_0, View.readAt_eq_ld, harg2.read_unread, harg3.read_unread, harg4.read_unread, harg6.read_unread, View.ld_unit_zero (S := S256x2048) hz2_0, View.ld_unit_zero (S := S2048x2048) hz2_0, View.ld_unit_zero (S := S1x2048) hz2_0]

set_option maxHeartbeats 1000000 in
/-- The LAST block: the product is added to the scratch, and the epilogue of the sum is stored into the output buffer
    (which held anything). -/
theorem run0_last (c : Dev nD) (i : grid0.Coords) (arg2 : Memref sig .tc .vmem S256x2048 .bf16) (harg2 : arg2.IsWhole) (arg3 : Memref sig .tc .vmem S2048x2048 .bf16) (harg3 : arg3.IsWhole) (arg4 : Memref sig .tc .vmem S1x2048 .f32) (harg4 : arg4.IsWhole) (arg5 : Memref sig .tc .vmem S256x2048 .bf16) (harg5 : arg5.IsWhole) (arg6 : Memref sig .tc .vmem S256x2048 .f32) (harg6 : arg6.IsWhole)
    (hc0 : ¬cond0_0 i) (hc1 : cond0_1 i) (x0 : Vec F S256x2048 .bf16) (x1 : Vec F S2048x2048 .bf16) (x2 : Vec F S1x2048 .f32) (xs : Vec F S256x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare (k0_pay3 (k0_pay2 xs x0 x1) x2) ∗ owns (c : Thread nD τ) arg6 fullShare (k0_pay2 xs x0 x1)) -∗ K ⟨⟩))
      ⊢ wp frame (wpE (defs₀ (F := F)) Variants.none c none) E (cc0_kernel i arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%f2, %hf2, H2⟩, ⟨%d, %fo, %hfo, HO⟩, ⟨%fs, %hfs, HS⟩, Hk⟩
  obtain rfl := harg2.eq_unread hf0; obtain rfl := harg3.eq_unread hf1; obtain rfl := harg4.eq_unread hf2; obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [HO]
  · iexists _; isplitr
    swap; · iexact HO
    ipureintro
    sl_unfold_run_names
    rw [View.read_writes_eq_canon _ _ _ (fun y => ⟨_, List.mem_cons_self, View.mem_set_unit_zero hz2_0 inb_S256x2048_S256x2048_0_0 y⟩), View.canon_cons_unit_zero hz2_0]
    simp only [View.readCov_unit_zero (S := S256x2048) _ hz2_0, View.readAt_eq_ld, harg2.read_unread, harg3.read_unread, harg4.read_unread, harg6.read_unread, View.ld_unit_zero (S := S256x2048) hz2_0, View.ld_unit_zero (S := S2048x2048) hz2_0, View.ld_unit_zero (S := S1x2048) hz2_0]
  iexists _; isplitr
  swap; · iexact HS
  ipureintro
  sl_unfold_run_names
  rw [View.read_writes_eq_canon _ _ _ (fun y => ⟨_, List.mem_cons_self, View.mem_set_unit_zero hz2_0 inb_S256x2048_S256x2048_0_0 y⟩), View.canon_cons_unit_zero hz2_0]
  simp only [View.readCov_unit_zero (S := S256x2048) _ hz2_0, View.readAt_eq_ld, harg2.read_unread, harg3.read_unread, harg4.read_unread, harg6.read_unread, View.ld_unit_zero (S := S256x2048) hz2_0, View.ld_unit_zero (S := S2048x2048) hz2_0, View.ld_unit_zero (S := S1x2048) hz2_0]

end Cert.KernelIdeal.Hand
end
-- ==== Proof.KIRegion0.lean ====
import proofs.«110502_j4913442587016_1_alg».proof.Proof.Gen.KernelIdeal.Launch
import proofs.«110502_j4913442587016_1_alg».proof.Proof.Gen.KernelIdeal.Skeleton
import proofs.«110502_j4913442587016_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«110502_j4913442587016_1_alg».proof.Proof.KIRuns0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: the windows' blocks, the accumulator and the output block, point by point -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after point `n`: at the first point of each run of four (the first block of the contracted axis)
    the product of that point's blocks added to zero, afterwards the point's product added to what the point before left. -/
def acc0 (c : Dev nD) : (n : ℕ) → n < cfg0.N → Vec F S256x2048 .f32
  | 0, h => k0_pay2 (k0_pay1 (F := F)) (iblk0 V c 0 ⟨0, h⟩) (iblk0 V c 1 ⟨0, h⟩)
  | n + 1, h =>
    if (n + 1) % 4 = 0 then k0_pay2 (k0_pay1 (F := F)) (iblk0 V c 0 ⟨n + 1, h⟩) (iblk0 V c 1 ⟨n + 1, h⟩)
    else k0_pay2 (acc0 c n (Nat.lt_of_succ_lt h)) (iblk0 V c 0 ⟨n + 1, h⟩) (iblk0 V c 1 ⟨n + 1, h⟩)

/-- The output block after point `t` (meaningful at the last block of the contracted axis, where it is stored and
    written back): the epilogue of the accumulator and the bias row. -/
def out0 (c : Dev nD) (t : Fin cfg0.N) : Vec F S256x2048 .bf16 :=
  k0_pay3 (acc0 V c t.val t.isLt) (iblk0 V c 2 t)

/-- The kernel's scratch operand as a memref. -/
abbrev scM0 : Memref sig .tc .vmem S256x2048 .f32 := Memref.whole cc0_scratch0

/-- The scoped buffers that are neither a staging buffer of this call nor its scratch, at some contents each. -/
abbrev rest0 (c : Dev nD) : sProp 𝕄 :=
  Pipeline.scopedRestBut (Ix := Unit) (Name := ℕ) (U := UR sig nD τ) (Lvl := ℕ) (Val := Elt F) spec0 c [cc0_scratch0]

/-- The region invariant before position `n`: before the first point every scoped buffer at anything; afterwards the
    scratch at the accumulator the point before left, the other scoped buffers at anything, the generator register at some state. -/
def PhiS0 (c : Dev nD) : (n : ℕ) → n ≤ cfg0.N → sProp 𝕄
  | 0, _ => Pipeline.ΦA spec0 c
  | n + 1, hn => iprop((owns (c : Thread nD τ) scM0 fullShare (acc0 V c n hn) ∗ rest0 c) ∗ (∃ r, prngReg c r))

/-- The proof data of pipeline 0 on core `c` at the entry contents `V`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0 V c t := by dsimp only [dat0]

/-- Input window 0's staging buffer holds the window's block at every point, fetched there or kept from the point before. -/
theorem before0_0 (c : Dev nD) (t : Fin cfg0.N) (d) : (dat0 V c).before 0 t d = iblk0 V c 0 t := by
  refine ((dat0 V c).before_in_eq_fetched 0 rfl (fun _ => rfl) (fun _ _ _ => rfl) (fun t => ?_) t d).trans ?_
  · rw [after0_0]; unfold Dat.blockOf iblk0; rw [A_eq0]; try rfl
  · unfold Dat.fetched Dat.blockOf iblk0; rw [A_eq0]; try rfl
/-- Input window 1's staging buffer holds the window's block at every point, fetched there or kept from the point before. -/
theorem before0_1 (c : Dev nD) (t : Fin cfg0.N) (d) : (dat0 V c).before 1 t d = iblk0 V c 1 t := by
  refine ((dat0 V c).before_in_eq_fetched 1 rfl (fun _ => rfl) (fun _ _ _ => rfl) (fun t => ?_) t d).trans ?_
  · rw [after0_1]; unfold Dat.blockOf iblk0; rw [A_eq0]; try rfl
  · unfold Dat.fetched Dat.blockOf iblk0; rw [A_eq0]; try rfl
/-- Input window 2's staging buffer holds the window's block at every point, fetched there or kept from the point before. -/
theorem before0_2 (c : Dev nD) (t : Fin cfg0.N) (d) : (dat0 V c).before 2 t d = iblk0 V c 2 t := by
  refine ((dat0 V c).before_in_eq_fetched 2 rfl (fun _ => rfl) (fun _ _ _ => rfl) (fun t => ?_) t d).trans ?_
  · rw [after0_2]; unfold Dat.blockOf iblk0; rw [A_eq0]; try rfl
  · unfold Dat.fetched Dat.blockOf iblk0; rw [A_eq0]; try rfl

/-! ## The accumulator's recursion, point by point -/

theorem acc0_first (c : Dev nD) (t : Fin cfg0.N) (h0 : t.val % 4 = 0) :
    acc0 V c t.val t.isLt = k0_pay2 (k0_pay1 (F := F)) (iblk0 V c 0 t) (iblk0 V c 1 t) := by
  obtain ⟨n, hn⟩ := t
  cases n with
  | zero => rfl
  | succ n => exact if_pos h0

theorem acc0_next (c : Dev nD) (t : Fin cfg0.N) (h0 : ¬t.val % 4 = 0) :
    acc0 V c t.val t.isLt
      = k0_pay2 (acc0 V c (t.val - 1) (Nat.lt_of_le_of_lt (Nat.sub_le _ _) t.isLt)) (iblk0 V c 0 t) (iblk0 V c 1 t) := by
  obtain ⟨n, hn⟩ := t
  cases n with
  | zero => exact absurd (Nat.zero_mod _) h0
  | succ n => exact if_neg h0

/-! ## The invariant, unfolded at a position -/

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((owns (c : Thread nD τ) scM0 fullShare (acc0 V c n hn) ∗ rest0 c) ∗ (∃ r, prngReg c r)) := rfl

theorem PhiS0_pos (c : Dev nD) (n : ℕ) (h : n ≤ cfg0.N) (hz : n ≠ 0) :
    PhiS0 V c n h = iprop((owns (c : Thread nD τ) scM0 fullShare (acc0 V c (n - 1) (by omega)) ∗ rest0 c) ∗ (∃ r, prngReg c r)) := by
  cases n with
  | zero => exact absurd rfl hz
  | succ n => rfl

theorem PhiS0_castSucc (c : Dev nD) (t : Fin cfg0.N) :
    (dat0 V c).Φ t.castSucc = PhiS0 V c t.val (Nat.le_of_lt t.isLt) := by
  dsimp only [dat0]; simp only [Fin.coe_castSucc]

/-- What the region is handed of the scoped buffers, with the scratch singled out. -/
theorem PhiA0_eq (c : Dev nD) :
    (Pipeline.ΦA spec0 c : sProp 𝕄)
      = iprop(((∃ d, owns (c : Thread nD τ) scM0 fullShare d) ∗ rest0 c) ∗ (∃ r, prngReg c r)) := by
  unfold Pipeline.ΦA
  rw [Pipeline.scopedRest_split_of_list spec0 c [cc0_scratch0] (by decide) (by decide)]
  simp only [scM0, owns_whole]; try rfl

/-! ## Where the windows are live -/

theorem live0_0 : ∀ t : Fin cfg0.N, cfg0.idle 0 (grid0.coords t) = false := by decide +kernel
theorem leaves0_0 (c : Dev nD) (t : Fin cfg0.N) :
    (dat0 V c).leavesExact 0 t = owns (c : Thread nD τ) (win0_0.stage (cfg0.slots t 0)) fullShare (iblk0 V c 0 t) := by
  unfold Dat.leavesExact; rw [live0_0 t, after0_0]
theorem live0_1 : ∀ t : Fin cfg0.N, cfg0.idle 1 (grid0.coords t) = false := by decide +kernel
theorem leaves0_1 (c : Dev nD) (t : Fin cfg0.N) :
    (dat0 V c).leavesExact 1 t = owns (c : Thread nD τ) (win0_1.stage (cfg0.slots t 1)) fullShare (iblk0 V c 1 t) := by
  unfold Dat.leavesExact; rw [live0_1 t, after0_1]
theorem live0_2 : ∀ t : Fin cfg0.N, cfg0.idle 2 (grid0.coords t) = false := by decide +kernel
theorem leaves0_2 (c : Dev nD) (t : Fin cfg0.N) :
    (dat0 V c).leavesExact 2 t = owns (c : Thread nD τ) (win0_2.stage (cfg0.slots t 2)) fullShare (iblk0 V c 2 t) := by
  unfold Dat.leavesExact; rw [live0_2 t, after0_2]
/-- The output window is idle, and not written back, away from the last block of the contracted axis; live there. -/
theorem idle0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem live0_3 : ∀ t : Fin cfg0.N, cond0_1 (grid0.coords t) → cfg0.idle 3 (grid0.coords t) = false := by decide +kernel

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (win0_0.stage (cfg0.slots t 0)) fullShare ((dat0 V c).before 0 t d))
    ∗ (∃ d, owns (c : Thread nD τ) (win0_1.stage (cfg0.slots t 1)) fullShare ((dat0 V c).before 1 t d))
    ∗ (∃ d, owns (c : Thread nD τ) (win0_2.stage (cfg0.slots t 2)) fullShare ((dat0 V c).before 2 t d))
    ∗ (∃ d, owns (c : Thread nD τ) (win0_3.stage (cfg0.slots t 3)) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4000000 in
/-- The body at any point: the inputs' buffers hold their blocks; the point's place in its run of four says which case
    of the body runs; the invariant hands over the scratch at what the point before left (at anything at the very
    first point) and takes it back at this point's accumulator; the output buffer is stored only in the last case. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2]
  have hN : t.val < 16 := lt_of_lt_of_eq t.isLt (show cfg0.N = 16 from N_0)
  by_cases h3 : t.val % 4 = 3
  · -- the last block of the contracted axis
    have h0 : ¬t.val % 4 = 0 := by omega
    have hz : t.val ≠ 0 := by omega
    have hc0 : ¬cond0_0 (grid0.coords t) := fun h => h0 ((hcond0_0 t).mp h)
    have hc1 : cond0_1 (grid0.coords t) := (hcond0_1 t).mpr h3
    rw [show (dat0 V c).leavesExact 3 t = owns (c : Thread nD τ) (win0_3.stage (cfg0.slots t 3)) fullShare ((dat0 V c).after 3 t) from by
      unfold Dat.leavesExact; rw [live0_3 t hc1], after0_3]
    unfold out0
    rw [acc0_next V c t h0, PhiS0_castSucc V c t, PhiS0_pos V c _ _ hz]
    iintro ⟨⟨⟨HS, Hrest⟩, Hg⟩, Ho, ⟨%d0, H0⟩, ⟨%d1, H1⟩, ⟨%d2, H2⟩, ⟨%d3, H3⟩⟩
    iapply (run0_last c (grid0.coords t) _ _ _ _ _ _ _ _ _ _ hc0 hc1 (iblk0 V c 0 t) (iblk0 V c 1 t) (iblk0 V c 2 t) _ Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    iexact H3
  · have hc1 : ¬cond0_1 (grid0.coords t) := fun h => h3 ((hcond0_1 t).mp h)
    rw [Dat.leavesExact_idle (dat0 V c) 3 t (idle0_3 t hc1) (noFlush0_3 t hc1)]
    by_cases h0 : t.val % 4 = 0
    · -- the first block of the contracted axis
      have hc0 : cond0_0 (grid0.coords t) := (hcond0_0 t).mpr h0
      rw [acc0_first V c t h0, PhiS0_castSucc V c t]
      by_cases hz : t.val = 0
      · rw [PhiS0_zero V c _ _ hz, PhiA0_eq]
        iintro ⟨⟨⟨HS, Hrest⟩, Hg⟩, Ho, ⟨%d0, H0⟩, ⟨%d1, H1⟩, ⟨%d2, H2⟩, ⟨%d3, H3⟩⟩
        iapply (run0_first c (grid0.coords t) _ _ _ _ _ _ _ _ _ _ hc0 hc1 (iblk0 V c 0 t) (iblk0 V c 1 t) (iblk0 V c 2 t) _ Set.univ _)
        isplitl [H0]; · iexact H0
        isplitl [H1]; · iexact H1
        isplitl [H2]; · iexact H2
        isplitl [H3]; · iexact H3
        isplitl [HS]; · iexact HS
        iintro ⟨H0, H1, H2, H3, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        isplitl [H2]; · iexact H2
        iexists _; iexact H3
      · rw [PhiS0_pos V c _ _ hz]
        iintro ⟨⟨⟨HS, Hrest⟩, Hg⟩, Ho, ⟨%d0, H0⟩, ⟨%d1, H1⟩, ⟨%d2, H2⟩, ⟨%d3, H3⟩⟩
        iapply (run0_first c (grid0.coords t) _ _ _ _ _ _ _ _ _ _ hc0 hc1 (iblk0 V c 0 t) (iblk0 V c 1 t) (iblk0 V c 2 t) _ Set.univ _)
        isplitl [H0]; · iexact H0
        isplitl [H1]; · iexact H1
        isplitl [H2]; · iexact H2
        isplitl [H3]; · iexact H3
        isplitl [HS]; · iexists _; iexact HS
        iintro ⟨H0, H1, H2, H3, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        isplitl [H2]; · iexact H2
        iexists _; iexact H3
    · -- a middle block
      have hz : t.val ≠ 0 := by omega
      have hc0 : ¬cond0_0 (grid0.coords t) := fun h => h0 ((hcond0_0 t).mp h)
      rw [acc0_next V c t h0, PhiS0_castSucc V c t, PhiS0_pos V c _ _ hz]
      iintro ⟨⟨⟨HS, Hrest⟩, Hg⟩, Ho, ⟨%d0, H0⟩, ⟨%d1, H1⟩, ⟨%d2, H2⟩, ⟨%d3, H3⟩⟩
      iapply (run0_mid c (grid0.coords t) _ _ _ _ _ _ _ _ _ _ hc0 hc1 (iblk0 V c 0 t) (iblk0 V c 1 t) (iblk0 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexists _; iexact H3

/-- Every grid point's obligation, in the form the pipeline library asks for. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the scoped buffers back, the accumulator's contents forgotten. -/
theorem hout0 (c : Dev nD) : (dat0 V c).Φ (Fin.last cfg0.N) ⊢ Pipeline.ΦA spec0 c := by
  have hne : (Fin.last cfg0.N).val ≠ 0 := by rw [Fin.val_last]; have : cfg0.N = 16 := N_0; omega
  rw [show (dat0 V c).Φ (Fin.last cfg0.N) = PhiS0 V c (Fin.last cfg0.N).val (Nat.le_of_lt_succ (Fin.last cfg0.N).isLt) from rfl,
    PhiS0_pos V c _ _ hne, PhiA0_eq]
  iintro ⟨⟨HS, Hrest⟩, Hg⟩
  isplitl [HS Hrest]
  · isplitl [HS]; · iexists _; iexact HS
    iexact Hrest
  iexact Hg

end Cert.KernelIdeal.Hand
end
-- ==== Proof.KIRuns1.lean ====
import proofs.«110502_j4913442587016_1_alg».proof.Proof.Gen.KernelIdeal.Launch
import proofs.«110502_j4913442587016_1_alg».proof.Proof.Gen.KernelIdeal.Skeleton
import proofs.«110502_j4913442587016_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a whole-block rectangle, as a function. -/
theorem hz2_1 : (![0, 0] : Fin 2 → ℕ) = fun _ => 0 := by funext a; fin_cases a <;> rfl

/-! ## Kernel 1: its two branch conditions over the grid -/

/-- "This is the first block of the contracted axis": the condition of the body's first conditional. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- "This is the last block of the contracted axis": the condition of the body's second conditional. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Kernel 1: the body's triple in each of its three cases -/

set_option maxHeartbeats 1000000 in
/-- FIRST block of the contracted axis: the scratch, at anything, is zeroed and the product of the two blocks added;
    the output buffer is not touched. -/
theorem run1_first (c : Dev nD) (i : grid1.Coords) (arg2 : Memref sig .tc .vmem S256x2048 .bf16) (harg2 : arg2.IsWhole) (arg3 : Memref sig .tc .vmem S2048x2048 .bf16) (harg3 : arg3.IsWhole) (arg4 : Memref sig .tc .vmem S1x2048 .f32) (harg4 : arg4.IsWhole) (arg5 : Memref sig .tc .vmem S256x2048 .bf16) (harg5 : arg5.IsWhole) (arg6 : Memref sig .tc .vmem S256x2048 .f32) (harg6 : arg6.IsWhole)
    (hc0 : cond1_0 i) (hc1 : ¬cond1_1 i) (x0 : Vec F S256x2048 .bf16) (x1 : Vec F S2048x2048 .bf16) (x2 : Vec F S1x2048 .f32) (xo : Vec F S256x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xo ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare (k1_pay2 (k1_pay1 (F := F)) x0 x1)) -∗ K ⟨⟩))
      ⊢ wp frame (wpE (defs₀ (F := F)) Variants.none c none) E (cc1_kernel i arg2 harg2 arg3 harg3 arg4 harg4 arg5 harg5 arg6 harg6) K := by
  simp only [cc1_kernel_eq_skeleton]; unfold cc1_kernel_skel
  unfold owns
  iintro ⟨⟨%f0, %hf0, H0⟩, ⟨%f1, %hf1, H1⟩, ⟨%f2, %hf2, H2⟩, ⟨%fo, %hfo, HO⟩, ⟨%d, %fs, %hfs, HS⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [HO]
  · iexists _; isplitr; · ipureintro; exact hfo
    iexact HO
  iexists _; isplitr
  swap; · iexact HS
  ipureintro
  sl_unfold_run_names
  rw [View.read_writes_eq_canon _ _ _ (fun y => ⟨_, List.mem_cons_self, View.mem_set_unit_zero hz2_1 inb_S256x2048_S256x2048_0_0 y⟩), View.canon_cons_unit_zero hz2_1]
  simp only [View.readCov_unit_zero (S := S256x2048) _ hz2_1, View.readAt_eq_ld, harg2.read_unread, harg3.read_unread, harg4.read_unread, harg6.read_unread, View.ld_unit_zero (S := S256x2048) hz2_1, View.ld_unit_zero (S := S2048x2048) hz2_1, View.ld_unit_zero (S := S1x2048) hz2_1]

set_option maxHeartbeats 1000000 in
/-- A MIDDLE block: the product of the two blocks is added to what the scratch held; the output buffer is not touched. -/
theorem run1_mid (c : Dev nD) (i : grid1.Coords) (arg2 : Memref sig .tc .vmem S256x2048 .bf16) (harg2 : arg2.IsWhole) (arg3 : Memref sig .tc .vmem S2048x2048 .bf16) (harg3 : arg3.IsWhole) (arg4 : Memref sig .tc .vmem S1x2048 .f32) (harg4 : arg4.IsWhole) (arg5 : Memref sig .tc .vmem S256x2048 .bf16) (harg5 : arg5.IsWhole) (arg6 : Memref sig .tc .vmem S256x2048 .f32) (harg6 : arg6.IsWhole)
    (hc0 : ¬cond1_0 i) (hc1 : ¬cond1_1 i) (x0 : Vec F S256x2048 .bf16) (x1 : Vec F S2048x2048 .bf16) (x2 : Vec F S1x2048 .f32) (xo : Vec F S256x2048 .bf16) (xs : Vec F S256x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare (k1_pay2 xs x0 x1)) -∗ K ⟨⟩))
      ⊢ wp frame (wpE (defs₀ (F := F)) Variants.none c none) E (cc1_kernel i arg2 harg2 arg3 harg3 arg4 harg4 arg5 harg5 arg6 harg6) K := by
  simp only [cc1_kernel_eq_skeleton]; unfold cc1_kernel_skel
  unfold owns
  iintro ⟨⟨%f0, %hf0, H0⟩, ⟨%f1, %hf1, H1⟩, ⟨%f2, %hf2, H2⟩, ⟨%fo, %hfo, HO⟩, ⟨%fs, %hfs, HS⟩, Hk⟩
  obtain rfl := harg2.eq_unread hf0; obtain rfl := harg3.eq_unread hf1; obtain rfl := harg4.eq_unread hf2; obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [HO]
  · iexists _; isplitr; · ipureintro; exact hfo
    iexact HO
  iexists _; isplitr
  swap; · iexact HS
  ipureintro
  sl_unfold_run_names
  rw [View.read_writes_eq_canon _ _ _ (fun y => ⟨_, List.mem_cons_self, View.mem_set_unit_zero hz2_1 inb_S256x2048_S256x2048_0_0 y⟩), View.canon_cons_unit_zero hz2_1]
  simp only [View.readCov_unit_zero (S := S256x2048) _ hz2_1, View.readAt_eq_ld, harg2.read_unread, harg3.read_unread, harg4.read_unread, harg6.read_unread, View.ld_unit_zero (S := S256x2048) hz2_1, View.ld_unit_zero (S := S2048x2048) hz2_1, View.ld_unit_zero (S := S1x2048) hz2_1]

set_option maxHeartbeats 1000000 in
/-- The LAST block: the product is added to the scratch, and the epilogue of the sum is stored into the output buffer
    (which held anything). -/
theorem run1_last (c : Dev nD) (i : grid1.Coords) (arg2 : Memref sig .tc .vmem S256x2048 .bf16) (harg2 : arg2.IsWhole) (arg3 : Memref sig .tc .vmem S2048x2048 .bf16) (harg3 : arg3.IsWhole) (arg4 : Memref sig .tc .vmem S1x2048 .f32) (harg4 : arg4.IsWhole) (arg5 : Memref sig .tc .vmem S256x2048 .bf16) (harg5 : arg5.IsWhole) (arg6 : Memref sig .tc .vmem S256x2048 .f32) (harg6 : arg6.IsWhole)
    (hc0 : ¬cond1_0 i) (hc1 : cond1_1 i) (x0 : Vec F S256x2048 .bf16) (x1 : Vec F S2048x2048 .bf16) (x2 : Vec F S1x2048 .f32) (xs : Vec F S256x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare (k1_pay3 (k1_pay2 xs x0 x1) x2) ∗ owns (c : Thread nD τ) arg6 fullShare (k1_pay2 xs x0 x1)) -∗ K ⟨⟩))
      ⊢ wp frame (wpE (defs₀ (F := F)) Variants.none c none) E (cc1_kernel i arg2 harg2 arg3 harg3 arg4 harg4 arg5 harg5 arg6 harg6) K := by
  simp only [cc1_kernel_eq_skeleton]; unfold cc1_kernel_skel
  unfold owns
  iintro ⟨⟨%f0, %hf0, H0⟩, ⟨%f1, %hf1, H1⟩, ⟨%f2, %hf2, H2⟩, ⟨%d, %fo, %hfo, HO⟩, ⟨%fs, %hfs, HS⟩, Hk⟩
  obtain rfl := harg2.eq_unread hf0; obtain rfl := harg3.eq_unread hf1; obtain rfl := harg4.eq_unread hf2; obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [HO]
  · iexists _; isplitr
    swap; · iexact HO
    ipureintro
    sl_unfold_run_names
    rw [View.read_writes_eq_canon _ _ _ (fun y => ⟨_, List.mem_cons_self, View.mem_set_unit_zero hz2_1 inb_S256x2048_S256x2048_0_0 y⟩), View.canon_cons_unit_zero hz2_1]
    simp only [View.readCov_unit_zero (S := S256x2048) _ hz2_1, View.readAt_eq_ld, harg2.read_unread, harg3.read_unread, harg4.read_unread, harg6.read_unread, View.ld_unit_zero (S := S256x2048) hz2_1, View.ld_unit_zero (S := S2048x2048) hz2_1, View.ld_unit_zero (S := S1x2048) hz2_1]
  iexists _; isplitr
  swap; · iexact HS
  ipureintro
  sl_unfold_run_names
  rw [View.read_writes_eq_canon _ _ _ (fun y => ⟨_, List.mem_cons_self, View.mem_set_unit_zero hz2_1 inb_S256x2048_S256x2048_0_0 y⟩), View.canon_cons_unit_zero hz2_1]
  simp only [View.readCov_unit_zero (S := S256x2048) _ hz2_1, View.readAt_eq_ld, harg2.read_unread, harg3.read_unread, harg4.read_unread, harg6.read_unread, View.ld_unit_zero (S := S256x2048) hz2_1, View.ld_unit_zero (S := S2048x2048) hz2_1, View.ld_unit_zero (S := S1x2048) hz2_1]

end Cert.KernelIdeal.Hand
end
-- ==== Proof.KIRegion1.lean ====
import proofs.«110502_j4913442587016_1_alg».proof.Proof.Gen.KernelIdeal.Launch
import proofs.«110502_j4913442587016_1_alg».proof.Proof.Gen.KernelIdeal.Skeleton
import proofs.«110502_j4913442587016_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«110502_j4913442587016_1_alg».proof.Proof.KIRuns1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 1: the windows' blocks, the accumulator and the output block, point by point -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after point `n`: at the first point of each run of four (the first block of the contracted axis)
    the product of that point's blocks added to zero, afterwards the point's product added to what the point before left. -/
def acc1 (c : Dev nD) : (n : ℕ) → n < cfg1.N → Vec F S256x2048 .f32
  | 0, h => k1_pay2 (k1_pay1 (F := F)) (iblk1 V c 0 ⟨0, h⟩) (iblk1 V c 1 ⟨0, h⟩)
  | n + 1, h =>
    if (n + 1) % 4 = 0 then k1_pay2 (k1_pay1 (F := F)) (iblk1 V c 0 ⟨n + 1, h⟩) (iblk1 V c 1 ⟨n + 1, h⟩)
    else k1_pay2 (acc1 c n (Nat.lt_of_succ_lt h)) (iblk1 V c 0 ⟨n + 1, h⟩) (iblk1 V c 1 ⟨n + 1, h⟩)

/-- The output block after point `t` (meaningful at the last block of the contracted axis, where it is stored and
    written back): the epilogue of the accumulator and the bias row. -/
def out1 (c : Dev nD) (t : Fin cfg1.N) : Vec F S256x2048 .bf16 :=
  k1_pay3 (acc1 V c t.val t.isLt) (iblk1 V c 2 t)

/-- The kernel's scratch operand as a memref. -/
abbrev scM1 : Memref sig .tc .vmem S256x2048 .f32 := Memref.whole cc1_scratch0

/-- The scoped buffers that are neither a staging buffer of this call nor its scratch, at some contents each. -/
abbrev rest1 (c : Dev nD) : sProp 𝕄 :=
  Pipeline.scopedRestBut (Ix := Unit) (Name := ℕ) (U := UR sig nD τ) (Lvl := ℕ) (Val := Elt F) spec1 c [cc1_scratch0]

/-- The region invariant before position `n`: before the first point every scoped buffer at anything; afterwards the
    scratch at the accumulator the point before left, the other scoped buffers at anything, the generator register at some state. -/
def PhiS1 (c : Dev nD) : (n : ℕ) → n ≤ cfg1.N → sProp 𝕄
  | 0, _ => Pipeline.ΦA spec1 c
  | n + 1, hn => iprop((owns (c : Thread nD τ) scM1 fullShare (acc1 V c n hn) ∗ rest1 c) ∗ (∃ r, prngReg c r))

/-- The proof data of pipeline 1 on core `c` at the entry contents `V`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1 V c t := by dsimp only [dat1]

/-- Input window 0's staging buffer holds the window's block at every point, fetched there or kept from the point before. -/
theorem before1_0 (c : Dev nD) (t : Fin cfg1.N) (d) : (dat1 V c).before 0 t d = iblk1 V c 0 t := by
  refine ((dat1 V c).before_in_eq_fetched 0 rfl (fun _ => rfl) (fun _ _ _ => rfl) (fun t => ?_) t d).trans ?_
  · rw [after1_0]; unfold Dat.blockOf iblk1; rw [A_eq1]; try rfl
  · unfold Dat.fetched Dat.blockOf iblk1; rw [A_eq1]; try rfl
/-- Input window 1's staging buffer holds the window's block at every point, fetched there or kept from the point before. -/
theorem before1_1 (c : Dev nD) (t : Fin cfg1.N) (d) : (dat1 V c).before 1 t d = iblk1 V c 1 t := by
  refine ((dat1 V c).before_in_eq_fetched 1 rfl (fun _ => rfl) (fun _ _ _ => rfl) (fun t => ?_) t d).trans ?_
  · rw [after1_1]; unfold Dat.blockOf iblk1; rw [A_eq1]; try rfl
  · unfold Dat.fetched Dat.blockOf iblk1; rw [A_eq1]; try rfl
/-- Input window 2's staging buffer holds the window's block at every point, fetched there or kept from the point before. -/
theorem before1_2 (c : Dev nD) (t : Fin cfg1.N) (d) : (dat1 V c).before 2 t d = iblk1 V c 2 t := by
  refine ((dat1 V c).before_in_eq_fetched 2 rfl (fun _ => rfl) (fun _ _ _ => rfl) (fun t => ?_) t d).trans ?_
  · rw [after1_2]; unfold Dat.blockOf iblk1; rw [A_eq1]; try rfl
  · unfold Dat.fetched Dat.blockOf iblk1; rw [A_eq1]; try rfl

/-! ## The accumulator's recursion, point by point -/

theorem acc1_first (c : Dev nD) (t : Fin cfg1.N) (h0 : t.val % 4 = 0) :
    acc1 V c t.val t.isLt = k1_pay2 (k1_pay1 (F := F)) (iblk1 V c 0 t) (iblk1 V c 1 t) := by
  obtain ⟨n, hn⟩ := t
  cases n with
  | zero => rfl
  | succ n => exact if_pos h0

theorem acc1_next (c : Dev nD) (t : Fin cfg1.N) (h0 : ¬t.val % 4 = 0) :
    acc1 V c t.val t.isLt
      = k1_pay2 (acc1 V c (t.val - 1) (Nat.lt_of_le_of_lt (Nat.sub_le _ _) t.isLt)) (iblk1 V c 0 t) (iblk1 V c 1 t) := by
  obtain ⟨n, hn⟩ := t
  cases n with
  | zero => exact absurd (Nat.zero_mod _) h0
  | succ n => exact if_neg h0

/-! ## The invariant, unfolded at a position -/

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((owns (c : Thread nD τ) scM1 fullShare (acc1 V c n hn) ∗ rest1 c) ∗ (∃ r, prngReg c r)) := rfl

theorem PhiS1_pos (c : Dev nD) (n : ℕ) (h : n ≤ cfg1.N) (hz : n ≠ 0) :
    PhiS1 V c n h = iprop((owns (c : Thread nD τ) scM1 fullShare (acc1 V c (n - 1) (by omega)) ∗ rest1 c) ∗ (∃ r, prngReg c r)) := by
  cases n with
  | zero => exact absurd rfl hz
  | succ n => rfl

theorem PhiS1_castSucc (c : Dev nD) (t : Fin cfg1.N) :
    (dat1 V c).Φ t.castSucc = PhiS1 V c t.val (Nat.le_of_lt t.isLt) := by
  dsimp only [dat1]; simp only [Fin.coe_castSucc]

/-- What the region is handed of the scoped buffers, with the scratch singled out. -/
theorem PhiA1_eq (c : Dev nD) :
    (Pipeline.ΦA spec1 c : sProp 𝕄)
      = iprop(((∃ d, owns (c : Thread nD τ) scM1 fullShare d) ∗ rest1 c) ∗ (∃ r, prngReg c r)) := by
  unfold Pipeline.ΦA
  rw [Pipeline.scopedRest_split_of_list spec1 c [cc1_scratch0] (by decide) (by decide)]
  simp only [scM1, owns_whole]; try rfl

/-! ## Where the windows are live -/

theorem live1_0 : ∀ t : Fin cfg1.N, cfg1.idle 0 (grid1.coords t) = false := by decide +kernel
theorem leaves1_0 (c : Dev nD) (t : Fin cfg1.N) :
    (dat1 V c).leavesExact 0 t = owns (c : Thread nD τ) (win1_0.stage (cfg1.slots t 0)) fullShare (iblk1 V c 0 t) := by
  unfold Dat.leavesExact; rw [live1_0 t, after1_0]
theorem live1_1 : ∀ t : Fin cfg1.N, cfg1.idle 1 (grid1.coords t) = false := by decide +kernel
theorem leaves1_1 (c : Dev nD) (t : Fin cfg1.N) :
    (dat1 V c).leavesExact 1 t = owns (c : Thread nD τ) (win1_1.stage (cfg1.slots t 1)) fullShare (iblk1 V c 1 t) := by
  unfold Dat.leavesExact; rw [live1_1 t, after1_1]
theorem live1_2 : ∀ t : Fin cfg1.N, cfg1.idle 2 (grid1.coords t) = false := by decide +kernel
theorem leaves1_2 (c : Dev nD) (t : Fin cfg1.N) :
    (dat1 V c).leavesExact 2 t = owns (c : Thread nD τ) (win1_2.stage (cfg1.slots t 2)) fullShare (iblk1 V c 2 t) := by
  unfold Dat.leavesExact; rw [live1_2 t, after1_2]
/-- The output window is idle, and not written back, away from the last block of the contracted axis; live there. -/
theorem idle1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem live1_3 : ∀ t : Fin cfg1.N, cond1_1 (grid1.coords t) → cfg1.idle 3 (grid1.coords t) = false := by decide +kernel

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (win1_0.stage (cfg1.slots t 0)) fullShare ((dat1 V c).before 0 t d))
    ∗ (∃ d, owns (c : Thread nD τ) (win1_1.stage (cfg1.slots t 1)) fullShare ((dat1 V c).before 1 t d))
    ∗ (∃ d, owns (c : Thread nD τ) (win1_2.stage (cfg1.slots t 2)) fullShare ((dat1 V c).before 2 t d))
    ∗ (∃ d, owns (c : Thread nD τ) (win1_3.stage (cfg1.slots t 3)) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- The body at any point: the inputs' buffers hold their blocks; the point's place in its run of four says which case
    of the body runs; the invariant hands over the scratch at what the point before left (at anything at the very
    first point) and takes it back at this point's accumulator; the output buffer is stored only in the last case. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2]
  have hN : t.val < 16 := lt_of_lt_of_eq t.isLt (show cfg1.N = 16 from N_1)
  by_cases h3 : t.val % 4 = 3
  · -- the last block of the contracted axis
    have h0 : ¬t.val % 4 = 0 := by omega
    have hz : t.val ≠ 0 := by omega
    have hc0 : ¬cond1_0 (grid1.coords t) := fun h => h0 ((hcond1_0 t).mp h)
    have hc1 : cond1_1 (grid1.coords t) := (hcond1_1 t).mpr h3
    rw [show (dat1 V c).leavesExact 3 t = owns (c : Thread nD τ) (win1_3.stage (cfg1.slots t 3)) fullShare ((dat1 V c).after 3 t) from by
      unfold Dat.leavesExact; rw [live1_3 t hc1], after1_3]
    unfold out1
    rw [acc1_next V c t h0, PhiS1_castSucc V c t, PhiS1_pos V c _ _ hz]
    iintro ⟨⟨⟨HS, Hrest⟩, Hg⟩, Ho, ⟨%d0, H0⟩, ⟨%d1, H1⟩, ⟨%d2, H2⟩, ⟨%d3, H3⟩⟩
    iapply (run1_last c (grid1.coords t) _ _ _ _ _ _ _ _ _ _ hc0 hc1 (iblk1 V c 0 t) (iblk1 V c 1 t) (iblk1 V c 2 t) _ Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    iexact H3
  · have hc1 : ¬cond1_1 (grid1.coords t) := fun h => h3 ((hcond1_1 t).mp h)
    rw [Dat.leavesExact_idle (dat1 V c) 3 t (idle1_3 t hc1) (noFlush1_3 t hc1)]
    by_cases h0 : t.val % 4 = 0
    · -- the first block of the contracted axis
      have hc0 : cond1_0 (grid1.coords t) := (hcond1_0 t).mpr h0
      rw [acc1_first V c t h0, PhiS1_castSucc V c t]
      by_cases hz : t.val = 0
      · rw [PhiS1_zero V c _ _ hz, PhiA1_eq]
        iintro ⟨⟨⟨HS, Hrest⟩, Hg⟩, Ho, ⟨%d0, H0⟩, ⟨%d1, H1⟩, ⟨%d2, H2⟩, ⟨%d3, H3⟩⟩
        iapply (run1_first c (grid1.coords t) _ _ _ _ _ _ _ _ _ _ hc0 hc1 (iblk1 V c 0 t) (iblk1 V c 1 t) (iblk1 V c 2 t) _ Set.univ _)
        isplitl [H0]; · iexact H0
        isplitl [H1]; · iexact H1
        isplitl [H2]; · iexact H2
        isplitl [H3]; · iexact H3
        isplitl [HS]; · iexact HS
        iintro ⟨H0, H1, H2, H3, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        isplitl [H2]; · iexact H2
        iexists _; iexact H3
      · rw [PhiS1_pos V c _ _ hz]
        iintro ⟨⟨⟨HS, Hrest⟩, Hg⟩, Ho, ⟨%d0, H0⟩, ⟨%d1, H1⟩, ⟨%d2, H2⟩, ⟨%d3, H3⟩⟩
        iapply (run1_first c (grid1.coords t) _ _ _ _ _ _ _ _ _ _ hc0 hc1 (iblk1 V c 0 t) (iblk1 V c 1 t) (iblk1 V c 2 t) _ Set.univ _)
        isplitl [H0]; · iexact H0
        isplitl [H1]; · iexact H1
        isplitl [H2]; · iexact H2
        isplitl [H3]; · iexact H3
        isplitl [HS]; · iexists _; iexact HS
        iintro ⟨H0, H1, H2, H3, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        isplitl [H2]; · iexact H2
        iexists _; iexact H3
    · -- a middle block
      have hz : t.val ≠ 0 := by omega
      have hc0 : ¬cond1_0 (grid1.coords t) := fun h => h0 ((hcond1_0 t).mp h)
      rw [acc1_next V c t h0, PhiS1_castSucc V c t, PhiS1_pos V c _ _ hz]
      iintro ⟨⟨⟨HS, Hrest⟩, Hg⟩, Ho, ⟨%d0, H0⟩, ⟨%d1, H1⟩, ⟨%d2, H2⟩, ⟨%d3, H3⟩⟩
      iapply (run1_mid c (grid1.coords t) _ _ _ _ _ _ _ _ _ _ hc0 hc1 (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexists _; iexact H3

/-- Every grid point's obligation, in the form the pipeline library asks for. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped buffers back, the accumulator's contents forgotten. -/
theorem hout1 (c : Dev nD) : (dat1 V c).Φ (Fin.last cfg1.N) ⊢ Pipeline.ΦA spec1 c := by
  have hne : (Fin.last cfg1.N).val ≠ 0 := by rw [Fin.val_last]; have : cfg1.N = 16 := N_1; omega
  rw [show (dat1 V c).Φ (Fin.last cfg1.N) = PhiS1 V c (Fin.last cfg1.N).val (Nat.le_of_lt_succ (Fin.last cfg1.N).isLt) from rfl,
    PhiS1_pos V c _ _ hne, PhiA1_eq]
  iintro ⟨⟨HS, Hrest⟩, Hg⟩
  isplitl [HS Hrest]
  · isplitl [HS]; · iexists _; iexact HS
    iexact Hrest
  iexact Hg

end Cert.KernelIdeal.Hand
end
-- ==== Proof.KIRuns2.lean ====
import proofs.«110502_j4913442587016_1_alg».proof.Proof.Gen.KernelIdeal.Launch
import proofs.«110502_j4913442587016_1_alg».proof.Proof.Gen.KernelIdeal.Skeleton
import proofs.«110502_j4913442587016_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a whole-block rectangle, as a function. -/
theorem hz2_2 : (![0, 0] : Fin 2 → ℕ) = fun _ => 0 := by funext a; fin_cases a <;> rfl

/-! ## Kernel 2: its two branch conditions over the grid -/

/-- "This is the first block of the contracted axis": the condition of the body's first conditional. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)
/-- "This is the last block of the contracted axis": the condition of the body's second conditional. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## Kernel 2: the body's triple in each of its three cases -/

set_option maxHeartbeats 1000000 in
/-- FIRST block of the contracted axis: the scratch, at anything, is zeroed and the product of the two blocks added;
    the output buffer is not touched. -/
theorem run2_first (c : Dev nD) (i : grid2.Coords) (arg2 : Memref sig .tc .vmem S256x2048 .bf16) (harg2 : arg2.IsWhole) (arg3 : Memref sig .tc .vmem S2048x2048 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S256x2048 .f32) (harg8 : arg8.IsWhole)
    (hc0 : cond2_0 i) (hc1 : ¬cond2_1 i) (x0 : Vec F S256x2048 .bf16) (x1 : Vec F S2048x2048 .bf16) (x2 : Vec F S1x2048 .f32) (x3 : Vec F S1x2048 .f32) (x4 : Vec F S1x2048 .f32) (xo : Vec F S256x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ owns (c : Thread nD τ) arg8 fullShare (k2_pay2 (k2_pay1 (F := F)) x0 x1)) -∗ K ⟨⟩))
      ⊢ wp frame (wpE (defs₀ (F := F)) Variants.none c none) E (cc2_kernel i arg2 harg2 arg3 harg3 arg4 harg4 arg5 harg5 arg6 harg6 arg7 harg7 arg8 harg8) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%d, %fs, %hfs, HS⟩, Hk⟩
  obtain rfl := harg2.eq_unread hf0; obtain rfl := harg3.eq_unread hf1; obtain rfl := harg4.eq_unread hf2; obtain rfl := harg5.eq_unread hf3; obtain rfl := harg6.eq_unread hf4
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [HO]
  · iexists _; isplitr; · ipureintro; exact hfo
    iexact HO
  iexists _; isplitr
  swap; · iexact HS
  ipureintro
  sl_unfold_run_names
  rw [View.read_writes_eq_canon _ _ _ (fun y => ⟨_, List.mem_cons_self, View.mem_set_unit_zero hz2_2 inb_S256x2048_S256x2048_0_0 y⟩), View.canon_cons_unit_zero hz2_2]
  simp only [View.readCov_unit_zero (S := S256x2048) _ hz2_2, View.readAt_eq_ld, harg2.read_unread, harg3.read_unread, harg4.read_unread, harg5.read_unread, harg6.read_unread, harg8.read_unread, View.ld_unit_zero (S := S256x2048) hz2_2, View.ld_unit_zero (S := S2048x2048) hz2_2, View.ld_unit_zero (S := S1x2048) hz2_2]

set_option maxHeartbeats 1000000 in
/-- A MIDDLE block: the product of the two blocks is added to what the scratch held; the output buffer is not touched. -/
theorem run2_mid (c : Dev nD) (i : grid2.Coords) (arg2 : Memref sig .tc .vmem S256x2048 .bf16) (harg2 : arg2.IsWhole) (arg3 : Memref sig .tc .vmem S2048x2048 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S256x2048 .f32) (harg8 : arg8.IsWhole)
    (hc0 : ¬cond2_0 i) (hc1 : ¬cond2_1 i) (x0 : Vec F S256x2048 .bf16) (x1 : Vec F S2048x2048 .bf16) (x2 : Vec F S1x2048 .f32) (x3 : Vec F S1x2048 .f32) (x4 : Vec F S1x2048 .f32) (xo : Vec F S256x2048 .f32) (xs : Vec F S256x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo ∗ owns (c : Thread nD τ) arg8 fullShare (k2_pay2 xs x0 x1)) -∗ K ⟨⟩))
      ⊢ wp frame (wpE (defs₀ (F := F)) Variants.none c none) E (cc2_kernel i arg2 harg2 arg3 harg3 arg4 harg4 arg5 harg5 arg6 harg6 arg7 harg7 arg8 harg8) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [HO]
  · iexists _; isplitr; · ipureintro; exact hfo
    iexact HO
  iexists _; isplitr
  swap; · iexact HS
  ipureintro
  sl_unfold_run_names
  rw [View.read_writes_eq_canon _ _ _ (fun y => ⟨_, List.mem_cons_self, View.mem_set_unit_zero hz2_2 inb_S256x2048_S256x2048_0_0 y⟩), View.canon_cons_unit_zero hz2_2]
  simp only [View.readCov_unit_zero (S := S256x2048) _ hz2_2, View.readAt_eq_ld, harg2.read_unread, harg3.read_unread, harg4.read_unread, harg5.read_unread, harg6.read_unread, harg8.read_unread, View.ld_unit_zero (S := S256x2048) hz2_2, View.ld_unit_zero (S := S2048x2048) hz2_2, View.ld_unit_zero (S := S1x2048) hz2_2]

set_option maxHeartbeats 1000000 in
/-- The LAST block: the product is added to the scratch, and the epilogue of the sum is stored into the output buffer
    (which held anything). -/
theorem run2_last (c : Dev nD) (i : grid2.Coords) (arg2 : Memref sig .tc .vmem S256x2048 .bf16) (harg2 : arg2.IsWhole) (arg3 : Memref sig .tc .vmem S2048x2048 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S256x2048 .f32) (harg7 : arg7.IsWhole) (arg8 : Memref sig .tc .vmem S256x2048 .f32) (harg8 : arg8.IsWhole)
    (hc0 : ¬cond2_0 i) (hc1 : cond2_1 i) (x0 : Vec F S256x2048 .bf16) (x1 : Vec F S2048x2048 .bf16) (x2 : Vec F S1x2048 .f32) (x3 : Vec F S1x2048 .f32) (x4 : Vec F S1x2048 .f32) (xs : Vec F S256x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k2_pay3 (k2_pay2 xs x0 x1) x2 x3 x4) ∗ owns (c : Thread nD τ) arg8 fullShare (k2_pay2 xs x0 x1)) -∗ K ⟨⟩))
      ⊢ wp frame (wpE (defs₀ (F := F)) Variants.none c none) E (cc2_kernel i arg2 harg2 arg3 harg3 arg4 harg4 arg5 harg5 arg6 harg6 arg7 harg7 arg8 harg8) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%d, %fo, %hfo, HO⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [HO]
  · iexists _; isplitr
    swap; · iexact HO
    ipureintro
    sl_unfold_run_names
    rw [View.read_writes_eq_canon _ _ _ (fun y => ⟨_, List.mem_cons_self, View.mem_set_unit_zero hz2_2 inb_S256x2048_S256x2048_0_0 y⟩), View.canon_cons_unit_zero hz2_2]
    simp only [View.readCov_unit_zero (S := S256x2048) _ hz2_2, View.readAt_eq_ld, harg2.read_unread, harg3.read_unread, harg4.read_unread, harg5.read_unread, harg6.read_unread, harg8.read_unread, View.ld_unit_zero (S := S256x2048) hz2_2, View.ld_unit_zero (S := S2048x2048) hz2_2, View.ld_unit_zero (S := S1x2048) hz2_2]
  iexists _; isplitr
  swap; · iexact HS
  ipureintro
  sl_unfold_run_names
  rw [View.read_writes_eq_canon _ _ _ (fun y => ⟨_, List.mem_cons_self, View.mem_set_unit_zero hz2_2 inb_S256x2048_S256x2048_0_0 y⟩), View.canon_cons_unit_zero hz2_2]
  simp only [View.readCov_unit_zero (S := S256x2048) _ hz2_2, View.readAt_eq_ld, harg2.read_unread, harg3.read_unread, harg4.read_unread, harg5.read_unread, harg6.read_unread, harg8.read_unread, View.ld_unit_zero (S := S256x2048) hz2_2, View.ld_unit_zero (S := S2048x2048) hz2_2, View.ld_unit_zero (S := S1x2048) hz2_2]

end Cert.KernelIdeal.Hand
end
-- ==== Proof.KIRegion2.lean ====
import proofs.«110502_j4913442587016_1_alg».proof.Proof.Gen.KernelIdeal.Launch
import proofs.«110502_j4913442587016_1_alg».proof.Proof.Gen.KernelIdeal.Skeleton
import proofs.«110502_j4913442587016_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«110502_j4913442587016_1_alg».proof.Proof.KIRuns2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 2: the windows' blocks, the accumulator and the output block, point by point -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator after point `n`: at the first point of each run of four (the first block of the contracted axis)
    the product of that point's blocks added to zero, afterwards the point's product added to what the point before left. -/
def acc2 (c : Dev nD) : (n : ℕ) → n < cfg2.N → Vec F S256x2048 .f32
  | 0, h => k2_pay2 (k2_pay1 (F := F)) (iblk2 V c 0 ⟨0, h⟩) (iblk2 V c 1 ⟨0, h⟩)
  | n + 1, h =>
    if (n + 1) % 4 = 0 then k2_pay2 (k2_pay1 (F := F)) (iblk2 V c 0 ⟨n + 1, h⟩) (iblk2 V c 1 ⟨n + 1, h⟩)
    else k2_pay2 (acc2 c n (Nat.lt_of_succ_lt h)) (iblk2 V c 0 ⟨n + 1, h⟩) (iblk2 V c 1 ⟨n + 1, h⟩)

/-- The output block after point `t` (meaningful at the last block of the contracted axis, where it is stored and
    written back): the epilogue of the accumulator, the bias row, the boundary-value row and the mask row. -/
def out2 (c : Dev nD) (t : Fin cfg2.N) : Vec F S256x2048 .f32 :=
  k2_pay3 (acc2 V c t.val t.isLt) (iblk2 V c 2 t) (iblk2 V c 3 t) (iblk2 V c 4 t)

/-- The kernel's scratch operand as a memref. -/
abbrev scM2 : Memref sig .tc .vmem S256x2048 .f32 := Memref.whole cc2_scratch0

/-- The scoped buffers that are neither a staging buffer of this call nor its scratch, at some contents each. -/
abbrev rest2 (c : Dev nD) : sProp 𝕄 :=
  Pipeline.scopedRestBut (Ix := Unit) (Name := ℕ) (U := UR sig nD τ) (Lvl := ℕ) (Val := Elt F) spec2 c [cc2_scratch0]

/-- The region invariant before position `n`: before the first point every scoped buffer at anything; afterwards the
    scratch at the accumulator the point before left, the other scoped buffers at anything, the generator register at some state. -/
def PhiS2 (c : Dev nD) : (n : ℕ) → n ≤ cfg2.N → sProp 𝕄
  | 0, _ => Pipeline.ΦA spec2 c
  | n + 1, hn => iprop((owns (c : Thread nD τ) scM2 fullShare (acc2 V c n hn) ∗ rest2 c) ∗ (∃ r, prngReg c r))

/-- The proof data of pipeline 2 on core `c` at the entry contents `V`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2 V c t := by dsimp only [dat2]

/-- Input window 0's staging buffer holds the window's block at every point, fetched there or kept from the point before. -/
theorem before2_0 (c : Dev nD) (t : Fin cfg2.N) (d) : (dat2 V c).before 0 t d = iblk2 V c 0 t := by
  refine ((dat2 V c).before_in_eq_fetched 0 rfl (fun _ => rfl) (fun _ _ _ => rfl) (fun t => ?_) t d).trans ?_
  · rw [after2_0]; unfold Dat.blockOf iblk2; rw [A_eq2]; try rfl
  · unfold Dat.fetched Dat.blockOf iblk2; rw [A_eq2]; try rfl
/-- Input window 1's staging buffer holds the window's block at every point, fetched there or kept from the point before. -/
theorem before2_1 (c : Dev nD) (t : Fin cfg2.N) (d) : (dat2 V c).before 1 t d = iblk2 V c 1 t := by
  refine ((dat2 V c).before_in_eq_fetched 1 rfl (fun _ => rfl) (fun _ _ _ => rfl) (fun t => ?_) t d).trans ?_
  · rw [after2_1]; unfold Dat.blockOf iblk2; rw [A_eq2]; try rfl
  · unfold Dat.fetched Dat.blockOf iblk2; rw [A_eq2]; try rfl
/-- Input window 2's staging buffer holds the window's block at every point, fetched there or kept from the point before. -/
theorem before2_2 (c : Dev nD) (t : Fin cfg2.N) (d) : (dat2 V c).before 2 t d = iblk2 V c 2 t := by
  refine ((dat2 V c).before_in_eq_fetched 2 rfl (fun _ => rfl) (fun _ _ _ => rfl) (fun t => ?_) t d).trans ?_
  · rw [after2_2]; unfold Dat.blockOf iblk2; rw [A_eq2]; try rfl
  · unfold Dat.fetched Dat.blockOf iblk2; rw [A_eq2]; try rfl
/-- Input window 3's staging buffer holds the window's block at every point, fetched there or kept from the point before. -/
theorem before2_3 (c : Dev nD) (t : Fin cfg2.N) (d) : (dat2 V c).before 3 t d = iblk2 V c 3 t := by
  refine ((dat2 V c).before_in_eq_fetched 3 rfl (fun _ => rfl) (fun _ _ _ => rfl) (fun t => ?_) t d).trans ?_
  · rw [after2_3]; unfold Dat.blockOf iblk2; rw [A_eq2]; try rfl
  · unfold Dat.fetched Dat.blockOf iblk2; rw [A_eq2]; try rfl
/-- Input window 4's staging buffer holds the window's block at every point, fetched there or kept from the point before. -/
theorem before2_4 (c : Dev nD) (t : Fin cfg2.N) (d) : (dat2 V c).before 4 t d = iblk2 V c 4 t := by
  refine ((dat2 V c).before_in_eq_fetched 4 rfl (fun _ => rfl) (fun _ _ _ => rfl) (fun t => ?_) t d).trans ?_
  · rw [after2_4]; unfold Dat.blockOf iblk2; rw [A_eq2]; try rfl
  · unfold Dat.fetched Dat.blockOf iblk2; rw [A_eq2]; try rfl

/-! ## The accumulator's recursion, point by point -/

theorem acc2_first (c : Dev nD) (t : Fin cfg2.N) (h0 : t.val % 4 = 0) :
    acc2 V c t.val t.isLt = k2_pay2 (k2_pay1 (F := F)) (iblk2 V c 0 t) (iblk2 V c 1 t) := by
  obtain ⟨n, hn⟩ := t
  cases n with
  | zero => rfl
  | succ n => exact if_pos h0

theorem acc2_next (c : Dev nD) (t : Fin cfg2.N) (h0 : ¬t.val % 4 = 0) :
    acc2 V c t.val t.isLt
      = k2_pay2 (acc2 V c (t.val - 1) (Nat.lt_of_le_of_lt (Nat.sub_le _ _) t.isLt)) (iblk2 V c 0 t) (iblk2 V c 1 t) := by
  obtain ⟨n, hn⟩ := t
  cases n with
  | zero => exact absurd (Nat.zero_mod _) h0
  | succ n => exact if_neg h0

/-! ## The invariant, unfolded at a position -/

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop((owns (c : Thread nD τ) scM2 fullShare (acc2 V c n hn) ∗ rest2 c) ∗ (∃ r, prngReg c r)) := rfl

theorem PhiS2_pos (c : Dev nD) (n : ℕ) (h : n ≤ cfg2.N) (hz : n ≠ 0) :
    PhiS2 V c n h = iprop((owns (c : Thread nD τ) scM2 fullShare (acc2 V c (n - 1) (by omega)) ∗ rest2 c) ∗ (∃ r, prngReg c r)) := by
  cases n with
  | zero => exact absurd rfl hz
  | succ n => rfl

theorem PhiS2_castSucc (c : Dev nD) (t : Fin cfg2.N) :
    (dat2 V c).Φ t.castSucc = PhiS2 V c t.val (Nat.le_of_lt t.isLt) := by
  dsimp only [dat2]; simp only [Fin.coe_castSucc]

/-- What the region is handed of the scoped buffers, with the scratch singled out. -/
theorem PhiA2_eq (c : Dev nD) :
    (Pipeline.ΦA spec2 c : sProp 𝕄)
      = iprop(((∃ d, owns (c : Thread nD τ) scM2 fullShare d) ∗ rest2 c) ∗ (∃ r, prngReg c r)) := by
  unfold Pipeline.ΦA
  rw [Pipeline.scopedRest_split_of_list spec2 c [cc2_scratch0] (by decide) (by decide)]
  simp only [scM2, owns_whole]; try rfl

/-! ## Where the windows are live -/

theorem live2_0 : ∀ t : Fin cfg2.N, cfg2.idle 0 (grid2.coords t) = false := by decide +kernel
theorem leaves2_0 (c : Dev nD) (t : Fin cfg2.N) :
    (dat2 V c).leavesExact 0 t = owns (c : Thread nD τ) (win2_0.stage (cfg2.slots t 0)) fullShare (iblk2 V c 0 t) := by
  unfold Dat.leavesExact; rw [live2_0 t, after2_0]
theorem live2_1 : ∀ t : Fin cfg2.N, cfg2.idle 1 (grid2.coords t) = false := by decide +kernel
theorem leaves2_1 (c : Dev nD) (t : Fin cfg2.N) :
    (dat2 V c).leavesExact 1 t = owns (c : Thread nD τ) (win2_1.stage (cfg2.slots t 1)) fullShare (iblk2 V c 1 t) := by
  unfold Dat.leavesExact; rw [live2_1 t, after2_1]
theorem live2_2 : ∀ t : Fin cfg2.N, cfg2.idle 2 (grid2.coords t) = false := by decide +kernel
theorem leaves2_2 (c : Dev nD) (t : Fin cfg2.N) :
    (dat2 V c).leavesExact 2 t = owns (c : Thread nD τ) (win2_2.stage (cfg2.slots t 2)) fullShare (iblk2 V c 2 t) := by
  unfold Dat.leavesExact; rw [live2_2 t, after2_2]
theorem live2_3 : ∀ t : Fin cfg2.N, cfg2.idle 3 (grid2.coords t) = false := by decide +kernel
theorem leaves2_3 (c : Dev nD) (t : Fin cfg2.N) :
    (dat2 V c).leavesExact 3 t = owns (c : Thread nD τ) (win2_3.stage (cfg2.slots t 3)) fullShare (iblk2 V c 3 t) := by
  unfold Dat.leavesExact; rw [live2_3 t, after2_3]
theorem live2_4 : ∀ t : Fin cfg2.N, cfg2.idle 4 (grid2.coords t) = false := by decide +kernel
theorem leaves2_4 (c : Dev nD) (t : Fin cfg2.N) :
    (dat2 V c).leavesExact 4 t = owns (c : Thread nD τ) (win2_4.stage (cfg2.slots t 4)) fullShare (iblk2 V c 4 t) := by
  unfold Dat.leavesExact; rw [live2_4 t, after2_4]
/-- The output window is idle, and not written back, away from the last block of the contracted axis; live there. -/
theorem idle2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel
theorem live2_5 : ∀ t : Fin cfg2.N, cond2_1 (grid2.coords t) → cfg2.idle 5 (grid2.coords t) = false := by decide +kernel

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (win2_0.stage (cfg2.slots t 0)) fullShare ((dat2 V c).before 0 t d))
    ∗ (∃ d, owns (c : Thread nD τ) (win2_1.stage (cfg2.slots t 1)) fullShare ((dat2 V c).before 1 t d))
    ∗ (∃ d, owns (c : Thread nD τ) (win2_2.stage (cfg2.slots t 2)) fullShare ((dat2 V c).before 2 t d))
    ∗ (∃ d, owns (c : Thread nD τ) (win2_3.stage (cfg2.slots t 3)) fullShare ((dat2 V c).before 3 t d))
    ∗ (∃ d, owns (c : Thread nD τ) (win2_4.stage (cfg2.slots t 4)) fullShare ((dat2 V c).before 4 t d))
    ∗ (∃ d, owns (c : Thread nD τ) (win2_5.stage (cfg2.slots t 5)) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4000000 in
/-- The body at any point: the inputs' buffers hold their blocks; the point's place in its run of four says which case
    of the body runs; the invariant hands over the scratch at what the point before left (at anything at the very
    first point) and takes it back at this point's accumulator; the output buffer is stored only in the last case. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3, leaves2_4]
  have hN : t.val < 16 := lt_of_lt_of_eq t.isLt (show cfg2.N = 16 from N_2)
  by_cases h3 : t.val % 4 = 3
  · -- the last block of the contracted axis
    have h0 : ¬t.val % 4 = 0 := by omega
    have hz : t.val ≠ 0 := by omega
    have hc0 : ¬cond2_0 (grid2.coords t) := fun h => h0 ((hcond2_0 t).mp h)
    have hc1 : cond2_1 (grid2.coords t) := (hcond2_1 t).mpr h3
    rw [show (dat2 V c).leavesExact 5 t = owns (c : Thread nD τ) (win2_5.stage (cfg2.slots t 5)) fullShare ((dat2 V c).after 5 t) from by
      unfold Dat.leavesExact; rw [live2_5 t hc1], after2_5]
    unfold out2
    rw [acc2_next V c t h0, PhiS2_castSucc V c t, PhiS2_pos V c _ _ hz]
    iintro ⟨⟨⟨HS, Hrest⟩, Hg⟩, Ho, ⟨%d0, H0⟩, ⟨%d1, H1⟩, ⟨%d2, H2⟩, ⟨%d3, H3⟩, ⟨%d4, H4⟩, ⟨%d5, H5⟩⟩
    iapply (run2_last c (grid2.coords t) _ _ _ _ _ _ _ _ _ _ _ _ _ _ hc0 hc1 (iblk2 V c 0 t) (iblk2 V c 1 t) (iblk2 V c 2 t) (iblk2 V c 3 t) (iblk2 V c 4 t) _ Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    isplitl [H4]; · iexact H4
    iexact H5
  · have hc1 : ¬cond2_1 (grid2.coords t) := fun h => h3 ((hcond2_1 t).mp h)
    rw [Dat.leavesExact_idle (dat2 V c) 5 t (idle2_5 t hc1) (noFlush2_5 t hc1)]
    by_cases h0 : t.val % 4 = 0
    · -- the first block of the contracted axis
      have hc0 : cond2_0 (grid2.coords t) := (hcond2_0 t).mpr h0
      rw [acc2_first V c t h0, PhiS2_castSucc V c t]
      by_cases hz : t.val = 0
      · rw [PhiS2_zero V c _ _ hz, PhiA2_eq]
        iintro ⟨⟨⟨HS, Hrest⟩, Hg⟩, Ho, ⟨%d0, H0⟩, ⟨%d1, H1⟩, ⟨%d2, H2⟩, ⟨%d3, H3⟩, ⟨%d4, H4⟩, ⟨%d5, H5⟩⟩
        iapply (run2_first c (grid2.coords t) _ _ _ _ _ _ _ _ _ _ _ _ _ _ hc0 hc1 (iblk2 V c 0 t) (iblk2 V c 1 t) (iblk2 V c 2 t) (iblk2 V c 3 t) (iblk2 V c 4 t) _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexact HS
        iintro ⟨H0, H1, H2, H3, H4, H5, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS2_pos V c _ _ hz]
        iintro ⟨⟨⟨HS, Hrest⟩, Hg⟩, Ho, ⟨%d0, H0⟩, ⟨%d1, H1⟩, ⟨%d2, H2⟩, ⟨%d3, H3⟩, ⟨%d4, H4⟩, ⟨%d5, H5⟩⟩
        iapply (run2_first c (grid2.coords t) _ _ _ _ _ _ _ _ _ _ _ _ _ _ hc0 hc1 (iblk2 V c 0 t) (iblk2 V c 1 t) (iblk2 V c 2 t) (iblk2 V c 3 t) (iblk2 V c 4 t) _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexists _; iexact HS
        iintro ⟨H0, H1, H2, H3, H4, H5, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
    · -- a middle block
      have hz : t.val ≠ 0 := by omega
      have hc0 : ¬cond2_0 (grid2.coords t) := fun h => h0 ((hcond2_0 t).mp h)
      rw [acc2_next V c t h0, PhiS2_castSucc V c t, PhiS2_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩⟩
      iapply (run2_mid c (grid2.coords t) _ _ _ _ _ _ _ _ _ _ _ _ _ _ hc0 hc1 (iblk2 V c 0 t) (iblk2 V c 1 t) (iblk2 V c 2 t) (iblk2 V c 3 t) (iblk2 V c 4 t) _ _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- Every grid point's obligation, in the form the pipeline library asks for. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the scoped buffers back, the accumulator's contents forgotten. -/
theorem hout2 (c : Dev nD) : (dat2 V c).Φ (Fin.last cfg2.N) ⊢ Pipeline.ΦA spec2 c := by
  have hne : (Fin.last cfg2.N).val ≠ 0 := by rw [Fin.val_last]; have : cfg2.N = 16 := N_2; omega
  rw [show (dat2 V c).Φ (Fin.last cfg2.N) = PhiS2 V c (Fin.last cfg2.N).val (Nat.le_of_lt_succ (Fin.last cfg2.N).isLt) from rfl,
    PhiS2_pos V c _ _ hne, PhiA2_eq]
  iintro ⟨⟨HS, Hrest⟩, Hg⟩
  isplitl [HS Hrest]
  · isplitl [HS]; · iexists _; iexact HS
    iexact Hrest
  iexact Hg

end Cert.KernelIdeal.Hand
end
-- ==== Proof.KIFrame.lean ====
import proofs.«110502_j4913442587016_1_alg».proof.Proof.KIRegion0
import proofs.«110502_j4913442587016_1_alg».proof.Proof.KIRegion1
import proofs.«110502_j4913442587016_1_alg».proof.Proof.KIRegion2
import proofs.«110502_j4913442587016_1_alg».proof.Proof.Gen.KernelIdeal.Launch
import proofs.«110502_j4913442587016_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The run of the program: one stretch of host operations, then its three kernel regions back to back

The program's top level is a line of host operations followed by three kernel calls. Between two consecutive pieces a
core holds every unscoped buffer whole at a known valuation; the four valuations below are those contents, each computed
from the one before: the host line's results on top of the launch memory, then, per region, the region's arrays at what
its pipeline leaves in them and every other buffer untouched. -/

section Boundaries

-- the valuations take the launch memory and, for uniformity with the run's statement, the generator registers (which no
-- buffer's contents depend on)
/-- Core `c`'s buffers at launch. -/
abbrev W0 (m : (ℓ : Loc nD τ sig) → Buf (Elt F) ℓ) (ρ : Dev nD → PrngReg) : Dev nD → Valuation τ sig (Elt F) :=
  fun c b => m (c, b)
/-- After the host line: what the first region is entered from. -/
abbrev W1 (m : (ℓ : Loc nD τ sig) → Buf (Elt F) ℓ) (ρ : Dev nD → PrngReg) : Dev nD → Valuation τ sig (Elt F) :=
  fun c => StableHlo.after hostOps0 (fun b => m (c, b))
/-- The same read at the TensorCore's references: the entry contents of the first region. -/
abbrev VE1 (m : (ℓ : Loc nD τ sig) → Buf (Elt F) ℓ) (ρ : Dev nD → PrngReg) :
    (c : Dev nD) → (b : Ref sig .tc) → Buf (Elt F) ((c : Thread nD τ).loc b) := fun c b => W1 m ρ c b

variable (m : (ℓ : Loc nD τ sig) → Buf (Elt F) ℓ) (ρ : Dev nD → PrngReg)

/-- After the first region: its four arrays at what the pipeline leaves there (an input as entered, the output with its
    write-backs folded in), every other buffer as entered. -/
def W2 (c : Dev nD) : Valuation τ sig (Elt F) :=
  Pipeline.withArrays spec0 c (W1 m ρ c) fun w => (dat0 (VE1 m ρ) c).arrAt w cfg0.N
/-- The entry contents of the second region. -/
abbrev VE2 : (c : Dev nD) → (b : Ref sig .tc) → Buf (Elt F) ((c : Thread nD τ).loc b) := fun c b => W2 m ρ c b

/-- After the second region. -/
def W3 (c : Dev nD) : Valuation τ sig (Elt F) :=
  Pipeline.withArrays spec1 c (W2 m ρ c) fun w => (dat1 (VE2 m ρ) c).arrAt w cfg1.N
/-- The entry contents of the third region. -/
abbrev VE3 : (c : Dev nD) → (b : Ref sig .tc) → Buf (Elt F) ((c : Thread nD τ).loc b) := fun c b => W3 m ρ c b

/-- After the third region: the contents the program returns with. -/
def W4 (c : Dev nD) : Valuation τ sig (Elt F) :=
  Pipeline.withArrays spec2 c (W3 m ρ c) fun w => (dat2 (VE3 m ρ) c).arrAt w cfg2.N
/-- The same read at the TensorCore's references. -/
abbrev VE4 : (c : Dev nD) → (b : Ref sig .tc) → Buf (Elt F) ((c : Thread nD τ).loc b) := fun c b => W4 m ρ c b

theorem VE1_eq (c : Dev nD) (b : Ref sig .tc) :
    VE1 m ρ c b = StableHlo.after hostOps0 (fun b => m (c, b)) (Proc.devRef .tc b) := rfl

/-! ## Reading a boundary valuation: at an array of the region just left, and anywhere else -/

theorem W2_at (c : Dev nD) (w : Fin cfg0.W) :
    W2 m ρ c (Proc.devRef .tc (Pipeline.arrRef spec0 w)) = (dat0 (VE1 m ρ) c).arrAt w cfg0.N := by
  unfold W2; exact Pipeline.withArrays_arr spec0 launch0.win.arr_inj c _ _ w
theorem W3_at (c : Dev nD) (w : Fin cfg1.W) :
    W3 m ρ c (Proc.devRef .tc (Pipeline.arrRef spec1 w)) = (dat1 (VE2 m ρ) c).arrAt w cfg1.N := by
  unfold W3; exact Pipeline.withArrays_arr spec1 launch1.win.arr_inj c _ _ w
theorem W4_at (c : Dev nD) (w : Fin cfg2.W) :
    W4 m ρ c (Proc.devRef .tc (Pipeline.arrRef spec2 w)) = (dat2 (VE3 m ρ) c).arrAt w cfg2.N := by
  unfold W4; exact Pipeline.withArrays_arr spec2 launch2.win.arr_inj c _ _ w

/-- A buffer the host line does not write holds its launch contents when the first region is entered. -/
theorem W1_off (c : Dev nD) (b : Ref sig .tc) (hb : b ∉ hostOps0_W) :
    W1 m ρ c (Proc.devRef .tc b) = m ((c : Thread nD τ).loc b) :=
  StableHlo.after_of_writes_sub hostOps0 _ hostOps0_writes hb
/-- A buffer that is no array of the first region leaves it as it entered. -/
theorem W2_off (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same of the second region. -/
theorem W3_off (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same of the third region. -/
theorem W4_off (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb

/-- A buffer nothing writes — no host operation, no region's array — returns as launched. -/
theorem W4_untouched (c : Dev nD) (b : Ref sig .tc) (h : b ∉ hostOps0_W) (h0 : ∀ w, Pipeline.arrRef spec0 w ≠ b)
    (h1 : ∀ w, Pipeline.arrRef spec1 w ≠ b) (h2 : ∀ w, Pipeline.arrRef spec2 w ≠ b) :
    W4 m ρ c (Proc.devRef .tc b) = m ((c : Thread nD τ).loc b) :=
  (W4_off m ρ c b h2).trans ((W3_off m ρ c b h1).trans ((W2_off m ρ c b h0).trans (W1_off m ρ c b h)))

end Boundaries

/-! ## What every region's record shares

Each kernel here keeps a scratch accumulator between grid points, so its invariant is its own; but at the two ENDS of
a region the invariant is the plain one — the scoped buffers no window stages, at anything, beside the generator register
at some state — and the regions' halves say so (`hin`, `hout`). The lemmas below move between that plain invariant and
the pieces a region record names, and between "the core owes nothing" and a proof data's tallies. -/

section Shared

/-- The generator register and the scoped buffers no window stages make the plain invariant; what stands between is let go. -/
theorem plain_intro {gr W : Nat} (win : Fin W → Pipeline.WinSpec sig gr) (c : Dev nD) (P : sProp 𝕄) :
    iprop((∃ r, prngReg c r) ∗ P ∗ Pipeline.scopedRest (Ix := Unit) (Name := ℕ) (U := UR sig nD τ) (Lvl := ℕ) (Val := Elt F) win c)
      ⊢ (Pipeline.ΦA win c : sProp 𝕄) := by
  unfold Pipeline.ΦA
  iintro ⟨Hg, -, Hs⟩
  isplitl [Hs]; · iexact Hs
  iexact Hg

/-- The plain invariant gives them back (no semaphore of the kernel's own: `emp` stands in their place). -/
theorem plain_elim {gr W : Nat} (win : Fin W → Pipeline.WinSpec sig gr) (c : Dev nD) :
    (Pipeline.ΦA win c : sProp 𝕄)
      ⊢ iprop((∃ r, prngReg c r) ∗ BI.emp ∗ Pipeline.scopedRest (Ix := Unit) (Name := ℕ) (U := UR sig nD τ) (Lvl := ℕ) (Val := Elt F) win c) := by
  unfold Pipeline.ΦA
  iintro ⟨Hs, Hg⟩
  isplitl [Hg]; · iexact Hg
  isplitr; · iempintro
  iexact Hs

/-- A core owing nothing holds a proof data's tallies at any position where the data owe nothing and bound nothing. -/
theorem owesAt_intro {cfg : Cfg sig Λ₀} {c : Dev nD} (dat : Dat τ (Elt F) Unit ℕ (UR sig nD τ) ℕ cfg c) (t : Fin (cfg.N + 1))
    (h0 : dat.owed t = 0) (hrec : ∀ x, x ∈ dat.recorded t) :
    (iprop(∃ W, owes (c : Thread nD τ) (0 : CellTallies nD τ sig Unit) W) : sProp 𝕄) ⊢ dat.owesAt () t := by
  unfold Dat.owesAt Pipeline.owesWithin
  rw [h0]
  iintro ⟨%W, HO⟩
  iexists W; isplitr; · ipureintro; exact fun x _ => Or.inl (hrec x)
  iexact HO

/-- And back. -/
theorem owesAt_elim {cfg : Cfg sig Λ₀} {c : Dev nD} (dat : Dat τ (Elt F) Unit ℕ (UR sig nD τ) ℕ cfg c) (t : Fin (cfg.N + 1))
    (h0 : dat.owed t = 0) :
    (dat.owesAt () t : sProp 𝕄) ⊢ iprop(∃ W, owes (c : Thread nD τ) (0 : CellTallies nD τ sig Unit) W) := by
  unfold Dat.owesAt Pipeline.owesWithin
  rw [h0]
  iintro ⟨%W, -, HO⟩
  iexists W; iexact HO

end Shared

/-! ## The pieces of the run -/

section Run

/-- No unit is ever owed between cores in this program, so no pair carries a level. -/
abbrev noLevels : GSem nD τ sig → Finset Unit := fun _ => ∅
abbrev lvl0 : GSem nD τ sig → Unit → ℕ := fun _ _ => 0

/-- A core's unscoped buffers, each whole, at the contents a boundary valuation gives them. -/
abbrev bufsAt (W : Dev nD → Valuation τ sig (Elt F)) (c : Dev nD) : sProp 𝕄 :=
  StableHlo.held (c : Thread nD τ) (Pipeline.ucRefs τ sig) (W c)
/-- The core's generator register at some state. -/
abbrev gen (c : Dev nD) : sProp 𝕄 := iprop(∃ r, prngReg c r)
/-- The core owing nothing. -/
abbrev owesNothing (c : Dev nD) : sProp 𝕄 := iprop(∃ W, owes (c : Thread nD τ) (0 : CellTallies nD τ sig Unit) W)
/-- What a core carries beside its buffers from one piece to the next. -/
abbrev side (c : Dev nD) : sProp 𝕄 := iprop(gen (F := F) c ∗ owesNothing (F := F) c)

/-- A region's entry, as a rearrangement: the buffers split into the arrays and the rest, the tables' share made of
    nothing, the tallies made of owing nothing, the generator register handed to the invariant. -/
theorem entry_shuffle {B G O A T O' Z La : sProp 𝕄} (hB : B ⊢ iprop(A ∗ Z)) (hT : (BI.emp : sProp 𝕄) ⊢ T) (hO : O ⊢ O') :
    iprop((B ∗ G ∗ O) ∗ BI.emp ∗ La) ⊢ (|={Set.univ}=> iprop(A ∗ T ∗ O' ∗ G ∗ Z) : sProp 𝕄) := by
  iintro ⟨⟨HB, HG, HO⟩, -, -⟩
  ihave H := hB $$ HB
  icases H with ⟨HA, HZ⟩
  imodintro
  isplitl [HA]; · iexact HA
  isplitr; · iapply hT; iempintro
  isplitl [HO]; · iapply hO; iexact HO
  isplitl [HG]; · iexact HG
  iexact HZ

/-- A region's exit, as a rearrangement: the arrays and the rest joined into the buffers, the tallies read as owing nothing. -/
theorem exit_shuffle {A O' G Z B O : sProp 𝕄} (hB : iprop(A ∗ Z) ⊢ B) (hO : O' ⊢ O) :
    iprop(A ∗ O' ∗ G ∗ Z) ⊢ (|={Set.univ}=> iprop(B ∗ G ∗ O) : sProp 𝕄) := by
  iintro ⟨HA, HO, HG, HZ⟩
  imodintro
  isplitl [HA HZ]
  · iapply hB; isplitl [HA] <;> iassumption
  isplitl [HG]; · iexact HG
  iapply hO; iexact HO

/-- No pipeline of this program prefetches a table: the tables' share of an entry is made of nothing. -/
theorem noTables (p : Fin 3) (c : Dev nD) :
    (BI.emp : sProp 𝕄) ⊢ Pipeline.prefHeld (pcfgs (F := F) p).pre c (fun _ => fullShare) (adm p).1 := by
  unfold Pipeline.prefHeld
  rw [show (Finset.univ : Finset (Fin (pcfgs (F := F) p).pre.K)) = ∅ from rfl, BI.bigSep_empty]

variable (m : (ℓ : Loc nD τ sig) → Buf (Elt F) ℓ) (ρ : Dev nD → PrngReg)

/-- Every pipeline's proof data, each at the contents its region is entered from; a literal case split on the pipeline,
    so that at a numeral it is that region's data. -/
def regDats : (p : Fin 3) → (c : Dev nD) → Dat τ (Elt F) Unit ℕ (UR sig nD τ) ℕ (Pipeline.pin (pcfgs (F := F)) adm p) c
  | ⟨0, _⟩ => fun c => dat0 (VE1 m ρ) c
  | ⟨1, _⟩ => fun c => dat1 (VE2 m ρ) c
  | ⟨2, _⟩ => fun c => dat2 (VE3 m ρ) c

/-- Region 0's arrays out of the core's unscoped buffers at its entry contents, the rest beside them. -/
theorem split0 (c : Dev nD) :
    bufsAt (W1 m ρ) c ⊢ iprop((regDats m ρ 0 c).arrays ((regDats m ρ 0 c).arrAt · 0)
      ∗ Pipeline.unscopedRest (Ix := Unit) (Name := ℕ) (U := UR sig nD τ) (Lvl := ℕ) spec0 c (VE1 m ρ c)) := by
  have h := Pipeline.arrays_of_unscopedBufs (p := 0) (pcfgs (F := F)) adm (regDats m ρ) launch0.win launch0.arr_whole c
    ((regDats m ρ 0 c).share_full fun _ => rfl) (VE1 m ρ c) fun _ => rfl
  rwa [Pipeline.unscopedBufs_held] at h

/-- And back at its exit: the arrays at what the pipeline leaves, the rest as entered, are the unscoped buffers at the
    next boundary's contents. -/
theorem join0 (c : Dev nD) :
    iprop((regDats m ρ 0 c).arrays ((regDats m ρ 0 c).arrAt · cfg0.N)
      ∗ Pipeline.unscopedRest (Ix := Unit) (Name := ℕ) (U := UR sig nD τ) (Lvl := ℕ) spec0 c (VE1 m ρ c)) ⊢ bufsAt (W2 m ρ) c := by
  have h := Pipeline.unscopedBufs_of_arrays (p := 0) (pcfgs (F := F)) adm (Ix := Unit) (Name := ℕ) (U := UR sig nD τ) (Lvl := ℕ)
    launch0.win launch0.arr_whole c (regDats m ρ) ((regDats m ρ 0 c).share_full fun _ => rfl)
    (VE1 m ρ c) (VE2 m ρ c) ((regDats m ρ 0 c).arrAt · cfg0.N) (fun w => (W2_at m ρ c w).symm)
    (fun b hb => W2_off m ρ c b fun w e => hb (Finset.mem_image.mpr ⟨w, Finset.mem_univ _, e⟩))
  rwa [Pipeline.unscopedBufs_held] at h

-- the library speaks of a pipeline's configuration as looked up in the program's table; identifying it with this region's
-- printed configuration needs definitions unfolded inside the types of unknowns
set_option backward.isDefEq.respectTransparency.types false in
/-- REGION 0 as a piece of the run: entered from every unscoped buffer at `W1`, left at `W2`. -/
def reg0 : Pipeline.RegionSeg (pcfgs (F := F)) adm (regDats m ρ) () defs₀ Variants.none noLevels lvl0 0 where
  win := launch0.win.to₀
  block_pos := launch0.block_pos
  stage_whole := launch0.stage_whole
  K := PEmpty
  osem k := k.elim
  ho := Pipeline.OwnSemFacts.none _
  hbody c := (body_obligation0 (VE1 m ρ) c).loose
  hwaits := Pipeline.hwaits_of_owed_zero _ _ _ _ noLevels lvl0 0 fun _ _ => rfl
  pre c := iprop(bufsAt (W1 m ρ) c ∗ side c)
  post c := iprop(bufsAt (W2 m ρ) c ∗ side c)
  X c := gen c
  Y c := gen c
  Z c := Pipeline.unscopedRest (Ix := Unit) (Name := ℕ) (U := UR sig nD τ) (Lvl := ℕ) spec0 c (VE1 m ρ c)
  hentry c := by
    rw [Pipeline.ownSems0_none]
    exact entry_shuffle (split0 m ρ c) (noTables 0 c) (owesAt_intro (regDats m ρ 0 c) 0 rfl fun _ => trivial)
  hin c := (plain_intro spec0 c _).trans (hin0 (VE1 m ρ) c)
  hout c := by
    rw [Pipeline.ownSems0_none]
    exact (hout0 (VE1 m ρ) c).trans (plain_elim spec0 c)
  hexit c := exit_shuffle (join0 m ρ c) (owesAt_elim (regDats m ρ 0 c) (Fin.last _) rfl)

/-- Region 1's arrays out of the core's unscoped buffers at its entry contents, the rest beside them. -/
theorem split1 (c : Dev nD) :
    bufsAt (W2 m ρ) c ⊢ iprop((regDats m ρ 1 c).arrays ((regDats m ρ 1 c).arrAt · 0)
      ∗ Pipeline.unscopedRest (Ix := Unit) (Name := ℕ) (U := UR sig nD τ) (Lvl := ℕ) spec1 c (VE2 m ρ c)) := by
  have h := Pipeline.arrays_of_unscopedBufs (p := 1) (pcfgs (F := F)) adm (regDats m ρ) launch1.win launch1.arr_whole c
    ((regDats m ρ 1 c).share_full fun _ => rfl) (VE2 m ρ c) fun _ => rfl
  rwa [Pipeline.unscopedBufs_held] at h

/-- And back at its exit: the arrays at what the pipeline leaves, the rest as entered, are the unscoped buffers at the
    next boundary's contents. -/
theorem join1 (c : Dev nD) :
    iprop((regDats m ρ 1 c).arrays ((regDats m ρ 1 c).arrAt · cfg1.N)
      ∗ Pipeline.unscopedRest (Ix := Unit) (Name := ℕ) (U := UR sig nD τ) (Lvl := ℕ) spec1 c (VE2 m ρ c)) ⊢ bufsAt (W3 m ρ) c := by
  have h := Pipeline.unscopedBufs_of_arrays (p := 1) (pcfgs (F := F)) adm (Ix := Unit) (Name := ℕ) (U := UR sig nD τ) (Lvl := ℕ)
    launch1.win launch1.arr_whole c (regDats m ρ) ((regDats m ρ 1 c).share_full fun _ => rfl)
    (VE2 m ρ c) (VE3 m ρ c) ((regDats m ρ 1 c).arrAt · cfg1.N) (fun w => (W3_at m ρ c w).symm)
    (fun b hb => W3_off m ρ c b fun w e => hb (Finset.mem_image.mpr ⟨w, Finset.mem_univ _, e⟩))
  rwa [Pipeline.unscopedBufs_held] at h

-- the library speaks of a pipeline's configuration as looked up in the program's table; identifying it with this region's
-- printed configuration needs definitions unfolded inside the types of unknowns
set_option backward.isDefEq.respectTransparency.types false in
/-- REGION 1 as a piece of the run: entered from every unscoped buffer at `W2`, left at `W3`. -/
def reg1 : Pipeline.RegionSeg (pcfgs (F := F)) adm (regDats m ρ) () defs₀ Variants.none noLevels lvl0 1 where
  win := launch1.win.to₀
  block_pos := launch1.block_pos
  stage_whole := launch1.stage_whole
  K := PEmpty
  osem k := k.elim
  ho := Pipeline.OwnSemFacts.none _
  hbody c := (body_obligation1 (VE2 m ρ) c).loose
  hwaits := Pipeline.hwaits_of_owed_zero _ _ _ _ noLevels lvl0 1 fun _ _ => rfl
  pre c := iprop(bufsAt (W2 m ρ) c ∗ side c)
  post c := iprop(bufsAt (W3 m ρ) c ∗ side c)
  X c := gen c
  Y c := gen c
  Z c := Pipeline.unscopedRest (Ix := Unit) (Name := ℕ) (U := UR sig nD τ) (Lvl := ℕ) spec1 c (VE2 m ρ c)
  hentry c := by
    rw [Pipeline.ownSems0_none]
    exact entry_shuffle (split1 m ρ c) (noTables 1 c) (owesAt_intro (regDats m ρ 1 c) 0 rfl fun _ => trivial)
  hin c := (plain_intro spec1 c _).trans (hin1 (VE2 m ρ) c)
  hout c := by
    rw [Pipeline.ownSems0_none]
    exact (hout1 (VE2 m ρ) c).trans (plain_elim spec1 c)
  hexit c := exit_shuffle (join1 m ρ c) (owesAt_elim (regDats m ρ 1 c) (Fin.last _) rfl)

/-- Region 2's arrays out of the core's unscoped buffers at its entry contents, the rest beside them. -/
theorem split2 (c : Dev nD) :
    bufsAt (W3 m ρ) c ⊢ iprop((regDats m ρ 2 c).arrays ((regDats m ρ 2 c).arrAt · 0)
      ∗ Pipeline.unscopedRest (Ix := Unit) (Name := ℕ) (U := UR sig nD τ) (Lvl := ℕ) spec2 c (VE3 m ρ c)) := by
  have h := Pipeline.arrays_of_unscopedBufs (p := 2) (pcfgs (F := F)) adm (regDats m ρ) launch2.win launch2.arr_whole c
    ((regDats m ρ 2 c).share_full fun _ => rfl) (VE3 m ρ c) fun _ => rfl
  rwa [Pipeline.unscopedBufs_held] at h

/-- And back at its exit: the arrays at what the pipeline leaves, the rest as entered, are the unscoped buffers at the
    next boundary's contents. -/
theorem join2 (c : Dev nD) :
    iprop((regDats m ρ 2 c).arrays ((regDats m ρ 2 c).arrAt · cfg2.N)
      ∗ Pipeline.unscopedRest (Ix := Unit) (Name := ℕ) (U := UR sig nD τ) (Lvl := ℕ) spec2 c (VE3 m ρ c)) ⊢ bufsAt (W4 m ρ) c := by
  have h := Pipeline.unscopedBufs_of_arrays (p := 2) (pcfgs (F := F)) adm (Ix := Unit) (Name := ℕ) (U := UR sig nD τ) (Lvl := ℕ)
    launch2.win launch2.arr_whole c (regDats m ρ) ((regDats m ρ 2 c).share_full fun _ => rfl)
    (VE3 m ρ c) (VE4 m ρ c) ((regDats m ρ 2 c).arrAt · cfg2.N) (fun w => (W4_at m ρ c w).symm)
    (fun b hb => W4_off m ρ c b fun w e => hb (Finset.mem_image.mpr ⟨w, Finset.mem_univ _, e⟩))
  rwa [Pipeline.unscopedBufs_held] at h

-- the library speaks of a pipeline's configuration as looked up in the program's table; identifying it with this region's
-- printed configuration needs definitions unfolded inside the types of unknowns
set_option backward.isDefEq.respectTransparency.types false in
/-- REGION 2 as a piece of the run: entered from every unscoped buffer at `W3`, left at `W4`. -/
def reg2 : Pipeline.RegionSeg (pcfgs (F := F)) adm (regDats m ρ) () defs₀ Variants.none noLevels lvl0 2 where
  win := launch2.win.to₀
  block_pos := launch2.block_pos
  stage_whole := launch2.stage_whole
  K := PEmpty
  osem k := k.elim
  ho := Pipeline.OwnSemFacts.none _
  hbody c := (body_obligation2 (VE3 m ρ) c).loose
  hwaits := Pipeline.hwaits_of_owed_zero _ _ _ _ noLevels lvl0 2 fun _ _ => rfl
  pre c := iprop(bufsAt (W3 m ρ) c ∗ side c)
  post c := iprop(bufsAt (W4 m ρ) c ∗ side c)
  X c := gen c
  Y c := gen c
  Z c := Pipeline.unscopedRest (Ix := Unit) (Name := ℕ) (U := UR sig nD τ) (Lvl := ℕ) spec2 c (VE3 m ρ c)
  hentry c := by
    rw [Pipeline.ownSems0_none]
    exact entry_shuffle (split2 m ρ c) (noTables 2 c) (owesAt_intro (regDats m ρ 2 c) 0 rfl fun _ => trivial)
  hin c := (plain_intro spec2 c _).trans (hin2 (VE3 m ρ) c)
  hout c := by
    rw [Pipeline.ownSems0_none]
    exact (hout2 (VE3 m ρ) c).trans (plain_elim spec2 c)
  hexit c := exit_shuffle (join2 m ρ c) (owesAt_elim (regDats m ρ 2 c) (Fin.last _) rfl)

/-! ## The host line as a piece, the four pieces in order, and the program as their run -/

/-- The host line over the unscoped buffers from the launch contents, the side state riding along: it leaves the buffers
    at the host operations' results on top of the launch contents, which is `W1`. -/
abbrev hostPiece : Pipeline.HostSeg (Name := ℕ) (U := UR sig nD τ) (pcfgs (F := F)) defs₀ Variants.none noLevels lvl0 :=
  seg0 m Variants.none noLevels lvl0 (fun _ c => side c)

/-- The program's pieces in order. -/
abbrev pieces : List (Pipeline.Seg (pcfgs (F := F)) adm (regDats m ρ) () defs₀ Variants.none noLevels lvl0) :=
  [.host (hostPiece m), .region (reg0 m ρ), .region (reg1 m ρ), .region (reg2 m ρ)]

/-- The program is the run of its pieces. -/
theorem main_run (c : Dev nD) : main (F := F) c = Pipeline.Seg.run (pieces m ρ) :=
  main_segs adm (regDats m ρ) () Variants.none noLevels lvl0 (hostPiece m) (reg0 m ρ) (reg1 m ρ) (reg2 m ρ) rfl c

/-- An unscoped TensorCore reference is among the buffers the thread state holds. -/
theorem mem_held (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

-- the launch theorem's unknowns are read off this statement, again through the table look-up
set_option backward.isDefEq.respectTransparency.types false in
/-- THE RUN. From any memory with zero counters, every weakly fair execution of the program on the TensorCores
    terminates, nothing faulting, and in every final state each unscoped buffer of each core holds what the last
    boundary valuation `W4` says: the launch makes the first thread state on each core by itself (buffers at the launch
    contents, the generator register, owing nothing), the pieces chain by construction, and the last thread state is read
    against the final memory buffer by buffer. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  Pipeline.θ_run_regions_kit (pcfgs (F := F)) adm (regDats m ρ) () cellOf_inj emb₁ defs₀ Variants.none noLevels lvl0 m ρ main (pieces m ρ)
    (fun c Q => by rw [main_run m ρ c])
    (by simp only [pieces, Pipeline.Seg.pipes_host, Pipeline.Seg.pipes_region, Pipeline.Seg.pipes_nil]; decide)
    (O₀ := 0) (hL := fun _ _ => rfl) (G := fun _ => (BI.emp : sProp 𝕄))
    (u₀ := initOf (Pipeline.cells cfgs cellOf_inj) (Pipeline.launchToks cfgs cellOf_inj))
    (hu₀ := by
      rw [ownU_emb₁, BI.bigSep_emp_const]
      iintro H; imodintro
      isplitl [H]; · iexact H
      iempintro)
    (T₀ := fun c => iprop(bufsAt (W0 m ρ) c ∗ side c)) (Tₙ := fun c => iprop(bufsAt (W4 m ρ) c ∗ gen c))
    (hch := ⟨fun _ => .rfl, fun _ => .rfl, fun _ => .rfl, fun _ => .rfl, fun _ => sep_assoc'⟩)
    (hinit := by
      refine Pipeline.initEach noLevels lvl0 fun c => ?_
      rw [show unscopedBufs c (fun b => m ((c : Thread nD τ).loc b)) = bufsAt (W0 m ρ) c
        from Pipeline.unscopedBufs_held c (W0 m ρ c)]
      iintro ⟨⟨Hbufs, -, Howes, -, Hgen, -⟩, -⟩
      imodintro
      isplitl [Hbufs]; · iexact Hbufs
      isplitl [Hgen]; · iexists _; iexact Hgen
      iexists ∅; iexact Howes)
    (QY := fun c s => ∀ b ∈ Pipeline.ucRefs τ sig, s.mem (((c : Thread nD τ)).1, b) = W4 m ρ c b)
    (hfin := fun c s' => by
      iintro ⟨⟨Hbufs, -⟩, HSI⟩
      unfold bufsAt StableHlo.held
      imodintro
      iapply (pointsTo_read_all (Pipeline.ucRefs τ sig) (fun b => (((c : Thread nD τ)).1, b)) (W4 m ρ c) s')
      isplitl [Hbufs] <;> iassumption)
    (hQ := fun s h c => h c)

/-! ## What the last valuation holds -/

/-- Argument 0 returns as launched: no host operation writes it and it is no region's array. -/
theorem W4_main_arg0 (c : Dev nD) : W4 m ρ c (Proc.devRef .tc main_arg0) = m ((c : Thread nD τ).loc main_arg0) :=
  W4_untouched m ρ c main_arg0 (by decide) (by decide) (by decide) (by decide)
/-- Argument 1 returns as launched: no host operation writes it and it is no region's array. -/
theorem W4_main_arg1 (c : Dev nD) : W4 m ρ c (Proc.devRef .tc main_arg1) = m ((c : Thread nD τ).loc main_arg1) :=
  W4_untouched m ρ c main_arg1 (by decide) (by decide) (by decide) (by decide)
/-- Argument 2 returns as launched: no host operation writes it and it is no region's array. -/
theorem W4_main_arg2 (c : Dev nD) : W4 m ρ c (Proc.devRef .tc main_arg2) = m ((c : Thread nD τ).loc main_arg2) :=
  W4_untouched m ρ c main_arg2 (by decide) (by decide) (by decide) (by decide)
/-- Argument 3 returns as launched: no host operation writes it and it is no region's array. -/
theorem W4_main_arg3 (c : Dev nD) : W4 m ρ c (Proc.devRef .tc main_arg3) = m ((c : Thread nD τ).loc main_arg3) :=
  W4_untouched m ρ c main_arg3 (by decide) (by decide) (by decide) (by decide)
/-- Argument 4 returns as launched: no host operation writes it and it is no region's array. -/
theorem W4_main_arg4 (c : Dev nD) : W4 m ρ c (Proc.devRef .tc main_arg4) = m ((c : Thread nD τ).loc main_arg4) :=
  W4_untouched m ρ c main_arg4 (by decide) (by decide) (by decide) (by decide)
/-- Argument 5 returns as launched: no host operation writes it and it is no region's array. -/
theorem W4_main_arg5 (c : Dev nD) : W4 m ρ c (Proc.devRef .tc main_arg5) = m ((c : Thread nD τ).loc main_arg5) :=
  W4_untouched m ρ c main_arg5 (by decide) (by decide) (by decide) (by decide)
/-- Argument 6 returns as launched: no host operation writes it and it is no region's array. -/
theorem W4_main_arg6 (c : Dev nD) : W4 m ρ c (Proc.devRef .tc main_arg6) = m ((c : Thread nD τ).loc main_arg6) :=
  W4_untouched m ρ c main_arg6 (by decide) (by decide) (by decide) (by decide)
/-- Argument 7 returns as launched: no host operation writes it and it is no region's array. -/
theorem W4_main_arg7 (c : Dev nD) : W4 m ρ c (Proc.devRef .tc main_arg7) = m ((c : Thread nD τ).loc main_arg7) :=
  W4_untouched m ρ c main_arg7 (by decide) (by decide) (by decide) (by decide)
/-- Argument 8 returns as launched: no host operation writes it and it is no region's array. -/
theorem W4_main_arg8 (c : Dev nD) : W4 m ρ c (Proc.devRef .tc main_arg8) = m ((c : Thread nD τ).loc main_arg8) :=
  W4_untouched m ρ c main_arg8 (by decide) (by decide) (by decide) (by decide)
/-- Argument 9 returns as launched: no host operation writes it and it is no region's array. -/
theorem W4_main_arg9 (c : Dev nD) : W4 m ρ c (Proc.devRef .tc main_arg9) = m ((c : Thread nD τ).loc main_arg9) :=
  W4_untouched m ρ c main_arg9 (by decide) (by decide) (by decide) (by decide)
/-- Argument 10 returns as launched: no host operation writes it and it is no region's array. -/
theorem W4_main_arg10 (c : Dev nD) : W4 m ρ c (Proc.devRef .tc main_arg10) = m ((c : Thread nD τ).loc main_arg10) :=
  W4_untouched m ρ c main_arg10 (by decide) (by decide) (by decide) (by decide)
/-- Argument 11 returns as launched: no host operation writes it and it is no region's array. -/
theorem W4_main_arg11 (c : Dev nD) : W4 m ρ c (Proc.devRef .tc main_arg11) = m ((c : Thread nD τ).loc main_arg11) :=
  W4_untouched m ρ c main_arg11 (by decide) (by decide) (by decide) (by decide)

/-- The result array holds what the third region's pipeline leaves in its output window's array. -/
theorem W4_main_v35 (c : Dev nD) : W4 m ρ c (Proc.devRef .tc main_v35) = (dat2 (VE3 m ρ) c).arrAt 5 cfg2.N :=
  W4_at m ρ c 5

/-- The third region finds in its first input what the second region's pipeline leaves in its output window's array, -/
theorem VE3_v34 (c : Dev nD) : VE3 m ρ c main_v34 = (dat1 (VE2 m ρ) c).arrAt 3 cfg1.N :=
  W3_at m ρ c 3
/-- and any buffer that is an array of neither earlier region as the host line left it. -/
theorem VE3_of (c : Dev nD) (b : Ref sig .tc) (h0 : ∀ w, Pipeline.arrRef spec0 w ≠ b) (h1 : ∀ w, Pipeline.arrRef spec1 w ≠ b) :
    VE3 m ρ c b = VE1 m ρ c b :=
  (W3_off m ρ c b h1).trans (W2_off m ρ c b h0)
theorem VE3_v27 (c : Dev nD) : VE3 m ρ c main_v27 = VE1 m ρ c main_v27 := VE3_of m ρ c main_v27 (by decide) (by decide)
theorem VE3_v30 (c : Dev nD) : VE3 m ρ c main_v30 = VE1 m ρ c main_v30 := VE3_of m ρ c main_v30 (by decide) (by decide)
theorem VE3_v31 (c : Dev nD) : VE3 m ρ c main_v31 = VE1 m ρ c main_v31 := VE3_of m ρ c main_v31 (by decide) (by decide)
theorem VE3_v32 (c : Dev nD) : VE3 m ρ c main_v32 = VE1 m ρ c main_v32 := VE3_of m ρ c main_v32 (by decide) (by decide)

/-- The second region finds in its first input what the first region's pipeline leaves in its output window's array, -/
theorem VE2_v33 (c : Dev nD) : VE2 m ρ c main_v33 = (dat0 (VE1 m ρ) c).arrAt 3 cfg0.N :=
  W2_at m ρ c 3
/-- and any buffer that is no array of the first region as the host line left it. -/
theorem VE2_of (c : Dev nD) (b : Ref sig .tc) (h0 : ∀ w, Pipeline.arrRef spec0 w ≠ b) : VE2 m ρ c b = VE1 m ρ c b :=
  W2_off m ρ c b h0
theorem VE2_v26 (c : Dev nD) : VE2 m ρ c main_v26 = VE1 m ρ c main_v26 := VE2_of m ρ c main_v26 (by decide)
theorem VE2_v29 (c : Dev nD) : VE2 m ρ c main_v29 = VE1 m ρ c main_v29 := VE2_of m ρ c main_v29 (by decide)

/-! ## The two posts the certificate states -/

/-- The frame claim's post: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
    ⟨(h c _ (mem_held main_arg0 (by decide))).trans (W4_main_arg0 m ρ c),
      (h c _ (mem_held main_arg1 (by decide))).trans (W4_main_arg1 m ρ c),
      (h c _ (mem_held main_arg2 (by decide))).trans (W4_main_arg2 m ρ c),
      (h c _ (mem_held main_arg3 (by decide))).trans (W4_main_arg3 m ρ c),
      (h c _ (mem_held main_arg4 (by decide))).trans (W4_main_arg4 m ρ c),
      (h c _ (mem_held main_arg5 (by decide))).trans (W4_main_arg5 m ρ c),
      (h c _ (mem_held main_arg6 (by decide))).trans (W4_main_arg6 m ρ c),
      (h c _ (mem_held main_arg7 (by decide))).trans (W4_main_arg7 m ρ c),
      (h c _ (mem_held main_arg8 (by decide))).trans (W4_main_arg8 m ρ c),
      (h c _ (mem_held main_arg9 (by decide))).trans (W4_main_arg9 m ρ c),
      (h c _ (mem_held main_arg10 (by decide))).trans (W4_main_arg10 m ρ c),
      (h c _ (mem_held main_arg11 (by decide))).trans (W4_main_arg11 m ρ c)⟩) (run_all m ρ)

/-- The value claim's first run: the result array ends at what the third region's pipeline leaves in it, and every
    argument array as launched. -/
theorem run_value : θ_run defs (onTc (τ := τ) (main (F := F))) ⟨m, fun _ => 0, ρ⟩ (fun r => ∀ c : Dev nD,
      r.2.mem ((c.tc : Thread nD τ).loc main_v35) = (dat2 (VE3 m ρ) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
    ⟨(h c _ (mem_held main_v35 (by decide))).trans (W4_main_v35 m ρ c),
      (h c _ (mem_held main_arg0 (by decide))).trans (W4_main_arg0 m ρ c),
      (h c _ (mem_held main_arg1 (by decide))).trans (W4_main_arg1 m ρ c),
      (h c _ (mem_held main_arg2 (by decide))).trans (W4_main_arg2 m ρ c),
      (h c _ (mem_held main_arg3 (by decide))).trans (W4_main_arg3 m ρ c),
      (h c _ (mem_held main_arg4 (by decide))).trans (W4_main_arg4 m ρ c),
      (h c _ (mem_held main_arg5 (by decide))).trans (W4_main_arg5 m ρ c),
      (h c _ (mem_held main_arg6 (by decide))).trans (W4_main_arg6 m ρ c),
      (h c _ (mem_held main_arg7 (by decide))).trans (W4_main_arg7 m ρ c),
      (h c _ (mem_held main_arg8 (by decide))).trans (W4_main_arg8 m ρ c),
      (h c _ (mem_held main_arg9 (by decide))).trans (W4_main_arg9 m ρ c),
      (h c _ (mem_held main_arg10 (by decide))).trans (W4_main_arg10 m ρ c),
      (h c _ (mem_held main_arg11 (by decide))).trans (W4_main_arg11 m ρ c)⟩) (run_all m ρ)

end Run

end Cert.KernelIdeal.Hand

end
-- ==== Proof.Spec.lean ====
import Idealize.ShloMosaic.PureOps.Ideal

/-! The activation of the first two layers, on extended reals: the scaled exponential linear unit
    with the two single-precision constants kept as the words they are written as. -/

namespace Cert.Spec

open Idealize.ShloMosaic

/-- `selu v = scale * (if 0 < v then v else alpha * (exp v - 1))`, with `scale`, `alpha` and the zero
    the real numbers their single-precision words denote. -/
noncomputable def selu (v : EReal) : EReal :=
  Ideal.ofBits .f32 0x3F867D5F#32 *
    (if Ideal.ofBits .f32 0x00000000#32 < v then v
     else Ideal.ofBits .f32 0x3FD62D7D#32 * (Ideal.exp v - 1))

end Cert.Spec
-- ==== Proof.KILayers.lean ====
import proofs.«110502_j4913442587016_1_alg».proof.KernelIdeal
import proofs.«110502_j4913442587016_1_alg».proof.Proof.Spec
import Idealize.ShloMosaic.Lib.ValueIdx

/-! The three layers of the network as whole-array functions over the extended reals: the kernel's output arrays,
    named. Each entry contracts a row of the activation with a row of the weight over 8192 terms, taken as the
    four sums over blocks of 2048 in the order the accumulator adds them, plus the bias; the first two layers apply
    the scaled exponential linear unit, the last one multiplies by the mask row and adds the boundary row. -/

noncomputable section

namespace Cert.KernelIdeal.Hand

open Idealize.ShloMosaic Idealize.ShloMosaic.ValueIdx Cert.KernelIdeal

/-- Row `p` of `X` against row `n` of `W`, as zero plus the four block sums, left to right. -/
def dot4 (X : FVec Ideal S256x8192 .bf16) (W : FVec Ideal S8192x8192 .bf16) (p : Fin 256) (n : Fin 8192) : EReal :=
  (((0 + ∑ j : Fin 2048, X (ix2 p ⟨j.val, by have := j.isLt; omega⟩) * W (ix2 n ⟨j.val, by have := j.isLt; omega⟩))
      + ∑ j : Fin 2048, X (ix2 p ⟨2048 + j.val, by have := j.isLt; omega⟩) * W (ix2 n ⟨2048 + j.val, by have := j.isLt; omega⟩))
      + ∑ j : Fin 2048, X (ix2 p ⟨4096 + j.val, by have := j.isLt; omega⟩) * W (ix2 n ⟨4096 + j.val, by have := j.isLt; omega⟩))
      + ∑ j : Fin 2048, X (ix2 p ⟨6144 + j.val, by have := j.isLt; omega⟩) * W (ix2 n ⟨6144 + j.val, by have := j.isLt; omega⟩)

/-- A hidden layer: `selu (X · Wᵀ + b)`. -/
def layerSelu (X : FVec Ideal S256x8192 .bf16) (W : FVec Ideal S8192x8192 .bf16) (b : FVec Ideal S1x8192 .f32) :
    FVec Ideal S256x8192 .bf16 :=
  fun i => Cert.Spec.selu (dot4 X W (i 0) (i 1) + b (ix2 (0 : Fin 1) (i 1)))

/-- The last layer: `bc + (X · Wᵀ + b) · flag`. -/
def layerFin (X : FVec Ideal S256x8192 .bf16) (W : FVec Ideal S8192x8192 .bf16) (b bc flag : FVec Ideal S1x8192 .f32) :
    FVec Ideal S256x8192 .f32 :=
  fun i => bc (ix2 (0 : Fin 1) (i 1)) + (dot4 X W (i 0) (i 1) + b (ix2 (0 : Fin 1) (i 1))) * flag (ix2 (0 : Fin 1) (i 1))

theorem layerSelu_apply (X W b) (p : Fin 256) (n : Fin 8192) :
    layerSelu X W b (ix2 p n) = Cert.Spec.selu (dot4 X W p n + b (ix2 (0 : Fin 1) n)) := rfl

theorem layerFin_apply (X W b bc flag) (p : Fin 256) (n : Fin 8192) :
    layerFin X W b bc flag (ix2 p n) = bc (ix2 (0 : Fin 1) n) + (dot4 X W p n + b (ix2 (0 : Fin 1) n)) * flag (ix2 (0 : Fin 1) n) := rfl

end Cert.KernelIdeal.Hand

end
-- ==== Proof.LibGemmNT.lean ====
/-
  A matrix product against a transposed right operand, read at an entry; and an array whose middle axis is
  split in two, read at an index.

  When the dimension numbers contract the columns of the left operand [n, k] against the columns of the right
  operand [d, k] — the product A · Bᵀ, no batch axis — the contraction index is its one coordinate, and the sum
  over it of the operands' products at entry (p, c) is ∑ q, lhs (p, q) · rhs (c, q).  Read at the exact extended
  reals, a matrix-unit product into a zero accumulator and a host dot_general are both that sum, whatever
  their precision or schedule.

  A reshape keeps every element's row-major position: an [e, n, r] array with n = a · b, viewed as [e, a, b, r],
  holds at (i, p, s, j) the entry (i, p · b + s, j).
-/
import Idealize.ShloMosaic.Lib.Pipeline.Value
import Idealize.ShloMosaic.Lib.ValueIdx
import Idealize.ShloMosaic.PureOps.Ideal.Laws

noncomputable section

open scoped BigOperators

namespace Cert.LibGemmNT

open Idealize.ShloMosaic Idealize.ShloMosaic.ValueIdx

variable {n k d : ℕ}

/-- The sum over a one-axis contraction index, re-indexed by the axis's coordinate, for a product whose operand
    indices at output (p, c) and contraction coordinate q are (p, q) and (c, q). -/
theorem sum_contr_eq {φ₁ φ₂ : FTy} (D : DotDims ⟨2, ![n, k]⟩ ⟨2, ![d, k]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (i 1).val)
    (hr1 : ∀ (i : (⟨2, ![n, d]⟩ : Shape).Idx) (q : D.contr.Idx), (D.rhsIdx i q 1).val = (q ⟨0, by omega⟩).val)
    (lhs : FVec Ideal ⟨2, ![n, k]⟩ φ₁) (rhs : FVec Ideal ⟨2, ![d, k]⟩ φ₂) (p : Fin n) (c : Fin d) :
    (∑ q : D.contr.Idx, lhs (D.lhsIdx (ix2 p c) q) * rhs (D.rhsIdx (ix2 p c) q) : EReal)
      = ∑ q : Fin k, lhs (ix2 p q) * rhs (ix2 c q) := by
  rw [← Equiv.sum_comp (contrEquiv1 D k hr hs).symm]
  refine Finset.sum_congr rfl fun q _ => ?_
  have hq := contrEquiv1_symm_val D k hr hs q
  have el : D.lhsIdx (ix2 p c) ((contrEquiv1 D k hr hs).symm q) = ix2 p q := funext fun a => Fin.ext (by
    match a with
    | ⟨0, _⟩ => exact hl0 _ _
    | ⟨1, _⟩ => exact (hl1 _ _).trans hq)
  have er : D.rhsIdx (ix2 p c) ((contrEquiv1 D k hr hs).symm q) = ix2 c q := funext fun a => Fin.ext (by
    match a with
    | ⟨0, _⟩ => exact hr0 _ _
    | ⟨1, _⟩ => exact (hr1 _ _).trans hq)
  rw [el, er]

/-- A matrix-unit product A · Bᵀ into the zero accumulator, at entry (p, c). -/
theorem matmul_zero_apply {φ₁ φ₂ : FTy} (D : DotDims ⟨2, ![n, k]⟩ ⟨2, ![d, k]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (i 1).val)
    (hr1 : ∀ (i : (⟨2, ![n, d]⟩ : Shape).Idx) (q : D.contr.Idx), (D.rhsIdx i q 1).val = (q ⟨0, by omega⟩).val)
    (prec : Option ContractPrecision) (lhs : FVec Ideal ⟨2, ![n, k]⟩ φ₁) (rhs : FVec Ideal ⟨2, ![d, k]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 c q) := by
  rw [Ideal.matmul_constant_zero_apply]
  exact sum_contr_eq D hr hs hl0 hl1 hr0 hr1 lhs rhs p c

/-- A host dot_general A · Bᵀ, at entry (p, c). -/
theorem dotGeneral_apply {φ₁ φ₂ : FTy} (D : DotDims ⟨2, ![n, k]⟩ ⟨2, ![d, k]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (i 1).val)
    (hr1 : ∀ (i : (⟨2, ![n, d]⟩ : Shape).Idx) (q : D.contr.Idx), (D.rhsIdx i q 1).val = (q ⟨0, by omega⟩).val)
    (prec : Option ContractPrecision) (sched : HostSchedule)
    (lhs : FVec Ideal ⟨2, ![n, k]⟩ φ₁) (rhs : FVec Ideal ⟨2, ![d, k]⟩ φ₂) (p : Fin n) (c : Fin d) :
    FloatOps.dotGeneral D prec sched lhs rhs (ix2 p c) = ∑ q : Fin k, lhs (ix2 p q) * rhs (ix2 c q) := by
  rw [Ideal.dotGeneral_apply]
  exact sum_contr_eq D hr hs hl0 hl1 hr0 hr1 lhs rhs p c

variable {α : Type}

/-- An [e, n, r] array with n = a · b cast to [e, a, b, r] reads, at (i, p, s, j), the operand at (i, p · b + s, j). -/
theorem shapeCast_enr_eabr_apply {e m a b r : ℕ} (x : (⟨3, ![e, m, r]⟩ : Shape).Idx → α)
    (h : (⟨3, ![e, m, r]⟩ : Shape).ShapeCasts ⟨4, ![e, a, b, r]⟩) (hm : m = a * b)
    (i : Fin e) (p : Fin a) (s : Fin b) (j : Fin r) (t : Fin m) (ht : t.val = p.val * b + s.val) :
    shapeCast ⟨4, ![e, a, b, r]⟩ x h (ix4 i p s j) = x (ix3 i t j) :=
  shapeCast_apply x h _ _ (by
    rw [Shape.rowMajor_val_three, Shape.rowMajor_val_four]
    show (i.val * m + t.val) * r + j.val = ((i.val * a + p.val) * b + s.val) * r + j.val
    rw [ht, hm]
    ring)

end Cert.LibGemmNT

end
-- ==== Proof.LibConsts.lean ====
/-
  The float literals both programs spell, as the extended reals their bit patterns denote, and small facts about the
  extended reals used to carry real-valued arrays through sums, products, quotients and square roots.
-/
import Idealize.ShloMosaic.PureOps.Ideal
import Idealize.ShloMosaic.PureOps.Ideal.Laws

noncomputable section

namespace Cert.Consts

open Idealize.ShloMosaic

theorem ofBits_zero : Ideal.ofBits .f32 0x00000000#32 = 0 := by
  simp [Ideal.ofBits, Ideal.ieee]
theorem ofBits_one : Ideal.ofBits .f32 0x3F800000#32 = ((1 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul]; norm_num
/-- 65536.0 = 32 · 2048, the number of (graph, node) rows. -/
theorem ofBits_rows : Ideal.ofBits .f32 0x47800000#32 = ((65536 : ℝ) : EReal) := by
  simp [Ideal.ofBits, Ideal.ieee, -EReal.coe_mul]; norm_num
/-- The variance's epsilon is a positive real. -/
theorem ofBits_eps : ∃ ε : ℝ, 0 < ε ∧ Ideal.ofBits .f32 0x3727C5AC#32 = (ε : EReal) := by
  refine ⟨_, ?_, by simp [Ideal.ofBits, Ideal.ieee, -EReal.coe_mul]; rfl⟩
  norm_num

/-- The coercion commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The reciprocal square root of a positive real is the real 1 / √r. -/
theorem rsqrt_pos {r : ℝ} (h : 0 < r) : Ideal.rsqrt (r : EReal) = (((Real.sqrt r)⁻¹ : ℝ) : EReal) := by
  rw [Ideal.rsqrt_coe, if_neg (not_lt.mpr h.le), if_neg h.ne']

/-- Division by a nonzero real is real division. -/
theorem div_real (x : ℝ) {y : ℝ} (h : y ≠ 0) : Ideal.div (x : EReal) (y : EReal) = ((x / y : ℝ) : EReal) := by
  rw [Ideal.div_coe h, ← EReal.coe_mul]; congr 1; field_simp

end Cert.Consts

end
-- ==== Proof.PayIdx.lean ====
/-
  The values the three kernels store, read at an entry (p, q) of a [256, 2048] block, over the exact extended reals.

  Each kernel holds a running block of partial sums.  Its first stored value is the all-zero block.  Its second is
  the running block plus the product of a [256, 2048] block x of the activations with the transpose of a
  [2048, 2048] block w of the weights: at (p, q), a (p, q) + ∑ j, x (p, j) · w (q, j).  Its third is the closing step
  on the running block a and the bias row b: for the first two kernels selu (a (p, q) + b (0, q)), and for the
  third bc (0, q) + (a (p, q) + b (0, q)) · flag (0, q) with a second bias row bc and a scaling row flag.
-/
import proofs.«110502_j4913442587016_1_alg».proof.Proof.Gen.KernelIdeal.Skeleton
import proofs.«110502_j4913442587016_1_alg».proof.Proof.Spec
import proofs.«110502_j4913442587016_1_alg».proof.Proof.LibGemmNT
import proofs.«110502_j4913442587016_1_alg».proof.Proof.LibConsts
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Hand

open Idealize.ShloMosaic Idealize.ShloMosaic.ValueIdx Cert.KernelIdeal Cert.KernelIdeal.Gen

local notation "DD" => dot_S256x2048_S2048x2048_S256x2048_1_1_0_0_n_n

/-- The product contracts one axis. -/
theorem dd_rank : (DD).contr.rank = 1 := rfl

/-- The contracted axis has 2048 entries. -/
theorem dd_size : (DD).contr.size ⟨0, by rw [dd_rank]; exact Nat.one_pos⟩ = 2048 := rfl

/-- The left operand is read at the output's row. -/
theorem dd_l0 (i : S256x2048.Idx) (k : (DD).contr.Idx) : ((DD).lhsIdx i k 0).val = (i 0).val := by
  simp [DotDims.lhsIdx, dot_S256x2048_S2048x2048_S256x2048_1_1_0_0_n_n]; rfl

/-- The left operand's column is the contraction coordinate. -/
theorem dd_l1 (i : S256x2048.Idx) (k : (DD).contr.Idx) :
    ((DD).lhsIdx i k 1).val = (k ⟨0, by rw [dd_rank]; exact Nat.one_pos⟩).val :=
  DotDims.lhsIdx_val_of_single (DD) rfl i k

/-- The right operand is read at the row numbered by the output's column. -/
theorem dd_r0 (i : S256x2048.Idx) (k : (DD).contr.Idx) : ((DD).rhsIdx i k 0).val = (i 1).val := by
  simp [DotDims.rhsIdx, dot_S256x2048_S2048x2048_S256x2048_1_1_0_0_n_n]; rfl

/-- The right operand's column is the contraction coordinate. -/
theorem dd_r1 (i : S256x2048.Idx) (k : (DD).contr.Idx) :
    ((DD).rhsIdx i k 1).val = (k ⟨0, by rw [dd_rank]; exact Nat.one_pos⟩).val :=
  DotDims.rhsIdx_val_of_single (DD) rfl i k

/-- A select on the bit of the comparison x > z is the choice by z < x. -/
theorem select_ogt (x z u v : EReal) : Scalar.select (Ideal.cmp .ogt x z) u v = if z < x then u else v := by
  unfold Ideal.cmp Scalar.select
  by_cases h : z < x
  · simp [h]
  · simp [h]

/-- The exponential of an array at an index. -/
theorem exp_apply {s : Shape} {φ : FTy} (v : FVec Ideal s φ) (i : s.Idx) : exp v i = FloatOps.exp (v i) := rfl

/-- The activation as the first two kernels spell it, at one value. -/
theorem selu_at (X : Ideal .f32) :
    FloatOps.ofBits (F := Ideal) .f32 0x3F867D5F#32 *
        Scalar.select (FloatOps.cmpf .ogt X (FloatOps.ofBits .f32 0x00000000#32)) X
          (FloatOps.ofBits .f32 0x3FD62D7D#32 * (FloatOps.exp X - FloatOps.ofBits .f32 0x3F800000#32))
      = Cert.Spec.selu X := by
  simp only [Ideal.ofBits_def, Ideal.exp_def, Ideal.cmpf_def, select_ogt, Cert.Consts.ofBits_one, EReal.coe_one]
  rfl

/-! ## The first kernel -/

theorem pay1_apply0 (p : Fin 256) (q : Fin 2048) : k0_pay1 (F := Ideal) (ix2 p q) = 0 := by
  unfold k0_pay1
  simp only [shapeCast_self]
  exact Ideal.ofBits_zero_f32

theorem pay2_apply0 (a : Vec Ideal S256x2048 .f32) (x : Vec Ideal S256x2048 .bf16) (w : Vec Ideal S2048x2048 .bf16)
    (p : Fin 256) (q : Fin 2048) :
    k0_pay2 a x w (ix2 p q) = a (ix2 p q) + ∑ j : Fin 2048, x (ix2 p j) * w (ix2 q j) := by
  unfold k0_pay2
  simp only [shapeCast_self]
  exact congrArg (a (ix2 p q) + ·)
    (Cert.LibGemmNT.matmul_zero_apply (DD) dd_rank dd_size dd_l0 dd_l1 dd_r0 dd_r1 none x w p q)

theorem pay3_apply0 (a : Vec Ideal S256x2048 .f32) (b : Vec Ideal S1x2048 .f32) (p : Fin 256) (q : Fin 2048) :
    k0_pay3 a b (ix2 p q) = Cert.Spec.selu (a (ix2 p q) + b (ix2 0 q)) := by
  unfold k0_pay3
  simp only [shapeCast_self]
  have hb : broadcastTo S256x2048 b Gen.broadcasts_S1x2048_S256x2048 (ix2 p q) = b (ix2 0 q) :=
    broadcastTo_1b_ab_apply b _ p q
  simp only [truncf_apply, mulf_apply, select_apply, cmpf_apply, subf_apply, broadcast_apply, addf_apply, exp_apply, hb]
  exact selu_at (a (ix2 p q) + b (ix2 0 q))

/-! ## The second kernel -/

theorem pay1_apply1 (p : Fin 256) (q : Fin 2048) : k1_pay1 (F := Ideal) (ix2 p q) = 0 := by
  unfold k1_pay1
  simp only [shapeCast_self]
  exact Ideal.ofBits_zero_f32

theorem pay2_apply1 (a : Vec Ideal S256x2048 .f32) (x : Vec Ideal S256x2048 .bf16) (w : Vec Ideal S2048x2048 .bf16)
    (p : Fin 256) (q : Fin 2048) :
    k1_pay2 a x w (ix2 p q) = a (ix2 p q) + ∑ j : Fin 2048, x (ix2 p j) * w (ix2 q j) := by
  unfold k1_pay2
  simp only [shapeCast_self]
  exact congrArg (a (ix2 p q) + ·)
    (Cert.LibGemmNT.matmul_zero_apply (DD) dd_rank dd_size dd_l0 dd_l1 dd_r0 dd_r1 none x w p q)

theorem pay3_apply1 (a : Vec Ideal S256x2048 .f32) (b : Vec Ideal S1x2048 .f32) (p : Fin 256) (q : Fin 2048) :
    k1_pay3 a b (ix2 p q) = Cert.Spec.selu (a (ix2 p q) + b (ix2 0 q)) := by
  unfold k1_pay3
  simp only [shapeCast_self]
  have hb : broadcastTo S256x2048 b Gen.broadcasts_S1x2048_S256x2048 (ix2 p q) = b (ix2 0 q) :=
    broadcastTo_1b_ab_apply b _ p q
  simp only [truncf_apply, mulf_apply, select_apply, cmpf_apply, subf_apply, broadcast_apply, addf_apply, exp_apply, hb]
  exact selu_at (a (ix2 p q) + b (ix2 0 q))

/-! ## The third kernel -/

theorem pay1_apply2 (p : Fin 256) (q : Fin 2048) : k2_pay1 (F := Ideal) (ix2 p q) = 0 := by
  unfold k2_pay1
  simp only [shapeCast_self]
  exact Ideal.ofBits_zero_f32

theorem pay2_apply2 (a : Vec Ideal S256x2048 .f32) (x : Vec Ideal S256x2048 .bf16) (w : Vec Ideal S2048x2048 .bf16)
    (p : Fin 256) (q : Fin 2048) :
    k2_pay2 a x w (ix2 p q) = a (ix2 p q) + ∑ j : Fin 2048, x (ix2 p j) * w (ix2 q j) := by
  unfold k2_pay2
  simp only [shapeCast_self]
  exact congrArg (a (ix2 p q) + ·)
    (Cert.LibGemmNT.matmul_zero_apply (DD) dd_rank dd_size dd_l0 dd_l1 dd_r0 dd_r1 none x w p q)

theorem pay3_apply2 (a : Vec Ideal S256x2048 .f32) (b bc flag : Vec Ideal S1x2048 .f32) (p : Fin 256) (q : Fin 2048) :
    k2_pay3 a b bc flag (ix2 p q) = bc (ix2 0 q) + (a (ix2 p q) + b (ix2 0 q)) * flag (ix2 0 q) := by
  unfold k2_pay3
  simp only [shapeCast_self]
  have hb (v : Vec Ideal S1x2048 .f32) :
      broadcastTo S256x2048 v Gen.broadcasts_S1x2048_S256x2048 (ix2 p q) = v (ix2 0 q) :=
    broadcastTo_1b_ab_apply v _ p q
  simp only [mulf_apply, addf_apply, hb]

end Cert.KernelIdeal.Hand

end
-- ==== Proof.KIValue0.lean ====
/-
  The first layer's output array after its region, over the exact extended reals.

  The region's grid has sixteen points; point t works on column block t / 4 of the output and on block t % 4 of the
  contracted axis.  Its windows' blocks are read off the arrays the region finds: the activation's block holds columns
  2048 · (t % 4) + j, the weight's block rows 2048 · (t / 4) + q and columns 2048 · (t % 4) + j, the bias row's block
  columns 2048 · (t / 4) + q.  Over the four points of a column block the accumulator becomes, at (p, q), zero plus the
  four sums of 2048 products of row p of the activation with row 2048 · (t / 4) + q of the weight, in order; the point
  with t % 4 = 3 writes back selu of that plus the bias, which is its block of the layer's array; and these sixteen
  blocks' four written-back ones tile the output array.
-/
import proofs.«110502_j4913442587016_1_alg».proof.Proof.KIRegion0
import proofs.«110502_j4913442587016_1_alg».proof.Proof.KILayers
import proofs.«110502_j4913442587016_1_alg».proof.Proof.PayIdx
import Idealize.ShloMosaic.Lib.Pipeline.Value
import Idealize.ShloMosaic.Lib.ValueIdx

noncomputable section

open scoped BigOperators

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The activation, the weight and the bias row as the region finds them, and their blocks at a point. -/
abbrev actIn0 (c : Dev nD) : FVec Ideal S256x8192 .bf16 := V c main_v24
abbrev wgtIn0 (c : Dev nD) : FVec Ideal S8192x8192 .bf16 := V c main_v25
abbrev biasIn0 (c : Dev nD) : FVec Ideal S1x8192 .f32 := V c main_v28
abbrev actBlk0 (c : Dev nD) (t : Fin cfg0.N) : FVec Ideal S256x2048 .bf16 := iblk0 (F := Ideal) V c 0 t
abbrev wgtBlk0 (c : Dev nD) (t : Fin cfg0.N) : FVec Ideal S2048x2048 .bf16 := iblk0 (F := Ideal) V c 1 t
abbrev biasBlk0 (c : Dev nD) (t : Fin cfg0.N) : FVec Ideal S1x2048 .f32 := iblk0 (F := Ideal) V c 2 t

/-- The grid has sixteen points. -/
theorem N0_eq : cfg0.N = 16 := by decide +kernel

/-- The block indices of the four windows at point t: with column block t / 4 and contraction block t % 4, the
    activation's block is (0, t % 4), the weight's (t / 4, t % 4), the bias row's and the output's (0, t / 4). -/
theorem idx_facts0 : ∀ t : Fin cfg0.N,
    win0_0.index t (0 : Fin 2) = 0 ∧ win0_0.index t (1 : Fin 2) = t.val % 4
    ∧ win0_1.index t (0 : Fin 2) = t.val / 4 ∧ win0_1.index t (1 : Fin 2) = t.val % 4
    ∧ win0_2.index t (0 : Fin 2) = 0 ∧ win0_2.index t (1 : Fin 2) = t.val / 4
    ∧ win0_3.index t (0 : Fin 2) = 0 ∧ win0_3.index t (1 : Fin 2) = t.val / 4 :=
  (by decide +kernel : ∀ t : Fin grid0.N, _)

/-- The activation's block at point t holds, at (p, j), the array's entry (p, 2048 · (t % 4) + j). -/
theorem xblk0_apply (c : Dev nD) (t : Fin cfg0.N) (p : Fin 256) (j : Fin 2048) (k : Fin 8192)
    (hk : k.val = 2048 * (t.val % 4) + j.val) :
    actBlk0 V c t (ix2 p j) = actIn0 V c (ix2 p k) := by
  obtain ⟨e0, e1, -⟩ := idx_facts0 t
  unfold actBlk0 actIn0 iblk0
  rw [View.read_apply]
  show V c main_v24 _ = V c main_v24 _
  congr 1
  funext a
  apply Fin.ext
  match a with
  | ⟨0, _⟩ => show win0_0.index t 0 * 256 + 1 * p.val = p.val; rw [e0]; omega
  | ⟨1, _⟩ => show win0_0.index t 1 * 2048 + 1 * j.val = k.val; rw [e1, hk]; omega

/-- The weight's block at point t holds, at (q, j), the array's entry (2048 · (t / 4) + q, 2048 · (t % 4) + j). -/
theorem wblk0_apply (c : Dev nD) (t : Fin cfg0.N) (q : Fin 2048) (j : Fin 2048) (n k : Fin 8192)
    (hn : n.val = 2048 * (t.val / 4) + q.val) (hk : k.val = 2048 * (t.val % 4) + j.val) :
    wgtBlk0 V c t (ix2 q j) = wgtIn0 V c (ix2 n k) := by
  obtain ⟨-, -, e0, e1, -⟩ := idx_facts0 t
  unfold wgtBlk0 wgtIn0 iblk0
  rw [View.read_apply]
  show V c main_v25 _ = V c main_v25 _
  congr 1
  funext a
  apply Fin.ext
  match a with
  | ⟨0, _⟩ => show win0_1.index t 0 * 2048 + 1 * q.val = n.val; rw [e0, hn]; omega
  | ⟨1, _⟩ => show win0_1.index t 1 * 2048 + 1 * j.val = k.val; rw [e1, hk]; omega

/-- The bias row's block at point t holds, at (0, q), the row's entry (0, 2048 · (t / 4) + q). -/
theorem bblk0_apply (c : Dev nD) (t : Fin cfg0.N) (q : Fin 2048) (n : Fin 8192)
    (hn : n.val = 2048 * (t.val / 4) + q.val) :
    biasBlk0 V c t (ix2 (0 : Fin 1) q) = biasIn0 V c (ix2 (0 : Fin 1) n) := by
  obtain ⟨-, -, -, -, e0, e1, -⟩ := idx_facts0 t
  unfold biasBlk0 biasIn0 iblk0
  rw [View.read_apply]
  show V c main_v28 _ = V c main_v28 _
  congr 1
  funext a
  apply Fin.ext
  match a with
  | ⟨0, _⟩ => show win0_2.index t 0 * 1 + 1 * 0 = 0; rw [e0]
  | ⟨1, _⟩ => show win0_2.index t 1 * 2048 + 1 * q.val = n.val; rw [e1, hn]; omega

/-- The accumulator at the first block of the contracted axis: the point's product added to zero. -/
theorem accAt0_first (c : Dev nD) (n : ℕ) (h : n < cfg0.N) (h0 : n % 4 = 0) :
    acc0 (F := Ideal) V c n h = k0_pay2 (F := Ideal) (k0_pay1 (F := Ideal)) (actBlk0 V c ⟨n, h⟩) (wgtBlk0 V c ⟨n, h⟩) := by
  cases n with
  | zero => rfl
  | succ n => rw [acc0]; exact if_pos h0

/-- The accumulator at a later block of the contracted axis: the point's product added to what the point before left. -/
theorem accAt0_next (c : Dev nD) (n : ℕ) (h : n + 1 < cfg0.N) (h0 : (n + 1) % 4 ≠ 0) :
    acc0 (F := Ideal) V c (n + 1) h
      = k0_pay2 (F := Ideal) (acc0 V c n (Nat.lt_of_succ_lt h)) (actBlk0 V c ⟨n + 1, h⟩) (wgtBlk0 V c ⟨n + 1, h⟩) := by
  rw [acc0]; exact if_neg h0

/-- The accumulator depends on the point's number only. -/
theorem acc0_congr (c : Dev nD) (n n' : ℕ) (h : n < cfg0.N) (h' : n' < cfg0.N) (e : n = n') :
    acc0 (F := Ideal) V c n h = acc0 V c n' h' := by
  subst e; rfl

/-- The sum of 2048 products a point adds: row p of the activation against row n of the weight over the columns
    f 0, …, f 2047 of contraction block t % 4, where n = 2048 · (t / 4) + q. -/
theorem blockSum0 (c : Dev nD) (t : Fin cfg0.N) (p : Fin 256) (q : Fin 2048) (n : Fin 8192) (f : Fin 2048 → Fin 8192)
    (hn : n.val = 2048 * (t.val / 4) + q.val) (hf : ∀ j : Fin 2048, (f j).val = 2048 * (t.val % 4) + j.val) :
    (∑ j : Fin 2048, actBlk0 V c t (ix2 p j) * wgtBlk0 V c t (ix2 q j))
      = ∑ j : Fin 2048, actIn0 V c (ix2 p (f j)) * wgtIn0 V c (ix2 n (f j)) :=
  Finset.sum_congr rfl fun j _ => by
    rw [xblk0_apply V c t p j (f j) (hf j), wblk0_apply V c t q j n (f j) hn (hf j)]

/-- One step of the accumulator at an entry. -/
theorem acc0_step (c : Dev nD) (a : Vec Ideal S256x2048 .f32) (t : Fin cfg0.N) (p : Fin 256) (q : Fin 2048) (n : Fin 8192)
    (f : Fin 2048 → Fin 8192)
    (hn : n.val = 2048 * (t.val / 4) + q.val) (hf : ∀ j : Fin 2048, (f j).val = 2048 * (t.val % 4) + j.val) :
    k0_pay2 a (actBlk0 V c t) (wgtBlk0 V c t) (ix2 p q)
      = a (ix2 p q) + ∑ j : Fin 2048, actIn0 V c (ix2 p (f j)) * wgtIn0 V c (ix2 n (f j)) :=
  (pay2_apply0 a (actBlk0 V c t) (wgtBlk0 V c t) p q).trans (congrArg (a (ix2 p q) + ·) (blockSum0 V c t p q n f hn hf))

/-- The accumulator after the last block of the contracted axis of column block m / 4, at entry (p, q): row p of the
    activation against row n = 2048 · (m / 4) + q of the weight, as zero plus the four block sums in order. -/
theorem acc0_last' (c : Dev nD) (m : ℕ) (h3 : m + 3 < cfg0.N) (hm : m % 4 = 0) (p : Fin 256) (q : Fin 2048) (n : Fin 8192)
    (hn : n.val = 2048 * (m / 4) + q.val) :
    acc0 (F := Ideal) V c (m + 3) h3 (ix2 p q) = dot4 (actIn0 V c) (wgtIn0 V c) p n := by
  have hN : cfg0.N = 16 := N0_eq
  have h2 : m + 2 < cfg0.N := by omega
  have h1 : m + 1 < cfg0.N := by omega
  have h0 : m < cfg0.N := by omega
  rw [accAt0_next V c (m + 2) h3 (by omega)]
  refine (acc0_step V c _ ⟨m + 3, h3⟩ p q n (fun j => ⟨6144 + j.val, by have := j.isLt; omega⟩)
    (by show n.val = 2048 * ((m + 3) / 4) + q.val; omega) (fun j => by show 6144 + j.val = 2048 * ((m + 3) % 4) + j.val; omega)).trans ?_
  rw [accAt0_next V c (m + 1) h2 (by omega)]
  rw [acc0_step V c _ ⟨m + 2, h2⟩ p q n (fun j => ⟨4096 + j.val, by have := j.isLt; omega⟩)
    (by show n.val = 2048 * ((m + 2) / 4) + q.val; omega) (fun j => by show 4096 + j.val = 2048 * ((m + 2) % 4) + j.val; omega)]
  rw [accAt0_next V c m h1 (by omega)]
  rw [acc0_step V c _ ⟨m + 1, h1⟩ p q n (fun j => ⟨2048 + j.val, by have := j.isLt; omega⟩)
    (by show n.val = 2048 * ((m + 1) / 4) + q.val; omega) (fun j => by show 2048 + j.val = 2048 * ((m + 1) % 4) + j.val; omega)]
  rw [accAt0_first V c m h0 hm]
  rw [acc0_step V c _ ⟨m, h0⟩ p q n (fun j => ⟨j.val, by have := j.isLt; omega⟩)
    (by show n.val = 2048 * (m / 4) + q.val; omega) (fun j => by show j.val = 2048 * (m % 4) + j.val; omega)]
  rw [pay1_apply0]
  rfl

/-- The same at a point t with t % 4 = 3. -/
theorem acc0_last (c : Dev nD) (t : Fin cfg0.N) (ht : t.val % 4 = 3) (p : Fin 256) (q : Fin 2048) (n : Fin 8192)
    (hn : n.val = 2048 * (t.val / 4) + q.val) :
    acc0 (F := Ideal) V c t.val t.isLt (ix2 p q) = dot4 (actIn0 V c) (wgtIn0 V c) p n := by
  have h3 : t.val - 3 + 3 < cfg0.N := by have := t.isLt; omega
  rw [acc0_congr V c t.val (t.val - 3 + 3) t.isLt h3 (by omega)]
  exact acc0_last' V c (t.val - 3) h3 (by omega) p q n (by omega)

/-- What a point at the last block of the contracted axis writes back is its block of the layer's array. -/
theorem flushed0_eq (c : Dev nD) (t : Fin cfg0.N) (hf : (cfg0.win 3).flush t = true) :
    (dat0 (F := Ideal) V c).flushed 3 t
      = ((cfg0.win 3).blk t).view.read (Elt Ideal) (layerSelu (actIn0 V c) (wgtIn0 V c) (biasIn0 V c)) := by
  have ht : t.val % 4 = 3 := (flush0_3 t).mp hf
  have hN : cfg0.N = 16 := N0_eq
  obtain ⟨-, -, -, -, -, -, e0, e1⟩ := idx_facts0 t
  show (cfg0.win 3).cut (grid0.coords t) ((dat0 (F := Ideal) V c).after 3 t) = _
  funext y
  obtain ⟨p, q, rfl⟩ : ∃ (p : Fin 256) (q : Fin 2048), y = ix2 p q := ⟨y 0, y 1, eq_ix2 y⟩
  have hnlt : 2048 * (t.val / 4) + q.val < 8192 := by have := t.isLt; have := q.isLt; omega
  have hemb : ((cfg0.win 3).blk t).view.emb (ix2 p q) = (ix2 p ⟨2048 * (t.val / 4) + q.val, hnlt⟩ : S256x8192.Idx) := by
    funext a
    apply Fin.ext
    match a with
    | ⟨0, _⟩ => show win0_3.index t 0 * 256 + 1 * p.val = p.val; rw [e0]; omega
    | ⟨1, _⟩ => show win0_3.index t 1 * 2048 + 1 * q.val = 2048 * (t.val / 4) + q.val; rw [e1]; omega
  show out0 (F := Ideal) V c t (ix2 p q) = layerSelu (actIn0 V c) (wgtIn0 V c) (biasIn0 V c) (((cfg0.win 3).blk t).view.emb (ix2 p q))
  rw [hemb, layerSelu_apply]
  unfold out0
  refine (pay3_apply0 (acc0 (F := Ideal) V c t.val t.isLt) (biasBlk0 V c t) p q).trans ?_
  rw [acc0_last V c t ht p q ⟨2048 * (t.val / 4) + q.val, hnlt⟩ rfl,
    bblk0_apply V c t q ⟨2048 * (t.val / 4) + q.val, hnlt⟩ rfl]

/-- An index of the output array lies in point t's block when each coordinate is in the block's range. -/
theorem mem_blk0 (t : Fin cfg0.N) (i : S256x8192.Idx) :
    i ∈ ((cfg0.win 3).blk t).view.set ↔ ∀ a : Fin 2, win0_3.index t a * S256x2048.size a ≤ (i a).val
      ∧ (i a).val < win0_3.index t a * S256x2048.size a + S256x2048.size a := by
  show i ∈ ((View.whole main_v33).slice (win0_3.rect t)).set ↔ _
  rw [View.set_slice_whole, Rect.mem_set_unit]
  exact Iff.rfl

/-- Every index of the output array lies in the block of a point that writes back: column n is in column block
    n / 2048, written back at point 4 · (n / 2048) + 3. -/
theorem cover0 (i : S256x8192.Idx) :
    ∃ t : Fin cfg0.N, (cfg0.win 3).flush t = true ∧ i ∈ ((cfg0.win 3).blk t).view.set := by
  have hN : cfg0.N = 16 := N0_eq
  have hi0 : (i 0).val < 256 := (i 0).isLt
  have hi1 : (i 1).val < 8192 := (i 1).isLt
  obtain ⟨t, ht⟩ : ∃ t : Fin cfg0.N, t.val = 4 * ((i 1).val / 2048) + 3 := ⟨⟨4 * ((i 1).val / 2048) + 3, by omega⟩, rfl⟩
  obtain ⟨-, -, -, -, -, -, e0, e1⟩ := idx_facts0 t
  refine ⟨t, (flush0_3 t).mpr (by omega), ?_⟩
  rw [mem_blk0]
  intro a
  match a with
  | ⟨0, _⟩ => show win0_3.index t 0 * 256 ≤ (i 0).val ∧ (i 0).val < win0_3.index t 0 * 256 + 256; rw [e0]; omega
  | ⟨1, _⟩ => show win0_3.index t 1 * 2048 ≤ (i 1).val ∧ (i 1).val < win0_3.index t 1 * 2048 + 2048; rw [e1, ht]; omega

/-- After the region the first layer's output array holds selu (X · Wᵀ + b) of the arrays the region found. -/
theorem final0 (c : Dev nD) :
    (dat0 (F := Ideal) V c).arrAt 3 cfg0.N = layerSelu (V c main_v24) (V c main_v25) (V c main_v28) :=
  (dat0 (F := Ideal) V c).arrAt_eq_of_cover 3 (layerSelu (actIn0 V c) (wgtIn0 V c) (biasIn0 V c))
    (fun t hf => flushed0_eq V c t hf) (fun i => cover0 i)

end Cert.KernelIdeal.Hand

end
-- ==== Proof.KIValue1.lean ====
/-
  The second layer's output array after its region, over the exact extended reals.

  The region's grid has sixteen points; point t works on column block t / 4 of the output and on block t % 4 of the
  contracted axis.  Its windows' blocks are read off the arrays the region finds: the activation's block holds columns
  2048 · (t % 4) + j, the weight's block rows 2048 · (t / 4) + q and columns 2048 · (t % 4) + j, the bias row's block
  columns 2048 · (t / 4) + q.  Over the four points of a column block the accumulator becomes, at (p, q), zero plus the
  four sums of 2048 products of row p of the activation with row 2048 · (t / 4) + q of the weight, in order; the point
  with t % 4 = 3 writes back selu of that plus the bias, which is its block of the layer's array; and these sixteen
  blocks' four written-back ones tile the output array.
-/
import proofs.«110502_j4913442587016_1_alg».proof.Proof.KIRegion1
import proofs.«110502_j4913442587016_1_alg».proof.Proof.KILayers
import proofs.«110502_j4913442587016_1_alg».proof.Proof.PayIdx
import Idealize.ShloMosaic.Lib.Pipeline.Value
import Idealize.ShloMosaic.Lib.ValueIdx

noncomputable section

open scoped BigOperators

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The activation, the weight and the bias row as the region finds them, and their blocks at a point. -/
abbrev actIn1 (c : Dev nD) : FVec Ideal S256x8192 .bf16 := V c main_v33
abbrev wgtIn1 (c : Dev nD) : FVec Ideal S8192x8192 .bf16 := V c main_v26
abbrev biasIn1 (c : Dev nD) : FVec Ideal S1x8192 .f32 := V c main_v29
abbrev actBlk1 (c : Dev nD) (t : Fin cfg1.N) : FVec Ideal S256x2048 .bf16 := iblk1 (F := Ideal) V c 0 t
abbrev wgtBlk1 (c : Dev nD) (t : Fin cfg1.N) : FVec Ideal S2048x2048 .bf16 := iblk1 (F := Ideal) V c 1 t
abbrev biasBlk1 (c : Dev nD) (t : Fin cfg1.N) : FVec Ideal S1x2048 .f32 := iblk1 (F := Ideal) V c 2 t

/-- The grid has sixteen points. -/
theorem N1_eq : cfg1.N = 16 := by decide +kernel

/-- The block indices of the four windows at point t: with column block t / 4 and contraction block t % 4, the
    activation's block is (0, t % 4), the weight's (t / 4, t % 4), the bias row's and the output's (0, t / 4). -/
theorem idx_facts1 : ∀ t : Fin cfg1.N,
    win1_0.index t (0 : Fin 2) = 0 ∧ win1_0.index t (1 : Fin 2) = t.val % 4
    ∧ win1_1.index t (0 : Fin 2) = t.val / 4 ∧ win1_1.index t (1 : Fin 2) = t.val % 4
    ∧ win1_2.index t (0 : Fin 2) = 0 ∧ win1_2.index t (1 : Fin 2) = t.val / 4
    ∧ win1_3.index t (0 : Fin 2) = 0 ∧ win1_3.index t (1 : Fin 2) = t.val / 4 :=
  (by decide +kernel : ∀ t : Fin grid1.N, _)

/-- The activation's block at point t holds, at (p, j), the array's entry (p, 2048 · (t % 4) + j). -/
theorem xblk1_apply (c : Dev nD) (t : Fin cfg1.N) (p : Fin 256) (j : Fin 2048) (k : Fin 8192)
    (hk : k.val = 2048 * (t.val % 4) + j.val) :
    actBlk1 V c t (ix2 p j) = actIn1 V c (ix2 p k) := by
  obtain ⟨e0, e1, -⟩ := idx_facts1 t
  unfold actBlk1 actIn1 iblk1
  rw [View.read_apply]
  show V c main_v33 _ = V c main_v33 _
  congr 1
  funext a
  apply Fin.ext
  match a with
  | ⟨0, _⟩ => show win1_0.index t 0 * 256 + 1 * p.val = p.val; rw [e0]; omega
  | ⟨1, _⟩ => show win1_0.index t 1 * 2048 + 1 * j.val = k.val; rw [e1, hk]; omega

/-- The weight's block at point t holds, at (q, j), the array's entry (2048 · (t / 4) + q, 2048 · (t % 4) + j). -/
theorem wblk1_apply (c : Dev nD) (t : Fin cfg1.N) (q : Fin 2048) (j : Fin 2048) (n k : Fin 8192)
    (hn : n.val = 2048 * (t.val / 4) + q.val) (hk : k.val = 2048 * (t.val % 4) + j.val) :
    wgtBlk1 V c t (ix2 q j) = wgtIn1 V c (ix2 n k) := by
  obtain ⟨-, -, e0, e1, -⟩ := idx_facts1 t
  unfold wgtBlk1 wgtIn1 iblk1
  rw [View.read_apply]
  show V c main_v26 _ = V c main_v26 _
  congr 1
  funext a
  apply Fin.ext
  match a with
  | ⟨0, _⟩ => show win1_1.index t 0 * 2048 + 1 * q.val = n.val; rw [e0, hn]; omega
  | ⟨1, _⟩ => show win1_1.index t 1 * 2048 + 1 * j.val = k.val; rw [e1, hk]; omega

/-- The bias row's block at point t holds, at (0, q), the row's entry (0, 2048 · (t / 4) + q). -/
theorem bblk1_apply (c : Dev nD) (t : Fin cfg1.N) (q : Fin 2048) (n : Fin 8192)
    (hn : n.val = 2048 * (t.val / 4) + q.val) :
    biasBlk1 V c t (ix2 (0 : Fin 1) q) = biasIn1 V c (ix2 (0 : Fin 1) n) := by
  obtain ⟨-, -, -, -, e0, e1, -⟩ := idx_facts1 t
  unfold biasBlk1 biasIn1 iblk1
  rw [View.read_apply]
  show V c main_v29 _ = V c main_v29 _
  congr 1
  funext a
  apply Fin.ext
  match a with
  | ⟨0, _⟩ => show win1_2.index t 0 * 1 + 1 * 0 = 0; rw [e0]
  | ⟨1, _⟩ => show win1_2.index t 1 * 2048 + 1 * q.val = n.val; rw [e1, hn]; omega

/-- The accumulator at the first block of the contracted axis: the point's product added to zero. -/
theorem accAt1_first (c : Dev nD) (n : ℕ) (h : n < cfg1.N) (h0 : n % 4 = 0) :
    acc1 (F := Ideal) V c n h = k1_pay2 (F := Ideal) (k1_pay1 (F := Ideal)) (actBlk1 V c ⟨n, h⟩) (wgtBlk1 V c ⟨n, h⟩) := by
  cases n with
  | zero => rfl
  | succ n => rw [acc1]; exact if_pos h0

/-- The accumulator at a later block of the contracted axis: the point's product added to what the point before left. -/
theorem accAt1_next (c : Dev nD) (n : ℕ) (h : n + 1 < cfg1.N) (h0 : (n + 1) % 4 ≠ 0) :
    acc1 (F := Ideal) V c (n + 1) h
      = k1_pay2 (F := Ideal) (acc1 V c n (Nat.lt_of_succ_lt h)) (actBlk1 V c ⟨n + 1, h⟩) (wgtBlk1 V c ⟨n + 1, h⟩) := by
  rw [acc1]; exact if_neg h0

/-- The accumulator depends on the point's number only. -/
theorem acc1_congr (c : Dev nD) (n n' : ℕ) (h : n < cfg1.N) (h' : n' < cfg1.N) (e : n = n') :
    acc1 (F := Ideal) V c n h = acc1 V c n' h' := by
  subst e; rfl

/-- The sum of 2048 products a point adds: row p of the activation against row n of the weight over the columns
    f 0, …, f 2047 of contraction block t % 4, where n = 2048 · (t / 4) + q. -/
theorem blockSum1 (c : Dev nD) (t : Fin cfg1.N) (p : Fin 256) (q : Fin 2048) (n : Fin 8192) (f : Fin 2048 → Fin 8192)
    (hn : n.val = 2048 * (t.val / 4) + q.val) (hf : ∀ j : Fin 2048, (f j).val = 2048 * (t.val % 4) + j.val) :
    (∑ j : Fin 2048, actBlk1 V c t (ix2 p j) * wgtBlk1 V c t (ix2 q j))
      = ∑ j : Fin 2048, actIn1 V c (ix2 p (f j)) * wgtIn1 V c (ix2 n (f j)) :=
  Finset.sum_congr rfl fun j _ => by
    rw [xblk1_apply V c t p j (f j) (hf j), wblk1_apply V c t q j n (f j) hn (hf j)]

/-- One step of the accumulator at an entry. -/
theorem acc1_step (c : Dev nD) (a : Vec Ideal S256x2048 .f32) (t : Fin cfg1.N) (p : Fin 256) (q : Fin 2048) (n : Fin 8192)
    (f : Fin 2048 → Fin 8192)
    (hn : n.val = 2048 * (t.val / 4) + q.val) (hf : ∀ j : Fin 2048, (f j).val = 2048 * (t.val % 4) + j.val) :
    k1_pay2 a (actBlk1 V c t) (wgtBlk1 V c t) (ix2 p q)
      = a (ix2 p q) + ∑ j : Fin 2048, actIn1 V c (ix2 p (f j)) * wgtIn1 V c (ix2 n (f j)) :=
  (pay2_apply1 a (actBlk1 V c t) (wgtBlk1 V c t) p q).trans (congrArg (a (ix2 p q) + ·) (blockSum1 V c t p q n f hn hf))

/-- The accumulator after the last block of the contracted axis of column block m / 4, at entry (p, q): row p of the
    activation against row n = 2048 · (m / 4) + q of the weight, as zero plus the four block sums in order. -/
theorem acc1_last' (c : Dev nD) (m : ℕ) (h3 : m + 3 < cfg1.N) (hm : m % 4 = 0) (p : Fin 256) (q : Fin 2048) (n : Fin 8192)
    (hn : n.val = 2048 * (m / 4) + q.val) :
    acc1 (F := Ideal) V c (m + 3) h3 (ix2 p q) = dot4 (actIn1 V c) (wgtIn1 V c) p n := by
  have hN : cfg1.N = 16 := N1_eq
  have h2 : m + 2 < cfg1.N := by omega
  have h1 : m + 1 < cfg1.N := by omega
  have h0 : m < cfg1.N := by omega
  rw [accAt1_next V c (m + 2) h3 (by omega)]
  refine (acc1_step V c _ ⟨m + 3, h3⟩ p q n (fun j => ⟨6144 + j.val, by have := j.isLt; omega⟩)
    (by show n.val = 2048 * ((m + 3) / 4) + q.val; omega) (fun j => by show 6144 + j.val = 2048 * ((m + 3) % 4) + j.val; omega)).trans ?_
  rw [accAt1_next V c (m + 1) h2 (by omega)]
  rw [acc1_step V c _ ⟨m + 2, h2⟩ p q n (fun j => ⟨4096 + j.val, by have := j.isLt; omega⟩)
    (by show n.val = 2048 * ((m + 2) / 4) + q.val; omega) (fun j => by show 4096 + j.val = 2048 * ((m + 2) % 4) + j.val; omega)]
  rw [accAt1_next V c m h1 (by omega)]
  rw [acc1_step V c _ ⟨m + 1, h1⟩ p q n (fun j => ⟨2048 + j.val, by have := j.isLt; omega⟩)
    (by show n.val = 2048 * ((m + 1) / 4) + q.val; omega) (fun j => by show 2048 + j.val = 2048 * ((m + 1) % 4) + j.val; omega)]
  rw [accAt1_first V c m h0 hm]
  rw [acc1_step V c _ ⟨m, h0⟩ p q n (fun j => ⟨j.val, by have := j.isLt; omega⟩)
    (by show n.val = 2048 * (m / 4) + q.val; omega) (fun j => by show j.val = 2048 * (m % 4) + j.val; omega)]
  rw [pay1_apply1]
  rfl

/-- The same at a point t with t % 4 = 3. -/
theorem acc1_last (c : Dev nD) (t : Fin cfg1.N) (ht : t.val % 4 = 3) (p : Fin 256) (q : Fin 2048) (n : Fin 8192)
    (hn : n.val = 2048 * (t.val / 4) + q.val) :
    acc1 (F := Ideal) V c t.val t.isLt (ix2 p q) = dot4 (actIn1 V c) (wgtIn1 V c) p n := by
  have h3 : t.val - 3 + 3 < cfg1.N := by have := t.isLt; omega
  rw [acc1_congr V c t.val (t.val - 3 + 3) t.isLt h3 (by omega)]
  exact acc1_last' V c (t.val - 3) h3 (by omega) p q n (by omega)

/-- What a point at the last block of the contracted axis writes back is its block of the layer's array. -/
theorem flushed1_eq (c : Dev nD) (t : Fin cfg1.N) (hf : (cfg1.win 3).flush t = true) :
    (dat1 (F := Ideal) V c).flushed 3 t
      = ((cfg1.win 3).blk t).view.read (Elt Ideal) (layerSelu (actIn1 V c) (wgtIn1 V c) (biasIn1 V c)) := by
  have ht : t.val % 4 = 3 := (flush1_3 t).mp hf
  have hN : cfg1.N = 16 := N1_eq
  obtain ⟨-, -, -, -, -, -, e0, e1⟩ := idx_facts1 t
  show (cfg1.win 3).cut (grid1.coords t) ((dat1 (F := Ideal) V c).after 3 t) = _
  funext y
  obtain ⟨p, q, rfl⟩ : ∃ (p : Fin 256) (q : Fin 2048), y = ix2 p q := ⟨y 0, y 1, eq_ix2 y⟩
  have hnlt : 2048 * (t.val / 4) + q.val < 8192 := by have := t.isLt; have := q.isLt; omega
  have hemb : ((cfg1.win 3).blk t).view.emb (ix2 p q) = (ix2 p ⟨2048 * (t.val / 4) + q.val, hnlt⟩ : S256x8192.Idx) := by
    funext a
    apply Fin.ext
    match a with
    | ⟨0, _⟩ => show win1_3.index t 0 * 256 + 1 * p.val = p.val; rw [e0]; omega
    | ⟨1, _⟩ => show win1_3.index t 1 * 2048 + 1 * q.val = 2048 * (t.val / 4) + q.val; rw [e1]; omega
  show out1 (F := Ideal) V c t (ix2 p q) = layerSelu (actIn1 V c) (wgtIn1 V c) (biasIn1 V c) (((cfg1.win 3).blk t).view.emb (ix2 p q))
  rw [hemb, layerSelu_apply]
  unfold out1
  refine (pay3_apply1 (acc1 (F := Ideal) V c t.val t.isLt) (biasBlk1 V c t) p q).trans ?_
  rw [acc1_last V c t ht p q ⟨2048 * (t.val / 4) + q.val, hnlt⟩ rfl,
    bblk1_apply V c t q ⟨2048 * (t.val / 4) + q.val, hnlt⟩ rfl]

/-- An index of the output array lies in point t's block when each coordinate is in the block's range. -/
theorem mem_blk1 (t : Fin cfg1.N) (i : S256x8192.Idx) :
    i ∈ ((cfg1.win 3).blk t).view.set ↔ ∀ a : Fin 2, win1_3.index t a * S256x2048.size a ≤ (i a).val
      ∧ (i a).val < win1_3.index t a * S256x2048.size a + S256x2048.size a := by
  show i ∈ ((View.whole main_v34).slice (win1_3.rect t)).set ↔ _
  rw [View.set_slice_whole, Rect.mem_set_unit]
  exact Iff.rfl

/-- Every index of the output array lies in the block of a point that writes back: column n is in column block
    n / 2048, written back at point 4 · (n / 2048) + 3. -/
theorem cover1 (i : S256x8192.Idx) :
    ∃ t : Fin cfg1.N, (cfg1.win 3).flush t = true ∧ i ∈ ((cfg1.win 3).blk t).view.set := by
  have hN : cfg1.N = 16 := N1_eq
  have hi0 : (i 0).val < 256 := (i 0).isLt
  have hi1 : (i 1).val < 8192 := (i 1).isLt
  obtain ⟨t, ht⟩ : ∃ t : Fin cfg1.N, t.val = 4 * ((i 1).val / 2048) + 3 := ⟨⟨4 * ((i 1).val / 2048) + 3, by omega⟩, rfl⟩
  obtain ⟨-, -, -, -, -, -, e0, e1⟩ := idx_facts1 t
  refine ⟨t, (flush1_3 t).mpr (by omega), ?_⟩
  rw [mem_blk1]
  intro a
  match a with
  | ⟨0, _⟩ => show win1_3.index t 0 * 256 ≤ (i 0).val ∧ (i 0).val < win1_3.index t 0 * 256 + 256; rw [e0]; omega
  | ⟨1, _⟩ => show win1_3.index t 1 * 2048 ≤ (i 1).val ∧ (i 1).val < win1_3.index t 1 * 2048 + 2048; rw [e1, ht]; omega

/-- After the region the second layer's output array holds selu (X · Wᵀ + b) of the arrays the region found. -/
theorem final1 (c : Dev nD) :
    (dat1 (F := Ideal) V c).arrAt 3 cfg1.N = layerSelu (V c main_v33) (V c main_v26) (V c main_v29) :=
  (dat1 (F := Ideal) V c).arrAt_eq_of_cover 3 (layerSelu (actIn1 V c) (wgtIn1 V c) (biasIn1 V c))
    (fun t hf => flushed1_eq V c t hf) (fun i => cover1 i)

end Cert.KernelIdeal.Hand

end
-- ==== Proof.KIValue2.lean ====
/-
  The third kernel's output array as a whole-array function of the arrays the kernel reads.

  The grid has 4 × 4 points; point t works on column block t / 4 of the output and on block t % 4 of
  the contracted axis.  Each window's block is read where its index map puts it; the running block of
  partial sums, after the fourth block of the contracted axis, holds zero plus the four block sums in
  order; the closing step adds the bias row, scales by the flag row and adds the closing bias row; the
  sixteen write-backs' blocks (four of them distinct) cover the output array.
-/
import proofs.«110502_j4913442587016_1_alg».proof.Proof.KIRegion2
import proofs.«110502_j4913442587016_1_alg».proof.Proof.KILayers
import proofs.«110502_j4913442587016_1_alg».proof.Proof.PayIdx
import Idealize.ShloMosaic.Lib.Pipeline.Value
import Idealize.ShloMosaic.Lib.ValueIdx

noncomputable section

open scoped BigOperators

namespace Cert.KernelIdeal.Hand

open Idealize.ShloMosaic Idealize.ShloMosaic.TcCoe Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-! ## The index maps over the sixteen points -/

/-- The grid has sixteen points. -/
theorem lt16 {n : ℕ} (h : n < cfg2.N) : n < 16 := by
  have e : cfg2.N = 16 := N_2
  omega

/-- Each window's block index at point t: the activation's is (0, t % 4), the weight's (t / 4, t % 4), the three
    rows' and the output's (0, t / 4). -/
theorem idx2 : ∀ t : Fin cfg2.N,
    win2_0.index t (0 : Fin 2) = 0 ∧ win2_0.index t (1 : Fin 2) = t.val % 4
    ∧ win2_1.index t (0 : Fin 2) = t.val / 4 ∧ win2_1.index t (1 : Fin 2) = t.val % 4
    ∧ win2_2.index t (0 : Fin 2) = 0 ∧ win2_2.index t (1 : Fin 2) = t.val / 4
    ∧ win2_3.index t (0 : Fin 2) = 0 ∧ win2_3.index t (1 : Fin 2) = t.val / 4
    ∧ win2_4.index t (0 : Fin 2) = 0 ∧ win2_4.index t (1 : Fin 2) = t.val / 4
    ∧ win2_5.index t (0 : Fin 2) = 0 ∧ win2_5.index t (1 : Fin 2) = t.val / 4 :=
  (by decide +kernel : ∀ t : Fin grid2.N, _)

/-! ## Each input block, read where its rectangle lies -/

/-- The activation's block at point t is columns 2048 · (t % 4) … of the activation. -/
theorem iblk2_0_apply (c : Dev nD) (t : Fin cfg2.N) (p : Fin 256) (j : Fin 2048) (k : Fin 8192)
    (hk : k.val = 2048 * (t.val % 4) + j.val) :
    (iblk2 V c 0 t : Vec Ideal S256x2048 .bf16) (ix2 p j) = (V c main_v34 : FVec Ideal S256x8192 .bf16) (ix2 p k) := by
  obtain ⟨e0, e1, -⟩ := idx2 t
  unfold iblk2
  rw [View.read_apply]
  show (V c main_v34 : FVec Ideal S256x8192 .bf16) _ = V c main_v34 _
  congr 1
  funext a
  apply Fin.ext
  match a with
  | ⟨0, _⟩ => show win2_0.index t (0 : Fin 2) * 256 + 1 * p.val = p.val; rw [e0]; omega
  | ⟨1, _⟩ => show win2_0.index t (1 : Fin 2) * 2048 + 1 * j.val = k.val; rw [e1, hk]; omega

/-- The weight's block at point t is rows 2048 · (t / 4) … and columns 2048 · (t % 4) … of the weight. -/
theorem iblk2_1_apply (c : Dev nD) (t : Fin cfg2.N) (q j : Fin 2048) (r k : Fin 8192)
    (hr : r.val = 2048 * (t.val / 4) + q.val) (hk : k.val = 2048 * (t.val % 4) + j.val) :
    (iblk2 V c 1 t : Vec Ideal S2048x2048 .bf16) (ix2 q j) = (V c main_v27 : FVec Ideal S8192x8192 .bf16) (ix2 r k) := by
  obtain ⟨-, -, e0, e1, -⟩ := idx2 t
  unfold iblk2
  rw [View.read_apply]
  show (V c main_v27 : FVec Ideal S8192x8192 .bf16) _ = V c main_v27 _
  congr 1
  funext a
  apply Fin.ext
  match a with
  | ⟨0, _⟩ => show win2_1.index t (0 : Fin 2) * 2048 + 1 * q.val = r.val; rw [e0, hr]; omega
  | ⟨1, _⟩ => show win2_1.index t (1 : Fin 2) * 2048 + 1 * j.val = k.val; rw [e1, hk]; omega

/-- The bias row's block at point t is columns 2048 · (t / 4) … of the row. -/
theorem iblk2_2_apply (c : Dev nD) (t : Fin cfg2.N) (q : Fin 2048) (r : Fin 8192)
    (hr : r.val = 2048 * (t.val / 4) + q.val) :
    (iblk2 V c 2 t : Vec Ideal S1x2048 .f32) (ix2 (0 : Fin 1) q) = (V c main_v30 : FVec Ideal S1x8192 .f32) (ix2 (0 : Fin 1) r) := by
  obtain ⟨-, -, -, -, e0, e1, -⟩ := idx2 t
  unfold iblk2
  rw [View.read_apply]
  show (V c main_v30 : FVec Ideal S1x8192 .f32) _ = V c main_v30 _
  congr 1
  funext a
  apply Fin.ext
  match a with
  | ⟨0, _⟩ => show win2_2.index t (0 : Fin 2) * 1 + 1 * (0 : Fin 1).val = (0 : Fin 1).val; rw [e0]; rfl
  | ⟨1, _⟩ => show win2_2.index t (1 : Fin 2) * 2048 + 1 * q.val = r.val; rw [e1, hr]; omega

/-- The closing bias row's block at point t is columns 2048 · (t / 4) … of the row. -/
theorem iblk2_3_apply (c : Dev nD) (t : Fin cfg2.N) (q : Fin 2048) (r : Fin 8192)
    (hr : r.val = 2048 * (t.val / 4) + q.val) :
    (iblk2 V c 3 t : Vec Ideal S1x2048 .f32) (ix2 (0 : Fin 1) q) = (V c main_v31 : FVec Ideal S1x8192 .f32) (ix2 (0 : Fin 1) r) := by
  obtain ⟨-, -, -, -, -, -, e0, e1, -⟩ := idx2 t
  unfold iblk2
  rw [View.read_apply]
  show (V c main_v31 : FVec Ideal S1x8192 .f32) _ = V c main_v31 _
  congr 1
  funext a
  apply Fin.ext
  match a with
  | ⟨0, _⟩ => show win2_3.index t (0 : Fin 2) * 1 + 1 * (0 : Fin 1).val = (0 : Fin 1).val; rw [e0]; rfl
  | ⟨1, _⟩ => show win2_3.index t (1 : Fin 2) * 2048 + 1 * q.val = r.val; rw [e1, hr]; omega

/-- The flag row's block at point t is columns 2048 · (t / 4) … of the row. -/
theorem iblk2_4_apply (c : Dev nD) (t : Fin cfg2.N) (q : Fin 2048) (r : Fin 8192)
    (hr : r.val = 2048 * (t.val / 4) + q.val) :
    (iblk2 V c 4 t : Vec Ideal S1x2048 .f32) (ix2 (0 : Fin 1) q) = (V c main_v32 : FVec Ideal S1x8192 .f32) (ix2 (0 : Fin 1) r) := by
  obtain ⟨-, -, -, -, -, -, -, -, e0, e1, -⟩ := idx2 t
  unfold iblk2
  rw [View.read_apply]
  show (V c main_v32 : FVec Ideal S1x8192 .f32) _ = V c main_v32 _
  congr 1
  funext a
  apply Fin.ext
  match a with
  | ⟨0, _⟩ => show win2_4.index t (0 : Fin 2) * 1 + 1 * (0 : Fin 1).val = (0 : Fin 1).val; rw [e0]; rfl
  | ⟨1, _⟩ => show win2_4.index t (1 : Fin 2) * 2048 + 1 * q.val = r.val; rw [e1, hr]; omega

/-! ## The running block of partial sums -/

/-- At the first block of the contracted axis the running block is the point's product added to zero. -/
theorem acc2_resets (c : Dev nD) (n : ℕ) (h : n < cfg2.N) (hn : n % 4 = 0) :
    acc2 V c n h = k2_pay2 (k2_pay1 (F := Ideal)) (iblk2 V c 0 ⟨n, h⟩) (iblk2 V c 1 ⟨n, h⟩) := by
  cases n with
  | zero => rfl
  | succ n => rw [acc2]; exact if_pos hn

/-- At a later block it is the point's product added to what the point before left. -/
theorem acc2_steps (c : Dev nD) (n : ℕ) (h : n + 1 < cfg2.N) (hn : (n + 1) % 4 ≠ 0) :
    acc2 V c (n + 1) h = k2_pay2 (acc2 V c n (Nat.lt_of_succ_lt h)) (iblk2 V c 0 ⟨n + 1, h⟩) (iblk2 V c 1 ⟨n + 1, h⟩) := by
  rw [acc2]; exact if_neg hn

/-- The activation array and the weight array as the kernel finds them. -/
abbrev actIn2 (c : Dev nD) : FVec Ideal S256x8192 .bf16 := V c main_v34
abbrev wgtIn2 (c : Dev nD) : FVec Ideal S8192x8192 .bf16 := V c main_v27

/-- One point's step on the running block, read at an entry: the block sum is over the entries of the activation's
    row p and of the weight's row r in the point's block of the contracted axis, named by f. -/
theorem pay2_blk (c : Dev nD) (a : Vec Ideal S256x2048 .f32) (t : Fin cfg2.N) (p : Fin 256) (q : Fin 2048) (r : Fin 8192)
    (hr : r.val = 2048 * (t.val / 4) + q.val) (f : Fin 2048 → Fin 8192) (hf : ∀ j, (f j).val = 2048 * (t.val % 4) + j.val) :
    k2_pay2 a (iblk2 V c 0 t) (iblk2 V c 1 t) (ix2 p q)
      = a (ix2 p q) + ∑ j : Fin 2048, actIn2 V c (ix2 p (f j)) * wgtIn2 V c (ix2 r (f j)) := by
  rw [pay2_apply2]
  congr 1
  exact Finset.sum_congr rfl fun j _ => by
    rw [iblk2_0_apply V c t p j (f j) (hf j), iblk2_1_apply V c t q j r (f j) hr (hf j)]

/-- After the last block of the contracted axis the running block holds, at (p, q), row p of the activation against
    row 2048 · (n / 4) + q of the weight: zero plus the four block sums in order. -/
theorem acc2_last (c : Dev nD) (n : ℕ) (h : n < cfg2.N) (h3 : n % 4 = 3) (p : Fin 256) (q : Fin 2048) (r : Fin 8192)
    (hr : r.val = 2048 * (n / 4) + q.val) :
    acc2 V c n h (ix2 p q) = dot4 (V c main_v34) (V c main_v27) p r := by
  have h16 := lt16 h
  obtain ⟨nb, rfl⟩ : ∃ nb, n = 4 * nb + 1 + 1 + 1 := ⟨n / 4, by omega⟩
  have h2 : 4 * nb + 1 + 1 < cfg2.N := Nat.lt_of_succ_lt h
  have h1 : 4 * nb + 1 < cfg2.N := Nat.lt_of_succ_lt h2
  have h0 : 4 * nb < cfg2.N := Nat.lt_of_succ_lt h1
  rw [acc2_steps V c (4 * nb + 1 + 1) h (by omega),
    pay2_blk V c _ ⟨4 * nb + 1 + 1 + 1, h⟩ p q r (by show r.val = 2048 * ((4 * nb + 1 + 1 + 1) / 4) + q.val; omega)
      (fun j => ⟨6144 + j.val, by have := j.isLt; omega⟩) (fun j => by show 6144 + j.val = 2048 * ((4 * nb + 1 + 1 + 1) % 4) + j.val; omega),
    acc2_steps V c (4 * nb + 1) h2 (by omega),
    pay2_blk V c _ ⟨4 * nb + 1 + 1, h2⟩ p q r (by show r.val = 2048 * ((4 * nb + 1 + 1) / 4) + q.val; omega)
      (fun j => ⟨4096 + j.val, by have := j.isLt; omega⟩) (fun j => by show 4096 + j.val = 2048 * ((4 * nb + 1 + 1) % 4) + j.val; omega),
    acc2_steps V c (4 * nb) h1 (by omega),
    pay2_blk V c _ ⟨4 * nb + 1, h1⟩ p q r (by show r.val = 2048 * ((4 * nb + 1) / 4) + q.val; omega)
      (fun j => ⟨2048 + j.val, by have := j.isLt; omega⟩) (fun j => by show 2048 + j.val = 2048 * ((4 * nb + 1) % 4) + j.val; omega),
    acc2_resets V c (4 * nb) h0 (by omega),
    pay2_blk V c _ ⟨4 * nb, h0⟩ p q r (by show r.val = 2048 * ((4 * nb) / 4) + q.val; omega)
      (fun j => ⟨j.val, by have := j.isLt; omega⟩) (fun j => by show j.val = 2048 * ((4 * nb) % 4) + j.val; omega),
    pay1_apply2]
  rfl

/-! ## The output block, the write-backs and the whole array -/

/-- The output block after the last block of the contracted axis, at (p, q): the last layer at (p, 2048 · (t / 4) + q). -/
theorem out2_apply (c : Dev nD) (t : Fin cfg2.N) (h3 : t.val % 4 = 3) (p : Fin 256) (q : Fin 2048) (r : Fin 8192)
    (hr : r.val = 2048 * (t.val / 4) + q.val) :
    out2 V c t (ix2 p q)
      = layerFin (V c main_v34) (V c main_v27) (V c main_v30) (V c main_v31) (V c main_v32) (ix2 p r) := by
  unfold out2
  rw [pay3_apply2, acc2_last V c t.val t.isLt h3 p q r hr, iblk2_2_apply V c t q r hr, iblk2_3_apply V c t q r hr,
    iblk2_4_apply V c t q r hr, layerFin_apply]

/-- What a write-back writes is its block of the last layer's array. -/
theorem flushed2_eq (c : Dev nD) (t : Fin cfg2.N) (hf : (cfg2.win 5).flush t = true) :
    (dat2 (F := Ideal) V c).flushed 5 t
      = ((cfg2.win 5).blk t).view.read (Elt Ideal)
          (layerFin (V c main_v34) (V c main_v27) (V c main_v30) (V c main_v31) (V c main_v32)) := by
  have h3 : t.val % 4 = 3 := (flush2_5 t).mp hf
  have h16 := lt16 t.isLt
  obtain ⟨-, -, -, -, -, -, -, -, -, -, e0, e1⟩ := idx2 t
  funext y
  have y0 : (y 0).val < 256 := (y 0).isLt
  have y1 : (y 1).val < 2048 := (y 1).isLt
  show out2 V c t ((cfg2.win 5).xinj (grid2.coords t) y)
    = layerFin (V c main_v34) (V c main_v27) (V c main_v30) (V c main_v31) (V c main_v32) (((cfg2.win 5).blk t).view.emb y)
  have hy : (cfg2.win 5).xinj (grid2.coords t) y = ix2 (⟨(y 0).val, y0⟩ : Fin 256) (⟨(y 1).val, y1⟩ : Fin 2048) :=
    funext fun a => match a with | ⟨0, _⟩ => rfl | ⟨1, _⟩ => rfl
  have he : ((cfg2.win 5).blk t).view.emb y
      = ix2 (⟨(y 0).val, y0⟩ : Fin 256) (⟨2048 * (t.val / 4) + (y 1).val, by omega⟩ : Fin 8192) := by
    funext a
    apply Fin.ext
    match a with
    | ⟨0, _⟩ => show win2_5.index t (0 : Fin 2) * 256 + 1 * (y 0).val = (y 0).val; rw [e0]; omega
    | ⟨1, _⟩ => show win2_5.index t (1 : Fin 2) * 2048 + 1 * (y 1).val = 2048 * (t.val / 4) + (y 1).val; rw [e1]; omega
  rw [hy, he]
  exact out2_apply V c t h3 _ _ _ rfl

/-- Every entry of the output array lies in the block some write-back writes: entry (p, n) in column block n / 2048. -/
theorem cover2 (i : S256x8192.Idx) :
    ∃ t : Fin cfg2.N, (cfg2.win 5).flush t = true ∧ i ∈ ((cfg2.win 5).blk t).view.set := by
  have i0 : (i 0).val < 256 := (i 0).isLt
  have i1 : (i 1).val < 8192 := (i 1).isLt
  have hN : cfg2.N = 16 := N_2
  obtain ⟨t, ht⟩ : ∃ t : Fin cfg2.N, t.val = 4 * ((i 1).val / 2048) + 3 := ⟨⟨4 * ((i 1).val / 2048) + 3, by omega⟩, rfl⟩
  obtain ⟨-, -, -, -, -, -, -, -, -, -, e0, e1⟩ := idx2 t
  refine ⟨t, (flush2_5 t).mpr (by omega), ?_⟩
  show i ∈ ((View.whole main_v35).slice (win2_5.rect t)).set
  rw [View.set_slice_whole, Rect.mem_set_unit]
  intro a
  match a with
  | ⟨0, _⟩ =>
    show win2_5.index t (0 : Fin 2) * 256 ≤ (i 0).val ∧ (i 0).val < win2_5.index t (0 : Fin 2) * 256 + 256
    rw [e0]; omega
  | ⟨1, _⟩ =>
    show win2_5.index t (1 : Fin 2) * 2048 ≤ (i 1).val ∧ (i 1).val < win2_5.index t (1 : Fin 2) * 2048 + 2048
    rw [e1]; omega

/-- The third kernel leaves the last layer's array in its output array. -/
theorem final2 (c : Dev nD) :
    (dat2 (F := Ideal) V c).arrAt 5 cfg2.N
      = layerFin (V c main_v34) (V c main_v27) (V c main_v30) (V c main_v31) (V c main_v32) :=
  (dat2 (F := Ideal) V c).arrAt_eq_of_cover 5 _ (fun t hf => flushed2_eq V c t hf) cover2

end Cert.KernelIdeal.Hand

end
-- ==== Proof.KIHost.lean ====
/-
  What the kernel program's host operations before its three kernels leave in the buffers the
  kernels read: the sparse pre-layer (index wrap-around, gather of columns, scaling by the values,
  scatter-add into zeros at the rows, scaling by the flag row, adding the bias row) narrowed to
  bf16, the three weight matrices narrowed to bf16, and the bias rows, the closing bias row and the
  flag row viewed as one-row arrays.
-/
import proofs.«110502_j4913442587016_1_alg».proof.Proof.Gen.KernelIdeal.Launch
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal

noncomputable section

namespace Cert.KernelIdeal.Hand

open Idealize.ShloMosaic Idealize.ShloMosaic.TcCoe Cert.KernelIdeal Cert.KernelIdeal.Gen

variable {F : FTy → Type} [FloatOps F]

/-- An index array with 8192 added to its negative entries, as a one-column array. -/
def wrapIdxK (i : IVec S131072 32) : IVec S131072x1 32 :=
  broadcastInDim S131072x1 ![0] bcast_S131072_S131072x1_0
    (select (cmpi .slt i (broadcastInDim S131072 ![] bcast_S_S131072 (constantI S_ 32 0#32)))
      (addi i (broadcastInDim S131072 ![] bcast_S_S131072 (constantI S_ 32 8192#32))) i)

/-- A row of 8192 entries repeated down the 256 rows. -/
def bcRowK (b : FVec F S8192 .f32) : FVec F S256x8192 .f32 :=
  broadcastInDim S256x8192 ![0, 1] bcast_S1x8192_S256x8192_0_1 (broadcastInDim S1x8192 ![1] bcast_S8192_S1x8192_1 b)

/-- The columns of x picked by the wrapped column indices, each scaled by its value. -/
def gatheredK (x : FVec F S256x8192 .f32) (vals : FVec F S131072 .f32) (cols : IVec S131072 32) : FVec F S256x131072 .f32 :=
  mulf (Host.gather gather_S256x8192_S131072x1_S256x131072_0_1_n_n_1_1_2561 x (wrapIdxK cols))
    (broadcastInDim S256x131072 ![0, 1] bcast_S1x131072_S256x131072_0_1 (broadcastInDim S1x131072 ![1] bcast_S131072_S1x131072_1 vals))

/-- The scaled columns added into an all-zero array at the wrapped row indices. -/
def scatteredK (x : FVec F S256x8192 .f32) (vals : FVec F S131072 .f32) (rows cols : IVec S131072 32) : FVec F S256x8192 .f32 :=
  Host.scatterAdd scatter_S256x8192_S131072x1_S256x131072_0_1_1_1
    (broadcastInDim S256x8192 ![] bcast_S_S256x8192 (constant S_ .f32 0x00000000#32))
    (wrapIdxK rows) (gatheredK x vals cols)

/-- The value of %23 as the operations compose: bias row plus the scatter-added array times the flag row. -/
def preK (x : FVec F S256x8192 .f32) (vals : FVec F S131072 .f32) (bc flag : FVec F S8192 .f32) (rows cols : IVec S131072 32) :
    FVec F S256x8192 .f32 :=
  addf (bcRowK bc) (mulf (scatteredK x vals rows cols) (bcRowK flag))

/-- A one-axis array viewed as a one-row array reads, in row 0 at column n, the array's entry n. -/
theorem rowView_apply {α : Type} (v : S8192.Idx → α) (n : Fin 8192) :
    shapeCast S1x8192 v shapeCasts_S8192_S1x8192 (ValueIdx.ix2 (0 : Fin 1) n) = v (ValueIdx.ix1 n) :=
  shapeCast_apply v _ _ _ (by
    rw [Shape.rowMajor_val_two, Shape.rowMajor_val_one]
    show n.val = (0 : Fin 1).val * 8192 + n.val
    simp)

section Generic

variable (m : (ℓ : Loc nD τ sig) → Buf (Elt F) ℓ)

/-- The first kernel's activations: the pre-layer's value narrowed to bf16. -/
theorem V1_v24 (c : Dev nD) :
    StableHlo.after (hostOps0 (F := F)) (fun b => m (c, b)) (Proc.devRef .tc main_v24)
      = truncf .bf16 (preK (m ((c : Thread nD τ).loc main_arg0)) (m ((c : Thread nD τ).loc main_arg1))
          (m ((c : Thread nD τ).loc main_arg2)) (m ((c : Thread nD τ).loc main_arg3))
          (m ((c : Thread nD τ).loc main_arg10)) (m ((c : Thread nD τ).loc main_arg11))) bitsLt_bf16_f32 := by
  show StableHlo.after hostOps0 _ (Proc.devRef .tc main_v24) = _
  after_results_simp
  rfl

/-- The first weight matrix narrowed to bf16. -/
theorem V1_v25 (c : Dev nD) :
    StableHlo.after (hostOps0 (F := F)) (fun b => m (c, b)) (Proc.devRef .tc main_v25)
      = truncf .bf16 ((m ((c : Thread nD τ).loc main_arg4)) : FVec F S8192x8192 .f32) bitsLt_bf16_f32 := by
  show StableHlo.after hostOps0 _ (Proc.devRef .tc main_v25) = _
  after_results_simp

/-- The second weight matrix narrowed to bf16. -/
theorem V1_v26 (c : Dev nD) :
    StableHlo.after (hostOps0 (F := F)) (fun b => m (c, b)) (Proc.devRef .tc main_v26)
      = truncf .bf16 ((m ((c : Thread nD τ).loc main_arg6)) : FVec F S8192x8192 .f32) bitsLt_bf16_f32 := by
  show StableHlo.after hostOps0 _ (Proc.devRef .tc main_v26) = _
  after_results_simp

/-- The third weight matrix narrowed to bf16. -/
theorem V1_v27 (c : Dev nD) :
    StableHlo.after (hostOps0 (F := F)) (fun b => m (c, b)) (Proc.devRef .tc main_v27)
      = truncf .bf16 ((m ((c : Thread nD τ).loc main_arg8)) : FVec F S8192x8192 .f32) bitsLt_bf16_f32 := by
  show StableHlo.after hostOps0 _ (Proc.devRef .tc main_v27) = _
  after_results_simp

/-- The first layer's bias array viewed as a one-row array. -/
theorem V1_v28 (c : Dev nD) :
    StableHlo.after (hostOps0 (F := F)) (fun b => m (c, b)) (Proc.devRef .tc main_v28)
      = (shapeCast S1x8192 ((m ((c : Thread nD τ).loc main_arg5)) : FVec F S8192 .f32) shapeCasts_S8192_S1x8192 : FVec F S1x8192 .f32) := by
  show StableHlo.after hostOps0 _ (Proc.devRef .tc main_v28) = _
  after_results_simp
  rfl

/-- The second layer's bias array viewed as a one-row array. -/
theorem V1_v29 (c : Dev nD) :
    StableHlo.after (hostOps0 (F := F)) (fun b => m (c, b)) (Proc.devRef .tc main_v29)
      = (shapeCast S1x8192 ((m ((c : Thread nD τ).loc main_arg7)) : FVec F S8192 .f32) shapeCasts_S8192_S1x8192 : FVec F S1x8192 .f32) := by
  show StableHlo.after hostOps0 _ (Proc.devRef .tc main_v29) = _
  after_results_simp
  rfl

/-- The third layer's bias array viewed as a one-row array. -/
theorem V1_v30 (c : Dev nD) :
    StableHlo.after (hostOps0 (F := F)) (fun b => m (c, b)) (Proc.devRef .tc main_v30)
      = (shapeCast S1x8192 ((m ((c : Thread nD τ).loc main_arg9)) : FVec F S8192 .f32) shapeCasts_S8192_S1x8192 : FVec F S1x8192 .f32) := by
  show StableHlo.after hostOps0 _ (Proc.devRef .tc main_v30) = _
  after_results_simp
  rfl

/-- The closing bias array viewed as a one-row array. -/
theorem V1_v31 (c : Dev nD) :
    StableHlo.after (hostOps0 (F := F)) (fun b => m (c, b)) (Proc.devRef .tc main_v31)
      = (shapeCast S1x8192 ((m ((c : Thread nD τ).loc main_arg2)) : FVec F S8192 .f32) shapeCasts_S8192_S1x8192 : FVec F S1x8192 .f32) := by
  show StableHlo.after hostOps0 _ (Proc.devRef .tc main_v31) = _
  after_results_simp
  rfl

/-- The flag array viewed as a one-row array. -/
theorem V1_v32 (c : Dev nD) :
    StableHlo.after (hostOps0 (F := F)) (fun b => m (c, b)) (Proc.devRef .tc main_v32)
      = (shapeCast S1x8192 ((m ((c : Thread nD τ).loc main_arg3)) : FVec F S8192 .f32) shapeCasts_S8192_S1x8192 : FVec F S1x8192 .f32) := by
  show StableHlo.after hostOps0 _ (Proc.devRef .tc main_v32) = _
  after_results_simp
  rfl

end Generic

/-! ## The same nine read at an index, over the extended reals (narrowing is the identity there) -/

section AtIdeal

variable (m : (ℓ : Loc nD τ sig) → Buf (Elt Ideal) ℓ)

theorem V1_v24_apply (c : Dev nD) (p : Fin 256) (n : Fin 8192) :
    (StableHlo.after (hostOps0 (F := Ideal)) (fun b => m (c, b)) (Proc.devRef .tc main_v24) : FVec Ideal S256x8192 .bf16) (ValueIdx.ix2 p n)
      = (preK (F := Ideal) (m ((c : Thread nD τ).loc main_arg0)) (m ((c : Thread nD τ).loc main_arg1))
          (m ((c : Thread nD τ).loc main_arg2)) (m ((c : Thread nD τ).loc main_arg3))
          (m ((c : Thread nD τ).loc main_arg10)) (m ((c : Thread nD τ).loc main_arg11))) (ValueIdx.ix2 p n) := by
  rw [V1_v24]; rfl

theorem V1_v25_apply (c : Dev nD) (n k : Fin 8192) :
    (StableHlo.after (hostOps0 (F := Ideal)) (fun b => m (c, b)) (Proc.devRef .tc main_v25) : FVec Ideal S8192x8192 .bf16) (ValueIdx.ix2 n k)
      = ((m ((c : Thread nD τ).loc main_arg4)) : FVec Ideal S8192x8192 .f32) (ValueIdx.ix2 n k) := by
  rw [V1_v25]; rfl

theorem V1_v26_apply (c : Dev nD) (n k : Fin 8192) :
    (StableHlo.after (hostOps0 (F := Ideal)) (fun b => m (c, b)) (Proc.devRef .tc main_v26) : FVec Ideal S8192x8192 .bf16) (ValueIdx.ix2 n k)
      = ((m ((c : Thread nD τ).loc main_arg6)) : FVec Ideal S8192x8192 .f32) (ValueIdx.ix2 n k) := by
  rw [V1_v26]; rfl

theorem V1_v27_apply (c : Dev nD) (n k : Fin 8192) :
    (StableHlo.after (hostOps0 (F := Ideal)) (fun b => m (c, b)) (Proc.devRef .tc main_v27) : FVec Ideal S8192x8192 .bf16) (ValueIdx.ix2 n k)
      = ((m ((c : Thread nD τ).loc main_arg8)) : FVec Ideal S8192x8192 .f32) (ValueIdx.ix2 n k) := by
  rw [V1_v27]; rfl

theorem V1_v28_apply (c : Dev nD) (n : Fin 8192) :
    (StableHlo.after (hostOps0 (F := Ideal)) (fun b => m (c, b)) (Proc.devRef .tc main_v28) : FVec Ideal S1x8192 .f32) (ValueIdx.ix2 (0 : Fin 1) n)
      = ((m ((c : Thread nD τ).loc main_arg5)) : FVec Ideal S8192 .f32) (ValueIdx.ix1 n) := by
  rw [V1_v28]; exact rowView_apply _ n

theorem V1_v29_apply (c : Dev nD) (n : Fin 8192) :
    (StableHlo.after (hostOps0 (F := Ideal)) (fun b => m (c, b)) (Proc.devRef .tc main_v29) : FVec Ideal S1x8192 .f32) (ValueIdx.ix2 (0 : Fin 1) n)
      = ((m ((c : Thread nD τ).loc main_arg7)) : FVec Ideal S8192 .f32) (ValueIdx.ix1 n) := by
  rw [V1_v29]; exact rowView_apply _ n

theorem V1_v30_apply (c : Dev nD) (n : Fin 8192) :
    (StableHlo.after (hostOps0 (F := Ideal)) (fun b => m (c, b)) (Proc.devRef .tc main_v30) : FVec Ideal S1x8192 .f32) (ValueIdx.ix2 (0 : Fin 1) n)
      = ((m ((c : Thread nD τ).loc main_arg9)) : FVec Ideal S8192 .f32) (ValueIdx.ix1 n) := by
  rw [V1_v30]; exact rowView_apply _ n

theorem V1_v31_apply (c : Dev nD) (n : Fin 8192) :
    (StableHlo.after (hostOps0 (F := Ideal)) (fun b => m (c, b)) (Proc.devRef .tc main_v31) : FVec Ideal S1x8192 .f32) (ValueIdx.ix2 (0 : Fin 1) n)
      = ((m ((c : Thread nD τ).loc main_arg2)) : FVec Ideal S8192 .f32) (ValueIdx.ix1 n) := by
  rw [V1_v31]; exact rowView_apply _ n

theorem V1_v32_apply (c : Dev nD) (n : Fin 8192) :
    (StableHlo.after (hostOps0 (F := Ideal)) (fun b => m (c, b)) (Proc.devRef .tc main_v32) : FVec Ideal S1x8192 .f32) (ValueIdx.ix2 (0 : Fin 1) n)
      = ((m ((c : Thread nD τ).loc main_arg3)) : FVec Ideal S8192 .f32) (ValueIdx.ix1 n) := by
  rw [V1_v32]; exact rowView_apply _ n

end AtIdeal

end Cert.KernelIdeal.Hand

end
-- ==== Proof.RefTerm.lean ====
/-
  The reference program's result, named as a term of its argument arrays, in layers:
  the sparse pre-layer (index wrap-around, gather, multiply, scatter-add into zeros, scaling by the
  flag row, adding the bias row), the affine layer x ↦ x · Wᵀ + b, the scaled exponential linear
  unit, and the closing row scaling and row bias.
-/
import proofs.«110502_j4913442587016_1_alg».proof.ReferenceIdeal

noncomputable section

namespace Cert.ReferenceIdeal.Hand

open Idealize.ShloMosaic Cert.ReferenceIdeal Cert.ReferenceIdeal.Facts₀

variable {F : FTy → Type} [FloatOps F] [Facts]

/-- An index array with 8192 added to its negative entries, as a one-column array. -/
def wrapIdx (i : IVec S131072 32) : IVec S131072x1 32 :=
  broadcastInDim S131072x1 ![0] bcast_S131072_S131072x1_0
    (select (cmpi .slt i (broadcastInDim S131072 ![] bcast_S_S131072 (constantI S_ 32 0#32)))
      (addi i (broadcastInDim S131072 ![] bcast_S_S131072 (constantI S_ 32 8192#32))) i)

/-- A row of 8192 entries repeated down the 256 rows. -/
def bcRow (b : FVec F S8192 .f32) : FVec F S256x8192 .f32 :=
  broadcastInDim S256x8192 ![0, 1] bcast_S1x8192_S256x8192_0_1 (broadcastInDim S1x8192 ![1] bcast_S8192_S1x8192_1 b)

/-- The columns of x picked by the wrapped column indices, each scaled by its value. -/
def gathered (x : FVec F S256x8192 .f32) (vals : FVec F S131072 .f32) (cols : IVec S131072 32) : FVec F S256x131072 .f32 :=
  mulf (Host.gather gather_S256x8192_S131072x1_S256x131072_0_1_n_n_1_1_2561 x (wrapIdx cols))
    (broadcastInDim S256x131072 ![0, 1] bcast_S1x131072_S256x131072_0_1 (broadcastInDim S1x131072 ![1] bcast_S131072_S1x131072_1 vals))

/-- The scaled columns added into an all-zero array at the wrapped row indices. -/
def scattered (x : FVec F S256x8192 .f32) (vals : FVec F S131072 .f32) (rows cols : IVec S131072 32) : FVec F S256x8192 .f32 :=
  Host.scatterAdd scatter_S256x8192_S131072x1_S256x131072_0_1_1_1
    (broadcastInDim S256x8192 ![] bcast_S_S256x8192 (constant S_ .f32 0x00000000#32))
    (wrapIdx rows) (gathered x vals cols)

/-- The value of %23: bias row plus flag row times the scatter-added array. -/
def pre (x : FVec F S256x8192 .f32) (vals : FVec F S131072 .f32) (bc flag : FVec F S8192 .f32) (rows cols : IVec S131072 32) :
    FVec F S256x8192 .f32 :=
  addf (bcRow bc) (mulf (scattered x vals rows cols) (bcRow flag))

/-- The affine layer: X · Wᵀ plus the row b repeated. -/
def lin (X : FVec F S256x8192 .f32) (W : FVec F S8192x8192 .f32) (b : FVec F S8192 .f32) : FVec F S256x8192 .f32 :=
  addf (Host.dotGeneral dot_S256x8192_S8192x8192_S256x8192_1_0_0_1_n_n none X (transpose S8192x8192 [1, 0] W transposes_S8192x8192_S8192x8192_1_0))
    (broadcastInDim S256x8192 ![0, 1] bcast_S1x8192_S256x8192_0_1 (broadcastInDim S1x8192 ![1] bcast_S8192_S1x8192_1 b))

/-- The all-zero array, the threshold of the comparison v > 0. -/
def zeros : FVec F S256x8192 .f32 :=
  broadcastInDim S256x8192 ![] bcast_S_S256x8192 (constant S_ .f32 0x00000000#32)

/-- The scaled exponential linear unit: λ · (v if v > 0 else α · expm1 (0 if v > 0 else v)). -/
def seluT (v : FVec F S256x8192 .f32) : FVec F S256x8192 .f32 :=
  mulf (broadcastInDim S256x8192 ![] bcast_S_S256x8192 (constant S_ .f32 0x3F867D5F#32))
    (select (cmpf .ogt v zeros) v
      (mulf (broadcastInDim S256x8192 ![] bcast_S_S256x8192 (id (constant S_ .f32 0x3FD62D7D#32)))
        (Host.expm1 (select (cmpf .ogt v zeros)
          (broadcastInDim S256x8192 ![] bcast_S_S256x8192 (id (constant S_ .f32 0x00000000#32))) v))))

/-- The closing operations: bias row plus h times the flag row. -/
def fin (h : FVec F S256x8192 .f32) (bc flag : FVec F S8192 .f32) : FVec F S256x8192 .f32 :=
  addf (bcRow bc) (mulf h (bcRow flag))

/-- The reference's result as a term of its twelve argument arrays. -/
def refOut (x : FVec F S256x8192 .f32) (vals : FVec F S131072 .f32) (bc flag : FVec F S8192 .f32)
    (W1 : FVec F S8192x8192 .f32) (b1 : FVec F S8192 .f32) (W2 : FVec F S8192x8192 .f32) (b2 : FVec F S8192 .f32)
    (W3 : FVec F S8192x8192 .f32) (b3 : FVec F S8192 .f32) (rows cols : IVec S131072 32) : FVec F S256x8192 .f32 :=
  fin (lin (seluT (lin (seluT (lin (pre x vals bc flag rows cols) W1 b1)) W2 b2)) W3 b3) bc flag

end Cert.ReferenceIdeal.Hand

end
-- ==== Proof.PreEq.lean ====
/-
  The kernel program's pre-layer term and the reference program's pre-layer term are the same
  function of the argument arrays: both programs apply the same operations in the same order, up to
  the order in which the bias row and the flag row are repeated down the rows.
-/
import proofs.«110502_j4913442587016_1_alg».proof.Proof.KIHost
import proofs.«110502_j4913442587016_1_alg».proof.Proof.RefTerm

noncomputable section

namespace Cert.KernelIdeal.Hand

open Idealize.ShloMosaic

variable {F : FTy → Type} [FloatOps F] [Cert.ReferenceIdeal.Facts]

/-- The two programs' gather records have the same fields. -/
theorem gatherDims_eq :
    Cert.KernelIdeal.gather_S256x8192_S131072x1_S256x131072_0_1_n_n_1_1_2561
      = Cert.ReferenceIdeal.gather_S256x8192_S131072x1_S256x131072_0_1_n_n_1_1_2561 := rfl

/-- The two programs' scatter records have the same fields. -/
theorem scatterDims_eq :
    Cert.KernelIdeal.scatter_S256x8192_S131072x1_S256x131072_0_1_1_1
      = Cert.ReferenceIdeal.scatter_S256x8192_S131072x1_S256x131072_0_1_1_1 := rfl

set_option maxHeartbeats 50000 in
theorem wrapIdxK_eq (i : IVec S131072 32) : wrapIdxK i = Cert.ReferenceIdeal.Hand.wrapIdx i := rfl

set_option maxHeartbeats 50000 in
theorem bcRowK_eq (b : FVec F S8192 .f32) : bcRowK b = Cert.ReferenceIdeal.Hand.bcRow b := rfl

set_option maxHeartbeats 50000 in
theorem gatheredK_eq (x : FVec F S256x8192 .f32) (vals : FVec F S131072 .f32) (cols : IVec S131072 32) :
    gatheredK x vals cols = Cert.ReferenceIdeal.Hand.gathered x vals cols := rfl

set_option maxHeartbeats 50000 in
theorem scatteredK_eq (x : FVec F S256x8192 .f32) (vals : FVec F S131072 .f32) (rows cols : IVec S131072 32) :
    scatteredK x vals rows cols = Cert.ReferenceIdeal.Hand.scattered x vals rows cols := rfl

set_option maxHeartbeats 50000 in
/-- The kernel program's pre-layer value is the reference program's. -/
theorem preK_eq_pre (x : FVec F S256x8192 .f32) (vals : FVec F S131072 .f32) (bc flag : FVec F S8192 .f32)
    (rows cols : IVec S131072 32) :
    preK x vals bc flag rows cols = Cert.ReferenceIdeal.Hand.pre x vals bc flag rows cols := rfl

end Cert.KernelIdeal.Hand

end
-- ==== Proof.LibDense.lean ====
/-
  A plain matrix product read at an entry.

  For dimension numbers that contract the left operand's columns against the right operand's rows —
  rows × inner times inner × columns, no batch axis — the contraction index is its one coordinate, and
  the sum over it of the operands' products at entry `(p, c)` is `∑ q, lhs (p, q) · rhs (q, c)`.  Read at
  the exact extended reals, a matrix-unit product into a zero accumulator and a host `dot_general` are
  both that sum, whatever their precision or schedule, and whatever the number of rows.
-/
import Idealize.ShloMosaic.Lib.ValueIdx
import Idealize.ShloMosaic.PureOps.Ideal.Laws

noncomputable section

open scoped BigOperators

namespace Cert.LibDense

open Idealize.ShloMosaic Idealize.ShloMosaic.ValueIdx

variable {n k d : ℕ}

/-- The sum over a one-axis contraction index, re-indexed by the axis's coordinate, for a product whose
    operand indices at output `(p, c)` and contraction coordinate `q` are `(p, q)` and `(q, c)`. -/
theorem sum_contr_eq {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (lhs : FVec Ideal ⟨2, ![n, k]⟩ φ₁) (rhs : FVec Ideal ⟨2, ![k, d]⟩ φ₂) (p : Fin n) (c : Fin d) :
    (∑ q : D.contr.Idx, lhs (D.lhsIdx (ix2 p c) q) * rhs (D.rhsIdx (ix2 p c) q) : EReal)
      = ∑ q : Fin k, lhs (ix2 p q) * rhs (ix2 q c) := by
  rw [← Equiv.sum_comp (contrEquiv1 D k hr hs).symm]
  refine Finset.sum_congr rfl fun q _ => ?_
  have hk := contrEquiv1_symm_val D k hr hs q
  have el : D.lhsIdx (ix2 p c) ((contrEquiv1 D k hr hs).symm q) = ix2 p q := funext fun a => Fin.ext (by
    match a with
    | ⟨0, _⟩ => exact hl0 _ _
    | ⟨1, _⟩ => exact (hl1 _ _).trans hk)
  have er : D.rhsIdx (ix2 p c) ((contrEquiv1 D k hr hs).symm q) = ix2 q c := funext fun a => Fin.ext (by
    match a with
    | ⟨0, _⟩ => exact (hr0 _ _).trans hk
    | ⟨1, _⟩ => exact hr1 _ _)
  rw [el, er]

/-- A matrix-unit product into the zero accumulator, at entry `(p, c)`. -/
theorem matmul_zero_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  rw [Ideal.matmul_constant_zero_apply]
  exact sum_contr_eq D hr hs hl0 hl1 hr0 hr1 lhs rhs p c

/-- A host `dot_general`, at entry `(p, c)`. -/
theorem dotGeneral_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  rw [Ideal.dotGeneral_apply]
  exact sum_contr_eq D hr hs hl0 hl1 hr0 hr1 lhs rhs p c

end Cert.LibDense

end
-- ==== Proof.LibLayout.lean ====
/-
  Column and row forms of the layout operations, read at an index.

  A length-`a` array viewed as a column `[a, 1]` (by a reshape or by a broadcast along axis 0) holds,
  at `(i, 0)`, the array's entry `i`; viewed as a row `[1, a]` it holds entry `i` at `(0, i)`.  A
  column broadcast over `b` columns holds at `(p, c)` the column's entry `p`; a row broadcast over
  `a` rows holds at `(p, c)` the row's entry `c`.  A scalar broadcast holds the scalar everywhere.
  So the reshape and the broadcast that make a column (or a row) of an array are the same function.
-/
import Idealize.ShloMosaic.Lib.Pipeline.Value
import Idealize.ShloMosaic.Lib.ValueIdx
import Idealize.ShloMosaic.Lib.ValueLayout

noncomputable section

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a]` array broadcast along axis 0 into the column `[a, 1]` reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2))
    (i : Fin a) (u : Fin 1) : broadcastInDim ⟨2, ![a, 1]⟩ (![0] : Fin 1 → Fin 2) h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- The column of an array by a reshape is its column by a broadcast along axis 0. -/
theorem shapeCast_eq_broadcastInDim_col {a : ℕ} (x : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ (![0] : Fin 1 → Fin 2)) :
    shapeCast ⟨2, ![a, 1]⟩ x h = broadcastInDim ⟨2, ![a, 1]⟩ (![0] : Fin 1 → Fin 2) h' x := by
  funext j
  obtain ⟨p, q, rfl⟩ : ∃ (p : Fin a) (q : Fin 1), j = ix2 p q := ⟨j 0, j 1, eq_ix2 j⟩
  rw [shapeCast_a_a1_apply, broadcastInDim_a_a1_apply]

/-- An `[a]` array broadcast along axis 1 into the row `[1, a]` reads, at `(u, i)`, the operand at `i`. -/
theorem broadcastInDim_a_1a_apply {a : ℕ} (x : (⟨1, ![a]⟩ : Shape).Idx → α)
    (h : (⟨1, ![a]⟩ : Shape).BroadcastsInDim ⟨2, ![1, a]⟩ (![1] : Fin 1 → Fin 2))
    (u : Fin 1) (i : Fin a) : broadcastInDim ⟨2, ![1, a]⟩ (![1] : Fin 1 → Fin 2) h x (ix2 u i) = x (ix1 i) := by
  refine broadcastInDim_apply _ h x (ix2 u i) (ix1 i) fun ax => ?_
  match ax with
  | ⟨0, _⟩ =>
    show i.val = if a = 1 then 0 else i.val
    split
    · have := i.isLt; omega
    · rfl

/-- The row of an array by a reshape is its row by a broadcast along axis 1. -/
theorem shapeCast_eq_broadcastInDim_row {a : ℕ} (x : (⟨1, ![a]⟩ : Shape).Idx → α)
    (h : (⟨1, ![a]⟩ : Shape).ShapeCasts ⟨2, ![1, a]⟩)
    (h' : (⟨1, ![a]⟩ : Shape).BroadcastsInDim ⟨2, ![1, a]⟩ (![1] : Fin 1 → Fin 2)) :
    shapeCast ⟨2, ![1, a]⟩ x h = broadcastInDim ⟨2, ![1, a]⟩ (![1] : Fin 1 → Fin 2) h' x := by
  funext j
  obtain ⟨p, q, rfl⟩ : ∃ (p : Fin 1) (q : Fin a), j = ix2 p q := ⟨j 0, j 1, eq_ix2 j⟩
  rw [shapeCast_a_1a_apply, broadcastInDim_a_1a_apply]

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (in dimensions 0, 1) to `[a, b]` reads, at `(p, c)`, the column's entry `p`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin 2))
    (p : Fin a) (c : Fin b) : broadcastInDim ⟨2, ![a, b]⟩ (![0, 1] : Fin 2 → Fin 2) h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (in dimensions 0, 1) to `[a, b]` reads, at `(p, c)`, the row's entry `c`. -/
theorem broadcastInDim_1b_ab_apply {a b : ℕ} (v : (⟨2, ![1, b]⟩ : Shape).Idx → α)
    (h : (⟨2, ![1, b]⟩ : Shape).BroadcastsInDim ⟨2, ![a, b]⟩ (![0, 1] : Fin 2 → Fin 2))
    (p : Fin a) (c : Fin b) : broadcastInDim ⟨2, ![a, b]⟩ (![0, 1] : Fin 2 → Fin 2) h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

end Cert.LibLayout

end
-- ==== Proof.LibFourBlocks.lean ====
/-
  A sum over `k + k + k + k` terms as four sums over `k` terms, and a four-piece concatenation along the
  columns read at an entry.

  In any commutative additive monoid a finite sum may be cut into consecutive runs: the sum over the
  first `4k` naturals is the sum of the four sums over the runs `[0, k)`, `[k, 2k)`, `[2k, 3k)`, `[3k, 4k)`.
  A matrix with `4k` columns that is four `n × k` matrices side by side holds, at column `k·b + j` of its
  row `e`, entry `(e, j)` of piece `b`.  Together: the contraction of such a matrix with a `4k × d` matrix `W`
  is the sum of the four contractions of the pieces with the four `k × d` row blocks of `W`.
-/
import Idealize.ShloMosaic.Lib.ValueIdx
import Idealize.ShloMosaic.Lib.Pipeline.Value

noncomputable section

open scoped BigOperators

namespace Cert.LibFourBlocks

open Idealize.ShloMosaic Idealize.ShloMosaic.ValueIdx

/-- A sum over `m = k + k + k + k` consecutive terms is the sum of its four runs of `k` terms. -/
theorem sum_four_runs {M : Type*} [AddCommMonoid M] (k m : ℕ) (hm : m = k + k + k + k) (f : Fin m → M) :
    ∑ q, f q
      = ((∑ j : Fin k, f ⟨j.val, by have := j.isLt; omega⟩
          + ∑ j : Fin k, f ⟨k + j.val, by have := j.isLt; omega⟩)
          + ∑ j : Fin k, f ⟨k + k + j.val, by have := j.isLt; omega⟩)
          + ∑ j : Fin k, f ⟨k + k + k + j.val, by have := j.isLt; omega⟩ := by
  subst hm
  rw [Fin.sum_univ_add, Fin.sum_univ_add, Fin.sum_univ_add]
  rfl

variable {α : Type} {n k m : ℕ}

/-- The four pieces side by side. -/
abbrev pieces (A B C D : (⟨2, ![n, k]⟩ : Shape).Idx → α) : List ((s : Shape) × (s.Idx → α)) :=
  [⟨⟨2, ![n, k]⟩, A⟩, ⟨⟨2, ![n, k]⟩, B⟩, ⟨⟨2, ![n, k]⟩, C⟩, ⟨⟨2, ![n, k]⟩, D⟩]

/-- Column `j` of the joined matrix is column `j` of the first piece. -/
theorem concat4_apply_0 (A B C D : (⟨2, ![n, k]⟩ : Shape).Idx → α)
    (h : Shape.Concatenates ((pieces A B C D).map (·.1)) ⟨2, ![n, m]⟩ 1) (e : Fin n) (j : Fin k) (q : Fin m)
    (hq : q.val = j.val) :
    concatenate ⟨2, ![n, m]⟩ 1 (pieces A B C D) h (ix2 e q) = A (ix2 e j) :=
  concatenate_apply_piece 1 _ h (ix2 e q) 0 (show 0 < 4 by decide) _ A rfl rfl 0 rfl (ix2 e j)
    (fun b hb => by
      match b with
      | ⟨0, _⟩ => rfl
      | ⟨1, _⟩ => exact absurd rfl hb)
    (by show 0 + j.val = q.val; omega)

/-- Column `k + j` of the joined matrix is column `j` of the second piece. -/
theorem concat4_apply_1 (A B C D : (⟨2, ![n, k]⟩ : Shape).Idx → α)
    (h : Shape.Concatenates ((pieces A B C D).map (·.1)) ⟨2, ![n, m]⟩ 1) (e : Fin n) (j : Fin k) (q : Fin m)
    (hq : q.val = k + j.val) :
    concatenate ⟨2, ![n, m]⟩ 1 (pieces A B C D) h (ix2 e q) = B (ix2 e j) :=
  concatenate_apply_piece 1 _ h (ix2 e q) 1 (show 1 < 4 by decide) _ B rfl rfl k (by simp) (ix2 e j)
    (fun b hb => by
      match b with
      | ⟨0, _⟩ => rfl
      | ⟨1, _⟩ => exact absurd rfl hb)
    (by show k + j.val = q.val; omega)

/-- Column `2k + j` of the joined matrix is column `j` of the third piece. -/
theorem concat4_apply_2 (A B C D : (⟨2, ![n, k]⟩ : Shape).Idx → α)
    (h : Shape.Concatenates ((pieces A B C D).map (·.1)) ⟨2, ![n, m]⟩ 1) (e : Fin n) (j : Fin k) (q : Fin m)
    (hq : q.val = k + k + j.val) :
    concatenate ⟨2, ![n, m]⟩ 1 (pieces A B C D) h (ix2 e q) = C (ix2 e j) :=
  concatenate_apply_piece 1 _ h (ix2 e q) 2 (show 2 < 4 by decide) _ C rfl rfl (k + k) (by simp) (ix2 e j)
    (fun b hb => by
      match b with
      | ⟨0, _⟩ => rfl
      | ⟨1, _⟩ => exact absurd rfl hb)
    (by show k + k + j.val = q.val; omega)

/-- Column `3k + j` of the joined matrix is column `j` of the fourth piece. -/
theorem concat4_apply_3 (A B C D : (⟨2, ![n, k]⟩ : Shape).Idx → α)
    (h : Shape.Concatenates ((pieces A B C D).map (·.1)) ⟨2, ![n, m]⟩ 1) (e : Fin n) (j : Fin k) (q : Fin m)
    (hq : q.val = k + k + k + j.val) :
    concatenate ⟨2, ![n, m]⟩ 1 (pieces A B C D) h (ix2 e q) = D (ix2 e j) :=
  concatenate_apply_piece 1 _ h (ix2 e q) 3 (show 3 < 4 by decide) _ D rfl rfl (k + k + k) (by simp [Nat.add_assoc]) (ix2 e j)
    (fun b hb => by
      match b with
      | ⟨0, _⟩ => rfl
      | ⟨1, _⟩ => exact absurd rfl hb)
    (by show k + k + k + j.val = q.val; omega)

/-- Row `e` of the joined matrix contracted with column `c` of a `4k × d` matrix `W` is the sum of the four pieces'
    rows contracted with the four `k × d` row blocks of `W`. -/
theorem concat4_contract {d : ℕ} [AddCommMonoid α] [Mul α] (A B C D : (⟨2, ![n, k]⟩ : Shape).Idx → α)
    (h : Shape.Concatenates ((pieces A B C D).map (·.1)) ⟨2, ![n, m]⟩ 1) (hm : m = k + k + k + k)
    (W : (⟨2, ![m, d]⟩ : Shape).Idx → α) (e : Fin n) (c : Fin d) :
    ∑ q : Fin m, concatenate ⟨2, ![n, m]⟩ 1 (pieces A B C D) h (ix2 e q) * W (ix2 q c)
      = ((∑ j : Fin k, A (ix2 e j) * W (ix2 (⟨j.val, by have := j.isLt; omega⟩ : Fin m) c)
          + ∑ j : Fin k, B (ix2 e j) * W (ix2 (⟨k + j.val, by have := j.isLt; omega⟩ : Fin m) c))
          + ∑ j : Fin k, C (ix2 e j) * W (ix2 (⟨k + k + j.val, by have := j.isLt; omega⟩ : Fin m) c))
          + ∑ j : Fin k, D (ix2 e j) * W (ix2 (⟨k + k + k + j.val, by have := j.isLt; omega⟩ : Fin m) c) := by
  rw [sum_four_runs k m hm]
  congr 1
  · congr 1
    · congr 1
      · exact Finset.sum_congr rfl fun j _ => by rw [concat4_apply_0 A B C D h e j _ rfl]
      · exact Finset.sum_congr rfl fun j _ => by rw [concat4_apply_1 A B C D h e j _ rfl]
    · exact Finset.sum_congr rfl fun j _ => by rw [concat4_apply_2 A B C D h e j _ rfl]
  · exact Finset.sum_congr rfl fun j _ => by rw [concat4_apply_3 A B C D h e j _ rfl]

end Cert.LibFourBlocks

end
-- ==== Proof.RefIdx.lean ====
/-
  The reference's layers read at an entry, and the long contraction regrouped.

  The affine layer x ↦ x · Wᵀ + b holds, at entry (p, n), the sum over k < 8192 of X (p, k) · W (n, k)
  plus b n: the product contracts the columns of X against the rows of the transposed W, which are the
  columns of W, and the bias row is repeated down the rows.  The scaled exponential linear unit acts
  entry by entry as the function of one extended real  scale · (v if 0 < v else alpha · (exp v − 1)).
  The closing operations hold, at (p, n), bc n + h (p, n) · flag n.  In a commutative additive monoid the
  sum of 8192 terms is the accumulation, from zero, of its four consecutive runs of 2048 terms.
-/
import proofs.«110502_j4913442587016_1_alg».proof.Proof.RefTerm
import proofs.«110502_j4913442587016_1_alg».proof.Proof.Spec
import proofs.«110502_j4913442587016_1_alg».proof.Proof.LibDense
import proofs.«110502_j4913442587016_1_alg».proof.Proof.LibLayout
import proofs.«110502_j4913442587016_1_alg».proof.Proof.LibFourBlocks
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.ReferenceIdeal.Hand

open Idealize.ShloMosaic Idealize.ShloMosaic.ValueIdx Cert.ReferenceIdeal Cert.ReferenceIdeal.Facts₀

set_option maxHeartbeats 50000 in
/-- A sum of 8192 terms taken as an accumulation from zero of its four consecutive runs of 2048 terms. -/
theorem sum_four_blocks {M : Type*} [AddCommMonoid M] (f : Fin 8192 → M) :
    ∑ k : Fin 8192, f k
      = (((0 + ∑ j : Fin 2048, f ⟨j.val, by have := j.isLt; omega⟩)
          + ∑ j : Fin 2048, f ⟨2048 + j.val, by have := j.isLt; omega⟩)
          + ∑ j : Fin 2048, f ⟨4096 + j.val, by have := j.isLt; omega⟩)
          + ∑ j : Fin 2048, f ⟨6144 + j.val, by have := j.isLt; omega⟩ := by
  rw [Cert.LibFourBlocks.sum_four_runs 2048 8192 rfl f, zero_add]

variable [Facts]

/-- The dimension numbers of the three products: rows × inner by inner × columns. -/
abbrev D : DotDims S256x8192 S8192x8192 S256x8192 := dot_S256x8192_S8192x8192_S256x8192_1_0_0_1_n_n

set_option maxHeartbeats 50000 in
theorem D_contr_rank : D.contr.rank = 1 := by
  simp [DotDims.contr, D, dot_S256x8192_S8192x8192_S256x8192_1_0_0_1_n_n]

set_option maxHeartbeats 50000 in
theorem D_lhs0 (j : S256x8192.Idx) (k : D.contr.Idx) : (D.lhsIdx j k 0 : ℕ) = j 0 := by
  simp [DotDims.lhsIdx, D, dot_S256x8192_S8192x8192_S256x8192_1_0_0_1_n_n]; rfl

set_option maxHeartbeats 50000 in
theorem D_lhs1 (j : S256x8192.Idx) (k : D.contr.Idx) : (D.lhsIdx j k 1 : ℕ) = k ⟨0, by rw [D_contr_rank]; exact Nat.one_pos⟩ := by
  simp [DotDims.lhsIdx, D, dot_S256x8192_S8192x8192_S256x8192_1_0_0_1_n_n]; rfl

set_option maxHeartbeats 50000 in
theorem D_rhs0 (j : S256x8192.Idx) (k : D.contr.Idx) : (D.rhsIdx j k 0 : ℕ) = k ⟨0, by rw [D_contr_rank]; exact Nat.one_pos⟩ := by
  simp [DotDims.rhsIdx, D, dot_S256x8192_S8192x8192_S256x8192_1_0_0_1_n_n]; rfl

set_option maxHeartbeats 50000 in
theorem D_rhs1 (j : S256x8192.Idx) (k : D.contr.Idx) : (D.rhsIdx j k 1 : ℕ) = j 1 := by
  simp [DotDims.rhsIdx, D, dot_S256x8192_S8192x8192_S256x8192_1_0_0_1_n_n]; rfl

set_option maxHeartbeats 50000 in
theorem D_contr_size : D.contr.size ⟨0, by rw [D_contr_rank]; exact Nat.one_pos⟩ = 8192 := by
  simp [DotDims.contr, D, dot_S256x8192_S8192x8192_S256x8192_1_0_0_1_n_n]

set_option maxHeartbeats 50000 in
/-- The affine layer at entry (p, n): the row p of X against the row n of W, plus b at n. -/
theorem lin_apply (X : FVec Ideal S256x8192 .f32) (W : FVec Ideal S8192x8192 .f32) (b : FVec Ideal S8192 .f32)
    (p : Fin 256) (n : Fin 8192) :
    lin (F := Ideal) X W b (ix2 p n) = (∑ k : Fin 8192, X (ix2 p k) * W (ix2 n k)) + b (ix1 n) := by
  unfold lin
  rw [addf_apply]
  simp only [Host.dotGeneral]
  rw [Cert.LibDense.dotGeneral_apply D D_contr_rank D_contr_size D_lhs0 D_lhs1 D_rhs0 D_rhs1]
  rw [Cert.LibLayout.broadcastInDim_1b_ab_apply, Cert.LibLayout.broadcastInDim_a_1a_apply]
  congr 1
  refine Finset.sum_congr rfl fun k _ => ?_
  rw [transpose_ix2_apply]

/-- A scalar repeated over the whole array reads the scalar everywhere. -/
theorem bcast_scalar_apply {α : Type} (x : S_.Idx → α) (h : S_.BroadcastsInDim S256x8192 (![] : Fin 0 → Fin S256x8192.rank))
    (j : S256x8192.Idx) : broadcastInDim S256x8192 ![] h x j = x ix0 :=
  broadcastInDim_apply _ h x j ix0 (fun a => a.elim0)

set_option maxHeartbeats 50000 in
/-- The unit's operations with the three constants any words: scale · (v if zero < v else alpha · (exp v − 1)). -/
theorem selu_words (ws wa w0 w0' : BitVec 32) (h : S_.BroadcastsInDim S256x8192 (![] : Fin 0 → Fin S256x8192.rank))
    (v : FVec Ideal S256x8192 .f32) (i : S256x8192.Idx) :
    mulf (broadcastInDim S256x8192 ![] h (constant S_ .f32 ws))
      (select (cmpf .ogt v (broadcastInDim S256x8192 ![] h (constant S_ .f32 w0))) v
        (mulf (broadcastInDim S256x8192 ![] h (id (constant S_ .f32 wa)))
          (Host.expm1 (select (cmpf .ogt v (broadcastInDim S256x8192 ![] h (constant S_ .f32 w0)))
            (broadcastInDim S256x8192 ![] h (id (constant S_ .f32 w0'))) v)))) i
      = Ideal.ofBits .f32 ws *
          (if Ideal.ofBits .f32 w0 < v i then v i else Ideal.ofBits .f32 wa * (Ideal.exp (v i) - 1)) := by
  simp only [mulf_apply, select_apply, cmpf_apply, Ideal.cmpf_def, id_eq,
    Host.expm1, Ideal.hostUnary_expm1_def]
  rw [bcast_scalar_apply _ h, bcast_scalar_apply _ h, bcast_scalar_apply _ h, bcast_scalar_apply _ h]
  simp only [constant_apply]
  by_cases hv : Ideal.ofBits .f32 w0 < v i
  · have hc : Ideal.cmp .ogt (v i) (Ideal.ofBits .f32 w0) = 1#1 := by simp [Ideal.cmp, hv]
    rw [hc, select_one, if_pos hv]
  · have hc : Ideal.cmp .ogt (v i) (Ideal.ofBits .f32 w0) = 0#1 := by simp [Ideal.cmp, hv]
    rw [hc, select_zero, select_zero, if_neg hv]

set_option maxHeartbeats 50000 in
/-- The scaled exponential linear unit of the reference is, entry by entry, the function of one extended real. -/
theorem seluT_apply (v : FVec Ideal S256x8192 .f32) (i : S256x8192.Idx) :
    seluT (F := Ideal) v i = Cert.Spec.selu (v i) := by
  unfold seluT zeros Cert.Spec.selu
  exact selu_words _ _ _ _ _ v i

set_option maxHeartbeats 50000 in
/-- The closing operations at entry (p, n). -/
theorem fin_apply (h : FVec Ideal S256x8192 .f32) (bc flag : FVec Ideal S8192 .f32) (p : Fin 256) (n : Fin 8192) :
    fin (F := Ideal) h bc flag (ix2 p n) = bc (ix1 n) + h (ix2 p n) * flag (ix1 n) := by
  unfold fin bcRow
  rw [addf_apply, mulf_apply]
  rw [Cert.LibLayout.broadcastInDim_1b_ab_apply, Cert.LibLayout.broadcastInDim_a_1a_apply]
  rw [Cert.LibLayout.broadcastInDim_1b_ab_apply, Cert.LibLayout.broadcastInDim_a_1a_apply]

set_option maxHeartbeats 50000 in
/-- The affine layer at entry (p, n) with the contraction taken in four runs of 2048 accumulated from zero. -/
theorem lin_apply_blocks (X : FVec Ideal S256x8192 .f32) (W : FVec Ideal S8192x8192 .f32) (b : FVec Ideal S8192 .f32)
    (p : Fin 256) (n : Fin 8192) :
    lin (F := Ideal) X W b (ix2 p n)
      = ((((0 + ∑ j : Fin 2048, X (ix2 p ⟨j.val, by have := j.isLt; omega⟩) * W (ix2 n ⟨j.val, by have := j.isLt; omega⟩))
          + ∑ j : Fin 2048, X (ix2 p ⟨2048 + j.val, by have := j.isLt; omega⟩) * W (ix2 n ⟨2048 + j.val, by have := j.isLt; omega⟩))
          + ∑ j : Fin 2048, X (ix2 p ⟨4096 + j.val, by have := j.isLt; omega⟩) * W (ix2 n ⟨4096 + j.val, by have := j.isLt; omega⟩))
          + ∑ j : Fin 2048, X (ix2 p ⟨6144 + j.val, by have := j.isLt; omega⟩) * W (ix2 n ⟨6144 + j.val, by have := j.isLt; omega⟩))
        + b (ix1 n) := by
  rw [lin_apply, sum_four_blocks (fun k => X (ix2 p k) * W (ix2 n k))]

end Cert.ReferenceIdeal.Hand

end
-- ==== Proof.Bridge.lean ====
/-
  The kernel's three layers composed are the reference's result.

  Entry by entry, a hidden layer of the kernel — the scaled exponential linear unit of the row-by-row
  contraction taken in four runs of 2048 accumulated from zero, plus the bias — is the reference's unit
  applied to its affine layer, once the kernel's arrays hold the reference's entries; likewise the last
  layer with the closing row scaling and row bias.  Composing the three, with the kernel's first
  activation the pre-layer's value, its weights the reference's weights and its one-row arrays the
  reference's bias, closing-bias and flag arrays, gives the reference's result as a whole array.
-/
import proofs.«110502_j4913442587016_1_alg».proof.Proof.KILayers
import proofs.«110502_j4913442587016_1_alg».proof.Proof.KIHost
import proofs.«110502_j4913442587016_1_alg».proof.Proof.PreEq
import proofs.«110502_j4913442587016_1_alg».proof.Proof.RefIdx

noncomputable section

open scoped BigOperators

namespace Cert.KernelIdeal.Hand

open Idealize.ShloMosaic Idealize.ShloMosaic.ValueIdx

variable [Cert.ReferenceIdeal.Facts]

set_option maxHeartbeats 50000 in
/-- The four-run contraction plus the bias entry is the affine layer's entry, for arrays with the same entries. -/
theorem dot4_add_eq_lin (X : FVec Ideal S256x8192 .bf16) (X' : FVec Ideal S256x8192 .f32)
    (W : FVec Ideal S8192x8192 .bf16) (W' : FVec Ideal S8192x8192 .f32) (b' : FVec Ideal S8192 .f32)
    (hX : ∀ p k, X (ix2 p k) = X' (ix2 p k)) (hW : ∀ n k, W (ix2 n k) = W' (ix2 n k))
    (p : Fin 256) (n : Fin 8192) :
    dot4 X W p n + b' (ix1 n) = Cert.ReferenceIdeal.Hand.lin (F := Ideal) X' W' b' (ix2 p n) := by
  have e : ∀ k : Fin 8192, X (ix2 p k) * W (ix2 n k) = X' (ix2 p k) * W' (ix2 n k) := fun k => by rw [hX, hW]
  rw [Cert.ReferenceIdeal.Hand.lin_apply_blocks]
  unfold dot4
  simp only [e]

set_option maxHeartbeats 50000 in
/-- A hidden layer of the kernel is the reference's unit of its affine layer, entry by entry. -/
theorem layerSelu_eq (X : FVec Ideal S256x8192 .bf16) (X' : FVec Ideal S256x8192 .f32)
    (W : FVec Ideal S8192x8192 .bf16) (W' : FVec Ideal S8192x8192 .f32)
    (b : FVec Ideal S1x8192 .f32) (b' : FVec Ideal S8192 .f32)
    (hX : ∀ p k, X (ix2 p k) = X' (ix2 p k)) (hW : ∀ n k, W (ix2 n k) = W' (ix2 n k))
    (hb : ∀ n, b (ix2 (0 : Fin 1) n) = b' (ix1 n)) (p : Fin 256) (n : Fin 8192) :
    layerSelu X W b (ix2 p n)
      = Cert.ReferenceIdeal.Hand.seluT (F := Ideal) (Cert.ReferenceIdeal.Hand.lin X' W' b') (ix2 p n) := by
  rw [layerSelu_apply, Cert.ReferenceIdeal.Hand.seluT_apply, hb, dot4_add_eq_lin X X' W W' b' hX hW p n]

set_option maxHeartbeats 50000 in
/-- The last layer of the kernel is the reference's closing operations of its affine layer, entry by entry. -/
theorem layerFin_eq (X : FVec Ideal S256x8192 .bf16) (X' : FVec Ideal S256x8192 .f32)
    (W : FVec Ideal S8192x8192 .bf16) (W' : FVec Ideal S8192x8192 .f32)
    (b : FVec Ideal S1x8192 .f32) (b' : FVec Ideal S8192 .f32)
    (rbc : FVec Ideal S1x8192 .f32) (bc : FVec Ideal S8192 .f32) (rflag : FVec Ideal S1x8192 .f32) (flag : FVec Ideal S8192 .f32)
    (hX : ∀ p k, X (ix2 p k) = X' (ix2 p k)) (hW : ∀ n k, W (ix2 n k) = W' (ix2 n k))
    (hb : ∀ n, b (ix2 (0 : Fin 1) n) = b' (ix1 n)) (hbc : ∀ n, rbc (ix2 (0 : Fin 1) n) = bc (ix1 n))
    (hflag : ∀ n, rflag (ix2 (0 : Fin 1) n) = flag (ix1 n)) (p : Fin 256) (n : Fin 8192) :
    layerFin X W b rbc rflag (ix2 p n)
      = Cert.ReferenceIdeal.Hand.fin (F := Ideal) (Cert.ReferenceIdeal.Hand.lin X' W' b') bc flag (ix2 p n) := by
  rw [layerFin_apply, Cert.ReferenceIdeal.Hand.fin_apply, hbc, hflag, hb, dot4_add_eq_lin X X' W W' b' hX hW p n]

set_option maxHeartbeats 100000 in
/-- The kernel's three layers, on arrays holding the pre-layer's value, the reference's weights and its bias,
    closing-bias and flag rows, are the reference's result. -/
theorem layers_eq_refOut (x : FVec Ideal S256x8192 .f32) (vals : FVec Ideal S131072 .f32) (bc flag : FVec Ideal S8192 .f32)
    (W1 : FVec Ideal S8192x8192 .f32) (b1 : FVec Ideal S8192 .f32) (W2 : FVec Ideal S8192x8192 .f32) (b2 : FVec Ideal S8192 .f32)
    (W3 : FVec Ideal S8192x8192 .f32) (b3 : FVec Ideal S8192 .f32) (rows cols : IVec S131072 32)
    (X0 : FVec Ideal S256x8192 .bf16) (Wa Wb Wc : FVec Ideal S8192x8192 .bf16) (ra rb rc rbc rflag : FVec Ideal S1x8192 .f32)
    (hX0 : ∀ p n, X0 (ix2 p n) = preK (F := Ideal) x vals bc flag rows cols (ix2 p n))
    (hWa : ∀ n k, Wa (ix2 n k) = W1 (ix2 n k)) (hWb : ∀ n k, Wb (ix2 n k) = W2 (ix2 n k))
    (hWc : ∀ n k, Wc (ix2 n k) = W3 (ix2 n k))
    (hra : ∀ n, ra (ix2 (0 : Fin 1) n) = b1 (ix1 n)) (hrb : ∀ n, rb (ix2 (0 : Fin 1) n) = b2 (ix1 n))
    (hrc : ∀ n, rc (ix2 (0 : Fin 1) n) = b3 (ix1 n)) (hrbc : ∀ n, rbc (ix2 (0 : Fin 1) n) = bc (ix1 n))
    (hrflag : ∀ n, rflag (ix2 (0 : Fin 1) n) = flag (ix1 n)) :
    layerFin (layerSelu (layerSelu X0 Wa ra) Wb rb) Wc rc rbc rflag
      = Cert.ReferenceIdeal.Hand.refOut (F := Ideal) x vals bc flag W1 b1 W2 b2 W3 b3 rows cols := by
  funext i
  obtain ⟨p, n, rfl⟩ : ∃ (p : Fin 256) (n : Fin 8192), i = ix2 p n := ⟨i 0, i 1, eq_ix2 i⟩
  unfold Cert.ReferenceIdeal.Hand.refOut
  rw [← preK_eq_pre]
  exact layerFin_eq _ _ Wc W3 rc b3 rbc bc rflag flag
    (fun p k => layerSelu_eq _ _ Wb W2 rb b2
      (fun p k => layerSelu_eq X0 (preK (F := Ideal) x vals bc flag rows cols) Wa W1 ra b1 hX0 hWa hra p k)
      hWb hrb p k)
    hWc hrc hrbc hrflag p n

end Cert.KernelIdeal.Hand

end
-- ==== Proof.KIOut.lean ====
import proofs.«110502_j4913442587016_1_alg».proof.Proof.KIFrame
import proofs.«110502_j4913442587016_1_alg».proof.Proof.KIValue0
import proofs.«110502_j4913442587016_1_alg».proof.Proof.KIValue1
import proofs.«110502_j4913442587016_1_alg».proof.Proof.KIValue2
import proofs.«110502_j4913442587016_1_alg».proof.Proof.Bridge

/-! The kernel program's result array, at the extended reals, is the reference's term of the argument arrays:
    the last region leaves the last layer of what the second left, which is the hidden layer of what the first
    left, which is the hidden layer of the host prefix's activation; the weights, bias rows, boundary row and mask
    row reach their regions as the host prefix wrote them; and the three layers composed are the reference's
    result, entry by entry. -/

noncomputable section

namespace Cert.KernelIdeal.Hand

open Idealize.ShloMosaic Idealize.ShloMosaic.TcCoe Idealize.ShloMosaic.ValueIdx Idealize.SL.Sem
open Cert.KernelIdeal Cert.KernelIdeal.Gen

variable [Cert.ReferenceIdeal.Facts]

theorem kernel_out (m : (ℓ : Loc nD τ sig) → Buf (Elt Ideal) ℓ) (ρ : Dev nD → PrngReg) (c : Dev nD) :
    (dat2 (F := Ideal) (VE3 m ρ) c).arrAt 5 cfg2.N
      = Cert.ReferenceIdeal.Hand.refOut (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [final2, VE3_v34, final1, VE2_v33, final0, VE3_v27, VE3_v30, VE3_v31, VE3_v32, VE2_v26, VE2_v29]
  exact layers_eq_refOut _ _ _ _ _ _ _ _ _ _ _ _ _ _ _ _ _ _ _ _ _
    (fun p n => V1_v24_apply m c p n)
    (fun n k => V1_v25_apply m c n k) (fun n k => V1_v26_apply m c n k) (fun n k => V1_v27_apply m c n k)
    (fun n => V1_v28_apply m c n) (fun n => V1_v29_apply m c n) (fun n => V1_v30_apply m c n)
    (fun n => V1_v31_apply m c n) (fun n => V1_v32_apply m c n)

end Cert.KernelIdeal.Hand

end
-- ==== Proof.RefRun.lean ====
/-
  The reference program's @main as one line of its 88 host operations (the two calls of the scaled
  exponential linear unit written out at their call sites, each 19 operations over the call's own
  buffers), and its run: every weakly fair execution terminates with the result buffer at the
  layered term of the argument arrays and the arguments unchanged.
-/
import proofs.«110502_j4913442587016_1_alg».proof.Proof.RefTerm
import Idealize.ShloMosaic.Lib.StableHlo.Run

noncomputable section

namespace Cert.ReferenceIdeal.Hand

open Cert.ReferenceIdeal Cert.ReferenceIdeal.Facts₀ Idealize.ShloMosaic Idealize.ShloMosaic.TcCoe Idealize.SL.Sem Idealize.ShloMosaic.StableHlo

variable {F : FTy → Type} [FloatOps F] [Facts]

/-- @main's operations in order, the calls written out: 34 of its own up to %28, the 19 of the first
    call, 5 more up to %34, the 19 of the second call, 11 more up to %46. -/
abbrev ops : List (HloOp τ sig (Elt F)) :=
  [ nullary main_c (constantI S_ 32 0#32),
    unary main_c main_v0 (broadcastInDim S131072 ![] bcast_S_S131072 : (⟨S_, .i32⟩ : BufTy).Contents (Elt F) → (⟨S131072, .i32⟩ : BufTy).Contents (Elt F)),
    binary main_arg11 main_v0 main_v1 (cmpi .slt : (⟨S131072, .i32⟩ : BufTy).Contents (Elt F) → (⟨S131072, .i32⟩ : BufTy).Contents (Elt F) → (⟨S131072, .i1⟩ : BufTy).Contents (Elt F)),
    nullary main_c_0 (constantI S_ 32 8192#32),
    unary main_c_0 main_v2 (broadcastInDim S131072 ![] bcast_S_S131072 : (⟨S_, .i32⟩ : BufTy).Contents (Elt F) → (⟨S131072, .i32⟩ : BufTy).Contents (Elt F)),
    binary main_arg11 main_v2 main_v3 (addi : (⟨S131072, .i32⟩ : BufTy).Contents (Elt F) → (⟨S131072, .i32⟩ : BufTy).Contents (Elt F) → (⟨S131072, .i32⟩ : BufTy).Contents (Elt F)),
    ternary main_v1 main_v3 main_arg11 main_v4 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v4 main_v5 (broadcastInDim S131072x1 ![0] bcast_S131072_S131072x1_0 : (⟨S131072, .i32⟩ : BufTy).Contents (Elt F) → (⟨S131072x1, .i32⟩ : BufTy).Contents (Elt F)),
    binary main_arg0 main_v5 main_v6 ((fun x i => Host.gather gather_S256x8192_S131072x1_S256x131072_0_1_n_n_1_1_2561 x i) : (⟨S256x8192, .f32⟩ : BufTy).Contents (Elt F) → (⟨S131072x1, .i32⟩ : BufTy).Contents (Elt F) → (⟨S256x131072, .f32⟩ : BufTy).Contents (Elt F)),
    unary main_arg1 main_v7 (broadcastInDim S1x131072 ![1] bcast_S131072_S1x131072_1 : (⟨S131072, .f32⟩ : BufTy).Contents (Elt F) → (⟨S1x131072, .f32⟩ : BufTy).Contents (Elt F)),
    unary main_v7 main_v8 (broadcastInDim S256x131072 ![0, 1] bcast_S1x131072_S256x131072_0_1 : (⟨S1x131072, .f32⟩ : BufTy).Contents (Elt F) → (⟨S256x131072, .f32⟩ : BufTy).Contents (Elt F)),
    binary main_v6 main_v8 main_v9 (mulf : (⟨S256x131072, .f32⟩ : BufTy).Contents (Elt F) → (⟨S256x131072, .f32⟩ : BufTy).Contents (Elt F) → (⟨S256x131072, .f32⟩ : BufTy).Contents (Elt F)),
    nullary main_cst (constant S_ .f32 0x00000000#32),
    unary main_cst main_v10 (broadcastInDim S256x8192 ![] bcast_S_S256x8192 : (⟨S_, .f32⟩ : BufTy).Contents (Elt F) → (⟨S256x8192, .f32⟩ : BufTy).Contents (Elt F)),
    nullary main_c_1 (constantI S_ 32 0#32),
    unary main_c_1 main_v11 (broadcastInDim S131072 ![] bcast_S_S131072 : (⟨S_, .i32⟩ : BufTy).Contents (Elt F) → (⟨S131072, .i32⟩ : BufTy).Contents (Elt F)),
    binary main_arg10 main_v11 main_v12 (cmpi .slt : (⟨S131072, .i32⟩ : BufTy).Contents (Elt F) → (⟨S131072, .i32⟩ : BufTy).Contents (Elt F) → (⟨S131072, .i1⟩ : BufTy).Contents (Elt F)),
    nullary main_c_2 (constantI S_ 32 8192#32),
    unary main_c_2 main_v13 (broadcastInDim S131072 ![] bcast_S_S131072 : (⟨S_, .i32⟩ : BufTy).Contents (Elt F) → (⟨S131072, .i32⟩ : BufTy).Contents (Elt F)),
    binary main_arg10 main_v13 main_v14 (addi : (⟨S131072, .i32⟩ : BufTy).Contents (Elt F) → (⟨S131072, .i32⟩ : BufTy).Contents (Elt F) → (⟨S131072, .i32⟩ : BufTy).Contents (Elt F)),
    ternary main_v12 main_v14 main_arg10 main_v15 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v15 main_v16 (broadcastInDim S131072x1 ![0] bcast_S131072_S131072x1_0 : (⟨S131072, .i32⟩ : BufTy).Contents (Elt F) → (⟨S131072x1, .i32⟩ : BufTy).Contents (Elt F)),
    ternary main_v10 main_v16 main_v9 main_v17 ((fun x i u => Host.scatterAdd scatter_S256x8192_S131072x1_S256x131072_0_1_1_1 x i u) : (⟨S256x8192, .f32⟩ : BufTy).Contents (Elt F) → (⟨S131072x1, .i32⟩ : BufTy).Contents (Elt F) → (⟨S256x131072, .f32⟩ : BufTy).Contents (Elt F) → (⟨S256x8192, .f32⟩ : BufTy).Contents (Elt F)),
    unary main_arg3 main_v18 (broadcastInDim S1x8192 ![1] bcast_S8192_S1x8192_1 : (⟨S8192, .f32⟩ : BufTy).Contents (Elt F) → (⟨S1x8192, .f32⟩ : BufTy).Contents (Elt F)),
    unary main_v18 main_v19 (broadcastInDim S256x8192 ![0, 1] bcast_S1x8192_S256x8192_0_1 : (⟨S1x8192, .f32⟩ : BufTy).Contents (Elt F) → (⟨S256x8192, .f32⟩ : BufTy).Contents (Elt F)),
    binary main_v17 main_v19 main_v20 (mulf : (⟨S256x8192, .f32⟩ : BufTy).Contents (Elt F) → (⟨S256x8192, .f32⟩ : BufTy).Contents (Elt F) → (⟨S256x8192, .f32⟩ : BufTy).Contents (Elt F)),
    unary main_arg2 main_v21 (broadcastInDim S1x8192 ![1] bcast_S8192_S1x8192_1 : (⟨S8192, .f32⟩ : BufTy).Contents (Elt F) → (⟨S1x8192, .f32⟩ : BufTy).Contents (Elt F)),
    unary main_v21 main_v22 (broadcastInDim S256x8192 ![0, 1] bcast_S1x8192_S256x8192_0_1 : (⟨S1x8192, .f32⟩ : BufTy).Contents (Elt F) → (⟨S256x8192, .f32⟩ : BufTy).Contents (Elt F)),
    binary main_v22 main_v20 main_v23 (addf : (⟨S256x8192, .f32⟩ : BufTy).Contents (Elt F) → (⟨S256x8192, .f32⟩ : BufTy).Contents (Elt F) → (⟨S256x8192, .f32⟩ : BufTy).Contents (Elt F)),
    unary main_arg4 main_v24 ((transpose S8192x8192 [1, 0] · transposes_S8192x8192_S8192x8192_1_0) : (⟨S8192x8192, .f32⟩ : BufTy).Contents (Elt F) → (⟨S8192x8192, .f32⟩ : BufTy).Contents (Elt F)),
    binary main_v23 main_v24 main_v25 ((fun l r => Host.dotGeneral dot_S256x8192_S8192x8192_S256x8192_1_0_0_1_n_n none l r) : (⟨S256x8192, .f32⟩ : BufTy).Contents (Elt F) → (⟨S8192x8192, .f32⟩ : BufTy).Contents (Elt F) → (⟨S256x8192, .f32⟩ : BufTy).Contents (Elt F)),
    unary main_arg5 main_v26 (broadcastInDim S1x8192 ![1] bcast_S8192_S1x8192_1 : (⟨S8192, .f32⟩ : BufTy).Contents (Elt F) → (⟨S1x8192, .f32⟩ : BufTy).Contents (Elt F)),
    unary main_v26 main_v27 (broadcastInDim S256x8192 ![0, 1] bcast_S1x8192_S256x8192_0_1 : (⟨S1x8192, .f32⟩ : BufTy).Contents (Elt F) → (⟨S256x8192, .f32⟩ : BufTy).Contents (Elt F)),
    binary main_v25 main_v27 main_v28 (addf : (⟨S256x8192, .f32⟩ : BufTy).Contents (Elt F) → (⟨S256x8192, .f32⟩ : BufTy).Contents (Elt F) → (⟨S256x8192, .f32⟩ : BufTy).Contents (Elt F)),
    TRef.nullary main_call0.cst (constant S_ .f32 0x3FD62D7D#32),
    TRef.nullary main_call0.call0.cst (constant S_ .f32 0x00000000#32),
    TRef.unary main_call0.call0.cst main_call0.call0.v0 (broadcastInDim S256x8192 ![] bcast_S_S256x8192),
    TRef.binary (TRef.of main_v28 : TRef sig ⟨S256x8192, .f32⟩) main_call0.call0.v0 main_call0.call0.v1 (cmpf .ogt),
    TRef.nullary main_call0.call0.cst_0 (constant S_ .f32 0x00000000#32),
    TRef.unary main_call0.call0.cst_0 main_call0.call0.v2 (broadcastInDim S256x8192 ![] bcast_S_S256x8192),
    TRef.binary (TRef.of main_v28 : TRef sig ⟨S256x8192, .f32⟩) main_call0.call0.v2 main_call0.call0.v3 (cmpf .ogt),
    TRef.nullary main_call0.call0.cst_1 (constant S_ .f32 0x00000000#32),
    TRef.unary main_call0.call0.cst_1 main_call0.call0.call0.v0 id,
    TRef.unary main_call0.call0.call0.v0 main_call0.call0.call0.v1 (broadcastInDim S256x8192 ![] bcast_S_S256x8192),
    TRef.ternary main_call0.call0.v3 main_call0.call0.call0.v1 (TRef.of main_v28 : TRef sig ⟨S256x8192, .f32⟩) main_call0.call0.call0.v2 select,
    TRef.unary main_call0.call0.call0.v2 main_call0.call0.v5 Host.expm1,
    TRef.unary main_call0.cst main_call0.call0.v6 id,
    TRef.unary main_call0.call0.v6 main_call0.call0.v7 (broadcastInDim S256x8192 ![] bcast_S_S256x8192),
    TRef.binary main_call0.call0.v7 main_call0.call0.v5 main_call0.call0.v8 mulf,
    TRef.ternary main_call0.call0.v1 (TRef.of main_v28 : TRef sig ⟨S256x8192, .f32⟩) main_call0.call0.v8 main_call0.call0.call1.v0 select,
    TRef.nullary main_call0.cst_0 (constant S_ .f32 0x3F867D5F#32),
    TRef.unary main_call0.cst_0 main_call0.v1 (broadcastInDim S256x8192 ![] bcast_S_S256x8192),
    TRef.binary main_call0.v1 main_call0.call0.call1.v0 main_call0.v2 mulf,
    unary main_arg6 main_v30 ((transpose S8192x8192 [1, 0] · transposes_S8192x8192_S8192x8192_1_0) : (⟨S8192x8192, .f32⟩ : BufTy).Contents (Elt F) → (⟨S8192x8192, .f32⟩ : BufTy).Contents (Elt F)),
    binary main_v29 main_v30 main_v31 ((fun l r => Host.dotGeneral dot_S256x8192_S8192x8192_S256x8192_1_0_0_1_n_n none l r) : (⟨S256x8192, .f32⟩ : BufTy).Contents (Elt F) → (⟨S8192x8192, .f32⟩ : BufTy).Contents (Elt F) → (⟨S256x8192, .f32⟩ : BufTy).Contents (Elt F)),
    unary main_arg7 main_v32 (broadcastInDim S1x8192 ![1] bcast_S8192_S1x8192_1 : (⟨S8192, .f32⟩ : BufTy).Contents (Elt F) → (⟨S1x8192, .f32⟩ : BufTy).Contents (Elt F)),
    unary main_v32 main_v33 (broadcastInDim S256x8192 ![0, 1] bcast_S1x8192_S256x8192_0_1 : (⟨S1x8192, .f32⟩ : BufTy).Contents (Elt F) → (⟨S256x8192, .f32⟩ : BufTy).Contents (Elt F)),
    binary main_v31 main_v33 main_v34 (addf : (⟨S256x8192, .f32⟩ : BufTy).Contents (Elt F) → (⟨S256x8192, .f32⟩ : BufTy).Contents (Elt F) → (⟨S256x8192, .f32⟩ : BufTy).Contents (Elt F)),
    TRef.nullary main_call1.cst (constant S_ .f32 0x3FD62D7D#32),
    TRef.nullary main_call1.call0.cst (constant S_ .f32 0x00000000#32),
    TRef.unary main_call1.call0.cst main_call1.call0.v0 (broadcastInDim S256x8192 ![] bcast_S_S256x8192),
    TRef.binary (TRef.of main_v34 : TRef sig ⟨S256x8192, .f32⟩) main_call1.call0.v0 main_call1.call0.v1 (cmpf .ogt),
    TRef.nullary main_call1.call0.cst_0 (constant S_ .f32 0x00000000#32),
    TRef.unary main_call1.call0.cst_0 main_call1.call0.v2 (broadcastInDim S256x8192 ![] bcast_S_S256x8192),
    TRef.binary (TRef.of main_v34 : TRef sig ⟨S256x8192, .f32⟩) main_call1.call0.v2 main_call1.call0.v3 (cmpf .ogt),
    TRef.nullary main_call1.call0.cst_1 (constant S_ .f32 0x00000000#32),
    TRef.unary main_call1.call0.cst_1 main_call1.call0.call0.v0 id,
    TRef.unary main_call1.call0.call0.v0 main_call1.call0.call0.v1 (broadcastInDim S256x8192 ![] bcast_S_S256x8192),
    TRef.ternary main_call1.call0.v3 main_call1.call0.call0.v1 (TRef.of main_v34 : TRef sig ⟨S256x8192, .f32⟩) main_call1.call0.call0.v2 select,
    TRef.unary main_call1.call0.call0.v2 main_call1.call0.v5 Host.expm1,
    TRef.unary main_call1.cst main_call1.call0.v6 id,
    TRef.unary main_call1.call0.v6 main_call1.call0.v7 (broadcastInDim S256x8192 ![] bcast_S_S256x8192),
    TRef.binary main_call1.call0.v7 main_call1.call0.v5 main_call1.call0.v8 mulf,
    TRef.ternary main_call1.call0.v1 (TRef.of main_v34 : TRef sig ⟨S256x8192, .f32⟩) main_call1.call0.v8 main_call1.call0.call1.v0 select,
    TRef.nullary main_call1.cst_0 (constant S_ .f32 0x3F867D5F#32),
    TRef.unary main_call1.cst_0 main_call1.v1 (broadcastInDim S256x8192 ![] bcast_S_S256x8192),
    TRef.binary main_call1.v1 main_call1.call0.call1.v0 main_call1.v2 mulf,
    unary main_arg8 main_v36 ((transpose S8192x8192 [1, 0] · transposes_S8192x8192_S8192x8192_1_0) : (⟨S8192x8192, .f32⟩ : BufTy).Contents (Elt F) → (⟨S8192x8192, .f32⟩ : BufTy).Contents (Elt F)),
    binary main_v35 main_v36 main_v37 ((fun l r => Host.dotGeneral dot_S256x8192_S8192x8192_S256x8192_1_0_0_1_n_n none l r) : (⟨S256x8192, .f32⟩ : BufTy).Contents (Elt F) → (⟨S8192x8192, .f32⟩ : BufTy).Contents (Elt F) → (⟨S256x8192, .f32⟩ : BufTy).Contents (Elt F)),
    unary main_arg9 main_v38 (broadcastInDim S1x8192 ![1] bcast_S8192_S1x8192_1 : (⟨S8192, .f32⟩ : BufTy).Contents (Elt F) → (⟨S1x8192, .f32⟩ : BufTy).Contents (Elt F)),
    unary main_v38 main_v39 (broadcastInDim S256x8192 ![0, 1] bcast_S1x8192_S256x8192_0_1 : (⟨S1x8192, .f32⟩ : BufTy).Contents (Elt F) → (⟨S256x8192, .f32⟩ : BufTy).Contents (Elt F)),
    binary main_v37 main_v39 main_v40 (addf : (⟨S256x8192, .f32⟩ : BufTy).Contents (Elt F) → (⟨S256x8192, .f32⟩ : BufTy).Contents (Elt F) → (⟨S256x8192, .f32⟩ : BufTy).Contents (Elt F)),
    unary main_arg3 main_v41 (broadcastInDim S1x8192 ![1] bcast_S8192_S1x8192_1 : (⟨S8192, .f32⟩ : BufTy).Contents (Elt F) → (⟨S1x8192, .f32⟩ : BufTy).Contents (Elt F)),
    unary main_v41 main_v42 (broadcastInDim S256x8192 ![0, 1] bcast_S1x8192_S256x8192_0_1 : (⟨S1x8192, .f32⟩ : BufTy).Contents (Elt F) → (⟨S256x8192, .f32⟩ : BufTy).Contents (Elt F)),
    binary main_v40 main_v42 main_v43 (mulf : (⟨S256x8192, .f32⟩ : BufTy).Contents (Elt F) → (⟨S256x8192, .f32⟩ : BufTy).Contents (Elt F) → (⟨S256x8192, .f32⟩ : BufTy).Contents (Elt F)),
    unary main_arg2 main_v44 (broadcastInDim S1x8192 ![1] bcast_S8192_S1x8192_1 : (⟨S8192, .f32⟩ : BufTy).Contents (Elt F) → (⟨S1x8192, .f32⟩ : BufTy).Contents (Elt F)),
    unary main_v44 main_v45 (broadcastInDim S256x8192 ![0, 1] bcast_S1x8192_S256x8192_0_1 : (⟨S1x8192, .f32⟩ : BufTy).Contents (Elt F) → (⟨S256x8192, .f32⟩ : BufTy).Contents (Elt F)),
    binary main_v45 main_v43 main_v46 (addf : (⟨S256x8192, .f32⟩ : BufTy).Contents (Elt F) → (⟨S256x8192, .f32⟩ : BufTy).Contents (Elt F) → (⟨S256x8192, .f32⟩ : BufTy).Contents (Elt F)) ]

set_option maxRecDepth 8192 in
set_option maxHeartbeats 1000000 in
/-- @main is that line: each call's body is the callee's operations over the call's buffers, and sequencing
    a line after a line is the concatenated line, all by computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    nullary_bufs_sub .., unary_bufs_sub .., nullary_bufs_sub .., unary_bufs_sub .., binary_bufs_sub .., nullary_bufs_sub ..,
    unary_bufs_sub .., binary_bufs_sub .., ternary_bufs_sub .., unary_bufs_sub .., ternary_bufs_sub .., unary_bufs_sub ..,
    unary_bufs_sub .., binary_bufs_sub .., unary_bufs_sub .., unary_bufs_sub .., binary_bufs_sub .., unary_bufs_sub ..,
    binary_bufs_sub .., unary_bufs_sub .., unary_bufs_sub .., binary_bufs_sub .., nullary_bufs_sub .., nullary_bufs_sub ..,
    unary_bufs_sub .., binary_bufs_sub .., nullary_bufs_sub .., unary_bufs_sub .., binary_bufs_sub .., nullary_bufs_sub ..,
    unary_bufs_sub .., unary_bufs_sub .., ternary_bufs_sub .., unary_bufs_sub .., unary_bufs_sub .., unary_bufs_sub ..,
    binary_bufs_sub .., ternary_bufs_sub .., nullary_bufs_sub .., unary_bufs_sub .., binary_bufs_sub .., unary_bufs_sub ..,
    binary_bufs_sub .., unary_bufs_sub .., unary_bufs_sub .., binary_bufs_sub .., nullary_bufs_sub .., nullary_bufs_sub ..,
    unary_bufs_sub .., binary_bufs_sub .., nullary_bufs_sub .., unary_bufs_sub .., binary_bufs_sub .., nullary_bufs_sub ..,
    unary_bufs_sub .., unary_bufs_sub .., ternary_bufs_sub .., unary_bufs_sub .., unary_bufs_sub .., unary_bufs_sub ..,
    binary_bufs_sub .., ternary_bufs_sub .., nullary_bufs_sub .., unary_bufs_sub .., binary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub ..⟩

set_option maxRecDepth 8192 in
set_option maxHeartbeats 2000000 in
/-- The fold of the line at the result buffer is the layered term: each operation's result read at its own
    buffer is its function of its operands' contents, at any other buffer what was there; what is left is the
    layers' definitions unfolded. -/
theorem out_eq (V : Valuation τ sig (Elt F)) :
    after ops V (Proc.devRef .tc main_v46) = refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  after_results_simp
  rfl

set_option maxRecDepth 8192 in
set_option maxHeartbeats 1000000 in
theorem arg0_eq (V : Valuation τ sig (Elt F)) :
    after ops V (Proc.devRef .tc main_arg0) = V (Proc.devRef .tc main_arg0) := by
  after_results_simp

set_option maxRecDepth 8192 in
set_option maxHeartbeats 1000000 in
theorem arg1_eq (V : Valuation τ sig (Elt F)) :
    after ops V (Proc.devRef .tc main_arg1) = V (Proc.devRef .tc main_arg1) := by
  after_results_simp

set_option maxRecDepth 8192 in
set_option maxHeartbeats 1000000 in
theorem arg2_eq (V : Valuation τ sig (Elt F)) :
    after ops V (Proc.devRef .tc main_arg2) = V (Proc.devRef .tc main_arg2) := by
  after_results_simp

set_option maxRecDepth 8192 in
set_option maxHeartbeats 1000000 in
theorem arg3_eq (V : Valuation τ sig (Elt F)) :
    after ops V (Proc.devRef .tc main_arg3) = V (Proc.devRef .tc main_arg3) := by
  after_results_simp

set_option maxRecDepth 8192 in
set_option maxHeartbeats 1000000 in
theorem arg4_eq (V : Valuation τ sig (Elt F)) :
    after ops V (Proc.devRef .tc main_arg4) = V (Proc.devRef .tc main_arg4) := by
  after_results_simp

set_option maxRecDepth 8192 in
set_option maxHeartbeats 1000000 in
theorem arg5_eq (V : Valuation τ sig (Elt F)) :
    after ops V (Proc.devRef .tc main_arg5) = V (Proc.devRef .tc main_arg5) := by
  after_results_simp

set_option maxRecDepth 8192 in
set_option maxHeartbeats 1000000 in
theorem arg6_eq (V : Valuation τ sig (Elt F)) :
    after ops V (Proc.devRef .tc main_arg6) = V (Proc.devRef .tc main_arg6) := by
  after_results_simp

set_option maxRecDepth 8192 in
set_option maxHeartbeats 1000000 in
theorem arg7_eq (V : Valuation τ sig (Elt F)) :
    after ops V (Proc.devRef .tc main_arg7) = V (Proc.devRef .tc main_arg7) := by
  after_results_simp

set_option maxRecDepth 8192 in
set_option maxHeartbeats 1000000 in
theorem arg8_eq (V : Valuation τ sig (Elt F)) :
    after ops V (Proc.devRef .tc main_arg8) = V (Proc.devRef .tc main_arg8) := by
  after_results_simp

set_option maxRecDepth 8192 in
set_option maxHeartbeats 1000000 in
theorem arg9_eq (V : Valuation τ sig (Elt F)) :
    after ops V (Proc.devRef .tc main_arg9) = V (Proc.devRef .tc main_arg9) := by
  after_results_simp

set_option maxRecDepth 8192 in
set_option maxHeartbeats 1000000 in
theorem arg10_eq (V : Valuation τ sig (Elt F)) :
    after ops V (Proc.devRef .tc main_arg10) = V (Proc.devRef .tc main_arg10) := by
  after_results_simp

set_option maxRecDepth 8192 in
set_option maxHeartbeats 1000000 in
theorem arg11_eq (V : Valuation τ sig (Elt F)) :
    after ops V (Proc.devRef .tc main_arg11) = V (Proc.devRef .tc main_arg11) := by
  after_results_simp

/-- On every device, for any float values, from any memory with zero counters: every weakly fair execution of
    @main terminates with the result buffer at the layered term of the arguments' launch contents and the
    twelve arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v46) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c main_v46).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _)⟩)
    (run_seq scopedRefs_eq scopedSems_eq defs main (fun _ => ops) main_eq (fun _ => ops_sub) m ρ)

end Cert.ReferenceIdeal.Hand

end
-- ==== Proof.lean ====
/- The proof of `Cert.Claim`: the word-level kernel program and its idealization run and leave their twelve argument
   arrays unchanged (a host prefix, then three pallas regions: two dense layers each followed by the scaled
   exponential linear unit, then the third dense layer with the closing row scaling and row bias; Proof/KFrame.lean and
   Proof/KIFrame.lean, one text at the two namespaces); the reference runs likewise (its 88 host operations read back as
   one layered term of the arguments, Proof/RefTerm.lean and Proof/RefRun.lean); the ideal pass rewrote nothing, so
   `preserves` is `True`; and at the ideal instance the kernel's result array and the reference's are the same function
   of arguments that agree: both are `refOut x vals bc flag W1 b1 W2 b2 W3 b3 rows cols`, entry by entry on the
   extended reals (Proof/KIOut.lean for the kernel's side). -/
import proofs.«110502_j4913442587016_1_alg».proof.Defs
import proofs.«110502_j4913442587016_1_alg».proof.Proof.Gen.Kernel
import proofs.«110502_j4913442587016_1_alg».proof.Proof.Gen.Kernel.Skeleton
import proofs.«110502_j4913442587016_1_alg».proof.Proof.Gen.Kernel.Launch
import proofs.«110502_j4913442587016_1_alg».proof.Proof.Gen.Kernel.Regions
import proofs.«110502_j4913442587016_1_alg».proof.Proof.Gen.Kernel.Points
import proofs.«110502_j4913442587016_1_alg».proof.Proof.Gen.KernelIdeal
import proofs.«110502_j4913442587016_1_alg».proof.Proof.Gen.KernelIdeal.Skeleton
import proofs.«110502_j4913442587016_1_alg».proof.Proof.Gen.KernelIdeal.Launch
import proofs.«110502_j4913442587016_1_alg».proof.Proof.Gen.KernelIdeal.Regions
import proofs.«110502_j4913442587016_1_alg».proof.Proof.Gen.KernelIdeal.Points
import proofs.«110502_j4913442587016_1_alg».proof.Proof.Gen.ReferenceIdeal
import proofs.«110502_j4913442587016_1_alg».proof.Proof.Gen.Pre_finite_inputs
import Idealize.ShloMosaic.Adequacy
import Idealize.ShloMosaic.Init
import proofs.«110502_j4913442587016_1_alg».proof.Proof.KFrame
import proofs.«110502_j4913442587016_1_alg».proof.Proof.KIFrame
import proofs.«110502_j4913442587016_1_alg».proof.Proof.KIOut
import proofs.«110502_j4913442587016_1_alg».proof.Proof.RefRun

noncomputable section

namespace Cert.Proof

open Idealize.ShloMosaic Idealize.SL.Sem

/-- The word-level kernel runs and leaves its arguments unchanged. -/
theorem frame_k : Cert.frame_Kernel := fun m ρ _ => Cert.Kernel.Hand.frame m ρ
/-- The idealized kernel runs and leaves its arguments unchanged. -/
theorem frame_ki : Cert.frame_KernelIdeal := fun m ρ _ => Cert.KernelIdeal.Hand.frame m ρ
/-- The reference runs and leaves its arguments unchanged: its run with the result's conjunct dropped. -/
theorem frame_ri : Cert.frame_ReferenceIdeal := fun m ρ _ =>
  (θ_run Cert.ReferenceIdeal.defs _ _).mono (fun _ h c => (h c).2) (Cert.ReferenceIdeal.Hand.run (F := Ideal) m ρ)

/-- At the ideal instance, from memories agreeing on the twelve arguments, the kernel's result array and the
    reference's are both the layered term `refOut` of those arguments: the kernel's by its value leg, the reference's
    by its run, the agreement rewriting one side's arguments into the other's. -/
theorem algebraic : Cert.algebraic_KernelIdeal_ReferenceIdeal := by
  intro m ρ m' ρ' hpre hagree
  refine ⟨fun c => Cert.ReferenceIdeal.Hand.refOut (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun _ h c => ⟨(h c).1.trans (Cert.KernelIdeal.Hand.kernel_out m ρ c), (h c).2⟩)
      (Cert.KernelIdeal.Hand.run_value (F := Ideal) m ρ)
  · refine (θ_run Cert.ReferenceIdeal.defs _ _).mono (fun _ h c => ⟨(h c).1.trans ?_, (h c).2⟩)
      (Cert.ReferenceIdeal.Hand.run (F := Ideal) m' ρ')
    obtain ⟨h0, h1, h2, h3, h4, h5, h6, h7, h8, h9, h10, h11⟩ := hagree c
    rw [h0, h1, h2, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
